-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v256)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v256) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v365) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S2x500000 : Shape := ⟨2, ![2, 500000]⟩
abbrev S2x1000000 : Shape := ⟨2, ![2, 1000000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  main_v53

def fn_part2 {F : FTy → Type} [FloatOps F] (main_arg7 : FVec F S3x128x128 .f32) (main_arg8 : FVec F S3x128x128 .f32) (main_arg9 : FVec F S3x128 .f32) (main_arg10 : FVec F S3x128x128 .f32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg10
  let main_cst_18 : FVec F S_ .f32 := constant S_ .f32 0x7F800000#32
  let main_v50 : FVec F S3x128x128 .f32 := broadcastInDim S3x128x128 ![] bcast_S_S3x128x128 main_cst_18
  fn_part3 (F := F) main_v48 main_v49 main_v50

def fn_part1 {F : FTy → Type} [FloatOps F] (main_arg4 : FVec F S3x128x128 .f32) (main_arg5 : FVec F S3x128x128 .f32) (main_arg6 : FVec F S3x128 .f32) (main_arg7 : FVec F S3x128x128 .f32) (main_arg8 : FVec F S3x128x128 .f32) (main_arg9 : FVec F S3x128 .f32) (main_arg10 : FVec F S3x128x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S50000x128 .f32) (main_arg2 : FVec F S3x128x128 .f32) (main_arg3 : FVec F S3x128 .f32) (main_arg4 : FVec F S3x128x128 .f32) (main_arg5 : FVec F S3x128x128 .f32) (main_arg6 : FVec F S3x128 .f32) (main_arg7 : FVec F S3x128x128 .f32) (main_arg8 : FVec F S3x128x128 .f32) (main_arg9 : FVec F S3x128 .f32) (main_arg10 : FVec F S3x128x128 .f32) (main_arg11 : IVec S2x500000 32) (main_arg12 : IVec S2x1000000 32) (main_arg13 : IVec S2x1000000 32) (main_arg14 : IVec S2x500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S2x500000 : Shape := ⟨2, ![2, 500000]⟩
abbrev S2x1000000 : Shape := ⟨2, ![2, 1000000]⟩
abbrev S_ : Shape := ⟨0, ![]⟩
abbrev S500000 : Shape := ⟨1, ![500000]⟩
abbrev S1000000 : Shape := ⟨1, ![1000000]⟩
abbrev S1x500000 : Shape := ⟨2, ![1, 500000]⟩
abbrev S50000 : Shape := ⟨1, ![50000]⟩
abbrev S500000x1 : Shape := ⟨2, ![500000, 1]⟩
abbrev S50000x1 : Shape := ⟨2, ![50000, 1]⟩
abbrev S1x1000000 : Shape := ⟨2, ![1, 1000000]⟩
abbrev S1000000x1 : Shape := ⟨2, ![1000000, 1]⟩
abbrev S500000x128 : Shape := ⟨2, ![500000, 128]⟩
abbrev S1000000x128 : Shape := ⟨2, ![1000000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S10000x128 : Shape := ⟨2, ![10000, 128]⟩
abbrev S10000x1 : Shape := ⟨2, ![10000, 1]⟩
abbrev S10000 : Shape := ⟨1, ![10000]⟩

abbrev nBuf : Space → Nat
  | .hbm => 315
  | .vmem => 75
  | .smem => 0
  | _ => 0

abbrev hbmTy0_0 (i : Nat) : BufTy := match i % 128 with
  | 0 => ⟨S50000x128, .f32⟩
  | 1 => ⟨S50000x128, .f32⟩
  | 2 => ⟨S3x128x128, .f32⟩
  | 3 => ⟨S3x128, .f32⟩
  | 4 => ⟨S3x128x128, .f32⟩
  | 5 => ⟨S3x128x128, .f32⟩
  | 6 => ⟨S3x128, .f32⟩
  | 7 => ⟨S3x128x128, .f32⟩
  | 8 => ⟨S3x128x128, .f32⟩
  | 9 => ⟨S3x128, .f32⟩
  | 10 => ⟨S3x128x128, .f32⟩
  | 11 => ⟨S2x500000, .i32⟩
  | 12 => ⟨S2x1000000, .i32⟩
  | 13 => ⟨S2x1000000, .i32⟩
  | 14 => ⟨S2x500000, .i32⟩
  | 15 => ⟨S_, .f32⟩
  | 16 => ⟨S500000, .f32⟩
  | 17 => ⟨S_, .f32⟩
  | 18 => ⟨S1000000, .f32⟩
  | 19 => ⟨S_, .f32⟩
  | 20 => ⟨S1000000, .f32⟩
  | 21 => ⟨S1x500000, .i32⟩
  | 22 => ⟨S500000, .i32⟩
  | 23 => ⟨S_, .f32⟩
  | 24 => ⟨S50000, .f32⟩
  | 25 => ⟨S500000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S1x1000000, .i32⟩
  | 32 => ⟨S1000000, .i32⟩
  | 33 => ⟨S_, .f32⟩
  | 34 => ⟨S50000, .f32⟩
  | 35 => ⟨S1000000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S1x1000000, .i32⟩
  | 42 => ⟨S1000000, .i32⟩
  | 43 => ⟨S_, .f32⟩
  | 44 => ⟨S50000, .f32⟩
  | 45 => ⟨S1000000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S1x500000, .i32⟩
  | 52 => ⟨S500000, .i32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S1x500000, .i32⟩
  | 63 => ⟨S500000, .i32⟩
  | 64 => ⟨S_, .f32⟩
  | 65 => ⟨S50000x128, .f32⟩
  | 66 => ⟨S500000x1, .i32⟩
  | 67 => ⟨S50000x128, .f32⟩
  | 68 => ⟨S50000x128, .f32⟩
  | 69 => ⟨S50000x128, .f32⟩
  | 70 => ⟨S1x1000000, .i32⟩
  | 71 => ⟨S1000000, .i32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x128, .f32⟩
  | 81 => ⟨S1x1000000, .i32⟩
  | 82 => ⟨S1000000, .i32⟩
  | 83 => ⟨S_, .f32⟩
  | 84 => ⟨S50000x128, .f32⟩
  | 85 => ⟨S1000000x1, .i32⟩
  | 86 => ⟨S50000x128, .f32⟩
  | 87 => ⟨S50000x128, .f32⟩
  | 88 => ⟨S50000x128, .f32⟩
  | 89 => ⟨S1x1000000, .i32⟩
  | 90 => ⟨S1000000, .i32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x128, .f32⟩
  | 100 => ⟨S1x1000000, .i32⟩
  | 101 => ⟨S1000000, .i32⟩
  | 102 => ⟨S_, .f32⟩
  | 103 => ⟨S50000x128, .f32⟩
  | 104 => ⟨S1000000x1, .i32⟩
  | 105 => ⟨S50000x128, .f32⟩
  | 106 => ⟨S50000x128, .f32⟩
  | 107 => ⟨S50000x128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S1x128x128, .f32⟩
  | 114 => ⟨S128x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S1x128x128, .f32⟩
  | 121 => ⟨S128x128, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S50000x128, .f32⟩
  | 3 => ⟨S1x500000, .i32⟩
  | 4 => ⟨S500000, .i32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S1x500000, .i32⟩
  | 15 => ⟨S500000, .i32⟩
  | 16 => ⟨S_, .f32⟩
  | 17 => ⟨S50000x128, .f32⟩
  | 18 => ⟨S500000x1, .i32⟩
  | 19 => ⟨S50000x128, .f32⟩
  | 20 => ⟨S50000x128, .f32⟩
  | 21 => ⟨S50000x128, .f32⟩
  | 22 => ⟨S1x1000000, .i32⟩
  | 23 => ⟨S1000000, .i32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x128, .f32⟩
  | 33 => ⟨S1x1000000, .i32⟩
  | 34 => ⟨S1000000, .i32⟩
  | 35 => ⟨S_, .f32⟩
  | 36 => ⟨S50000x128, .f32⟩
  | 37 => ⟨S1000000x1, .i32⟩
  | 38 => ⟨S50000x128, .f32⟩
  | 39 => ⟨S50000x128, .f32⟩
  | 40 => ⟨S50000x128, .f32⟩
  | 41 => ⟨S1x1000000, .i32⟩
  | 42 => ⟨S1000000, .i32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x128, .f32⟩
  | 52 => ⟨S1x1000000, .i32⟩
  | 53 => ⟨S1000000, .i32⟩
  | 54 => ⟨S_, .f32⟩
  | 55 => ⟨S50000x128, .f32⟩
  | 56 => ⟨S1000000x1, .i32⟩
  | 57 => ⟨S50000x128, .f32⟩
  | 58 => ⟨S50000x128, .f32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128x128, .f32⟩
  | 66 => ⟨S128x128, .f32⟩
  | 67 => ⟨S1x128x128, .f32⟩
  | 68 => ⟨S128x128, .f32⟩
  | 69 => ⟨S1x128, .f32⟩
  | 70 => ⟨S128, .f32⟩
  | 71 => ⟨S1x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S1x128x128, .f32⟩
  | 80 => ⟨S128x128, .f32⟩
  | 81 => ⟨S50000x128, .f32⟩
  | 82 => ⟨S50000x128, .f32⟩
  | 83 => ⟨S1x500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x128, .f32⟩
  | 94 => ⟨S1x500000, .i32⟩
  | 95 => ⟨S500000, .i32⟩
  | 96 => ⟨S_, .f32⟩
  | 97 => ⟨S50000x128, .f32⟩
  | 98 => ⟨S500000x1, .i32⟩
  | 99 => ⟨S50000x128, .f32⟩
  | 100 => ⟨S50000x128, .f32⟩
  | 101 => ⟨S50000x128, .f32⟩
  | 102 => ⟨S1x1000000, .i32⟩
  | 103 => ⟨S1000000, .i32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .f32⟩
  | 113 => ⟨S1x1000000, .i32⟩
  | 114 => ⟨S1000000, .i32⟩
  | 115 => ⟨S_, .f32⟩
  | 116 => ⟨S50000x128, .f32⟩
  | 117 => ⟨S1000000x1, .i32⟩
  | 118 => ⟨S50000x128, .f32⟩
  | 119 => ⟨S50000x128, .f32⟩
  | 120 => ⟨S50000x128, .f32⟩
  | 121 => ⟨S1x1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S50000x128, .f32⟩

abbrev hbmTy0_2 (i : Nat) : BufTy := match i % 128 with
  | 0 => ⟨S1000000, .i32⟩
  | 1 => ⟨S1000000, .i32⟩
  | 2 => ⟨S1000000x1, .i32⟩
  | 3 => ⟨S1000000x128, .f32⟩
  | 4 => ⟨S1x1000000, .i32⟩
  | 5 => ⟨S1000000, .i32⟩
  | 6 => ⟨S_, .f32⟩
  | 7 => ⟨S50000x128, .f32⟩
  | 8 => ⟨S1000000x1, .i32⟩
  | 9 => ⟨S50000x128, .f32⟩
  | 10 => ⟨S50000x128, .f32⟩
  | 11 => ⟨S50000x128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S1x128x128, .f32⟩
  | 18 => ⟨S128x128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S1x128x128, .f32⟩
  | 25 => ⟨S128x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S1x128x128, .f32⟩
  | 32 => ⟨S128x128, .f32⟩
  | 33 => ⟨S50000x128, .f32⟩
  | 34 => ⟨S50000x128, .f32⟩
  | 35 => ⟨S1x500000, .i32⟩
  | 36 => ⟨S500000, .i32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S500000x1, .f32⟩
  | 58 => ⟨S500000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S128x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S10000x128, .f32⟩
  | .local _ .vmem, ⟨70, _⟩ => ⟨S10000x128, .f32⟩
  | .local _ .vmem, ⟨71, _⟩ => ⟨S10000x128, .f32⟩
  | .local _ .vmem, ⟨72, _⟩ => ⟨S10000x128, .f32⟩
  | .local _ .vmem, ⟨73, _⟩ => ⟨S10000x1, .f32⟩
  | .local _ .vmem, ⟨74, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96_0 : Ref sig .tc := ⟨.hbm, 129, rfl⟩
abbrev main_v96_1 : Ref sig .tc := ⟨.hbm, 130, rfl⟩
abbrev main_v97 : Ref sig .tc := ⟨.hbm, 131, rfl⟩
abbrev main_v98 : Ref sig .tc := ⟨.hbm, 132, rfl⟩
abbrev main_c_16 : Ref sig .tc := ⟨.hbm, 133, rfl⟩
abbrev main_v99 : Ref sig .tc := ⟨.hbm, 134, rfl⟩
abbrev main_v100 : Ref sig .tc := ⟨.hbm, 135, rfl⟩
abbrev main_c_17 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_18 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_19 : Ref sig .tc := ⟨.hbm, 152, rfl⟩
abbrev main_v115 : Ref sig .tc := ⟨.hbm, 153, rfl⟩
abbrev main_v116 : Ref sig .tc := ⟨.hbm, 154, rfl⟩
abbrev main_c_20 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_21 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_c_22 : Ref sig .tc := ⟨.hbm, 171, rfl⟩
abbrev main_v131 : Ref sig .tc := ⟨.hbm, 172, rfl⟩
abbrev main_v132 : Ref sig .tc := ⟨.hbm, 173, rfl⟩
abbrev main_c_23 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_24 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166_0 : Ref sig .tc := ⟨.hbm, 209, rfl⟩
abbrev main_v166_1 : Ref sig .tc := ⟨.hbm, 210, rfl⟩
abbrev main_v167 : Ref sig .tc := ⟨.hbm, 211, rfl⟩
abbrev main_v168 : Ref sig .tc := ⟨.hbm, 212, rfl⟩
abbrev main_c_25 : Ref sig .tc := ⟨.hbm, 213, rfl⟩
abbrev main_v169 : Ref sig .tc := ⟨.hbm, 214, rfl⟩
abbrev main_v170 : Ref sig .tc := ⟨.hbm, 215, rfl⟩
abbrev main_c_26 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_27 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_c_28 : Ref sig .tc := ⟨.hbm, 232, rfl⟩
abbrev main_v185 : Ref sig .tc := ⟨.hbm, 233, rfl⟩
abbrev main_v186 : Ref sig .tc := ⟨.hbm, 234, rfl⟩
abbrev main_c_29 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_cst_30 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_c_31 : Ref sig .tc := ⟨.hbm, 251, rfl⟩
abbrev main_v201 : Ref sig .tc := ⟨.hbm, 252, rfl⟩
abbrev main_v202 : Ref sig .tc := ⟨.hbm, 253, rfl⟩
abbrev main_c_32 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_cst_33 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236_0 : Ref sig .tc := ⟨.hbm, 289, rfl⟩
abbrev main_v236_1 : Ref sig .tc := ⟨.hbm, 290, rfl⟩
abbrev main_v237 : Ref sig .tc := ⟨.hbm, 291, rfl⟩
abbrev main_v238 : Ref sig .tc := ⟨.hbm, 292, rfl⟩
abbrev main_c_34 : Ref sig .tc := ⟨.hbm, 293, rfl⟩
abbrev main_v239 : Ref sig .tc := ⟨.hbm, 294, rfl⟩
abbrev main_v240 : Ref sig .tc := ⟨.hbm, 295, rfl⟩
abbrev main_c_35 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_c_36 : Ref sig .tc := ⟨.hbm, 304, rfl⟩
abbrev main_v248 : Ref sig .tc := ⟨.hbm, 305, rfl⟩
abbrev main_v249 : Ref sig .tc := ⟨.hbm, 306, rfl⟩
abbrev main_c_37 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg12_0 : Ref sig .tc := ⟨.vmem, 40, rfl⟩
abbrev cc1_stg13_0 : Ref sig .tc := ⟨.vmem, 41, rfl⟩
abbrev cc1_stg14_0 : Ref sig .tc := ⟨.vmem, 42, rfl⟩
abbrev cc1_stg14_1 : Ref sig .tc := ⟨.vmem, 43, rfl⟩
abbrev cc1_stg15_0 : Ref sig .tc := ⟨.vmem, 44, rfl⟩
abbrev cc1_stg15_1 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg1_1 : Ref sig .tc := ⟨.vmem, 49, rfl⟩
abbrev cc2_stg2_0 : Ref sig .tc := ⟨.vmem, 50, rfl⟩
abbrev cc2_stg2_1 : Ref sig .tc := ⟨.vmem, 51, rfl⟩
abbrev cc2_stg3_0 : Ref sig .tc := ⟨.vmem, 52, rfl⟩
abbrev cc2_stg3_1 : Ref sig .tc := ⟨.vmem, 53, rfl⟩
abbrev cc2_stg4_0 : Ref sig .tc := ⟨.vmem, 54, rfl⟩
abbrev cc2_stg4_1 : Ref sig .tc := ⟨.vmem, 55, rfl⟩
abbrev cc2_stg5_0 : Ref sig .tc := ⟨.vmem, 56, rfl⟩
abbrev cc2_stg6_0 : Ref sig .tc := ⟨.vmem, 57, rfl⟩
abbrev cc2_stg7_0 : Ref sig .tc := ⟨.vmem, 58, rfl⟩
abbrev cc2_stg8_0 : Ref sig .tc := ⟨.vmem, 59, rfl⟩
abbrev cc2_stg9_0 : Ref sig .tc := ⟨.vmem, 60, rfl⟩
abbrev cc2_stg10_0 : Ref sig .tc := ⟨.vmem, 61, rfl⟩
abbrev cc2_stg11_0 : Ref sig .tc := ⟨.vmem, 62, rfl⟩
abbrev cc2_stg12_0 : Ref sig .tc := ⟨.vmem, 63, rfl⟩
abbrev cc2_stg13_0 : Ref sig .tc := ⟨.vmem, 64, rfl⟩
abbrev cc2_stg14_0 : Ref sig .tc := ⟨.vmem, 65, rfl⟩
abbrev cc2_stg14_1 : Ref sig .tc := ⟨.vmem, 66, rfl⟩
abbrev cc2_stg15_0 : Ref sig .tc := ⟨.vmem, 67, rfl⟩
abbrev cc2_stg15_1 : Ref sig .tc := ⟨.vmem, 68, rfl⟩
abbrev cc3_stg0_0 : Ref sig .tc := ⟨.vmem, 69, rfl⟩
abbrev cc3_stg0_1 : Ref sig .tc := ⟨.vmem, 70, rfl⟩
abbrev cc3_stg1_0 : Ref sig .tc := ⟨.vmem, 71, rfl⟩
abbrev cc3_stg1_1 : Ref sig .tc := ⟨.vmem, 72, rfl⟩
abbrev cc3_stg2_0 : Ref sig .tc := ⟨.vmem, 73, rfl⟩
abbrev cc3_stg2_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem12_0 : DmaSem sig := 40
abbrev cc1_sem13_0 : DmaSem sig := 41
abbrev cc1_sem14_0 : DmaSem sig := 42
abbrev cc1_sem14_1 : DmaSem sig := 43
abbrev cc1_sem15_0 : DmaSem sig := 44
abbrev cc1_sem15_1 : DmaSem sig := 45
abbrev cc2_sem0_0 : DmaSem sig := 46
abbrev cc2_sem0_1 : DmaSem sig := 47
abbrev cc2_sem1_0 : DmaSem sig := 48
abbrev cc2_sem1_1 : DmaSem sig := 49
abbrev cc2_sem2_0 : DmaSem sig := 50
abbrev cc2_sem2_1 : DmaSem sig := 51
abbrev cc2_sem3_0 : DmaSem sig := 52
abbrev cc2_sem3_1 : DmaSem sig := 53
abbrev cc2_sem4_0 : DmaSem sig := 54
abbrev cc2_sem4_1 : DmaSem sig := 55
abbrev cc2_sem5_0 : DmaSem sig := 56
abbrev cc2_sem6_0 : DmaSem sig := 57
abbrev cc2_sem7_0 : DmaSem sig := 58
abbrev cc2_sem8_0 : DmaSem sig := 59
abbrev cc2_sem9_0 : DmaSem sig := 60
abbrev cc2_sem10_0 : DmaSem sig := 61
abbrev cc2_sem11_0 : DmaSem sig := 62
abbrev cc2_sem12_0 : DmaSem sig := 63
abbrev cc2_sem13_0 : DmaSem sig := 64
abbrev cc2_sem14_0 : DmaSem sig := 65
abbrev cc2_sem14_1 : DmaSem sig := 66
abbrev cc2_sem15_0 : DmaSem sig := 67
abbrev cc2_sem15_1 : DmaSem sig := 68
abbrev cc3_sem0_0 : DmaSem sig := 69
abbrev cc3_sem0_1 : DmaSem sig := 70
abbrev cc3_sem1_0 : DmaSem sig := 71
abbrev cc3_sem1_1 : DmaSem sig := 72
abbrev cc3_sem2_0 : DmaSem sig := 73
abbrev cc3_sem2_1 : DmaSem sig := 74

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S2000x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S2000x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S500000 : S_.BroadcastsInDim S500000 (![] : Fin 0 → Fin S500000.rank)
  bcast_S_S1000000 : S_.BroadcastsInDim S1000000 (![] : Fin 0 → Fin S1000000.rank)
  slices_S2x500000_S1x500000_1_0 : S2x500000.Slices ![1, 0] S1x500000
  shapeCasts_S1x500000_S500000 : S1x500000.ShapeCasts S500000
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  slices_S2x1000000_S1x1000000_1_0 : S2x1000000.Slices ![1, 0] S1x1000000
  shapeCasts_S1x1000000_S1000000 : S1x1000000.ShapeCasts S1000000
  bcast_S1000000_S1000000x1_0 : S1000000.BroadcastsInDim S1000000x1 (![0] : Fin 1 → Fin S1000000x1.rank)
  slices_S2x500000_S1x500000_0_0 : S2x500000.Slices ![0, 0] S1x500000
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x1000000_S1x1000000_0_0 : S2x1000000.Slices ![0, 0] S1x1000000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  scatter_S50000_S500000x1_S500000_n_0_0_1_wf : ScatterDims.WF S50000 S500000x1 S500000 [] [0] [0] 1
  scatter_S50000_S1000000x1_S1000000_n_0_0_1_wf : ScatterDims.WF S50000 S1000000x1 S1000000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .f32 = 32 ∨ (Rect.block (s := S50000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .f32 = 32 ∨ (Rect.block (s := S50000x128) S2000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x128.size a ≤ S128x128.size a
  hwx1_13 : ∀ i : grid1.Coords, EltTy.bits .f32 = 32 ∨ (Rect.block (s := S128x128) S128x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S50000x128.size a
  hwx1_14 : ∀ i : grid1.Coords, EltTy.bits .f32 = 32 ∨ (Rect.block (s := S50000x128) S2000x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x128.size a ≤ S50000x128.size a
  hwx1_15 : ∀ i : grid1.Coords, EltTy.bits .f32 = 32 ∨ (Rect.block (s := S50000x128) S2000x128.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x128.size a ≤ S50000x128.size a
  hwx2_14 : ∀ i : grid2.Coords, EltTy.bits .f32 = 32 ∨ (Rect.block (s := S50000x128) S2000x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x128.size a ≤ S50000x128.size a
  hwx2_15 : ∀ i : grid2.Coords, EltTy.bits .f32 = 32 ∨ (Rect.block (s := S50000x128) S2000x128.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S500000x128.size a
  hwx3_0 : ∀ i : grid3.Coords, EltTy.bits .f32 = 32 ∨ (Rect.block (s := S500000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S500000x128.size a
  hwx3_1 : ∀ i : grid3.Coords, EltTy.bits .f32 = 32 ∨ (Rect.block (s := S500000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S500000x1.size a
  hwx3_2 : ∀ i : grid3.Coords, EltTy.bits .f32 = 32 ∨ (Rect.block (s := S500000x1) S10000x1.size (cc3_transform_2 i) (hinb3_2 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v42) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v76) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v79) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v81) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v83) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v86) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v88) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v90) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v93) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v95) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v96_0) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v96_1) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v112) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v96_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v128) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v144) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v96_1) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v146) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v149) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v151) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v153) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v156) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v158) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v160) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v163) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v165) S128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v166_0) S2000x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v166_1) S2000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v182) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v166_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v198) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v214) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v166_1) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v216) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v219) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v221) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v223) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v226) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v228) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v230) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v233) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v235) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v236_0) S2000x128.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v236_1) S2000x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v245) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v254) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v255) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S2x500000 : Shape := ⟨2, ![2, 500000]⟩
abbrev S2x1000000 : Shape := ⟨2, ![2, 1000000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩

abbrev nBuf : Space → Nat
  | .hbm => 470
  | .vmem => 0
  | .smem => 0
  | _ => 0

abbrev hbmTy0_0 (i : Nat) : BufTy := match i % 128 with
  | 0 => ⟨S50000x128, .f32⟩
  | 1 => ⟨S50000x128, .f32⟩
  | 2 => ⟨S3x128x128, .f32⟩
  | 3 => ⟨S3x128, .f32⟩
  | 4 => ⟨S3x128x128, .f32⟩
  | 5 => ⟨S3x128x128, .f32⟩
  | 6 => ⟨S3x128, .f32⟩
  | 7 => ⟨S3x128x128, .f32⟩
  | 8 => ⟨S3x128x128, .f32⟩
  | 9 => ⟨S3x128, .f32⟩
  | 10 => ⟨S3x128x128, .f32⟩
  | 11 => ⟨S2x500000, .i32⟩
  | 12 => ⟨S2x1000000, .i32⟩
  | 13 => ⟨S2x1000000, .i32⟩
  | 14 => ⟨S2x500000, .i32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S1x500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S1x500000, .i32⟩
  | 33 => ⟨S500000, .i32⟩
  | 34 => ⟨S_, .f32⟩
  | 35 => ⟨S50000x128, .f32⟩
  | 36 => ⟨S500000x1, .i32⟩
  | 37 => ⟨S50000x128, .f32⟩
  | 38 => ⟨S_, .f32⟩
  | 39 => ⟨S500000, .f32⟩
  | 40 => ⟨S1x500000, .i32⟩
  | 41 => ⟨S500000, .i32⟩
  | 42 => ⟨S_, .f32⟩
  | 43 => ⟨S50000, .f32⟩
  | 44 => ⟨S500000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S50000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S1x1000000, .i32⟩
  | 65 => ⟨S1000000, .i32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x128, .f32⟩
  | 75 => ⟨S1x1000000, .i32⟩
  | 76 => ⟨S1000000, .i32⟩
  | 77 => ⟨S_, .f32⟩
  | 78 => ⟨S50000x128, .f32⟩
  | 79 => ⟨S1000000x1, .i32⟩
  | 80 => ⟨S50000x128, .f32⟩
  | 81 => ⟨S_, .f32⟩
  | 82 => ⟨S1000000, .f32⟩
  | 83 => ⟨S1x1000000, .i32⟩
  | 84 => ⟨S1000000, .i32⟩
  | 85 => ⟨S_, .f32⟩
  | 86 => ⟨S50000, .f32⟩
  | 87 => ⟨S1000000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S1x128x128, .f32⟩
  | 103 => ⟨S128x128, .f32⟩
  | 104 => ⟨S1x128, .f32⟩
  | 105 => ⟨S128, .f32⟩
  | 106 => ⟨S1x128x128, .f32⟩
  | 107 => ⟨S128x128, .f32⟩
  | 108 => ⟨S1x1000000, .i32⟩
  | 109 => ⟨S1000000, .i32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x128, .f32⟩
  | 119 => ⟨S1x1000000, .i32⟩
  | 120 => ⟨S1000000, .i32⟩
  | 121 => ⟨S_, .f32⟩
  | 122 => ⟨S50000x128, .f32⟩
  | 123 => ⟨S1000000x1, .i32⟩
  | 124 => ⟨S50000x128, .f32⟩
  | 125 => ⟨S_, .f32⟩
  | 126 => ⟨S1000000, .f32⟩
  | 127 => ⟨S1x1000000, .i32⟩
  | _ => ⟨S50000x128, .f32⟩

abbrev hbmTy0_1 (i : Nat) : BufTy := match i % 128 with
  | 0 => ⟨S1000000, .i32⟩
  | 1 => ⟨S_, .f32⟩
  | 2 => ⟨S50000, .f32⟩
  | 3 => ⟨S1000000x1, .i32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S_, .f32⟩
  | 19 => ⟨S50000x128, .f32⟩
  | 20 => ⟨S50000x128, .i1⟩
  | 21 => ⟨S_, .f32⟩
  | 22 => ⟨S50000x128, .f32⟩
  | 23 => ⟨S50000x128, .f32⟩
  | 24 => ⟨S50000x128, .f32⟩
  | 25 => ⟨S_, .f32⟩
  | 26 => ⟨S_, .f32⟩
  | 27 => ⟨S50000x128, .f32⟩
  | 28 => ⟨S50000x128, .i1⟩
  | 29 => ⟨S_, .f32⟩
  | 30 => ⟨S50000x128, .f32⟩
  | 31 => ⟨S50000x128, .f32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S1x500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S1x500000, .i32⟩
  | 51 => ⟨S500000, .i32⟩
  | 52 => ⟨S_, .f32⟩
  | 53 => ⟨S50000x128, .f32⟩
  | 54 => ⟨S500000x1, .i32⟩
  | 55 => ⟨S50000x128, .f32⟩
  | 56 => ⟨S_, .f32⟩
  | 57 => ⟨S500000, .f32⟩
  | 58 => ⟨S1x500000, .i32⟩
  | 59 => ⟨S500000, .i32⟩
  | 60 => ⟨S_, .f32⟩
  | 61 => ⟨S50000, .f32⟩
  | 62 => ⟨S500000x1, .i32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S1x128x128, .f32⟩
  | 77 => ⟨S128x128, .f32⟩
  | 78 => ⟨S1x128, .f32⟩
  | 79 => ⟨S128, .f32⟩
  | 80 => ⟨S1x128x128, .f32⟩
  | 81 => ⟨S128x128, .f32⟩
  | 82 => ⟨S1x1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x128, .f32⟩
  | 93 => ⟨S1x1000000, .i32⟩
  | 94 => ⟨S1000000, .i32⟩
  | 95 => ⟨S_, .f32⟩
  | 96 => ⟨S50000x128, .f32⟩
  | 97 => ⟨S1000000x1, .i32⟩
  | 98 => ⟨S50000x128, .f32⟩
  | 99 => ⟨S_, .f32⟩
  | 100 => ⟨S1000000, .f32⟩
  | 101 => ⟨S1x1000000, .i32⟩
  | 102 => ⟨S1000000, .i32⟩
  | 103 => ⟨S_, .f32⟩
  | 104 => ⟨S50000, .f32⟩
  | 105 => ⟨S1000000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x1000000, .i32⟩
  | 127 => ⟨S1000000, .i32⟩
  | _ => ⟨S50000x128, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .f32⟩
  | 9 => ⟨S1x1000000, .i32⟩
  | 10 => ⟨S1000000, .i32⟩
  | 11 => ⟨S_, .f32⟩
  | 12 => ⟨S50000x128, .f32⟩
  | 13 => ⟨S1000000x1, .i32⟩
  | 14 => ⟨S50000x128, .f32⟩
  | 15 => ⟨S_, .f32⟩
  | 16 => ⟨S1000000, .f32⟩
  | 17 => ⟨S1x1000000, .i32⟩
  | 18 => ⟨S1000000, .i32⟩
  | 19 => ⟨S_, .f32⟩
  | 20 => ⟨S50000, .f32⟩
  | 21 => ⟨S1000000x1, .i32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S_, .f32⟩
  | 37 => ⟨S50000x128, .f32⟩
  | 38 => ⟨S50000x128, .i1⟩
  | 39 => ⟨S_, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S50000x128, .f32⟩
  | 46 => ⟨S50000x128, .i1⟩
  | 47 => ⟨S_, .f32⟩
  | 48 => ⟨S50000x128, .f32⟩
  | 49 => ⟨S50000x128, .f32⟩
  | 50 => ⟨S50000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S1x500000, .i32⟩
  | 58 => ⟨S500000, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S1x500000, .i32⟩
  | 69 => ⟨S500000, .i32⟩
  | 70 => ⟨S_, .f32⟩
  | 71 => ⟨S50000x128, .f32⟩
  | 72 => ⟨S500000x1, .i32⟩
  | 73 => ⟨S50000x128, .f32⟩
  | 74 => ⟨S_, .f32⟩
  | 75 => ⟨S500000, .f32⟩
  | 76 => ⟨S1x500000, .i32⟩
  | 77 => ⟨S500000, .i32⟩
  | 78 => ⟨S_, .f32⟩
  | 79 => ⟨S50000, .f32⟩
  | 80 => ⟨S500000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x1000000, .i32⟩
  | 101 => ⟨S1000000, .i32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S1x1000000, .i32⟩
  | 112 => ⟨S1000000, .i32⟩
  | 113 => ⟨S_, .f32⟩
  | 114 => ⟨S50000x128, .f32⟩
  | 115 => ⟨S1000000x1, .i32⟩
  | 116 => ⟨S50000x128, .f32⟩
  | 117 => ⟨S_, .f32⟩
  | 118 => ⟨S1000000, .f32⟩
  | 119 => ⟨S1x1000000, .i32⟩
  | 120 => ⟨S1000000, .i32⟩
  | 121 => ⟨S_, .f32⟩
  | 122 => ⟨S50000, .f32⟩
  | 123 => ⟨S1000000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_3 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x128x128, .f32⟩
  | 11 => ⟨S128x128, .f32⟩
  | 12 => ⟨S1x128, .f32⟩
  | 13 => ⟨S128, .f32⟩
  | 14 => ⟨S1x128x128, .f32⟩
  | 15 => ⟨S128x128, .f32⟩
  | 16 => ⟨S1x1000000, .i32⟩
  | 17 => ⟨S1000000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x128, .f32⟩
  | 27 => ⟨S1x1000000, .i32⟩
  | 28 => ⟨S1000000, .i32⟩
  | 29 => ⟨S_, .f32⟩
  | 30 => ⟨S50000x128, .f32⟩
  | 31 => ⟨S1000000x1, .i32⟩
  | 32 => ⟨S50000x128, .f32⟩
  | 33 => ⟨S_, .f32⟩
  | 34 => ⟨S1000000, .f32⟩
  | 35 => ⟨S1x1000000, .i32⟩
  | 36 => ⟨S1000000, .i32⟩
  | 37 => ⟨S_, .f32⟩
  | 38 => ⟨S50000, .f32⟩
  | 39 => ⟨S1000000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S1x500000, .i32⟩
  | 54 => ⟨S500000, .i32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S1x500000, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x128, .f32⟩
  | 75 => ⟨S500000x128, .f32⟩
  | 76 => ⟨S_, .f32⟩
  | 77 => ⟨S500000, .f32⟩
  | 78 => ⟨S500000, .f32⟩
  | 79 => ⟨S500000, .f32⟩
  | 80 => ⟨S_, .f32⟩
  | 81 => ⟨S500000, .f32⟩
  | 82 => ⟨S500000, .f32⟩
  | 83 => ⟨S_, .f32⟩
  | 84 => ⟨S500000, .f32⟩
  | 85 => ⟨S500000, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_10 : Ref sig .tc := ⟨.hbm, 110, rfl⟩
abbrev main_v83 : Ref sig .tc := ⟨.hbm, 111, rfl⟩
abbrev main_v84 : Ref sig .tc := ⟨.hbm, 112, rfl⟩
abbrev main_c_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_12 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_13 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_14 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_16 : Ref sig .tc := ⟨.hbm, 145, rfl⟩
abbrev main_call0_cst : Ref sig .tc := ⟨.hbm, 146, rfl⟩
abbrev main_call0_v0 : Ref sig .tc := ⟨.hbm, 147, rfl⟩
abbrev main_call0_v1 : Ref sig .tc := ⟨.hbm, 148, rfl⟩
abbrev main_call0_v2 : Ref sig .tc := ⟨.hbm, 149, rfl⟩
abbrev main_call0_v3 : Ref sig .tc := ⟨.hbm, 150, rfl⟩
abbrev main_call0_v4 : Ref sig .tc := ⟨.hbm, 151, rfl⟩
abbrev main_v112 : Ref sig .tc := ⟨.hbm, 152, rfl⟩
abbrev main_cst_17 : Ref sig .tc := ⟨.hbm, 153, rfl⟩
abbrev main_call1_cst : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_call1_v3 : Ref sig .tc := ⟨.hbm, 158, rfl⟩
abbrev main_call1_v4 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_18 : Ref sig .tc := ⟨.hbm, 169, rfl⟩
abbrev main_v122 : Ref sig .tc := ⟨.hbm, 170, rfl⟩
abbrev main_v123 : Ref sig .tc := ⟨.hbm, 171, rfl⟩
abbrev main_c_19 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_20 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_21 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_22 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_23 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_24 : Ref sig .tc := ⟨.hbm, 212, rfl⟩
abbrev main_v159 : Ref sig .tc := ⟨.hbm, 213, rfl⟩
abbrev main_v160 : Ref sig .tc := ⟨.hbm, 214, rfl⟩
abbrev main_c_25 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_26 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_27 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_cst_28 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_cst_29 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_c_30 : Ref sig .tc := ⟨.hbm, 256, rfl⟩
abbrev main_v197 : Ref sig .tc := ⟨.hbm, 257, rfl⟩
abbrev main_v198 : Ref sig .tc := ⟨.hbm, 258, rfl⟩
abbrev main_c_31 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_32 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_33 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_34 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_35 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_cst_36 : Ref sig .tc := ⟨.hbm, 291, rfl⟩
abbrev main_call2_cst : Ref sig .tc := ⟨.hbm, 292, rfl⟩
abbrev main_call2_v0 : Ref sig .tc := ⟨.hbm, 293, rfl⟩
abbrev main_call2_v1 : Ref sig .tc := ⟨.hbm, 294, rfl⟩
abbrev main_call2_v2 : Ref sig .tc := ⟨.hbm, 295, rfl⟩
abbrev main_call2_v3 : Ref sig .tc := ⟨.hbm, 296, rfl⟩
abbrev main_call2_v4 : Ref sig .tc := ⟨.hbm, 297, rfl⟩
abbrev main_v226 : Ref sig .tc := ⟨.hbm, 298, rfl⟩
abbrev main_cst_37 : Ref sig .tc := ⟨.hbm, 299, rfl⟩
abbrev main_call3_cst : Ref sig .tc := ⟨.hbm, 300, rfl⟩
abbrev main_call3_v0 : Ref sig .tc := ⟨.hbm, 301, rfl⟩
abbrev main_call3_v1 : Ref sig .tc := ⟨.hbm, 302, rfl⟩
abbrev main_call3_v2 : Ref sig .tc := ⟨.hbm, 303, rfl⟩
abbrev main_call3_v3 : Ref sig .tc := ⟨.hbm, 304, rfl⟩
abbrev main_call3_v4 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_c_38 : Ref sig .tc := ⟨.hbm, 315, rfl⟩
abbrev main_v236 : Ref sig .tc := ⟨.hbm, 316, rfl⟩
abbrev main_v237 : Ref sig .tc := ⟨.hbm, 317, rfl⟩
abbrev main_c_39 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_cst_40 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_cst_41 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_cst_42 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_cst_43 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_c_44 : Ref sig .tc := ⟨.hbm, 358, rfl⟩
abbrev main_v273 : Ref sig .tc := ⟨.hbm, 359, rfl⟩
abbrev main_v274 : Ref sig .tc := ⟨.hbm, 360, rfl⟩
abbrev main_c_45 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_cst_46 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_cst_47 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_cst_48 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_cst_49 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_c_50 : Ref sig .tc := ⟨.hbm, 402, rfl⟩
abbrev main_v311 : Ref sig .tc := ⟨.hbm, 403, rfl⟩
abbrev main_v312 : Ref sig .tc := ⟨.hbm, 404, rfl⟩
abbrev main_c_51 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_cst_52 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_cst_53 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_cst_54 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_cst_55 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_c_56 : Ref sig .tc := ⟨.hbm, 439, rfl⟩
abbrev main_v342 : Ref sig .tc := ⟨.hbm, 440, rfl⟩
abbrev main_v343 : Ref sig .tc := ⟨.hbm, 441, rfl⟩
abbrev main_c_57 : Ref sig .tc := ⟨.hbm, 442, rfl⟩
abbrev main_v344 : Ref sig .tc := ⟨.hbm, 443, rfl⟩
abbrev main_v345 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_c_58 : Ref sig .tc := ⟨.hbm, 450, rfl⟩
abbrev main_v351 : Ref sig .tc := ⟨.hbm, 451, rfl⟩
abbrev main_v352 : Ref sig .tc := ⟨.hbm, 452, rfl⟩
abbrev main_c_59 : Ref sig .tc := ⟨.hbm, 453, rfl⟩
abbrev main_v353 : Ref sig .tc := ⟨.hbm, 454, rfl⟩
abbrev main_v354 : Ref sig .tc := ⟨.hbm, 455, rfl⟩
abbrev main_v355 : Ref sig .tc := ⟨.hbm, 456, rfl⟩
abbrev main_v356 : Ref sig .tc := ⟨.hbm, 457, rfl⟩
abbrev main_v357 : Ref sig .tc := ⟨.hbm, 458, rfl⟩
abbrev main_v358 : Ref sig .tc := ⟨.hbm, 459, rfl⟩
abbrev main_cst_60 : Ref sig .tc := ⟨.hbm, 460, rfl⟩
abbrev main_v359 : Ref sig .tc := ⟨.hbm, 461, rfl⟩
abbrev main_v360 : Ref sig .tc := ⟨.hbm, 462, rfl⟩
abbrev main_v361 : Ref sig .tc := ⟨.hbm, 463, rfl⟩
abbrev main_cst_61 : Ref sig .tc := ⟨.hbm, 464, rfl⟩
abbrev main_v362 : Ref sig .tc := ⟨.hbm, 465, rfl⟩
abbrev main_v363 : Ref sig .tc := ⟨.hbm, 466, rfl⟩
abbrev main_cst_62 : Ref sig .tc := ⟨.hbm, 467, rfl⟩
abbrev main_v364 : Ref sig .tc := ⟨.hbm, 468, rfl⟩
abbrev main_v365 : Ref sig .tc := ⟨.hbm, 469, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S500000x128_S500000_d1 : S500000x128.ReducesTo [1] S500000
  h_S_ : 0 < S_.numel
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf

class Facts : Prop extends Facts₀ where

variable [Facts]
-- ==== Proof.KernelRun.lean ====
/-
  The idealized kernel's run with its result named. The program is four pipelined regions among stretches of
  host operations; at every boundary the buffers' contents are a fold from the launch memory (host stretches
  apply their operations, a region replaces its arrays by what its write-backs leave). Every weakly fair
  execution terminates without a fault, the argument arrays end as launched, and the result buffer ends at
  the last boundary's contents `W9 m ρ c` read at the result — the statement the value proof starts from.
-/
import proofs.«146278_j35390530519883_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting; the result buffer
    ends at the last boundary's contents and every argument array as launched. -/
theorem run_named : θ_run defs (onTc (τ := τ) (main (F := F))) ⟨m, fun _ => 0, ρ⟩ (fun r => ∀ c : Dev nD,
      r.2.mem ((c.tc : Thread nD τ).loc main_v256) = W9 m ρ c (Proc.devRef .tc main_v256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v256 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c)⟩)

end Cert.KernelIdeal.NamedRun

end
-- ==== Proof.SpecHost.lean ====
/-
  The reference computation as whole-array functions, in the host operations' own words, so that each program's
  run can be read against ONE spelling:

  * `src500` / `dst500` / `src1M` / `dst1M` — the two rows of an edge array, flat;
  * `wrap500` / `wrap1M` — a source row as gather start indices: a negative index wraps by the table's 50000 rows;
  * `mean500` / `mean1M`  — mean aggregation: the destination-wise sum of the gathered source rows divided by the
                            destination's in-degree, the degree floored at 1;
  * `w0`…`w2`, `b0`…`b2` — layer k's weight matrix and bias out of the stacked parameters;
  * `sageH`                — one convolution term: mean · Wl + bias + own · Wr;
  * `leakyH`               — the leaky rectifier, array-wide;
  * `layerP` / `layerG`    — a layer's new rows for the two node types;
  * `scoreH`               — an edge's score, the logistic function spelt as 1 / (1 + exp (−s));
  * `model`                — all three layers and the scorer, from the fifteen argument arrays.
-/
import proofs.«146278_j35390530519883_1_alg».proof.ReferenceIdeal
import proofs.«146278_j35390530519883_1_alg».proof.Proof.Gen.ReferenceIdeal
import Idealize.ShloMosaic.PureOps.Ideal

noncomputable section

namespace Cert.Gnn.HostTerms

open Idealize.ShloMosaic Cert.ReferenceIdeal Cert.ReferenceIdeal.Facts₀

/-- A float array at the ideal values. -/
abbrev A (s : Shape) : Type := FVec Ideal s .f32

/-! ## Edge arrays -/

def src500 (e : IVec S2x500000 32) : IVec S500000 32 :=
  shapeCast S500000 (extractStridedSlice S1x500000 ![0, 0] e slices_S2x500000_S1x500000_0_0) shapeCasts_S1x500000_S500000
def dst500 (e : IVec S2x500000 32) : IVec S500000 32 :=
  shapeCast S500000 (extractStridedSlice S1x500000 ![1, 0] e slices_S2x500000_S1x500000_1_0) shapeCasts_S1x500000_S500000
def src1M (e : IVec S2x1000000 32) : IVec S1000000 32 :=
  shapeCast S1000000 (extractStridedSlice S1x1000000 ![0, 0] e slices_S2x1000000_S1x1000000_0_0) shapeCasts_S1x1000000_S1000000
def dst1M (e : IVec S2x1000000 32) : IVec S1000000 32 :=
  shapeCast S1000000 (extractStridedSlice S1x1000000 ![1, 0] e slices_S2x1000000_S1x1000000_1_0) shapeCasts_S1x1000000_S1000000

/-- Gather start indices from a flat index row: a negative index wraps by 50000. -/
def wrap500 (r : IVec S500000 32) : IVec S500000x1 32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)
def wrap1M (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 50000#32))) r)

/-- The rows of `x` an index row names. -/
def rows500 (x : A S50000x128) (r : IVec S500000 32) : A S500000x128 :=
  Host.gather gather_S50000x128_S500000x1_S500000x128_1_0_n_n_0_1_1128 x (wrap500 r)
def rows1M (x : A S50000x128) (r : IVec S1000000 32) : A S1000000x128 :=
  Host.gather gather_S50000x128_S1000000x1_S1000000x128_1_0_n_n_0_1_1128 x (wrap1M r)

/-! ## Mean aggregation -/

/-- The in-degree of every destination, floored at 1, as a column. -/
def deg500 (e : IVec S2x500000 32) : A S50000x1 :=
  broadcastInDim S50000x1 ![0] bcast_S50000_S50000x1_0
    (maximumf
      (Host.scatterAdd scatter_S50000_S500000x1_S500000_n_0_0_1
        (broadcastInDim S50000 ![] bcast_S_S50000 (constant S_ .f32 0x00000000#32))
        (broadcastInDim S500000x1 ![0] bcast_S500000_S500000x1_0 (dst500 e))
        (broadcastInDim S500000 ![] bcast_S_S500000 (constant S_ .f32 0x3F800000#32)))
      (broadcastInDim S50000 ![] bcast_S_S50000 (constant S_ .f32 0x3F800000#32)))
def deg1M (e : IVec S2x1000000 32) : A S50000x1 :=
  broadcastInDim S50000x1 ![0] bcast_S50000_S50000x1_0
    (maximumf
      (Host.scatterAdd scatter_S50000_S1000000x1_S1000000_n_0_0_1
        (broadcastInDim S50000 ![] bcast_S_S50000 (constant S_ .f32 0x00000000#32))
        (broadcastInDim S1000000x1 ![0] bcast_S1000000_S1000000x1_0 (dst1M e))
        (broadcastInDim S1000000 ![] bcast_S_S1000000 (constant S_ .f32 0x3F800000#32)))
      (broadcastInDim S50000 ![] bcast_S_S50000 (constant S_ .f32 0x3F800000#32)))

/-- The destination-wise sum of the gathered source rows. -/
def sum500 (x : A S50000x128) (e : IVec S2x500000 32) : A S50000x128 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 (dst500 e))
    (rows500 x (src500 e))
def sum1M (x : A S50000x128) (e : IVec S2x1000000 32) : A S50000x128 :=
  Host.scatterAdd scatter_S50000x128_S1000000x1_S1000000x128_1_0_0_1
    (broadcastInDim S50000x128 ![] bcast_S_S50000x128 (constant S_ .f32 0x00000000#32))
    (broadcastInDim S1000000x1 ![0] bcast_S1000000_S1000000x1_0 (dst1M e))
    (rows1M x (src1M e))

/-- Mean aggregation: the sum over the degree. -/
def mean500 (x : A S50000x128) (e : IVec S2x500000 32) : A S50000x128 :=
  Host.divf (sum500 x e) (broadcastInDim S50000x128 ![0, 1] bcast_S50000x1_S50000x128_0_1 (deg500 e))
def mean1M (x : A S50000x128) (e : IVec S2x1000000 32) : A S50000x128 :=
  Host.divf (sum1M x e) (broadcastInDim S50000x128 ![0, 1] bcast_S50000x1_S50000x128_0_1 (deg1M e))

/-! ## A layer's parameters out of the stacks -/

def w0 (W : A S3x128x128) : A S128x128 :=
  shapeCast S128x128 (extractStridedSlice S1x128x128 ![0, 0, 0] W slices_S3x128x128_S1x128x128_0_0_0) shapeCasts_S1x128x128_S128x128
def w1 (W : A S3x128x128) : A S128x128 :=
  shapeCast S128x128 (extractStridedSlice S1x128x128 ![1, 0, 0] W slices_S3x128x128_S1x128x128_1_0_0) shapeCasts_S1x128x128_S128x128
def w2 (W : A S3x128x128) : A S128x128 :=
  shapeCast S128x128 (extractStridedSlice S1x128x128 ![2, 0, 0] W slices_S3x128x128_S1x128x128_2_0_0) shapeCasts_S1x128x128_S128x128
def b0 (b : A S3x128) : A S128 :=
  shapeCast S128 (extractStridedSlice S1x128 ![0, 0] b slices_S3x128_S1x128_0_0) shapeCasts_S1x128_S128
def b1 (b : A S3x128) : A S128 :=
  shapeCast S128 (extractStridedSlice S1x128 ![1, 0] b slices_S3x128_S1x128_1_0) shapeCasts_S1x128_S128
def b2 (b : A S3x128) : A S128 :=
  shapeCast S128 (extractStridedSlice S1x128 ![2, 0] b slices_S3x128_S1x128_2_0) shapeCasts_S1x128_S128

/-! ## A layer -/

/-- One convolution term: mean · Wl + bias + own · Wr. -/
def sageH (M X : A S50000x128) (Wl Wr : A S128x128) (b : A S128) : A S50000x128 :=
  addf
    (addf (Host.dotGeneral dot_S50000x128_S128x128_S50000x128_1_0_0_1_n_n none M Wl)
      (broadcastInDim S50000x128 ![0, 1] bcast_S1x128_S50000x128_0_1 (broadcastInDim S1x128 ![1] bcast_S128_S1x128_1 b)))
    (Host.dotGeneral dot_S50000x128_S128x128_S50000x128_1_0_0_1_n_n none X Wr)

/-- The leaky rectifier, array-wide. -/
def leakyH (x : A S50000x128) : A S50000x128 :=
  select (cmpf .oge x (broadcastInDim S50000x128 ![] bcast_S_S50000x128 (constant S_ .f32 0x00000000#32))) x
    (mulf (broadcastInDim S50000x128 ![] bcast_S_S50000x128 (id (constant S_ .f32 0x3C23D70A#32))) x)

/-- The first node type's new rows, before the rectifier: two edge types arrive. -/
def preP (xp xg : A S50000x128) (eI : IVec S2x500000 32) (eV : IVec S2x1000000 32)
    (WlI WrI WlV WrV : A S128x128) (bI bV : A S128) : A S50000x128 :=
  addf (sageH (mean500 xp eI) xp WlI WrI bI) (sageH (mean1M xg eV) xp WlV WrV bV)
/-- The second node type's new rows, before the rectifier: one edge type arrives. -/
def preG (xp xg : A S50000x128) (eL : IVec S2x1000000 32) (WlL WrL : A S128x128) (bL : A S128) : A S50000x128 :=
  sageH (mean1M xp eL) xg WlL WrL bL

/-! ## The scorer -/

/-- An edge's score: 1 / (1 + exp (−⟨p, g⟩)). -/
def scoreH (P G : A S500000x128) : A S500000 :=
  Host.divf (broadcastInDim S500000 ![] bcast_S_S500000 (constant S_ .f32 0x3F800000#32))
    (addf (broadcastInDim S500000 ![] bcast_S_S500000 (constant S_ .f32 0x3F800000#32))
      (Host.exp (Host.negf
        (Host.reduceAdd (mulf P G) (constant S_ .f32 0x00000000#32) reducesTo_S500000x128_S500000_d1 h_S_))))

/-! ## The model -/

/-- The fifteen arguments, named. -/
structure Args where
  xp : A S50000x128
  xg : A S50000x128
  WlI : A S3x128x128
  blI : A S3x128
  WrI : A S3x128x128
  WlL : A S3x128x128
  blL : A S3x128
  WrL : A S3x128x128
  WlV : A S3x128x128
  blV : A S3x128
  WrV : A S3x128x128
  eI : IVec S2x500000 32
  eL : IVec S2x1000000 32
  eV : IVec S2x1000000 32
  eQ : IVec S2x500000 32

def xp1 (a : Args) : A S50000x128 := leakyH (preP a.xp a.xg a.eI a.eV (w0 a.WlI) (w0 a.WrI) (w0 a.WlV) (w0 a.WrV) (b0 a.blI) (b0 a.blV))
def xg1 (a : Args) : A S50000x128 := leakyH (preG a.xp a.xg a.eL (w0 a.WlL) (w0 a.WrL) (b0 a.blL))
def xp2 (a : Args) : A S50000x128 := leakyH (preP (xp1 a) (xg1 a) a.eI a.eV (w1 a.WlI) (w1 a.WrI) (w1 a.WlV) (w1 a.WrV) (b1 a.blI) (b1 a.blV))
def xg2 (a : Args) : A S50000x128 := leakyH (preG (xp1 a) (xg1 a) a.eL (w1 a.WlL) (w1 a.WrL) (b1 a.blL))
def xp3 (a : Args) : A S50000x128 := preP (xp2 a) (xg2 a) a.eI a.eV (w2 a.WlI) (w2 a.WrI) (w2 a.WlV) (w2 a.WrV) (b2 a.blI) (b2 a.blV)
def xg3 (a : Args) : A S50000x128 := preG (xp2 a) (xg2 a) a.eL (w2 a.WlL) (w2 a.WrL) (b2 a.blL)

/-- The scores of the queried edges. -/
def model (a : Args) : A S500000 := scoreH (rows500 (xp3 a) (src500 a.eQ)) (rows500 (xg3 a) (dst500 a.eQ))

end Cert.Gnn.HostTerms
-- ==== Proof.KArgs.lean ====
/-
  The kernel program's fifteen argument arrays, as launched, under the names the specification gives them.
-/
import proofs.«146278_j35390530519883_1_alg».proof.Proof.KernelRun
import proofs.«146278_j35390530519883_1_alg».proof.Proof.SpecHost
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

/-- The argument arrays of device `c` as launched. -/
def args (m : (ℓ : Loc nD τ sig) → Buf (Elt Ideal) ℓ) (c : Dev nD) : Args where
  xp := m ((c.tc : Thread nD τ).loc main_arg0)
  xg := m ((c.tc : Thread nD τ).loc main_arg1)
  WlI := m ((c.tc : Thread nD τ).loc main_arg2)
  blI := m ((c.tc : Thread nD τ).loc main_arg3)
  WrI := m ((c.tc : Thread nD τ).loc main_arg4)
  WlL := m ((c.tc : Thread nD τ).loc main_arg5)
  blL := m ((c.tc : Thread nD τ).loc main_arg6)
  WrL := m ((c.tc : Thread nD τ).loc main_arg7)
  WlV := m ((c.tc : Thread nD τ).loc main_arg8)
  blV := m ((c.tc : Thread nD τ).loc main_arg9)
  WrV := m ((c.tc : Thread nD τ).loc main_arg10)
  eI := m ((c.tc : Thread nD τ).loc main_arg11)
  eL := m ((c.tc : Thread nD τ).loc main_arg12)
  eV := m ((c.tc : Thread nD τ).loc main_arg13)
  eQ := m ((c.tc : Thread nD τ).loc main_arg14)

/-- A bias vector as the one-row array the kernel's window stages. -/
def krow (v : A Cert.ReferenceIdeal.S128) : A Cert.ReferenceIdeal.S1x128 :=
  shapeCast S1x128 v Cert.KernelIdeal.Facts₀.shapeCasts_S128_S1x128

end Cert.KernelIdeal.HostChain

end
-- ==== Proof.Spec.lean ====
/-
  The mathematics of a three-layer heterogeneous mean-aggregating graph network with a dot-product edge scorer,
  one entry at a time over the extended reals. Nothing here mentions a program: arrays are functions of a
  rank-2 index, every index is spelt by its coordinates, and each function is the textbook formula.

  * `leaky x`      — the leaky rectifier with slope 0.01 (the slope as the binary float both programs carry):
                      `x` where `x ≥ 0`, the slope times `x` elsewhere, in the comparison and selection words
                      the vector unit and the host share.
  * `sageAt`       — one convolution term at row `r`, column `q`:
                      (Σ_k A(r,k)·Wl(k,q)) + b(0,q) + (Σ_k X(r,k)·Wr(k,q)),
                      `A` the mean of the neighbours' rows, `X` the node's own rows.
  * `newP`, `newG` — a layer's new rows for the two node types: the first sums two convolution terms
                      (two edge types arrive at it), the second is one; both optionally rectified.
  * `scoreAt`      — an edge's score: the logistic function of the inner product of its two endpoint rows.
-/
import Idealize.ShloMosaic.Lib.ValueIdx
import Idealize.ShloMosaic.PureOps.Ideal

noncomputable section

namespace Cert.Gnn

open Idealize.ShloMosaic Idealize.ShloMosaic.ValueIdx
open scoped BigOperators

/-- A matrix of extended reals, indexed as the programs index a rank-2 array. -/
abbrev Mat (a b : Nat) : Type := (⟨2, ![a, b]⟩ : Shape).Idx → EReal

/-- The leaky rectifier, slope 0.01 as a binary float: `x` where `x ≥ 0`, slope · `x` elsewhere. -/
def leaky (x : EReal) : EReal :=
  Scalar.select (FloatOps.cmpf (F := Ideal) (φ := .f32) .oge x (FloatOps.ofBits (F := Ideal) .f32 0x00000000#32)) x
    (FloatOps.mulf (F := Ideal) (φ := .f32) (FloatOps.ofBits (F := Ideal) .f32 0x3C23D70A#32) x)

/-- Rectify or not. -/
def act (b : Bool) (x : EReal) : EReal := if b then leaky x else x

/-- One convolution term at (r, q): (Σ_k A(r,k)·Wl(k,q)) + b(0,q) + (Σ_k X(r,k)·Wr(k,q)). -/
def sageAt {n : Nat} (A X : Mat n 128) (Wl Wr : Mat 128 128) (b : Mat 1 128) (r : Fin n) (q : Fin 128) : EReal :=
  (∑ k : Fin 128, A (ix2 r k) * Wl (ix2 k q)) + b (ix2 (0 : Fin 1) q) + ∑ k : Fin 128, X (ix2 r k) * Wr (ix2 k q)

/-- A layer's new rows for the node type two edge types arrive at: the sum of two convolution terms over the
    same own rows `X`, optionally rectified. -/
def newP (a : Bool) (A1 X A2 : Mat 50000 128) (Wl1 Wr1 Wl2 Wr2 : Mat 128 128) (b1 b2 : Mat 1 128) : Mat 50000 128 :=
  fun i => act a (sageAt A1 X Wl1 Wr1 b1 (i 0) (i 1) + sageAt A2 X Wl2 Wr2 b2 (i 0) (i 1))

/-- A layer's new rows for the node type one edge type arrives at. -/
def newG (a : Bool) (A X : Mat 50000 128) (Wl Wr : Mat 128 128) (b : Mat 1 128) : Mat 50000 128 :=
  fun i => act a (sageAt A X Wl Wr b (i 0) (i 1))

/-- An edge's score: the logistic function of the inner product of its two endpoint rows. -/
def scoreAt (P G : Mat 500000 128) (e : Fin 500000) : EReal :=
  Ideal.logistic (∑ k : Fin 128, P (ix2 e k) * G (ix2 e k))

end Cert.Gnn
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.RefMath.lean ====
/-
  The host's words read one entry at a time. A convolution term spelt with the host's matrix product, its two
  broadcasts of the bias and its additions is, at row r and column q, the textbook formula
  (Σ_k M(r,k)·Wl(k,q)) + b(q) + (Σ_k X(r,k)·Wr(k,q)); the array-wide rectifier is the rectifier of each entry; the
  scorer 1 / (1 + exp (−s)) over the row sum of a product is the logistic function of the inner product. So a
  layer in the host's words is the layer of the specification, array for array.
-/
import proofs.«146278_j35390530519883_1_alg».proof.Proof.SpecHost
import proofs.«146278_j35390530519883_1_alg».proof.Proof.Spec
import proofs.«146278_j35390530519883_1_alg».proof.Proof.LibDot
import Idealize.ShloMosaic.PureOps.Ideal.Laws
import Idealize.ShloMosaic.Lib.ValueIdx
import Idealize.ShloMosaic.Lib.IdealHost
import Idealize.ShloMosaic.Lib.Pipeline.Value

noncomputable section

namespace Cert.Gnn.HostTerms

open Idealize.ShloMosaic Idealize.ShloMosaic.ValueIdx Cert.ReferenceIdeal Cert.ReferenceIdeal.Facts₀
open scoped BigOperators

/-- A bias vector as the one-row matrix a layer adds to every row. -/
def bRow (v : A S128) : Cert.Gnn.Mat 1 128 := fun i => v (ix1 (i 1))

/-- The bias broadcast to every row, read at (r, q): the vector's entry q. -/
theorem bias_apply (b : A S128) (r : Fin 50000) (q : Fin 128) :
    broadcastInDim S50000x128 ![0, 1] bcast_S1x128_S50000x128_0_1 (broadcastInDim S1x128 ![1] bcast_S128_S1x128_1 b) (ix2 r q)
      = b (ix1 q) := by
  refine (broadcastInDim_apply _ _ _ (ix2 r q) (ix2 (0 : Fin 1) q) (fun a => match a with | ⟨0, _⟩ => rfl | ⟨1, _⟩ => rfl)).trans ?_
  exact broadcastInDim_apply _ _ _ (ix2 (0 : Fin 1) q) (ix1 q) (fun a => match a with | ⟨0, _⟩ => rfl)

/-- One convolution term in the host's words, read at (r, q). -/
theorem sageH_apply (M X : A S50000x128) (Wl Wr : A S128x128) (b : A S128) (r : Fin 50000) (q : Fin 128) :
    sageH M X Wl Wr b (ix2 r q) = Cert.Gnn.sageAt M X Wl Wr (bRow b) r q := by
  unfold sageH Cert.Gnn.sageAt bRow
  rw [addf_apply, addf_apply, bias_apply]
  rw [show dot_S50000x128_S128x128_S50000x128_1_0_0_1_n_n = Cert.LibDot.dims dot_S50000x128_S128x128_S50000x128_1_0_0_1_n_n_wf from rfl]
  rw [Cert.LibDot.dotGeneral_apply, Cert.LibDot.dotGeneral_apply]

/-- The array-wide rectifier at an index is the rectifier of the entry. -/
theorem leakyH_apply (x : A S50000x128) (i : S50000x128.Idx) : leakyH x i = Cert.Gnn.leaky (x i) := rfl

theorem act_true (x : EReal) : Cert.Gnn.act true x = Cert.Gnn.leaky x := by unfold Cert.Gnn.act; rw [if_pos rfl]
theorem act_false (x : EReal) : Cert.Gnn.act false x = x := by unfold Cert.Gnn.act; rw [if_neg (by decide)]
theorem newP_apply (a : Bool) (A1 X A2 : Cert.Gnn.Mat 50000 128) (Wl1 Wr1 Wl2 Wr2 : Cert.Gnn.Mat 128 128) (b1 b2 : Cert.Gnn.Mat 1 128)
    (r : Fin 50000) (q : Fin 128) :
    Cert.Gnn.newP a A1 X A2 Wl1 Wr1 Wl2 Wr2 b1 b2 (ix2 r q)
      = Cert.Gnn.act a (Cert.Gnn.sageAt A1 X Wl1 Wr1 b1 r q + Cert.Gnn.sageAt A2 X Wl2 Wr2 b2 r q) := rfl
theorem newG_apply (a : Bool) (A1 X : Cert.Gnn.Mat 50000 128) (Wl Wr : Cert.Gnn.Mat 128 128) (b : Cert.Gnn.Mat 1 128)
    (r : Fin 50000) (q : Fin 128) :
    Cert.Gnn.newG a A1 X Wl Wr b (ix2 r q) = Cert.Gnn.act a (Cert.Gnn.sageAt A1 X Wl Wr b r q) := rfl

/-- The first node type's new rows in the host's words are the specification's, rectified … -/
theorem leaky_preP_eq (xp xg : A S50000x128) (eI : IVec S2x500000 32) (eV : IVec S2x1000000 32)
    (WlI WrI WlV WrV : A S128x128) (bI bV : A S128) :
    leakyH (preP xp xg eI eV WlI WrI WlV WrV bI bV)
      = Cert.Gnn.newP true (mean500 xp eI) xp (mean1M xg eV) WlI WrI WlV WrV (bRow bI) (bRow bV) := by
  funext i
  obtain ⟨r, q, rfl⟩ : ∃ (r : Fin 50000) (q : Fin 128), i = ix2 r q := ⟨i 0, i 1, eq_ix2 i⟩
  rw [leakyH_apply, newP_apply, act_true]
  unfold preP
  rw [addf_apply, sageH_apply, sageH_apply]

/-- … or not. -/
theorem preP_eq (xp xg : A S50000x128) (eI : IVec S2x500000 32) (eV : IVec S2x1000000 32)
    (WlI WrI WlV WrV : A S128x128) (bI bV : A S128) :
    preP xp xg eI eV WlI WrI WlV WrV bI bV
      = Cert.Gnn.newP false (mean500 xp eI) xp (mean1M xg eV) WlI WrI WlV WrV (bRow bI) (bRow bV) := by
  funext i
  obtain ⟨r, q, rfl⟩ : ∃ (r : Fin 50000) (q : Fin 128), i = ix2 r q := ⟨i 0, i 1, eq_ix2 i⟩
  rw [newP_apply, act_false]
  unfold preP
  rw [addf_apply, sageH_apply, sageH_apply]

/-- The second node type's new rows likewise, rectified … -/
theorem leaky_preG_eq (xp xg : A S50000x128) (eL : IVec S2x1000000 32) (WlL WrL : A S128x128) (bL : A S128) :
    leakyH (preG xp xg eL WlL WrL bL) = Cert.Gnn.newG true (mean1M xp eL) xg WlL WrL (bRow bL) := by
  funext i
  obtain ⟨r, q, rfl⟩ : ∃ (r : Fin 50000) (q : Fin 128), i = ix2 r q := ⟨i 0, i 1, eq_ix2 i⟩
  rw [leakyH_apply, newG_apply, act_true]
  unfold preG
  rw [sageH_apply]

/-- … or not. -/
theorem preG_eq (xp xg : A S50000x128) (eL : IVec S2x1000000 32) (WlL WrL : A S128x128) (bL : A S128) :
    preG xp xg eL WlL WrL bL = Cert.Gnn.newG false (mean1M xp eL) xg WlL WrL (bRow bL) := by
  funext i
  obtain ⟨r, q, rfl⟩ : ∃ (r : Fin 50000) (q : Fin 128), i = ix2 r q := ⟨i 0, i 1, eq_ix2 i⟩
  rw [newG_apply, act_false]
  unfold preG
  rw [sageH_apply]

/-- The scorer in the host's words, read at edge e: the logistic function of the inner product. -/
theorem scoreH_apply (P G : A S500000x128) (e : Fin 500000) : scoreH P G (ix1 e) = Cert.Gnn.scoreAt P G e := by
  unfold scoreH Cert.Gnn.scoreAt Ideal.logistic
  rw [hostDivf_apply, addf_apply, broadcastInDim_scalar_apply, constant_apply, Ideal.ofBits_one_f32]
  have hsum : Host.reduceAdd (mulf P G) (constant S_ .f32 0x00000000#32) reducesTo_S500000x128_S500000_d1 h_S_ (ix1 e)
      = ∑ k : Fin 128, P (ix2 e k) * G (ix2 e k) := by
    rw [hostReduceAdd_apply, Ideal.hostReduceAdd_single reducesTo_S500000x128_S500000_d1 (by decide)]
    rw [constant_apply, Ideal.ofBits_zero_f32, zero_add]
    refine Finset.sum_congr rfl fun k _ => ?_
    rw [mulf_apply]
    have hl : (Shape.Reduces.lift (by decide : S500000x128.Reduces [1] S500000) (ix1 e) k) = ix2 e k := by
      funext a; match a with | ⟨0, _⟩ => rfl | ⟨1, _⟩ => rfl
    rw [hl]; rfl
  simp only [Host.exp, Host.negf, Ideal.hostUnary_exp_def, Ideal.hostNegf_def, Ideal.negf_def]
  rw [hsum]

end Cert.Gnn.HostTerms

end
-- ==== Proof.RefLib.lean ====
/-
  Two small facts about a straight line of host operations, used by the reference program's run:
  an operation that writes one buffer, listed among some references, writes inside that list; and a buffer that
  each of two lines keeps is kept by the two run one after the other.
-/
import Idealize.ShloMosaic.Lib.Pipeline.Frame

noncomputable section

namespace Cert.ReferenceIdeal.RefRun

open Idealize.ShloMosaic Idealize.SL.Sem Idealize.ShloMosaic.StableHlo

variable {τ : Topo} {sig : RefSig} {Val : EltTy → Type}

/-- An operation whose only written buffer is the reference y, with y in the list W, writes inside W. -/
theorem writes_sub_of_mem {W : List (Ref sig .tc)} {op : HloOp τ sig Val} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- A buffer kept by each of two lines is kept by their concatenation. -/
theorem keep_append {l₁ l₂ : List (HloOp τ sig Val)} {b : DevRef τ sig}
    (h₁ : ∀ V, after l₁ V b = V b) (h₂ : ∀ V, after l₂ V b = V b) (V : Valuation τ sig Val) :
    after (l₁ ++ l₂) V b = V b := by
  rw [after_append, h₂, h₁]

end Cert.ReferenceIdeal.RefRun

end
-- ==== Proof.KKeep.lean ====
/-
  Which buffers a stretch of host operations leaves alone. Each stretch of the kernel program's host code writes a
  known list of buffers, one per operation; a buffer outside the list holds after the stretch what it held before.
-/
import proofs.«146278_j35390530519883_1_alg».proof.Proof.Gen.KernelIdeal.Launch
import proofs.«146278_j35390530519883_1_alg».proof.Proof.RefLib
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.RefRun (writes_sub_of_mem)

variable {F : FTy → Type} [FloatOps F]

/-- The buffers stretch 0 writes, in order. -/
abbrev hostOps0_w : List (Ref sig .tc) :=
  [main_cst, main_v0, main_cst_0, main_v1, main_cst_1, main_v2, main_v3, main_v4, main_cst_2, main_v5, main_v6, main_v7, main_cst_3, main_v8, main_v9, main_v10, main_v11, main_v12, main_cst_4, main_v13, main_v14, main_v15, main_cst_5, main_v16, main_v17, main_v18, main_v19, main_v20, main_cst_6, main_v21, main_v22, main_v23, main_cst_7, main_v24, main_v25, main_v26, main_v27, main_v28, main_c, main_v29, main_v30, main_c_8, main_v31, main_v32, main_v33, main_v34, main_v35, main_v36, main_v37, main_cst_9, main_v38, main_v39, main_v40, main_v41, main_v42, main_v43, main_v44, main_c_10, main_v45, main_v46, main_c_11, main_v47, main_v48, main_v49, main_v50, main_v51, main_v52, main_v53, main_cst_12, main_v54, main_v55, main_v56, main_v57, main_v58, main_v59, main_v60, main_c_13, main_v61, main_v62, main_c_14, main_v63, main_v64, main_v65, main_v66, main_v67, main_v68, main_v69, main_cst_15, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95]

set_option maxHeartbeats 40000000 in
theorem hostOps0_writes : (hostOps0 : List (HloOp τ sig (Elt F))).Forall fun op => op.writes ⊆ (hostOps0_w.map (Proc.devRef (τ := τ) .tc)).toFinset :=
  ⟨writes_sub_of_mem main_cst rfl (by decide), writes_sub_of_mem main_v0 rfl (by decide), writes_sub_of_mem main_cst_0 rfl (by decide), writes_sub_of_mem main_v1 rfl (by decide), writes_sub_of_mem main_cst_1 rfl (by decide), writes_sub_of_mem main_v2 rfl (by decide), writes_sub_of_mem main_v3 rfl (by decide), writes_sub_of_mem main_v4 rfl (by decide), writes_sub_of_mem main_cst_2 rfl (by decide), writes_sub_of_mem main_v5 rfl (by decide), writes_sub_of_mem main_v6 rfl (by decide), writes_sub_of_mem main_v7 rfl (by decide), writes_sub_of_mem main_cst_3 rfl (by decide), writes_sub_of_mem main_v8 rfl (by decide), writes_sub_of_mem main_v9 rfl (by decide), writes_sub_of_mem main_v10 rfl (by decide), writes_sub_of_mem main_v11 rfl (by decide), writes_sub_of_mem main_v12 rfl (by decide), writes_sub_of_mem main_cst_4 rfl (by decide), writes_sub_of_mem main_v13 rfl (by decide), writes_sub_of_mem main_v14 rfl (by decide), writes_sub_of_mem main_v15 rfl (by decide), writes_sub_of_mem main_cst_5 rfl (by decide), writes_sub_of_mem main_v16 rfl (by decide), writes_sub_of_mem main_v17 rfl (by decide), writes_sub_of_mem main_v18 rfl (by decide), writes_sub_of_mem main_v19 rfl (by decide), writes_sub_of_mem main_v20 rfl (by decide), writes_sub_of_mem main_cst_6 rfl (by decide), writes_sub_of_mem main_v21 rfl (by decide), writes_sub_of_mem main_v22 rfl (by decide), writes_sub_of_mem main_v23 rfl (by decide), writes_sub_of_mem main_cst_7 rfl (by decide), writes_sub_of_mem main_v24 rfl (by decide), writes_sub_of_mem main_v25 rfl (by decide), writes_sub_of_mem main_v26 rfl (by decide), writes_sub_of_mem main_v27 rfl (by decide), writes_sub_of_mem main_v28 rfl (by decide), writes_sub_of_mem main_c rfl (by decide), writes_sub_of_mem main_v29 rfl (by decide), writes_sub_of_mem main_v30 rfl (by decide), writes_sub_of_mem main_c_8 rfl (by decide), writes_sub_of_mem main_v31 rfl (by decide), writes_sub_of_mem main_v32 rfl (by decide), writes_sub_of_mem main_v33 rfl (by decide), writes_sub_of_mem main_v34 rfl (by decide), writes_sub_of_mem main_v35 rfl (by decide), writes_sub_of_mem main_v36 rfl (by decide), writes_sub_of_mem main_v37 rfl (by decide), writes_sub_of_mem main_cst_9 rfl (by decide), writes_sub_of_mem main_v38 rfl (by decide), writes_sub_of_mem main_v39 rfl (by decide), writes_sub_of_mem main_v40 rfl (by decide), writes_sub_of_mem main_v41 rfl (by decide), writes_sub_of_mem main_v42 rfl (by decide), writes_sub_of_mem main_v43 rfl (by decide), writes_sub_of_mem main_v44 rfl (by decide), writes_sub_of_mem main_c_10 rfl (by decide), writes_sub_of_mem main_v45 rfl (by decide), writes_sub_of_mem main_v46 rfl (by decide), writes_sub_of_mem main_c_11 rfl (by decide), writes_sub_of_mem main_v47 rfl (by decide), writes_sub_of_mem main_v48 rfl (by decide), writes_sub_of_mem main_v49 rfl (by decide), writes_sub_of_mem main_v50 rfl (by decide), writes_sub_of_mem main_v51 rfl (by decide), writes_sub_of_mem main_v52 rfl (by decide), writes_sub_of_mem main_v53 rfl (by decide), writes_sub_of_mem main_cst_12 rfl (by decide), writes_sub_of_mem main_v54 rfl (by decide), writes_sub_of_mem main_v55 rfl (by decide), writes_sub_of_mem main_v56 rfl (by decide), writes_sub_of_mem main_v57 rfl (by decide), writes_sub_of_mem main_v58 rfl (by decide), writes_sub_of_mem main_v59 rfl (by decide), writes_sub_of_mem main_v60 rfl (by decide), writes_sub_of_mem main_c_13 rfl (by decide), writes_sub_of_mem main_v61 rfl (by decide), writes_sub_of_mem main_v62 rfl (by decide), writes_sub_of_mem main_c_14 rfl (by decide), writes_sub_of_mem main_v63 rfl (by decide), writes_sub_of_mem main_v64 rfl (by decide), writes_sub_of_mem main_v65 rfl (by decide), writes_sub_of_mem main_v66 rfl (by decide), writes_sub_of_mem main_v67 rfl (by decide), writes_sub_of_mem main_v68 rfl (by decide), writes_sub_of_mem main_v69 rfl (by decide), writes_sub_of_mem main_cst_15 rfl (by decide), writes_sub_of_mem main_v70 rfl (by decide), writes_sub_of_mem main_v71 rfl (by decide), writes_sub_of_mem main_v72 rfl (by decide), writes_sub_of_mem main_v73 rfl (by decide), writes_sub_of_mem main_v74 rfl (by decide), writes_sub_of_mem main_v75 rfl (by decide), writes_sub_of_mem main_v76 rfl (by decide), writes_sub_of_mem main_v77 rfl (by decide), writes_sub_of_mem main_v78 rfl (by decide), writes_sub_of_mem main_v79 rfl (by decide), writes_sub_of_mem main_v80 rfl (by decide), writes_sub_of_mem main_v81 rfl (by decide), writes_sub_of_mem main_v82 rfl (by decide), writes_sub_of_mem main_v83 rfl (by decide), writes_sub_of_mem main_v84 rfl (by decide), writes_sub_of_mem main_v85 rfl (by decide), writes_sub_of_mem main_v86 rfl (by decide), writes_sub_of_mem main_v87 rfl (by decide), writes_sub_of_mem main_v88 rfl (by decide), writes_sub_of_mem main_v89 rfl (by decide), writes_sub_of_mem main_v90 rfl (by decide), writes_sub_of_mem main_v91 rfl (by decide), writes_sub_of_mem main_v92 rfl (by decide), writes_sub_of_mem main_v93 rfl (by decide), writes_sub_of_mem main_v94 rfl (by decide), writes_sub_of_mem main_v95 rfl (by decide)⟩

/-- A buffer outside the list keeps its contents through stretch 0. -/
theorem hostOps0_keep {r : Ref sig .tc} (hr : r ∉ hostOps0_w) (V : Valuation τ sig (Elt F)) :
    StableHlo.after hostOps0 V (Proc.devRef .tc r) = V (Proc.devRef .tc r) :=
  after_of_writes_sub hostOps0 V hostOps0_writes hr

/-- The buffers stretch 1 writes, in order. -/
abbrev hostOps1_w : List (Ref sig .tc) :=
  [main_v97, main_v98, main_c_16, main_v99, main_v100, main_c_17, main_v101, main_v102, main_v103, main_v104, main_v105, main_v106, main_v107, main_cst_18, main_v108, main_v109, main_v110, main_v111, main_v112, main_v113, main_v114, main_c_19, main_v115, main_v116, main_c_20, main_v117, main_v118, main_v119, main_v120, main_v121, main_v122, main_v123, main_cst_21, main_v124, main_v125, main_v126, main_v127, main_v128, main_v129, main_v130, main_c_22, main_v131, main_v132, main_c_23, main_v133, main_v134, main_v135, main_v136, main_v137, main_v138, main_v139, main_cst_24, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165]

set_option maxHeartbeats 40000000 in
theorem hostOps1_writes : (hostOps1 : List (HloOp τ sig (Elt F))).Forall fun op => op.writes ⊆ (hostOps1_w.map (Proc.devRef (τ := τ) .tc)).toFinset :=
  ⟨writes_sub_of_mem main_v97 rfl (by decide), writes_sub_of_mem main_v98 rfl (by decide), writes_sub_of_mem main_c_16 rfl (by decide), writes_sub_of_mem main_v99 rfl (by decide), writes_sub_of_mem main_v100 rfl (by decide), writes_sub_of_mem main_c_17 rfl (by decide), writes_sub_of_mem main_v101 rfl (by decide), writes_sub_of_mem main_v102 rfl (by decide), writes_sub_of_mem main_v103 rfl (by decide), writes_sub_of_mem main_v104 rfl (by decide), writes_sub_of_mem main_v105 rfl (by decide), writes_sub_of_mem main_v106 rfl (by decide), writes_sub_of_mem main_v107 rfl (by decide), writes_sub_of_mem main_cst_18 rfl (by decide), writes_sub_of_mem main_v108 rfl (by decide), writes_sub_of_mem main_v109 rfl (by decide), writes_sub_of_mem main_v110 rfl (by decide), writes_sub_of_mem main_v111 rfl (by decide), writes_sub_of_mem main_v112 rfl (by decide), writes_sub_of_mem main_v113 rfl (by decide), writes_sub_of_mem main_v114 rfl (by decide), writes_sub_of_mem main_c_19 rfl (by decide), writes_sub_of_mem main_v115 rfl (by decide), writes_sub_of_mem main_v116 rfl (by decide), writes_sub_of_mem main_c_20 rfl (by decide), writes_sub_of_mem main_v117 rfl (by decide), writes_sub_of_mem main_v118 rfl (by decide), writes_sub_of_mem main_v119 rfl (by decide), writes_sub_of_mem main_v120 rfl (by decide), writes_sub_of_mem main_v121 rfl (by decide), writes_sub_of_mem main_v122 rfl (by decide), writes_sub_of_mem main_v123 rfl (by decide), writes_sub_of_mem main_cst_21 rfl (by decide), writes_sub_of_mem main_v124 rfl (by decide), writes_sub_of_mem main_v125 rfl (by decide), writes_sub_of_mem main_v126 rfl (by decide), writes_sub_of_mem main_v127 rfl (by decide), writes_sub_of_mem main_v128 rfl (by decide), writes_sub_of_mem main_v129 rfl (by decide), writes_sub_of_mem main_v130 rfl (by decide), writes_sub_of_mem main_c_22 rfl (by decide), writes_sub_of_mem main_v131 rfl (by decide), writes_sub_of_mem main_v132 rfl (by decide), writes_sub_of_mem main_c_23 rfl (by decide), writes_sub_of_mem main_v133 rfl (by decide), writes_sub_of_mem main_v134 rfl (by decide), writes_sub_of_mem main_v135 rfl (by decide), writes_sub_of_mem main_v136 rfl (by decide), writes_sub_of_mem main_v137 rfl (by decide), writes_sub_of_mem main_v138 rfl (by decide), writes_sub_of_mem main_v139 rfl (by decide), writes_sub_of_mem main_cst_24 rfl (by decide), writes_sub_of_mem main_v140 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_v147 rfl (by decide), writes_sub_of_mem main_v148 rfl (by decide), writes_sub_of_mem main_v149 rfl (by decide), writes_sub_of_mem main_v150 rfl (by decide), writes_sub_of_mem main_v151 rfl (by decide), writes_sub_of_mem main_v152 rfl (by decide), writes_sub_of_mem main_v153 rfl (by decide), writes_sub_of_mem main_v154 rfl (by decide), writes_sub_of_mem main_v155 rfl (by decide), writes_sub_of_mem main_v156 rfl (by decide), writes_sub_of_mem main_v157 rfl (by decide), writes_sub_of_mem main_v158 rfl (by decide), writes_sub_of_mem main_v159 rfl (by decide), writes_sub_of_mem main_v160 rfl (by decide), writes_sub_of_mem main_v161 rfl (by decide), writes_sub_of_mem main_v162 rfl (by decide), writes_sub_of_mem main_v163 rfl (by decide), writes_sub_of_mem main_v164 rfl (by decide), writes_sub_of_mem main_v165 rfl (by decide)⟩

/-- A buffer outside the list keeps its contents through stretch 1. -/
theorem hostOps1_keep {r : Ref sig .tc} (hr : r ∉ hostOps1_w) (V : Valuation τ sig (Elt F)) :
    StableHlo.after hostOps1 V (Proc.devRef .tc r) = V (Proc.devRef .tc r) :=
  after_of_writes_sub hostOps1 V hostOps1_writes hr

/-- The buffers stretch 2 writes, in order. -/
abbrev hostOps2_w : List (Ref sig .tc) :=
  [main_v167, main_v168, main_c_25, main_v169, main_v170, main_c_26, main_v171, main_v172, main_v173, main_v174, main_v175, main_v176, main_v177, main_cst_27, main_v178, main_v179, main_v180, main_v181, main_v182, main_v183, main_v184, main_c_28, main_v185, main_v186, main_c_29, main_v187, main_v188, main_v189, main_v190, main_v191, main_v192, main_v193, main_cst_30, main_v194, main_v195, main_v196, main_v197, main_v198, main_v199, main_v200, main_c_31, main_v201, main_v202, main_c_32, main_v203, main_v204, main_v205, main_v206, main_v207, main_v208, main_v209, main_cst_33, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235]

set_option maxHeartbeats 40000000 in
theorem hostOps2_writes : (hostOps2 : List (HloOp τ sig (Elt F))).Forall fun op => op.writes ⊆ (hostOps2_w.map (Proc.devRef (τ := τ) .tc)).toFinset :=
  ⟨writes_sub_of_mem main_v167 rfl (by decide), writes_sub_of_mem main_v168 rfl (by decide), writes_sub_of_mem main_c_25 rfl (by decide), writes_sub_of_mem main_v169 rfl (by decide), writes_sub_of_mem main_v170 rfl (by decide), writes_sub_of_mem main_c_26 rfl (by decide), writes_sub_of_mem main_v171 rfl (by decide), writes_sub_of_mem main_v172 rfl (by decide), writes_sub_of_mem main_v173 rfl (by decide), writes_sub_of_mem main_v174 rfl (by decide), writes_sub_of_mem main_v175 rfl (by decide), writes_sub_of_mem main_v176 rfl (by decide), writes_sub_of_mem main_v177 rfl (by decide), writes_sub_of_mem main_cst_27 rfl (by decide), writes_sub_of_mem main_v178 rfl (by decide), writes_sub_of_mem main_v179 rfl (by decide), writes_sub_of_mem main_v180 rfl (by decide), writes_sub_of_mem main_v181 rfl (by decide), writes_sub_of_mem main_v182 rfl (by decide), writes_sub_of_mem main_v183 rfl (by decide), writes_sub_of_mem main_v184 rfl (by decide), writes_sub_of_mem main_c_28 rfl (by decide), writes_sub_of_mem main_v185 rfl (by decide), writes_sub_of_mem main_v186 rfl (by decide), writes_sub_of_mem main_c_29 rfl (by decide), writes_sub_of_mem main_v187 rfl (by decide), writes_sub_of_mem main_v188 rfl (by decide), writes_sub_of_mem main_v189 rfl (by decide), writes_sub_of_mem main_v190 rfl (by decide), writes_sub_of_mem main_v191 rfl (by decide), writes_sub_of_mem main_v192 rfl (by decide), writes_sub_of_mem main_v193 rfl (by decide), writes_sub_of_mem main_cst_30 rfl (by decide), writes_sub_of_mem main_v194 rfl (by decide), writes_sub_of_mem main_v195 rfl (by decide), writes_sub_of_mem main_v196 rfl (by decide), writes_sub_of_mem main_v197 rfl (by decide), writes_sub_of_mem main_v198 rfl (by decide), writes_sub_of_mem main_v199 rfl (by decide), writes_sub_of_mem main_v200 rfl (by decide), writes_sub_of_mem main_c_31 rfl (by decide), writes_sub_of_mem main_v201 rfl (by decide), writes_sub_of_mem main_v202 rfl (by decide), writes_sub_of_mem main_c_32 rfl (by decide), writes_sub_of_mem main_v203 rfl (by decide), writes_sub_of_mem main_v204 rfl (by decide), writes_sub_of_mem main_v205 rfl (by decide), writes_sub_of_mem main_v206 rfl (by decide), writes_sub_of_mem main_v207 rfl (by decide), writes_sub_of_mem main_v208 rfl (by decide), writes_sub_of_mem main_v209 rfl (by decide), writes_sub_of_mem main_cst_33 rfl (by decide), writes_sub_of_mem main_v210 rfl (by decide), writes_sub_of_mem main_v211 rfl (by decide), writes_sub_of_mem main_v212 rfl (by decide), writes_sub_of_mem main_v213 rfl (by decide), writes_sub_of_mem main_v214 rfl (by decide), writes_sub_of_mem main_v215 rfl (by decide), writes_sub_of_mem main_v216 rfl (by decide), writes_sub_of_mem main_v217 rfl (by decide), writes_sub_of_mem main_v218 rfl (by decide), writes_sub_of_mem main_v219 rfl (by decide), writes_sub_of_mem main_v220 rfl (by decide), writes_sub_of_mem main_v221 rfl (by decide), writes_sub_of_mem main_v222 rfl (by decide), writes_sub_of_mem main_v223 rfl (by decide), writes_sub_of_mem main_v224 rfl (by decide), writes_sub_of_mem main_v225 rfl (by decide), writes_sub_of_mem main_v226 rfl (by decide), writes_sub_of_mem main_v227 rfl (by decide), writes_sub_of_mem main_v228 rfl (by decide), writes_sub_of_mem main_v229 rfl (by decide), writes_sub_of_mem main_v230 rfl (by decide), writes_sub_of_mem main_v231 rfl (by decide), writes_sub_of_mem main_v232 rfl (by decide), writes_sub_of_mem main_v233 rfl (by decide), writes_sub_of_mem main_v234 rfl (by decide), writes_sub_of_mem main_v235 rfl (by decide)⟩

/-- A buffer outside the list keeps its contents through stretch 2. -/
theorem hostOps2_keep {r : Ref sig .tc} (hr : r ∉ hostOps2_w) (V : Valuation τ sig (Elt F)) :
    StableHlo.after hostOps2 V (Proc.devRef .tc r) = V (Proc.devRef .tc r) :=
  after_of_writes_sub hostOps2 V hostOps2_writes hr

/-- The buffers stretch 3 writes, in order. -/
abbrev hostOps3_w : List (Ref sig .tc) :=
  [main_v237, main_v238, main_c_34, main_v239, main_v240, main_c_35, main_v241, main_v242, main_v243, main_v244, main_v245, main_v246, main_v247, main_c_36, main_v248, main_v249, main_c_37, main_v250, main_v251, main_v252, main_v253, main_v254]

set_option maxHeartbeats 40000000 in
theorem hostOps3_writes : (hostOps3 : List (HloOp τ sig (Elt F))).Forall fun op => op.writes ⊆ (hostOps3_w.map (Proc.devRef (τ := τ) .tc)).toFinset :=
  ⟨writes_sub_of_mem main_v237 rfl (by decide), writes_sub_of_mem main_v238 rfl (by decide), writes_sub_of_mem main_c_34 rfl (by decide), writes_sub_of_mem main_v239 rfl (by decide), writes_sub_of_mem main_v240 rfl (by decide), writes_sub_of_mem main_c_35 rfl (by decide), writes_sub_of_mem main_v241 rfl (by decide), writes_sub_of_mem main_v242 rfl (by decide), writes_sub_of_mem main_v243 rfl (by decide), writes_sub_of_mem main_v244 rfl (by decide), writes_sub_of_mem main_v245 rfl (by decide), writes_sub_of_mem main_v246 rfl (by decide), writes_sub_of_mem main_v247 rfl (by decide), writes_sub_of_mem main_c_36 rfl (by decide), writes_sub_of_mem main_v248 rfl (by decide), writes_sub_of_mem main_v249 rfl (by decide), writes_sub_of_mem main_c_37 rfl (by decide), writes_sub_of_mem main_v250 rfl (by decide), writes_sub_of_mem main_v251 rfl (by decide), writes_sub_of_mem main_v252 rfl (by decide), writes_sub_of_mem main_v253 rfl (by decide), writes_sub_of_mem main_v254 rfl (by decide)⟩

/-- A buffer outside the list keeps its contents through stretch 3. -/
theorem hostOps3_keep {r : Ref sig .tc} (hr : r ∉ hostOps3_w) (V : Valuation τ sig (Elt F)) :
    StableHlo.after hostOps3 V (Proc.devRef .tc r) = V (Proc.devRef .tc r) :=
  after_of_writes_sub hostOps3 V hostOps3_writes hr

end Cert.KernelIdeal.HostChain

end
-- ==== Proof.KHost0a.lean ====
/-
  The host operations before the first region, read at the buffers the region's row windows stage and at the
  three degree columns: each is the specification's mean aggregation (or degree) of the launched arguments.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

variable (m : (ℓ : Loc nD τ sig) → Buf (Elt Ideal) ℓ) (ρ : Dev nD → PrngReg)

theorem h0_mean_isa (c : Dev nD) : StableHlo.after hostOps0 (W0 (F := Ideal) m ρ c) (Proc.devRef .tc main_v42) = mean500 (args m c).xp (args m c).eI := by
  after_results_simp
  rfl
theorem h0_mean_rev (c : Dev nD) : StableHlo.after hostOps0 (W0 (F := Ideal) m ρ c) (Proc.devRef .tc main_v58) = mean1M (args m c).xg (args m c).eV := by
  after_results_simp
  rfl
theorem h0_mean_rel (c : Dev nD) : StableHlo.after hostOps0 (W0 (F := Ideal) m ρ c) (Proc.devRef .tc main_v74) = mean1M (args m c).xp (args m c).eL := by
  after_results_simp
  rfl
theorem h0_deg_isa (c : Dev nD) : StableHlo.after hostOps0 (W0 (F := Ideal) m ρ c) (Proc.devRef .tc main_v10) = deg500 (args m c).eI := by
  after_results_simp
  rfl
theorem h0_deg_rel (c : Dev nD) : StableHlo.after hostOps0 (W0 (F := Ideal) m ρ c) (Proc.devRef .tc main_v18) = deg1M (args m c).eL := by
  after_results_simp
  rfl
theorem h0_deg_rev (c : Dev nD) : StableHlo.after hostOps0 (W0 (F := Ideal) m ρ c) (Proc.devRef .tc main_v26) = deg1M (args m c).eV := by
  after_results_simp
  rfl

end Cert.KernelIdeal.HostChain

end
-- ==== Proof.KHost0b.lean ====
/-
  The host operations before the first region, read at the buffers the region's weight and bias windows stage
  and at the two own-row arrays: layer 0's matrices and bias rows out of the stacked parameters, and the
  launched node rows themselves.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

variable (m : (ℓ : Loc nD τ sig) → Buf (Elt Ideal) ℓ) (ρ : Dev nD → PrngReg)

theorem h0_xp (c : Dev nD) : StableHlo.after hostOps0 (W0 (F := Ideal) m ρ c) (Proc.devRef .tc main_arg0) = (args m c).xp := by
  after_results_simp
  rfl
theorem h0_xg (c : Dev nD) : StableHlo.after hostOps0 (W0 (F := Ideal) m ρ c) (Proc.devRef .tc main_arg1) = (args m c).xg := by
  after_results_simp
  rfl
theorem h0_WlI (c : Dev nD) : StableHlo.after hostOps0 (W0 (F := Ideal) m ρ c) (Proc.devRef .tc main_v76) = w0 (args m c).WlI := by
  after_results_simp
  rfl
theorem h0_bI (c : Dev nD) : StableHlo.after hostOps0 (W0 (F := Ideal) m ρ c) (Proc.devRef .tc main_v79) = krow (b0 (args m c).blI) := by
  after_results_simp
  rfl
theorem h0_WrI (c : Dev nD) : StableHlo.after hostOps0 (W0 (F := Ideal) m ρ c) (Proc.devRef .tc main_v81) = w0 (args m c).WrI := by
  after_results_simp
  rfl
theorem h0_WlV (c : Dev nD) : StableHlo.after hostOps0 (W0 (F := Ideal) m ρ c) (Proc.devRef .tc main_v83) = w0 (args m c).WlV := by
  after_results_simp
  rfl
theorem h0_bV (c : Dev nD) : StableHlo.after hostOps0 (W0 (F := Ideal) m ρ c) (Proc.devRef .tc main_v86) = krow (b0 (args m c).blV) := by
  after_results_simp
  rfl
theorem h0_WrV (c : Dev nD) : StableHlo.after hostOps0 (W0 (F := Ideal) m ρ c) (Proc.devRef .tc main_v88) = w0 (args m c).WrV := by
  after_results_simp
  rfl
theorem h0_WlL (c : Dev nD) : StableHlo.after hostOps0 (W0 (F := Ideal) m ρ c) (Proc.devRef .tc main_v90) = w0 (args m c).WlL := by
  after_results_simp
  rfl
theorem h0_bL (c : Dev nD) : StableHlo.after hostOps0 (W0 (F := Ideal) m ρ c) (Proc.devRef .tc main_v93) = krow (b0 (args m c).blL) := by
  after_results_simp
  rfl
theorem h0_WrL (c : Dev nD) : StableHlo.after hostOps0 (W0 (F := Ideal) m ρ c) (Proc.devRef .tc main_v95) = w0 (args m c).WrL := by
  after_results_simp
  rfl

end Cert.KernelIdeal.HostChain

end
-- ==== Proof.KHost1a.lean ====
/-
  The host operations between two regions, read at the buffers the next region's row windows stage, from ANY
  contents W at the stretch's entry: each is the sum of the gathered rows of the previous layer's output over the
  degree column computed before the first region.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

theorem h1_mean_isa (W : Valuation τ sig (Elt Ideal)) : StableHlo.after hostOps1 W (Proc.devRef .tc main_v112) = Host.divf (sum500 (W (Proc.devRef .tc main_v96_0)) (W (Proc.devRef .tc main_arg11))) (broadcastInDim Cert.ReferenceIdeal.S50000x128 ![0, 1] Cert.ReferenceIdeal.Facts₀.bcast_S50000x1_S50000x128_0_1 (W (Proc.devRef .tc main_v10))) := by
  after_results_simp
  rfl
theorem h1_mean_rev (W : Valuation τ sig (Elt Ideal)) : StableHlo.after hostOps1 W (Proc.devRef .tc main_v128) = Host.divf (sum1M (W (Proc.devRef .tc main_v96_1)) (W (Proc.devRef .tc main_arg13))) (broadcastInDim Cert.ReferenceIdeal.S50000x128 ![0, 1] Cert.ReferenceIdeal.Facts₀.bcast_S50000x1_S50000x128_0_1 (W (Proc.devRef .tc main_v26))) := by
  after_results_simp
  rfl
theorem h1_mean_rel (W : Valuation τ sig (Elt Ideal)) : StableHlo.after hostOps1 W (Proc.devRef .tc main_v144) = Host.divf (sum1M (W (Proc.devRef .tc main_v96_0)) (W (Proc.devRef .tc main_arg12))) (broadcastInDim Cert.ReferenceIdeal.S50000x128 ![0, 1] Cert.ReferenceIdeal.Facts₀.bcast_S50000x1_S50000x128_0_1 (W (Proc.devRef .tc main_v18))) := by
  after_results_simp
  rfl
theorem h1_xp (W : Valuation τ sig (Elt Ideal)) : StableHlo.after hostOps1 W (Proc.devRef .tc main_v96_0) = (W (Proc.devRef .tc main_v96_0)) := by
  after_results_simp
theorem h1_xg (W : Valuation τ sig (Elt Ideal)) : StableHlo.after hostOps1 W (Proc.devRef .tc main_v96_1) = (W (Proc.devRef .tc main_v96_1)) := by
  after_results_simp

end Cert.KernelIdeal.HostChain

end
-- ==== Proof.KHost1b.lean ====
/-
  The host operations between two regions, read at the buffers the next region's weight and bias windows stage
  and at the buffers later stretches still read, from ANY contents W at the stretch's entry: the layer's matrices
  and bias rows out of the stacked parameters; the degree columns and the arguments pass through unchanged.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

theorem h1_WlI (W : Valuation τ sig (Elt Ideal)) : StableHlo.after hostOps1 W (Proc.devRef .tc main_v146) = w1 (W (Proc.devRef .tc main_arg2)) := by
  after_results_simp
  rfl
theorem h1_bI (W : Valuation τ sig (Elt Ideal)) : StableHlo.after hostOps1 W (Proc.devRef .tc main_v149) = krow (b1 (W (Proc.devRef .tc main_arg3))) := by
  after_results_simp
  rfl
theorem h1_WrI (W : Valuation τ sig (Elt Ideal)) : StableHlo.after hostOps1 W (Proc.devRef .tc main_v151) = w1 (W (Proc.devRef .tc main_arg4)) := by
  after_results_simp
  rfl
theorem h1_WlV (W : Valuation τ sig (Elt Ideal)) : StableHlo.after hostOps1 W (Proc.devRef .tc main_v153) = w1 (W (Proc.devRef .tc main_arg8)) := by
  after_results_simp
  rfl
theorem h1_bV (W : Valuation τ sig (Elt Ideal)) : StableHlo.after hostOps1 W (Proc.devRef .tc main_v156) = krow (b1 (W (Proc.devRef .tc main_arg9))) := by
  after_results_simp
  rfl
theorem h1_WrV (W : Valuation τ sig (Elt Ideal)) : StableHlo.after hostOps1 W (Proc.devRef .tc main_v158) = w1 (W (Proc.devRef .tc main_arg10)) := by
  after_results_simp
  rfl
theorem h1_WlL (W : Valuation τ sig (Elt Ideal)) : StableHlo.after hostOps1 W (Proc.devRef .tc main_v160) = w1 (W (Proc.devRef .tc main_arg5)) := by
  after_results_simp
  rfl
theorem h1_bL (W : Valuation τ sig (Elt Ideal)) : StableHlo.after hostOps1 W (Proc.devRef .tc main_v163) = krow (b1 (W (Proc.devRef .tc main_arg6))) := by
  after_results_simp
  rfl
theorem h1_WrL (W : Valuation τ sig (Elt Ideal)) : StableHlo.after hostOps1 W (Proc.devRef .tc main_v165) = w1 (W (Proc.devRef .tc main_arg7)) := by
  after_results_simp
  rfl

end Cert.KernelIdeal.HostChain

end
-- ==== Proof.KHost2a.lean ====
/-
  The host operations between two regions, read at the buffers the next region's row windows stage, from ANY
  contents W at the stretch's entry: each is the sum of the gathered rows of the previous layer's output over the
  degree column computed before the first region.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

theorem h2_mean_isa (W : Valuation τ sig (Elt Ideal)) : StableHlo.after hostOps2 W (Proc.devRef .tc main_v182) = Host.divf (sum500 (W (Proc.devRef .tc main_v166_0)) (W (Proc.devRef .tc main_arg11))) (broadcastInDim Cert.ReferenceIdeal.S50000x128 ![0, 1] Cert.ReferenceIdeal.Facts₀.bcast_S50000x1_S50000x128_0_1 (W (Proc.devRef .tc main_v10))) := by
  after_results_simp
  rfl
theorem h2_mean_rev (W : Valuation τ sig (Elt Ideal)) : StableHlo.after hostOps2 W (Proc.devRef .tc main_v198) = Host.divf (sum1M (W (Proc.devRef .tc main_v166_1)) (W (Proc.devRef .tc main_arg13))) (broadcastInDim Cert.ReferenceIdeal.S50000x128 ![0, 1] Cert.ReferenceIdeal.Facts₀.bcast_S50000x1_S50000x128_0_1 (W (Proc.devRef .tc main_v26))) := by
  after_results_simp
  rfl
theorem h2_mean_rel (W : Valuation τ sig (Elt Ideal)) : StableHlo.after hostOps2 W (Proc.devRef .tc main_v214) = Host.divf (sum1M (W (Proc.devRef .tc main_v166_0)) (W (Proc.devRef .tc main_arg12))) (broadcastInDim Cert.ReferenceIdeal.S50000x128 ![0, 1] Cert.ReferenceIdeal.Facts₀.bcast_S50000x1_S50000x128_0_1 (W (Proc.devRef .tc main_v18))) := by
  after_results_simp
  rfl
theorem h2_xp (W : Valuation τ sig (Elt Ideal)) : StableHlo.after hostOps2 W (Proc.devRef .tc main_v166_0) = (W (Proc.devRef .tc main_v166_0)) := by
  after_results_simp
theorem h2_xg (W : Valuation τ sig (Elt Ideal)) : StableHlo.after hostOps2 W (Proc.devRef .tc main_v166_1) = (W (Proc.devRef .tc main_v166_1)) := by
  after_results_simp

end Cert.KernelIdeal.HostChain

end
-- ==== Proof.KHost2b.lean ====
/-
  The host operations between two regions, read at the buffers the next region's weight and bias windows stage
  and at the buffers later stretches still read, from ANY contents W at the stretch's entry: the layer's matrices
  and bias rows out of the stacked parameters; the degree columns and the arguments pass through unchanged.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

theorem h2_WlI (W : Valuation τ sig (Elt Ideal)) : StableHlo.after hostOps2 W (Proc.devRef .tc main_v216) = w2 (W (Proc.devRef .tc main_arg2)) := by
  after_results_simp
  rfl
theorem h2_bI (W : Valuation τ sig (Elt Ideal)) : StableHlo.after hostOps2 W (Proc.devRef .tc main_v219) = krow (b2 (W (Proc.devRef .tc main_arg3))) := by
  after_results_simp
  rfl
theorem h2_WrI (W : Valuation τ sig (Elt Ideal)) : StableHlo.after hostOps2 W (Proc.devRef .tc main_v221) = w2 (W (Proc.devRef .tc main_arg4)) := by
  after_results_simp
  rfl
theorem h2_WlV (W : Valuation τ sig (Elt Ideal)) : StableHlo.after hostOps2 W (Proc.devRef .tc main_v223) = w2 (W (Proc.devRef .tc main_arg8)) := by
  after_results_simp
  rfl
theorem h2_bV (W : Valuation τ sig (Elt Ideal)) : StableHlo.after hostOps2 W (Proc.devRef .tc main_v226) = krow (b2 (W (Proc.devRef .tc main_arg9))) := by
  after_results_simp
  rfl
theorem h2_WrV (W : Valuation τ sig (Elt Ideal)) : StableHlo.after hostOps2 W (Proc.devRef .tc main_v228) = w2 (W (Proc.devRef .tc main_arg10)) := by
  after_results_simp
  rfl
theorem h2_WlL (W : Valuation τ sig (Elt Ideal)) : StableHlo.after hostOps2 W (Proc.devRef .tc main_v230) = w2 (W (Proc.devRef .tc main_arg5)) := by
  after_results_simp
  rfl
theorem h2_bL (W : Valuation τ sig (Elt Ideal)) : StableHlo.after hostOps2 W (Proc.devRef .tc main_v233) = krow (b2 (W (Proc.devRef .tc main_arg6))) := by
  after_results_simp
  rfl
theorem h2_WrL (W : Valuation τ sig (Elt Ideal)) : StableHlo.after hostOps2 W (Proc.devRef .tc main_v235) = w2 (W (Proc.devRef .tc main_arg7)) := by
  after_results_simp
  rfl

end Cert.KernelIdeal.HostChain

end
-- ==== Proof.KHost3.lean ====
/-
  The host operations before the scorer's region, read at the two buffers its windows stage, from ANY contents W
  at the stretch's entry: the rows of the last layer's two outputs that the queried edges' endpoints name.
-/
import proofs.«146278_j35390530519883_1_alg».proof.Proof.KernelRun
import proofs.«146278_j35390530519883_1_alg».proof.Proof.SpecHost
import proofs.«146278_j35390530519883_1_alg».proof.Proof.KArgs
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.Gnn.HostTerms

theorem h3_gp (W : Valuation τ sig (Elt Ideal)) : StableHlo.after hostOps3 W (Proc.devRef .tc main_v245) = rows500 (W (Proc.devRef .tc main_v236_0)) (src500 (W (Proc.devRef .tc main_arg14))) := by
  after_results_simp
  rfl
theorem h3_gg (W : Valuation τ sig (Elt Ideal)) : StableHlo.after hostOps3 W (Proc.devRef .tc main_v254) = rows500 (W (Proc.devRef .tc main_v236_1)) (dst500 (W (Proc.devRef .tc main_arg14))) := by
  after_results_simp
  rfl

end Cert.KernelIdeal.HostChain

end
-- ==== Proof.SpecBlock.lean ====
/-
  A convolution term, or a score, over a block of rows is the term over the whole arrays.

  Row p of a block of 2000 rows that is row P of the array, the weight matrices and the bias row whole:
  the two sums over the 128 columns and the bias entry are then the same extended reals, term by term.
  Likewise the inner product of two blocks' rows e that are the arrays' rows E.
-/
import proofs.«146278_j35390530519883_1_alg».proof.Proof.Spec

noncomputable section

namespace Cert.Gnn

open Idealize.ShloMosaic Idealize.ShloMosaic.ValueIdx
open scoped BigOperators

/-- One convolution term over blocks is the term over the arrays: the block's row p is the array's row P
    for both node arrays, the weights and the bias are the arrays themselves. -/
theorem sageAt_block {n : Nat} (A X : Mat n 128) (Wl Wr : Mat 128 128) (b : Mat 1 128)
    (a x : Mat 2000 128) (wl wr : Mat 128 128) (bb : Mat 1 128) (p : Fin 2000) (P : Fin n) (q : Fin 128)
    (ha : ∀ k, a (ix2 p k) = A (ix2 P k)) (hx : ∀ k, x (ix2 p k) = X (ix2 P k))
    (hwl : wl = Wl) (hwr : wr = Wr) (hb : bb = b) :
    sageAt a x wl wr bb p q = sageAt A X Wl Wr b P q := by
  subst hwl hwr hb
  unfold sageAt
  simp only [ha, hx]

/-- A score over blocks is the score over the arrays: both blocks' row e is the arrays' row E. -/
theorem scoreAt_block (P G : Mat 500000 128) (x0 x1 : Mat 10000 128) (e : Fin 10000) (E : Fin 500000)
    (h0 : ∀ k, x0 (ix2 e k) = P (ix2 E k)) (h1 : ∀ k, x1 (ix2 e k) = G (ix2 E k)) :
    Ideal.logistic (∑ k : Fin 128, x0 (ix2 e k) * x1 (ix2 e k)) = scoreAt P G E := by
  unfold scoreAt
  simp only [h0, h1]

end Cert.Gnn

end
-- ==== Proof.PayloadAt.lean ====
/-
  What the four kernels' bodies store, one entry at a time, at the ideal values.

  A layer kernel's body holds, per grid point, a block of 2000 rows of each node array, the six weight
  matrices whole and the three bias rows whole. Its format changes on the way into the matrix unit are the
  identity on extended reals, its same-shape casts are the identity, each matrix-unit product into a zero
  accumulator is the sum over the contracted coordinate, and the bias row is read at the entry's column.
  So at row p, column q of the block the first stored value is the (optionally rectified) sum of two
  convolution terms over the blocks, and the second is one convolution term: the textbook formula with the
  block's rows in place of the array's. The third layer's kernel has no rectifier. The scoring kernel holds a
  block of 10000 rows of each endpoint array: it multiplies entrywise, sums each row's 128 lanes, and takes the
  logistic function; at row e that is the logistic function of the inner product of the two rows e.
-/
import proofs.«146278_j35390530519883_1_alg».proof.Proof.Gen.KernelIdeal.Skeleton
import proofs.«146278_j35390530519883_1_alg».proof.Proof.Spec
import proofs.«146278_j35390530519883_1_alg».proof.Proof.LibDot
import Idealize.ShloMosaic.Lib.ValueLayout
import Idealize.ShloMosaic.Lib.Pipeline.Value

noncomputable section

namespace Cert.KernelIdeal.PayloadAt

open Cert.KernelIdeal Cert.KernelIdeal.Gen Idealize.ShloMosaic Idealize.ShloMosaic.ValueIdx
open scoped BigOperators

/-- The matrix unit's product of a block of 2000 rows with a 128 × 128 matrix, into a zero accumulator, at
    (p, q): the sum over the contracted coordinate. -/
theorem mm_at (A : FVec Ideal S2000x128 .bf16) (B : FVec Ideal S128x128 .bf16) (p : Fin 2000) (q : Fin 128) :
    matmul dot_S2000x128_S128x128_S2000x128_1_0_0_1_n_n none A B (constant S2000x128 .f32 0x00000000#32) (ix2 p q)
      = ∑ c : Fin 128, A (ix2 p c) * B (ix2 c q) :=
  Cert.LibDot.matmul_zero_apply dot_S2000x128_S128x128_S2000x128_1_0_0_1_n_n_wf none A B p q

/-- The bias row broadcast over the block's rows reads the row at the entry's column. -/
theorem bias_at (b : FVec Ideal S1x128 .f32) (p : Fin 2000) (q : Fin 128) :
    broadcastTo S2000x128 b broadcasts_S1x128_S2000x128 (ix2 p q) = b (ix2 (0 : Fin 1) q) :=
  broadcastTo_1b_ab_apply b broadcasts_S1x128_S2000x128 p q

/-- Region 0, first output: at (p, q) of the block, the rectified sum of the two convolution terms over the blocks. -/
theorem pay0_1_at (x0 x1 x2 : Vec Ideal S2000x128 .f32) (w5 w7 w8 w10 : Vec Ideal S128x128 .f32) (b6 b9 : Vec Ideal S1x128 .f32)
    (p : Fin 2000) (q : Fin 128) :
    k0_pay1 (k0_pay3 x0) (k0_pay4 x1) (k0_pay5 x2) (k0_pay8 w5) (k0_pay9 w7) (k0_pay10 w8) (k0_pay11 w10) (k0_pay14 b6) b9 (ix2 p q)
      = Cert.Gnn.act true (Cert.Gnn.sageAt x0 x1 w5 w7 b6 p q + Cert.Gnn.sageAt x2 x1 w8 w10 b9 p q) := by
  unfold k0_pay1 k0_pay3 k0_pay4 k0_pay5 k0_pay8 k0_pay9 k0_pay10 k0_pay11 k0_pay14
  simp only [shapeCast_self, select_apply, cmpf_apply, mulf_apply, addf_apply, broadcast_apply, mm_at, bias_at, truncf_apply]
  rfl

/-- Region 0, second output: at (p, q) of the block, the rectified convolution term over the blocks. -/
theorem pay0_2_at (x3 x4 : Vec Ideal S2000x128 .f32) (w11 w13 : Vec Ideal S128x128 .f32) (b12 : Vec Ideal S1x128 .f32)
    (p : Fin 2000) (q : Fin 128) :
    k0_pay2 (k0_pay6 x3) (k0_pay7 x4) (k0_pay12 w11) (k0_pay13 w13) b12 (ix2 p q)
      = Cert.Gnn.act true (Cert.Gnn.sageAt x3 x4 w11 w13 b12 p q) := by
  unfold k0_pay2 k0_pay6 k0_pay7 k0_pay12 k0_pay13
  simp only [shapeCast_self, select_apply, cmpf_apply, mulf_apply, addf_apply, broadcast_apply, mm_at, bias_at, truncf_apply]
  rfl

/-- Region 1, first output: at (p, q) of the block, the rectified sum of the two convolution terms over the blocks. -/
theorem pay1_1_at (x0 x1 x2 : Vec Ideal S2000x128 .f32) (w5 w7 w8 w10 : Vec Ideal S128x128 .f32) (b6 b9 : Vec Ideal S1x128 .f32)
    (p : Fin 2000) (q : Fin 128) :
    k1_pay1 (k1_pay3 x0) (k1_pay4 x1) (k1_pay5 x2) (k1_pay8 w5) (k1_pay9 w7) (k1_pay10 w8) (k1_pay11 w10) (k1_pay14 b6) b9 (ix2 p q)
      = Cert.Gnn.act true (Cert.Gnn.sageAt x0 x1 w5 w7 b6 p q + Cert.Gnn.sageAt x2 x1 w8 w10 b9 p q) := by
  unfold k1_pay1 k1_pay3 k1_pay4 k1_pay5 k1_pay8 k1_pay9 k1_pay10 k1_pay11 k1_pay14
  simp only [shapeCast_self, select_apply, cmpf_apply, mulf_apply, addf_apply, broadcast_apply, mm_at, bias_at, truncf_apply]
  rfl

/-- Region 1, second output: at (p, q) of the block, the rectified convolution term over the blocks. -/
theorem pay1_2_at (x3 x4 : Vec Ideal S2000x128 .f32) (w11 w13 : Vec Ideal S128x128 .f32) (b12 : Vec Ideal S1x128 .f32)
    (p : Fin 2000) (q : Fin 128) :
    k1_pay2 (k1_pay6 x3) (k1_pay7 x4) (k1_pay12 w11) (k1_pay13 w13) b12 (ix2 p q)
      = Cert.Gnn.act true (Cert.Gnn.sageAt x3 x4 w11 w13 b12 p q) := by
  unfold k1_pay2 k1_pay6 k1_pay7 k1_pay12 k1_pay13
  simp only [shapeCast_self, select_apply, cmpf_apply, mulf_apply, addf_apply, broadcast_apply, mm_at, bias_at, truncf_apply]
  rfl

/-- Region 2, first output: at (p, q) of the block, the sum of the two convolution terms over the blocks. -/
theorem pay2_1_at (x0 x1 x2 : Vec Ideal S2000x128 .f32) (w5 w7 w8 w10 : Vec Ideal S128x128 .f32) (b6 b9 : Vec Ideal S1x128 .f32)
    (p : Fin 2000) (q : Fin 128) :
    k2_pay1 (k2_pay3 x0) (k2_pay4 x1) (k2_pay5 x2) (k2_pay8 w5) (k2_pay9 w7) (k2_pay10 w8) (k2_pay11 w10) (k2_pay14 b6) b9 (ix2 p q)
      = Cert.Gnn.act false (Cert.Gnn.sageAt x0 x1 w5 w7 b6 p q + Cert.Gnn.sageAt x2 x1 w8 w10 b9 p q) := by
  unfold k2_pay1 k2_pay3 k2_pay4 k2_pay5 k2_pay8 k2_pay9 k2_pay10 k2_pay11 k2_pay14
  simp only [shapeCast_self, select_apply, cmpf_apply, mulf_apply, addf_apply, broadcast_apply, mm_at, bias_at, truncf_apply]
  rfl

/-- Region 2, second output: at (p, q) of the block, the convolution term over the blocks. -/
theorem pay2_2_at (x3 x4 : Vec Ideal S2000x128 .f32) (w11 w13 : Vec Ideal S128x128 .f32) (b12 : Vec Ideal S1x128 .f32)
    (p : Fin 2000) (q : Fin 128) :
    k2_pay2 (k2_pay6 x3) (k2_pay7 x4) (k2_pay12 w11) (k2_pay13 w13) b12 (ix2 p q)
      = Cert.Gnn.act false (Cert.Gnn.sageAt x3 x4 w11 w13 b12 p q) := by
  unfold k2_pay2 k2_pay6 k2_pay7 k2_pay12 k2_pay13
  simp only [shapeCast_self, select_apply, cmpf_apply, mulf_apply, addf_apply, broadcast_apply, mm_at, bias_at, truncf_apply]
  rfl

/-- The source index over row e with column k inserted is (e, k). -/
theorem lift_row (h : S10000x128.Reduces [1] S10000) (e : Fin 10000) (k : Fin 128) :
    h.lift (ix1 e) k = ix2 e k := by
  funext c; apply Fin.ext
  match c with
  | ⟨0, _⟩ => rfl
  | ⟨1, _⟩ => rfl

/-- The lane sum of a block of 10000 rows, at row e: the sum over the 128 columns. -/
theorem rowsum_at (src : FVec Ideal S10000x128 .f32) (hacc : (0x00000000#32 : BitVec 32) = 0x00000000#32) (e : Fin 10000) :
    multiReduction .add [1] S10000 src 0x00000000#32 reduces_S10000x128_S10000 (.inl rfl) hacc (ix1 e)
      = ∑ k : Fin 128, src (ix2 e k) := by
  refine (Ideal.multiReduction_add_single src 0x00000000#32 reduces_S10000x128_S10000 (.inl rfl) hacc (ix1 e)).trans ?_
  exact Finset.sum_congr rfl fun k _ => congrArg src (lift_row _ e k)

/-- Region 3: at row e of the block (its one column), the logistic function of the inner product of the two
    blocks' rows e. -/
theorem pay3_at (x0 x1 : Vec Ideal S10000x128 .f32) (e : Fin 10000) (u : Fin 1) :
    k3_pay1 x0 x1 (ix2 e u) = Ideal.logistic (∑ k : Fin 128, x0 (ix2 e k) * x1 (ix2 e k)) := by
  unfold k3_pay1
  simp only [shapeCast_self]
  show Ideal.logistic (shapeCast S10000x1 (multiReduction (F := Ideal) .add [1] S10000 (mulf x0 x1) 0x00000000#32 reduces_S10000x128_S10000 (.inl rfl) rfl) shapeCasts_S10000_S10000x1 (ix2 e u)) = _
  refine congrArg Ideal.logistic ?_
  refine (shapeCast_apply _ shapeCasts_S10000_S10000x1 (ix2 e u) (ix1 e) ?_).trans ?_
  · rw [Shape.rowMajor_val_one, Shape.rowMajor_val_two]
    show e.val = e.val * 1 + u.val
    omega
  · exact rowsum_at (mulf x0 x1) rfl e

end Cert.KernelIdeal.PayloadAt

end
-- ==== Proof.Region0.lean ====
/-
  The first layer's kernel, read as two whole arrays.

  The region runs over 25 grid points. At point t each of the five node arrays [50000, 128] is windowed at rows
  t · 2000 … t · 2000 + 1999, the six weight matrices [128, 128] and the three bias rows [1, 128] are windowed
  whole, and the two outputs' blocks of 2000 rows are written back at every point. The body's stored values at
  (p, q) of the block are the layer's formula over the blocks; a block's row p is its array's row t · 2000 + p;
  row r of an output is covered by point r / 2000. So each output array after the region is the layer's formula
  of the arrays the region finds, entry by entry.
-/
import proofs.«146278_j35390530519883_1_alg».proof.Proof.Gen.KernelIdeal.Frame
import proofs.«146278_j35390530519883_1_alg».proof.Proof.Spec
import proofs.«146278_j35390530519883_1_alg».proof.Proof.SpecBlock
import proofs.«146278_j35390530519883_1_alg».proof.Proof.PayloadAt
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer load or store, however spelt. -/
theorem hz : (![0, 0] : Fin 2 → Nat) = fun _ => 0 := funext fun a => by fin_cases a <;> rfl

/-! ## The printed index maps, decided over the 25 grid points: a node array's window is at block (t, 0) at point t,
    a weight matrix's or a bias row's at block (0, 0) at every point -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = t.val ∧ win0_14.index t (1 : Fin 2) = 0 :=
  (by decide +kernel : ∀ t : Fin grid0.N, _)
theorem idx0_15 : ∀ t : Fin cfg0.N, win0_15.index t (0 : Fin 2) = t.val ∧ win0_15.index t (1 : Fin 2) = 0 :=
  (by decide +kernel : ∀ t : Fin grid0.N, _)

/-- Row t · 2000 + p of a node array: the row of the array that row p of point t's block is. -/
def rowOf (t : Fin cfg0.N) (p : Fin 2000) : Fin 50000 :=
  ⟨t.val * 2000 + p.val, by have h := t.isLt; have hN : cfg0.N = 25 := N_0; have := p.isLt; omega⟩

theorem rowOf_val (t : Fin cfg0.N) (p : Fin 2000) : (rowOf t p).val = t.val * 2000 + p.val := rfl

/-! ## Each input block read off its array -/

/-- Window 0's block at point t is rows t · 2000 … t · 2000 + 1999 of its array. -/
theorem rows0_0 (c : Dev nD) (t : Fin cfg0.N) (p : Fin 2000) (k : Fin 128) :
    (((cfg0.win 0).blk t).view.read (Elt Ideal) (V c (Pipeline.arrRef spec0 0)) : Vec Ideal S2000x128 .f32) (ix2 p k)
      = (V c (Pipeline.arrRef spec0 0) : S50000x128.Idx → EReal) (ix2 (rowOf t p) k) := by
  obtain ⟨e0, e1⟩ := idx0_0 t
  show (V c (Pipeline.arrRef spec0 0) : S50000x128.Idx → EReal) (((cfg0.win 0).blk t).view.emb (ix2 p k)) = _
  refine congrArg (V c (Pipeline.arrRef spec0 0) : S50000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega
/-- Window 1's block at point t is rows t · 2000 … t · 2000 + 1999 of its array. -/
theorem rows0_1 (c : Dev nD) (t : Fin cfg0.N) (p : Fin 2000) (k : Fin 128) :
    (((cfg0.win 1).blk t).view.read (Elt Ideal) (V c (Pipeline.arrRef spec0 1)) : Vec Ideal S2000x128 .f32) (ix2 p k)
      = (V c (Pipeline.arrRef spec0 1) : S50000x128.Idx → EReal) (ix2 (rowOf t p) k) := by
  obtain ⟨e0, e1⟩ := idx0_1 t
  show (V c (Pipeline.arrRef spec0 1) : S50000x128.Idx → EReal) (((cfg0.win 1).blk t).view.emb (ix2 p k)) = _
  refine congrArg (V c (Pipeline.arrRef spec0 1) : S50000x128.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega
/-- Window 2's block at point t is rows t · 2000 … t · 2000 + 1999 of its array. -/
theorem rows0_2 (c : Dev nD) (t : Fin cfg0.N) (p : Fin 2000) (k : Fin 128) :
    (((cfg0.win 2).blk t).view.read (Elt Ideal) (V c (Pipeline.arrRef spec0 2)) : Vec Ideal S2000x128 .f32) (ix2 p k)
      = (V c (Pipeline.arrRef spec0 2) : S50000x128.Idx → EReal) (ix2 (rowOf t p) k) := by
  obtain ⟨e0, e1⟩ := idx0_2 t
  show (V c (Pipeline.arrRef spec0 2) : S50000x128.Idx → EReal) (((cfg0.win 2).blk t).view.emb (ix2 p k)) = _
  refine congrArg (V c (Pipeline.arrRef spec0 2) : S50000x128.Idx → EReal) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega
/-- Window 3's block at point t is rows t · 2000 … t · 2000 + 1999 of its array. -/
theorem rows0_3 (c : Dev nD) (t : Fin cfg0.N) (p : Fin 2000) (k : Fin 128) :
    (((cfg0.win 3).blk t).view.read (Elt Ideal) (V c (Pipeline.arrRef spec0 3)) : Vec Ideal S2000x128 .f32) (ix2 p k)
      = (V c (Pipeline.arrRef spec0 3) : S50000x128.Idx → EReal) (ix2 (rowOf t p) k) := by
  obtain ⟨e0, e1⟩ := idx0_3 t
  show (V c (Pipeline.arrRef spec0 3) : S50000x128.Idx → EReal) (((cfg0.win 3).blk t).view.emb (ix2 p k)) = _
  refine congrArg (V c (Pipeline.arrRef spec0 3) : S50000x128.Idx → EReal) (funext fun a => Fin.ext ?_)
  match a with
  | ⟨0, _⟩ => show win0_3.index t (0 : Fin 2) * 2000 + 1 * p.val = t.val * 2000 + p.val; rw [e0]; omega
  | ⟨1, _⟩ => show win0_3.index t (1 : Fin 2) * 128 + 1 * k.val = k.val; rw [e1]; omega
/-- Window 4's block at point t is rows t · 2000 … t · 2000 + 1999 of its array. -/
theorem rows0_4 (c : Dev nD) (t : Fin cfg0.N) (p : Fin 2000) (k : Fin 128) :
    (((cfg0.win 4).blk t).view.read (Elt Ideal) (V c (Pipeline.arrRef spec0 4)) : Vec Ideal S2000x128 .f32) (ix2 p k)
      = (V c (Pipeline.arrRef spec0 4) : S50000x128.Idx → EReal) (ix2 (rowOf t p) k) := by
  obtain ⟨e0, e1⟩ := idx0_4 t
  show (V c (Pipeline.arrRef spec0 4) : S50000x128.Idx → EReal) (((cfg0.win 4).blk t).view.emb (ix2 p k)) = _
  refine congrArg (V c (Pipeline.arrRef spec0 4) : S50000x128.Idx → EReal) (funext fun a => Fin.ext ?_)
  match a with
  | ⟨0, _⟩ => show win0_4.index t (0 : Fin 2) * 2000 + 1 * p.val = t.val * 2000 + p.val; rw [e0]; omega
  | ⟨1, _⟩ => show win0_4.index t (1 : Fin 2) * 128 + 1 * k.val = k.val; rw [e1]; omega
/-- Window 5's block at every point is its whole array. -/
theorem whole0_5 (c : Dev nD) (t : Fin cfg0.N) :
    (((cfg0.win 5).blk t).view.read (Elt Ideal) (V c (Pipeline.arrRef spec0 5)) : Vec Ideal S128x128 .f32)
      = (V c (Pipeline.arrRef spec0 5) : S128x128.Idx → EReal) := by
  obtain ⟨e0, e1⟩ := idx0_5 t
  funext y
  show (V c (Pipeline.arrRef spec0 5) : S128x128.Idx → EReal) (((cfg0.win 5).blk t).view.emb y) = _
  refine congrArg (V c (Pipeline.arrRef spec0 5) : S128x128.Idx → EReal) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega
/-- Window 7's block at every point is its whole array. -/
theorem whole0_7 (c : Dev nD) (t : Fin cfg0.N) :
    (((cfg0.win 7).blk t).view.read (Elt Ideal) (V c (Pipeline.arrRef spec0 7)) : Vec Ideal S128x128 .f32)
      = (V c (Pipeline.arrRef spec0 7) : S128x128.Idx → EReal) := by
  obtain ⟨e0, e1⟩ := idx0_7 t
  funext y
  show (V c (Pipeline.arrRef spec0 7) : S128x128.Idx → EReal) (((cfg0.win 7).blk t).view.emb y) = _
  refine congrArg (V c (Pipeline.arrRef spec0 7) : S128x128.Idx → EReal) (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega
/-- Window 8's block at every point is its whole array. -/
theorem whole0_8 (c : Dev nD) (t : Fin cfg0.N) :
    (((cfg0.win 8).blk t).view.read (Elt Ideal) (V c (Pipeline.arrRef spec0 8)) : Vec Ideal S128x128 .f32)
      = (V c (Pipeline.arrRef spec0 8) : S128x128.Idx → EReal) := by
  obtain ⟨e0, e1⟩ := idx0_8 t
  funext y
  show (V c (Pipeline.arrRef spec0 8) : S128x128.Idx → EReal) (((cfg0.win 8).blk t).view.emb y) = _
  refine congrArg (V c (Pipeline.arrRef spec0 8) : S128x128.Idx → EReal) (funext fun a => Fin.ext ?_)
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega
/-- Window 10's block at every point is its whole array. -/
theorem whole0_10 (c : Dev nD) (t : Fin cfg0.N) :
    (((cfg0.win 10).blk t).view.read (Elt Ideal) (V c (Pipeline.arrRef spec0 10)) : Vec Ideal S128x128 .f32)
      = (V c (Pipeline.arrRef spec0 10) : S128x128.Idx → EReal) := by
  obtain ⟨e0, e1⟩ := idx0_10 t
  funext y
  show (V c (Pipeline.arrRef spec0 10) : S128x128.Idx → EReal) (((cfg0.win 10).blk t).view.emb y) = _
  refine congrArg (V c (Pipeline.arrRef spec0 10) : S128x128.Idx → EReal) (funext fun a => Fin.ext ?_)
  match a with
  | ⟨0, _⟩ => show win0_10.index t (0 : Fin 2) * 128 + 1 * (y 0).val = (y 0).val; rw [e0]; omega
  | ⟨1, _⟩ => show win0_10.index t (1 : Fin 2) * 128 + 1 * (y 1).val = (y 1).val; rw [e1]; omega
/-- Window 11's block at every point is its whole array. -/
theorem whole0_11 (c : Dev nD) (t : Fin cfg0.N) :
    (((cfg0.win 11).blk t).view.read (Elt Ideal) (V c (Pipeline.arrRef spec0 11)) : Vec Ideal S128x128 .f32)
      = (V c (Pipeline.arrRef spec0 11) : S128x128.Idx → EReal) := by
  obtain ⟨e0, e1⟩ := idx0_11 t
  funext y
  show (V c (Pipeline.arrRef spec0 11) : S128x128.Idx → EReal) (((cfg0.win 11).blk t).view.emb y) = _
  refine congrArg (V c (Pipeline.arrRef spec0 11) : S128x128.Idx → EReal) (funext fun a => Fin.ext ?_)
  match a with
  | ⟨0, _⟩ => show win0_11.index t (0 : Fin 2) * 128 + 1 * (y 0).val = (y 0).val; rw [e0]; omega
  | ⟨1, _⟩ => show win0_11.index t (1 : Fin 2) * 128 + 1 * (y 1).val = (y 1).val; rw [e1]; omega
/-- Window 13's block at every point is its whole array. -/
theorem whole0_13 (c : Dev nD) (t : Fin cfg0.N) :
    (((cfg0.win 13).blk t).view.read (Elt Ideal) (V c (Pipeline.arrRef spec0 13)) : Vec Ideal S128x128 .f32)
      = (V c (Pipeline.arrRef spec0 13) : S128x128.Idx → EReal) := by
  obtain ⟨e0, e1⟩ := idx0_13 t
  funext y
  show (V c (Pipeline.arrRef spec0 13) : S128x128.Idx → EReal) (((cfg0.win 13).blk t).view.emb y) = _
  refine congrArg (V c (Pipeline.arrRef spec0 13) : S128x128.Idx → EReal) (funext fun a => Fin.ext ?_)
  match a with
  | ⟨0, _⟩ => show win0_13.index t (0 : Fin 2) * 128 + 1 * (y 0).val = (y 0).val; rw [e0]; omega
  | ⟨1, _⟩ => show win0_13.index t (1 : Fin 2) * 128 + 1 * (y 1).val = (y 1).val; rw [e1]; omega
/-- Window 6's block at every point is its whole array. -/
theorem whole0_6 (c : Dev nD) (t : Fin cfg0.N) :
    (((cfg0.win 6).blk t).view.read (Elt Ideal) (V c (Pipeline.arrRef spec0 6)) : Vec Ideal S1x128 .f32)
      = (V c (Pipeline.arrRef spec0 6) : S1x128.Idx → EReal) := by
  obtain ⟨e0, e1⟩ := idx0_6 t
  funext y
  show (V c (Pipeline.arrRef spec0 6) : S1x128.Idx → EReal) (((cfg0.win 6).blk t).view.emb y) = _
  refine congrArg (V c (Pipeline.arrRef spec0 6) : S1x128.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega
/-- Window 9's block at every point is its whole array. -/
theorem whole0_9 (c : Dev nD) (t : Fin cfg0.N) :
    (((cfg0.win 9).blk t).view.read (Elt Ideal) (V c (Pipeline.arrRef spec0 9)) : Vec Ideal S1x128 .f32)
      = (V c (Pipeline.arrRef spec0 9) : S1x128.Idx → EReal) := by
  obtain ⟨e0, e1⟩ := idx0_9 t
  funext y
  show (V c (Pipeline.arrRef spec0 9) : S1x128.Idx → EReal) (((cfg0.win 9).blk t).view.emb y) = _
  refine congrArg (V c (Pipeline.arrRef spec0 9) : S1x128.Idx → EReal) (funext fun a => Fin.ext ?_)
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega
/-- Window 12's block at every point is its whole array. -/
theorem whole0_12 (c : Dev nD) (t : Fin cfg0.N) :
    (((cfg0.win 12).blk t).view.read (Elt Ideal) (V c (Pipeline.arrRef spec0 12)) : Vec Ideal S1x128 .f32)
      = (V c (Pipeline.arrRef spec0 12) : S1x128.Idx → EReal) := by
  obtain ⟨e0, e1⟩ := idx0_12 t
  funext y
  show (V c (Pipeline.arrRef spec0 12) : S1x128.Idx → EReal) (((cfg0.win 12).blk t).view.emb y) = _
  refine congrArg (V c (Pipeline.arrRef spec0 12) : S1x128.Idx → EReal) (funext fun a => Fin.ext ?_)
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

/-! ## Where an output block sits in its array, and the cover -/

/-- Entry (p, q) of output window 14's block at point t is entry (t · 2000 + p, q) of its array. -/
theorem emb0_14 (t : Fin cfg0.N) (p : Fin 2000) (q : Fin 128) :
    ((cfg0.win 14).blk t).view.emb (ix2 p q) = (ix2 (rowOf t p) q : S50000x128.Idx) := by
  obtain ⟨e0, e1⟩ := idx0_14 t
  funext a; apply Fin.ext
  match a with
  | ⟨0, _⟩ => show win0_14.index t (0 : Fin 2) * 2000 + 1 * p.val = t.val * 2000 + p.val; rw [e0]; omega
  | ⟨1, _⟩ => show win0_14.index t (1 : Fin 2) * 128 + 1 * q.val = q.val; rw [e1]; omega

/-- An index of the array is in point t's block of output window 14 iff each coordinate is in the block's range. -/
theorem mem_blk0_14 (t : Fin cfg0.N) (i : S50000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v96_0).slice (win0_14.rect t)).set ↔ _
  rw [View.set_slice_whole, Rect.mem_set_unit]
  exact Iff.rfl

/-- Row r of output window 14's array is in the block of point r / 2000, which is written back. -/
theorem cover0_14 (i : S50000x128.Idx) :
    ∃ t : Fin cfg0.N, (cfg0.win 14).flush t = true ∧ i ∈ ((cfg0.win 14).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨e0, e1⟩ := idx0_14 ⟨(i 0).val / 2000, hlt⟩
  refine ⟨⟨(i 0).val / 2000, hlt⟩, flush0_14 _, ?_⟩
  rw [mem_blk0_14]
  intro a
  match a with
  | ⟨0, _⟩ =>
    show win0_14.index ⟨(i 0).val / 2000, hlt⟩ (0 : Fin 2) * 2000 ≤ (i 0).val ∧ (i 0).val < win0_14.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_14.index ⟨(i 0).val / 2000, hlt⟩ (1 : Fin 2) * 128 ≤ (i 1).val ∧ (i 1).val < win0_14.index ⟨(i 0).val / 2000, hlt⟩ (1 : Fin 2) * 128 + 128
    rw [e1]; omega

/-- Entry (p, q) of output window 15's block at point t is entry (t · 2000 + p, q) of its array. -/
theorem emb0_15 (t : Fin cfg0.N) (p : Fin 2000) (q : Fin 128) :
    ((cfg0.win 15).blk t).view.emb (ix2 p q) = (ix2 (rowOf t p) q : S50000x128.Idx) := by
  obtain ⟨e0, e1⟩ := idx0_15 t
  funext a; apply Fin.ext
  match a with
  | ⟨0, _⟩ => show win0_15.index t (0 : Fin 2) * 2000 + 1 * p.val = t.val * 2000 + p.val; rw [e0]; omega
  | ⟨1, _⟩ => show win0_15.index t (1 : Fin 2) * 128 + 1 * q.val = q.val; rw [e1]; omega

/-- An index of the array is in point t's block of output window 15 iff each coordinate is in the block's range. -/
theorem mem_blk0_15 (t : Fin cfg0.N) (i : S50000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v96_1).slice (win0_15.rect t)).set ↔ _
  rw [View.set_slice_whole, Rect.mem_set_unit]
  exact Iff.rfl

/-- Row r of output window 15's array is in the block of point r / 2000, which is written back. -/
theorem cover0_15 (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨e0, e1⟩ := idx0_15 ⟨(i 0).val / 2000, hlt⟩
  refine ⟨⟨(i 0).val / 2000, hlt⟩, flush0_15 _, ?_⟩
  rw [mem_blk0_15]
  intro a
  match a with
  | ⟨0, _⟩ =>
    show win0_15.index ⟨(i 0).val / 2000, hlt⟩ (0 : Fin 2) * 2000 ≤ (i 0).val ∧ (i 0).val < win0_15.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_15.index ⟨(i 0).val / 2000, hlt⟩ (1 : Fin 2) * 128 ≤ (i 1).val ∧ (i 1).val < win0_15.index ⟨(i 0).val / 2000, hlt⟩ (1 : Fin 2) * 128 + 128
    rw [e1]; omega

/-! ## The two outputs as whole-array functions of the region's input arrays -/

/-- The first output: the new rows of the node type two edge types arrive at, of the arrays the region finds. -/
def newP0 (c : Dev nD) : Cert.Gnn.Mat 50000 128 :=
  Cert.Gnn.newP true (V c (Pipeline.arrRef spec0 0)) (V c (Pipeline.arrRef spec0 1)) (V c (Pipeline.arrRef spec0 2))
    (V c (Pipeline.arrRef spec0 5)) (V c (Pipeline.arrRef spec0 7)) (V c (Pipeline.arrRef spec0 8)) (V c (Pipeline.arrRef spec0 10))
    (V c (Pipeline.arrRef spec0 6)) (V c (Pipeline.arrRef spec0 9))

/-- The second output: the new rows of the node type one edge type arrives at. -/
def newG0 (c : Dev nD) : Cert.Gnn.Mat 50000 128 :=
  Cert.Gnn.newG true (V c (Pipeline.arrRef spec0 3)) (V c (Pipeline.arrRef spec0 4))
    (V c (Pipeline.arrRef spec0 11)) (V c (Pipeline.arrRef spec0 13)) (V c (Pipeline.arrRef spec0 12))

/-! ## What a point writes back is its block of the whole-array function -/

/-- Point t writes back, to the first output's array, block t of `newP0` of the arrays the region finds: the body's
    stored value at (p, q) is the formula over the blocks, row p of each node block is row t · 2000 + p of its
    array, and the weights and biases are whole. -/
theorem flushed0_14_eq (c : Dev nD) (t : Fin cfg0.N) :
    (dat0 V c).flushed 14 t = ((cfg0.win 14).blk t).view.read (Elt Ideal) (newP0 V c) := by
  show (cfg0.win 14).cut (grid0.coords t) ((dat0 V c).after 14 t) = _
  rw [after0_14]
  unfold out0_14
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  show k0_pay1 (k0_pay3 (iblk0 V c 0 t)) (k0_pay4 (iblk0 V c 1 t)) (k0_pay5 (iblk0 V c 2 t)) (k0_pay8 (iblk0 V c 5 t)) (k0_pay9 (iblk0 V c 7 t)) (k0_pay10 (iblk0 V c 8 t)) (k0_pay11 (iblk0 V c 10 t)) (k0_pay14 (iblk0 V c 6 t)) (iblk0 V c 9 t) (ix2 p q)
      = newP0 V c (((cfg0.win 14).blk t).view.emb (ix2 p q))
  rw [emb0_14 t p q]
  refine (PayloadAt.pay0_1_at (iblk0 V c 0 t) (iblk0 V c 1 t) (iblk0 V c 2 t) (iblk0 V c 5 t) (iblk0 V c 7 t) (iblk0 V c 8 t) (iblk0 V c 10 t) (iblk0 V c 6 t) (iblk0 V c 9 t) p q).trans ?_
  show Cert.Gnn.act true (_ + _) = Cert.Gnn.act true (Cert.Gnn.sageAt _ _ _ _ _ (rowOf t p) q + Cert.Gnn.sageAt _ _ _ _ _ (rowOf t p) q)
  refine congrArg (Cert.Gnn.act true) (congrArg₂ (· + ·) ?_ ?_)
  · exact Cert.Gnn.sageAt_block _ _ _ _ _ _ _ _ _ _ p (rowOf t p) q (rows0_0 V c t p) (rows0_1 V c t p) (whole0_5 V c t) (whole0_7 V c t) (whole0_6 V c t)
  · exact Cert.Gnn.sageAt_block _ _ _ _ _ _ _ _ _ _ p (rowOf t p) q (rows0_2 V c t p) (rows0_1 V c t p) (whole0_8 V c t) (whole0_10 V c t) (whole0_9 V c t)

/-- Point t writes back, to the second output's array, block t of `newG0` of the arrays the region finds. -/
theorem flushed0_15_eq (c : Dev nD) (t : Fin cfg0.N) :
    (dat0 V c).flushed 15 t = ((cfg0.win 15).blk t).view.read (Elt Ideal) (newG0 V c) := by
  show (cfg0.win 15).cut (grid0.coords t) ((dat0 V c).after 15 t) = _
  rw [after0_15]
  unfold out0_15
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  show k0_pay2 (k0_pay6 (iblk0 V c 3 t)) (k0_pay7 (iblk0 V c 4 t)) (k0_pay12 (iblk0 V c 11 t)) (k0_pay13 (iblk0 V c 13 t)) (iblk0 V c 12 t) (ix2 p q)
      = newG0 V c (((cfg0.win 15).blk t).view.emb (ix2 p q))
  rw [emb0_15 t p q]
  refine (PayloadAt.pay0_2_at (iblk0 V c 3 t) (iblk0 V c 4 t) (iblk0 V c 11 t) (iblk0 V c 13 t) (iblk0 V c 12 t) p q).trans ?_
  show Cert.Gnn.act true _ = Cert.Gnn.act true (Cert.Gnn.sageAt _ _ _ _ _ (rowOf t p) q)
  refine congrArg (Cert.Gnn.act true) ?_
  exact Cert.Gnn.sageAt_block _ _ _ _ _ _ _ _ _ _ p (rowOf t p) q (rows0_3 V c t p) (rows0_4 V c t p) (whole0_11 V c t) (whole0_13 V c t) (whole0_12 V c t)

/-! ## The arrays after the region -/

/-- The first output array after the region: every row is in the block of the point that wrote it back, so the
    array is the whole-array function. -/
theorem final0_14 (c : Dev nD) : (dat0 V c).arrAt 14 cfg0.N = newP0 V c :=
  (dat0 V c).arrAt_eq_of_cover 14 (newP0 V c) (fun t _ => flushed0_14_eq V c t) cover0_14

/-- The second output array after the region. -/
theorem final0_15 (c : Dev nD) : (dat0 V c).arrAt 15 cfg0.N = newG0 V c :=
  (dat0 V c).arrAt_eq_of_cover 15 (newG0 V c) (fun t _ => flushed0_15_eq V c t) cover0_15

/-- The first output array after the region, as the layer's formula of the arrays the region finds:
    windows 0, 1, 2 the neighbour means and own rows, 5, 7, 8, 10 the weights, 6, 9 the biases. -/
theorem arr0_14 (c : Dev nD) :
    (dat0 (F := Ideal) V c).arrAt 14 cfg0.N
      = Cert.Gnn.newP true (V c (Pipeline.arrRef spec0 0)) (V c (Pipeline.arrRef spec0 1)) (V c (Pipeline.arrRef spec0 2))
          (V c (Pipeline.arrRef spec0 5)) (V c (Pipeline.arrRef spec0 7)) (V c (Pipeline.arrRef spec0 8)) (V c (Pipeline.arrRef spec0 10))
          (V c (Pipeline.arrRef spec0 6)) (V c (Pipeline.arrRef spec0 9)) :=
  final0_14 V c

/-- The second output array after the region: windows 3, 4 the neighbour mean and own rows, 11, 13 the weights,
    12 the bias. -/
theorem arr0_15 (c : Dev nD) :
    (dat0 (F := Ideal) V c).arrAt 15 cfg0.N
      = Cert.Gnn.newG true (V c (Pipeline.arrRef spec0 3)) (V c (Pipeline.arrRef spec0 4))
          (V c (Pipeline.arrRef spec0 11)) (V c (Pipeline.arrRef spec0 13)) (V c (Pipeline.arrRef spec0 12)) :=
  final0_15 V c

end Cert.KernelIdeal.Region0

end
-- ==== Proof.Region1.lean ====
/-
  The second layer's kernel, read as two whole arrays.

  The region runs over 25 grid points. At point t each of the five node arrays [50000, 128] is windowed at rows
  t · 2000 … t · 2000 + 1999, the six weight matrices [128, 128] and the three bias rows [1, 128] are windowed
  whole, and the two outputs' blocks of 2000 rows are written back at every point. The body's stored values at
  (p, q) of the block are the layer's formula over the blocks; a block's row p is its array's row t · 2000 + p;
  row r of an output is covered by point r / 2000. So each output array after the region is the layer's formula
  of the arrays the region finds, entry by entry.
-/
import proofs.«146278_j35390530519883_1_alg».proof.Proof.Gen.KernelIdeal.Frame
import proofs.«146278_j35390530519883_1_alg».proof.Proof.Spec
import proofs.«146278_j35390530519883_1_alg».proof.Proof.SpecBlock
import proofs.«146278_j35390530519883_1_alg».proof.Proof.PayloadAt
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer load or store, however spelt. -/
theorem hz : (![0, 0] : Fin 2 → Nat) = fun _ => 0 := funext fun a => by fin_cases a <;> rfl

/-! ## The printed index maps, decided over the 25 grid points: a node array's window is at block (t, 0) at point t,
    a weight matrix's or a bias row's at block (0, 0) at every point -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = t.val ∧ win1_14.index t (1 : Fin 2) = 0 :=
  (by decide +kernel : ∀ t : Fin grid1.N, _)
theorem idx1_15 : ∀ t : Fin cfg1.N, win1_15.index t (0 : Fin 2) = t.val ∧ win1_15.index t (1 : Fin 2) = 0 :=
  (by decide +kernel : ∀ t : Fin grid1.N, _)

/-- Row t · 2000 + p of a node array: the row of the array that row p of point t's block is. -/
def rowOf (t : Fin cfg1.N) (p : Fin 2000) : Fin 50000 :=
  ⟨t.val * 2000 + p.val, by have h := t.isLt; have hN : cfg1.N = 25 := N_1; have := p.isLt; omega⟩

theorem rowOf_val (t : Fin cfg1.N) (p : Fin 2000) : (rowOf t p).val = t.val * 2000 + p.val := rfl

/-! ## Each input block read off its array -/

/-- Window 0's block at point t is rows t · 2000 … t · 2000 + 1999 of its array. -/
theorem rows1_0 (c : Dev nD) (t : Fin cfg1.N) (p : Fin 2000) (k : Fin 128) :
    (((cfg1.win 0).blk t).view.read (Elt Ideal) (V c (Pipeline.arrRef spec1 0)) : Vec Ideal S2000x128 .f32) (ix2 p k)
      = (V c (Pipeline.arrRef spec1 0) : S50000x128.Idx → EReal) (ix2 (rowOf t p) k) := by
  obtain ⟨e0, e1⟩ := idx1_0 t
  show (V c (Pipeline.arrRef spec1 0) : S50000x128.Idx → EReal) (((cfg1.win 0).blk t).view.emb (ix2 p k)) = _
  refine congrArg (V c (Pipeline.arrRef spec1 0) : S50000x128.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega
/-- Window 1's block at point t is rows t · 2000 … t · 2000 + 1999 of its array. -/
theorem rows1_1 (c : Dev nD) (t : Fin cfg1.N) (p : Fin 2000) (k : Fin 128) :
    (((cfg1.win 1).blk t).view.read (Elt Ideal) (V c (Pipeline.arrRef spec1 1)) : Vec Ideal S2000x128 .f32) (ix2 p k)
      = (V c (Pipeline.arrRef spec1 1) : S50000x128.Idx → EReal) (ix2 (rowOf t p) k) := by
  obtain ⟨e0, e1⟩ := idx1_1 t
  show (V c (Pipeline.arrRef spec1 1) : S50000x128.Idx → EReal) (((cfg1.win 1).blk t).view.emb (ix2 p k)) = _
  refine congrArg (V c (Pipeline.arrRef spec1 1) : S50000x128.Idx → EReal) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega
/-- Window 2's block at point t is rows t · 2000 … t · 2000 + 1999 of its array. -/
theorem rows1_2 (c : Dev nD) (t : Fin cfg1.N) (p : Fin 2000) (k : Fin 128) :
    (((cfg1.win 2).blk t).view.read (Elt Ideal) (V c (Pipeline.arrRef spec1 2)) : Vec Ideal S2000x128 .f32) (ix2 p k)
      = (V c (Pipeline.arrRef spec1 2) : S50000x128.Idx → EReal) (ix2 (rowOf t p) k) := by
  obtain ⟨e0, e1⟩ := idx1_2 t
  show (V c (Pipeline.arrRef spec1 2) : S50000x128.Idx → EReal) (((cfg1.win 2).blk t).view.emb (ix2 p k)) = _
  refine congrArg (V c (Pipeline.arrRef spec1 2) : S50000x128.Idx → EReal) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 128 + 1 * k.val = k.val; rw [e1]; omega
/-- Window 3's block at point t is rows t · 2000 … t · 2000 + 1999 of its array. -/
theorem rows1_3 (c : Dev nD) (t : Fin cfg1.N) (p : Fin 2000) (k : Fin 128) :
    (((cfg1.win 3).blk t).view.read (Elt Ideal) (V c (Pipeline.arrRef spec1 3)) : Vec Ideal S2000x128 .f32) (ix2 p k)
      = (V c (Pipeline.arrRef spec1 3) : S50000x128.Idx → EReal) (ix2 (rowOf t p) k) := by
  obtain ⟨e0, e1⟩ := idx1_3 t
  show (V c (Pipeline.arrRef spec1 3) : S50000x128.Idx → EReal) (((cfg1.win 3).blk t).view.emb (ix2 p k)) = _
  refine congrArg (V c (Pipeline.arrRef spec1 3) : S50000x128.Idx → EReal) (funext fun a => Fin.ext ?_)
  match a with
  | ⟨0, _⟩ => show win1_3.index t (0 : Fin 2) * 2000 + 1 * p.val = t.val * 2000 + p.val; rw [e0]; omega
  | ⟨1, _⟩ => show win1_3.index t (1 : Fin 2) * 128 + 1 * k.val = k.val; rw [e1]; omega
/-- Window 4's block at point t is rows t · 2000 … t · 2000 + 1999 of its array. -/
theorem rows1_4 (c : Dev nD) (t : Fin cfg1.N) (p : Fin 2000) (k : Fin 128) :
    (((cfg1.win 4).blk t).view.read (Elt Ideal) (V c (Pipeline.arrRef spec1 4)) : Vec Ideal S2000x128 .f32) (ix2 p k)
      = (V c (Pipeline.arrRef spec1 4) : S50000x128.Idx → EReal) (ix2 (rowOf t p) k) := by
  obtain ⟨e0, e1⟩ := idx1_4 t
  show (V c (Pipeline.arrRef spec1 4) : S50000x128.Idx → EReal) (((cfg1.win 4).blk t).view.emb (ix2 p k)) = _
  refine congrArg (V c (Pipeline.arrRef spec1 4) : S50000x128.Idx → EReal) (funext fun a => Fin.ext ?_)
  match a with
  | ⟨0, _⟩ => show win1_4.index t (0 : Fin 2) * 2000 + 1 * p.val = t.val * 2000 + p.val; rw [e0]; omega
  | ⟨1, _⟩ => show win1_4.index t (1 : Fin 2) * 128 + 1 * k.val = k.val; rw [e1]; omega
/-- Window 5's block at every point is its whole array. -/
theorem whole1_5 (c : Dev nD) (t : Fin cfg1.N) :
    (((cfg1.win 5).blk t).view.read (Elt Ideal) (V c (Pipeline.arrRef spec1 5)) : Vec Ideal S128x128 .f32)
      = (V c (Pipeline.arrRef spec1 5) : S128x128.Idx → EReal) := by
  obtain ⟨e0, e1⟩ := idx1_5 t
  funext y
  show (V c (Pipeline.arrRef spec1 5) : S128x128.Idx → EReal) (((cfg1.win 5).blk t).view.emb y) = _
  refine congrArg (V c (Pipeline.arrRef spec1 5) : S128x128.Idx → EReal) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega
/-- Window 7's block at every point is its whole array. -/
theorem whole1_7 (c : Dev nD) (t : Fin cfg1.N) :
    (((cfg1.win 7).blk t).view.read (Elt Ideal) (V c (Pipeline.arrRef spec1 7)) : Vec Ideal S128x128 .f32)
      = (V c (Pipeline.arrRef spec1 7) : S128x128.Idx → EReal) := by
  obtain ⟨e0, e1⟩ := idx1_7 t
  funext y
  show (V c (Pipeline.arrRef spec1 7) : S128x128.Idx → EReal) (((cfg1.win 7).blk t).view.emb y) = _
  refine congrArg (V c (Pipeline.arrRef spec1 7) : S128x128.Idx → EReal) (funext fun a => Fin.ext ?_)
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega
/-- Window 8's block at every point is its whole array. -/
theorem whole1_8 (c : Dev nD) (t : Fin cfg1.N) :
    (((cfg1.win 8).blk t).view.read (Elt Ideal) (V c (Pipeline.arrRef spec1 8)) : Vec Ideal S128x128 .f32)
      = (V c (Pipeline.arrRef spec1 8) : S128x128.Idx → EReal) := by
  obtain ⟨e0, e1⟩ := idx1_8 t
  funext y
  show (V c (Pipeline.arrRef spec1 8) : S128x128.Idx → EReal) (((cfg1.win 8).blk t).view.emb y) = _
  refine congrArg (V c (Pipeline.arrRef spec1 8) : S128x128.Idx → EReal) (funext fun a => Fin.ext ?_)
  match a with
  | ⟨0, _⟩ => show win1_8.index t (0 : Fin 2) * 128 + 1 * (y 0).val = (y 0).val; rw [e0]; omega
  | ⟨1, _⟩ => show win1_8.index t (1 : Fin 2) * 128 + 1 * (y 1).val = (y 1).val; rw [e1]; omega
/-- Window 10's block at every point is its whole array. -/
theorem whole1_10 (c : Dev nD) (t : Fin cfg1.N) :
    (((cfg1.win 10).blk t).view.read (Elt Ideal) (V c (Pipeline.arrRef spec1 10)) : Vec Ideal S128x128 .f32)
      = (V c (Pipeline.arrRef spec1 10) : S128x128.Idx → EReal) := by
  obtain ⟨e0, e1⟩ := idx1_10 t
  funext y
  show (V c (Pipeline.arrRef spec1 10) : S128x128.Idx → EReal) (((cfg1.win 10).blk t).view.emb y) = _
  refine congrArg (V c (Pipeline.arrRef spec1 10) : S128x128.Idx → EReal) (funext fun a => Fin.ext ?_)
  match a with
  | ⟨0, _⟩ => show win1_10.index t (0 : Fin 2) * 128 + 1 * (y 0).val = (y 0).val; rw [e0]; omega
  | ⟨1, _⟩ => show win1_10.index t (1 : Fin 2) * 128 + 1 * (y 1).val = (y 1).val; rw [e1]; omega
/-- Window 11's block at every point is its whole array. -/
theorem whole1_11 (c : Dev nD) (t : Fin cfg1.N) :
    (((cfg1.win 11).blk t).view.read (Elt Ideal) (V c (Pipeline.arrRef spec1 11)) : Vec Ideal S128x128 .f32)
      = (V c (Pipeline.arrRef spec1 11) : S128x128.Idx → EReal) := by
  obtain ⟨e0, e1⟩ := idx1_11 t
  funext y
  show (V c (Pipeline.arrRef spec1 11) : S128x128.Idx → EReal) (((cfg1.win 11).blk t).view.emb y) = _
  refine congrArg (V c (Pipeline.arrRef spec1 11) : S128x128.Idx → EReal) (funext fun a => Fin.ext ?_)
  match a with
  | ⟨0, _⟩ => show win1_11.index t (0 : Fin 2) * 128 + 1 * (y 0).val = (y 0).val; rw [e0]; omega
  | ⟨1, _⟩ => show win1_11.index t (1 : Fin 2) * 128 + 1 * (y 1).val = (y 1).val; rw [e1]; omega
/-- Window 13's block at every point is its whole array. -/
theorem whole1_13 (c : Dev nD) (t : Fin cfg1.N) :
    (((cfg1.win 13).blk t).view.read (Elt Ideal) (V c (Pipeline.arrRef spec1 13)) : Vec Ideal S128x128 .f32)
      = (V c (Pipeline.arrRef spec1 13) : S128x128.Idx → EReal) := by
  obtain ⟨e0, e1⟩ := idx1_13 t
  funext y
  show (V c (Pipeline.arrRef spec1 13) : S128x128.Idx → EReal) (((cfg1.win 13).blk t).view.emb y) = _
  refine congrArg (V c (Pipeline.arrRef spec1 13) : S128x128.Idx → EReal) (funext fun a => Fin.ext ?_)
  match a with
  | ⟨0, _⟩ => show win1_13.index t (0 : Fin 2) * 128 + 1 * (y 0).val = (y 0).val; rw [e0]; omega
  | ⟨1, _⟩ => show win1_13.index t (1 : Fin 2) * 128 + 1 * (y 1).val = (y 1).val; rw [e1]; omega
/-- Window 6's block at every point is its whole array. -/
theorem whole1_6 (c : Dev nD) (t : Fin cfg1.N) :
    (((cfg1.win 6).blk t).view.read (Elt Ideal) (V c (Pipeline.arrRef spec1 6)) : Vec Ideal S1x128 .f32)
      = (V c (Pipeline.arrRef spec1 6) : S1x128.Idx → EReal) := by
  obtain ⟨e0, e1⟩ := idx1_6 t
  funext y
  show (V c (Pipeline.arrRef spec1 6) : S1x128.Idx → EReal) (((cfg1.win 6).blk t).view.emb y) = _
  refine congrArg (V c (Pipeline.arrRef spec1 6) : S1x128.Idx → EReal) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega
/-- Window 9's block at every point is its whole array. -/
theorem whole1_9 (c : Dev nD) (t : Fin cfg1.N) :
    (((cfg1.win 9).blk t).view.read (Elt Ideal) (V c (Pipeline.arrRef spec1 9)) : Vec Ideal S1x128 .f32)
      = (V c (Pipeline.arrRef spec1 9) : S1x128.Idx → EReal) := by
  obtain ⟨e0, e1⟩ := idx1_9 t
  funext y
  show (V c (Pipeline.arrRef spec1 9) : S1x128.Idx → EReal) (((cfg1.win 9).blk t).view.emb y) = _
  refine congrArg (V c (Pipeline.arrRef spec1 9) : S1x128.Idx → EReal) (funext fun a => Fin.ext ?_)
  match a with
  | ⟨0, _⟩ => show win1_9.index t (0 : Fin 2) * 1 + 1 * (y 0).val = (y 0).val; rw [e0]; omega
  | ⟨1, _⟩ => show win1_9.index t (1 : Fin 2) * 128 + 1 * (y 1).val = (y 1).val; rw [e1]; omega
/-- Window 12's block at every point is its whole array. -/
theorem whole1_12 (c : Dev nD) (t : Fin cfg1.N) :
    (((cfg1.win 12).blk t).view.read (Elt Ideal) (V c (Pipeline.arrRef spec1 12)) : Vec Ideal S1x128 .f32)
      = (V c (Pipeline.arrRef spec1 12) : S1x128.Idx → EReal) := by
  obtain ⟨e0, e1⟩ := idx1_12 t
  funext y
  show (V c (Pipeline.arrRef spec1 12) : S1x128.Idx → EReal) (((cfg1.win 12).blk t).view.emb y) = _
  refine congrArg (V c (Pipeline.arrRef spec1 12) : S1x128.Idx → EReal) (funext fun a => Fin.ext ?_)
  match a with
  | ⟨0, _⟩ => show win1_12.index t (0 : Fin 2) * 1 + 1 * (y 0).val = (y 0).val; rw [e0]; omega
  | ⟨1, _⟩ => show win1_12.index t (1 : Fin 2) * 128 + 1 * (y 1).val = (y 1).val; rw [e1]; omega

/-! ## Where an output block sits in its array, and the cover -/

/-- Entry (p, q) of output window 14's block at point t is entry (t · 2000 + p, q) of its array. -/
theorem emb1_14 (t : Fin cfg1.N) (p : Fin 2000) (q : Fin 128) :
    ((cfg1.win 14).blk t).view.emb (ix2 p q) = (ix2 (rowOf t p) q : S50000x128.Idx) := by
  obtain ⟨e0, e1⟩ := idx1_14 t
  funext a; apply Fin.ext
  match a with
  | ⟨0, _⟩ => show win1_14.index t (0 : Fin 2) * 2000 + 1 * p.val = t.val * 2000 + p.val; rw [e0]; omega
  | ⟨1, _⟩ => show win1_14.index t (1 : Fin 2) * 128 + 1 * q.val = q.val; rw [e1]; omega

/-- An index of the array is in point t's block of output window 14 iff each coordinate is in the block's range. -/
theorem mem_blk1_14 (t : Fin cfg1.N) (i : S50000x128.Idx) :
    i ∈ ((cfg1.win 14).blk t).view.set ↔ ∀ a : Fin 2, win1_14.index t a * S2000x128.size a ≤ (i a).val ∧ (i a).val < win1_14.index t a * S2000x128.size a + S2000x128.size a := by
  show i ∈ ((View.whole main_v166_0).slice (win1_14.rect t)).set ↔ _
  rw [View.set_slice_whole, Rect.mem_set_unit]
  exact Iff.rfl

/-- Row r of output window 14's array is in the block of point r / 2000, which is written back. -/
theorem cover1_14 (i : S50000x128.Idx) :
    ∃ t : Fin cfg1.N, (cfg1.win 14).flush t = true ∧ i ∈ ((cfg1.win 14).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨e0, e1⟩ := idx1_14 ⟨(i 0).val / 2000, hlt⟩
  refine ⟨⟨(i 0).val / 2000, hlt⟩, flush1_14 _, ?_⟩
  rw [mem_blk1_14]
  intro a
  match a with
  | ⟨0, _⟩ =>
    show win1_14.index ⟨(i 0).val / 2000, hlt⟩ (0 : Fin 2) * 2000 ≤ (i 0).val ∧ (i 0).val < win1_14.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_14.index ⟨(i 0).val / 2000, hlt⟩ (1 : Fin 2) * 128 ≤ (i 1).val ∧ (i 1).val < win1_14.index ⟨(i 0).val / 2000, hlt⟩ (1 : Fin 2) * 128 + 128
    rw [e1]; omega

/-- Entry (p, q) of output window 15's block at point t is entry (t · 2000 + p, q) of its array. -/
theorem emb1_15 (t : Fin cfg1.N) (p : Fin 2000) (q : Fin 128) :
    ((cfg1.win 15).blk t).view.emb (ix2 p q) = (ix2 (rowOf t p) q : S50000x128.Idx) := by
  obtain ⟨e0, e1⟩ := idx1_15 t
  funext a; apply Fin.ext
  match a with
  | ⟨0, _⟩ => show win1_15.index t (0 : Fin 2) * 2000 + 1 * p.val = t.val * 2000 + p.val; rw [e0]; omega
  | ⟨1, _⟩ => show win1_15.index t (1 : Fin 2) * 128 + 1 * q.val = q.val; rw [e1]; omega

/-- An index of the array is in point t's block of output window 15 iff each coordinate is in the block's range. -/
theorem mem_blk1_15 (t : Fin cfg1.N) (i : S50000x128.Idx) :
    i ∈ ((cfg1.win 15).blk t).view.set ↔ ∀ a : Fin 2, win1_15.index t a * S2000x128.size a ≤ (i a).val ∧ (i a).val < win1_15.index t a * S2000x128.size a + S2000x128.size a := by
  show i ∈ ((View.whole main_v166_1).slice (win1_15.rect t)).set ↔ _
  rw [View.set_slice_whole, Rect.mem_set_unit]
  exact Iff.rfl

/-- Row r of output window 15's array is in the block of point r / 2000, which is written back. -/
theorem cover1_15 (i : S50000x128.Idx) :
    ∃ t : Fin cfg1.N, (cfg1.win 15).flush t = true ∧ i ∈ ((cfg1.win 15).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨e0, e1⟩ := idx1_15 ⟨(i 0).val / 2000, hlt⟩
  refine ⟨⟨(i 0).val / 2000, hlt⟩, flush1_15 _, ?_⟩
  rw [mem_blk1_15]
  intro a
  match a with
  | ⟨0, _⟩ =>
    show win1_15.index ⟨(i 0).val / 2000, hlt⟩ (0 : Fin 2) * 2000 ≤ (i 0).val ∧ (i 0).val < win1_15.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_15.index ⟨(i 0).val / 2000, hlt⟩ (1 : Fin 2) * 128 ≤ (i 1).val ∧ (i 1).val < win1_15.index ⟨(i 0).val / 2000, hlt⟩ (1 : Fin 2) * 128 + 128
    rw [e1]; omega

/-! ## The two outputs as whole-array functions of the region's input arrays -/

/-- The first output: the new rows of the node type two edge types arrive at, of the arrays the region finds. -/
def newP1 (c : Dev nD) : Cert.Gnn.Mat 50000 128 :=
  Cert.Gnn.newP true (V c (Pipeline.arrRef spec1 0)) (V c (Pipeline.arrRef spec1 1)) (V c (Pipeline.arrRef spec1 2))
    (V c (Pipeline.arrRef spec1 5)) (V c (Pipeline.arrRef spec1 7)) (V c (Pipeline.arrRef spec1 8)) (V c (Pipeline.arrRef spec1 10))
    (V c (Pipeline.arrRef spec1 6)) (V c (Pipeline.arrRef spec1 9))

/-- The second output: the new rows of the node type one edge type arrives at. -/
def newG1 (c : Dev nD) : Cert.Gnn.Mat 50000 128 :=
  Cert.Gnn.newG true (V c (Pipeline.arrRef spec1 3)) (V c (Pipeline.arrRef spec1 4))
    (V c (Pipeline.arrRef spec1 11)) (V c (Pipeline.arrRef spec1 13)) (V c (Pipeline.arrRef spec1 12))

/-! ## What a point writes back is its block of the whole-array function -/

/-- Point t writes back, to the first output's array, block t of `newP1` of the arrays the region finds: the body's
    stored value at (p, q) is the formula over the blocks, row p of each node block is row t · 2000 + p of its
    array, and the weights and biases are whole. -/
theorem flushed1_14_eq (c : Dev nD) (t : Fin cfg1.N) :
    (dat1 V c).flushed 14 t = ((cfg1.win 14).blk t).view.read (Elt Ideal) (newP1 V c) := by
  show (cfg1.win 14).cut (grid1.coords t) ((dat1 V c).after 14 t) = _
  rw [after1_14]
  unfold out1_14
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  show k1_pay1 (k1_pay3 (iblk1 V c 0 t)) (k1_pay4 (iblk1 V c 1 t)) (k1_pay5 (iblk1 V c 2 t)) (k1_pay8 (iblk1 V c 5 t)) (k1_pay9 (iblk1 V c 7 t)) (k1_pay10 (iblk1 V c 8 t)) (k1_pay11 (iblk1 V c 10 t)) (k1_pay14 (iblk1 V c 6 t)) (iblk1 V c 9 t) (ix2 p q)
      = newP1 V c (((cfg1.win 14).blk t).view.emb (ix2 p q))
  rw [emb1_14 t p q]
  refine (PayloadAt.pay1_1_at (iblk1 V c 0 t) (iblk1 V c 1 t) (iblk1 V c 2 t) (iblk1 V c 5 t) (iblk1 V c 7 t) (iblk1 V c 8 t) (iblk1 V c 10 t) (iblk1 V c 6 t) (iblk1 V c 9 t) p q).trans ?_
  show Cert.Gnn.act true (_ + _) = Cert.Gnn.act true (Cert.Gnn.sageAt _ _ _ _ _ (rowOf t p) q + Cert.Gnn.sageAt _ _ _ _ _ (rowOf t p) q)
  refine congrArg (Cert.Gnn.act true) (congrArg₂ (· + ·) ?_ ?_)
  · exact Cert.Gnn.sageAt_block _ _ _ _ _ _ _ _ _ _ p (rowOf t p) q (rows1_0 V c t p) (rows1_1 V c t p) (whole1_5 V c t) (whole1_7 V c t) (whole1_6 V c t)
  · exact Cert.Gnn.sageAt_block _ _ _ _ _ _ _ _ _ _ p (rowOf t p) q (rows1_2 V c t p) (rows1_1 V c t p) (whole1_8 V c t) (whole1_10 V c t) (whole1_9 V c t)

/-- Point t writes back, to the second output's array, block t of `newG1` of the arrays the region finds. -/
theorem flushed1_15_eq (c : Dev nD) (t : Fin cfg1.N) :
    (dat1 V c).flushed 15 t = ((cfg1.win 15).blk t).view.read (Elt Ideal) (newG1 V c) := by
  show (cfg1.win 15).cut (grid1.coords t) ((dat1 V c).after 15 t) = _
  rw [after1_15]
  unfold out1_15
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  show k1_pay2 (k1_pay6 (iblk1 V c 3 t)) (k1_pay7 (iblk1 V c 4 t)) (k1_pay12 (iblk1 V c 11 t)) (k1_pay13 (iblk1 V c 13 t)) (iblk1 V c 12 t) (ix2 p q)
      = newG1 V c (((cfg1.win 15).blk t).view.emb (ix2 p q))
  rw [emb1_15 t p q]
  refine (PayloadAt.pay1_2_at (iblk1 V c 3 t) (iblk1 V c 4 t) (iblk1 V c 11 t) (iblk1 V c 13 t) (iblk1 V c 12 t) p q).trans ?_
  show Cert.Gnn.act true _ = Cert.Gnn.act true (Cert.Gnn.sageAt _ _ _ _ _ (rowOf t p) q)
  refine congrArg (Cert.Gnn.act true) ?_
  exact Cert.Gnn.sageAt_block _ _ _ _ _ _ _ _ _ _ p (rowOf t p) q (rows1_3 V c t p) (rows1_4 V c t p) (whole1_11 V c t) (whole1_13 V c t) (whole1_12 V c t)

/-! ## The arrays after the region -/

/-- The first output array after the region: every row is in the block of the point that wrote it back, so the
    array is the whole-array function. -/
theorem final1_14 (c : Dev nD) : (dat1 V c).arrAt 14 cfg1.N = newP1 V c :=
  (dat1 V c).arrAt_eq_of_cover 14 (newP1 V c) (fun t _ => flushed1_14_eq V c t) cover1_14

/-- The second output array after the region. -/
theorem final1_15 (c : Dev nD) : (dat1 V c).arrAt 15 cfg1.N = newG1 V c :=
  (dat1 V c).arrAt_eq_of_cover 15 (newG1 V c) (fun t _ => flushed1_15_eq V c t) cover1_15

/-- The first output array after the region, as the layer's formula of the arrays the region finds:
    windows 0, 1, 2 the neighbour means and own rows, 5, 7, 8, 10 the weights, 6, 9 the biases. -/
theorem arr1_14 (c : Dev nD) :
    (dat1 (F := Ideal) V c).arrAt 14 cfg1.N
      = Cert.Gnn.newP true (V c (Pipeline.arrRef spec1 0)) (V c (Pipeline.arrRef spec1 1)) (V c (Pipeline.arrRef spec1 2))
          (V c (Pipeline.arrRef spec1 5)) (V c (Pipeline.arrRef spec1 7)) (V c (Pipeline.arrRef spec1 8)) (V c (Pipeline.arrRef spec1 10))
          (V c (Pipeline.arrRef spec1 6)) (V c (Pipeline.arrRef spec1 9)) :=
  final1_14 V c

/-- The second output array after the region: windows 3, 4 the neighbour mean and own rows, 11, 13 the weights,
    12 the bias. -/
theorem arr1_15 (c : Dev nD) :
    (dat1 (F := Ideal) V c).arrAt 15 cfg1.N
      = Cert.Gnn.newG true (V c (Pipeline.arrRef spec1 3)) (V c (Pipeline.arrRef spec1 4))
          (V c (Pipeline.arrRef spec1 11)) (V c (Pipeline.arrRef spec1 13)) (V c (Pipeline.arrRef spec1 12)) :=
  final1_15 V c

end Cert.KernelIdeal.Region1

end
-- ==== Proof.Region2.lean ====
/-
  The third layer's kernel (no rectifier), read as two whole arrays.

  The region runs over 25 grid points. At point t each of the five node arrays [50000, 128] is windowed at rows
  t · 2000 … t · 2000 + 1999, the six weight matrices [128, 128] and the three bias rows [1, 128] are windowed
  whole, and the two outputs' blocks of 2000 rows are written back at every point. The body's stored values at
  (p, q) of the block are the layer's formula over the blocks; a block's row p is its array's row t · 2000 + p;
  row r of an output is covered by point r / 2000. So each output array after the region is the layer's formula
  of the arrays the region finds, entry by entry.
-/
import proofs.«146278_j35390530519883_1_alg».proof.Proof.Gen.KernelIdeal.Frame
import proofs.«146278_j35390530519883_1_alg».proof.Proof.Spec
import proofs.«146278_j35390530519883_1_alg».proof.Proof.SpecBlock
import proofs.«146278_j35390530519883_1_alg».proof.Proof.PayloadAt
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer load or store, however spelt. -/
theorem hz : (![0, 0] : Fin 2 → Nat) = fun _ => 0 := funext fun a => by fin_cases a <;> rfl

/-! ## The printed index maps, decided over the 25 grid points: a node array's window is at block (t, 0) at point t,
    a weight matrix's or a bias row's at block (0, 0) at every point -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)
theorem idx2_13 : ∀ t : Fin cfg2.N, win2_13.index t (0 : Fin 2) = 0 ∧ win2_13.index t (1 : Fin 2) = 0 :=
  (by decide +kernel : ∀ t : Fin grid2.N, _)
theorem idx2_14 : ∀ t : Fin cfg2.N, win2_14.index t (0 : Fin 2) = t.val ∧ win2_14.index t (1 : Fin 2) = 0 :=
  (by decide +kernel : ∀ t : Fin grid2.N, _)
theorem idx2_15 : ∀ t : Fin cfg2.N, win2_15.index t (0 : Fin 2) = t.val ∧ win2_15.index t (1 : Fin 2) = 0 :=
  (by decide +kernel : ∀ t : Fin grid2.N, _)

/-- Row t · 2000 + p of a node array: the row of the array that row p of point t's block is. -/
def rowOf (t : Fin cfg2.N) (p : Fin 2000) : Fin 50000 :=
  ⟨t.val * 2000 + p.val, by have h := t.isLt; have hN : cfg2.N = 25 := N_2; have := p.isLt; omega⟩

theorem rowOf_val (t : Fin cfg2.N) (p : Fin 2000) : (rowOf t p).val = t.val * 2000 + p.val := rfl

/-! ## Each input block read off its array -/

/-- Window 0's block at point t is rows t · 2000 … t · 2000 + 1999 of its array. -/
theorem rows2_0 (c : Dev nD) (t : Fin cfg2.N) (p : Fin 2000) (k : Fin 128) :
    (((cfg2.win 0).blk t).view.read (Elt Ideal) (V c (Pipeline.arrRef spec2 0)) : Vec Ideal S2000x128 .f32) (ix2 p k)
      = (V c (Pipeline.arrRef spec2 0) : S50000x128.Idx → EReal) (ix2 (rowOf t p) k) := by
  obtain ⟨e0, e1⟩ := idx2_0 t
  show (V c (Pipeline.arrRef spec2 0) : S50000x128.Idx → EReal) (((cfg2.win 0).blk t).view.emb (ix2 p k)) = _
  refine congrArg (V c (Pipeline.arrRef spec2 0) : S50000x128.Idx → EReal) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega
/-- Window 1's block at point t is rows t · 2000 … t · 2000 + 1999 of its array. -/
theorem rows2_1 (c : Dev nD) (t : Fin cfg2.N) (p : Fin 2000) (k : Fin 128) :
    (((cfg2.win 1).blk t).view.read (Elt Ideal) (V c (Pipeline.arrRef spec2 1)) : Vec Ideal S2000x128 .f32) (ix2 p k)
      = (V c (Pipeline.arrRef spec2 1) : S50000x128.Idx → EReal) (ix2 (rowOf t p) k) := by
  obtain ⟨e0, e1⟩ := idx2_1 t
  show (V c (Pipeline.arrRef spec2 1) : S50000x128.Idx → EReal) (((cfg2.win 1).blk t).view.emb (ix2 p k)) = _
  refine congrArg (V c (Pipeline.arrRef spec2 1) : S50000x128.Idx → EReal) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega
/-- Window 2's block at point t is rows t · 2000 … t · 2000 + 1999 of its array. -/
theorem rows2_2 (c : Dev nD) (t : Fin cfg2.N) (p : Fin 2000) (k : Fin 128) :
    (((cfg2.win 2).blk t).view.read (Elt Ideal) (V c (Pipeline.arrRef spec2 2)) : Vec Ideal S2000x128 .f32) (ix2 p k)
      = (V c (Pipeline.arrRef spec2 2) : S50000x128.Idx → EReal) (ix2 (rowOf t p) k) := by
  obtain ⟨e0, e1⟩ := idx2_2 t
  show (V c (Pipeline.arrRef spec2 2) : S50000x128.Idx → EReal) (((cfg2.win 2).blk t).view.emb (ix2 p k)) = _
  refine congrArg (V c (Pipeline.arrRef spec2 2) : S50000x128.Idx → EReal) (funext fun a => Fin.ext ?_)
  match a with
  | ⟨0, _⟩ => show win2_2.index t (0 : Fin 2) * 2000 + 1 * p.val = t.val * 2000 + p.val; rw [e0]; omega
  | ⟨1, _⟩ => show win2_2.index t (1 : Fin 2) * 128 + 1 * k.val = k.val; rw [e1]; omega
/-- Window 3's block at point t is rows t · 2000 … t · 2000 + 1999 of its array. -/
theorem rows2_3 (c : Dev nD) (t : Fin cfg2.N) (p : Fin 2000) (k : Fin 128) :
    (((cfg2.win 3).blk t).view.read (Elt Ideal) (V c (Pipeline.arrRef spec2 3)) : Vec Ideal S2000x128 .f32) (ix2 p k)
      = (V c (Pipeline.arrRef spec2 3) : S50000x128.Idx → EReal) (ix2 (rowOf t p) k) := by
  obtain ⟨e0, e1⟩ := idx2_3 t
  show (V c (Pipeline.arrRef spec2 3) : S50000x128.Idx → EReal) (((cfg2.win 3).blk t).view.emb (ix2 p k)) = _
  refine congrArg (V c (Pipeline.arrRef spec2 3) : S50000x128.Idx → EReal) (funext fun a => Fin.ext ?_)
  match a with
  | ⟨0, _⟩ => show win2_3.index t (0 : Fin 2) * 2000 + 1 * p.val = t.val * 2000 + p.val; rw [e0]; omega
  | ⟨1, _⟩ => show win2_3.index t (1 : Fin 2) * 128 + 1 * k.val = k.val; rw [e1]; omega
/-- Window 4's block at point t is rows t · 2000 … t · 2000 + 1999 of its array. -/
theorem rows2_4 (c : Dev nD) (t : Fin cfg2.N) (p : Fin 2000) (k : Fin 128) :
    (((cfg2.win 4).blk t).view.read (Elt Ideal) (V c (Pipeline.arrRef spec2 4)) : Vec Ideal S2000x128 .f32) (ix2 p k)
      = (V c (Pipeline.arrRef spec2 4) : S50000x128.Idx → EReal) (ix2 (rowOf t p) k) := by
  obtain ⟨e0, e1⟩ := idx2_4 t
  show (V c (Pipeline.arrRef spec2 4) : S50000x128.Idx → EReal) (((cfg2.win 4).blk t).view.emb (ix2 p k)) = _
  refine congrArg (V c (Pipeline.arrRef spec2 4) : S50000x128.Idx → EReal) (funext fun a => Fin.ext ?_)
  match a with
  | ⟨0, _⟩ => show win2_4.index t (0 : Fin 2) * 2000 + 1 * p.val = t.val * 2000 + p.val; rw [e0]; omega
  | ⟨1, _⟩ => show win2_4.index t (1 : Fin 2) * 128 + 1 * k.val = k.val; rw [e1]; omega
/-- Window 5's block at every point is its whole array. -/
theorem whole2_5 (c : Dev nD) (t : Fin cfg2.N) :
    (((cfg2.win 5).blk t).view.read (Elt Ideal) (V c (Pipeline.arrRef spec2 5)) : Vec Ideal S128x128 .f32)
      = (V c (Pipeline.arrRef spec2 5) : S128x128.Idx → EReal) := by
  obtain ⟨e0, e1⟩ := idx2_5 t
  funext y
  show (V c (Pipeline.arrRef spec2 5) : S128x128.Idx → EReal) (((cfg2.win 5).blk t).view.emb y) = _
  refine congrArg (V c (Pipeline.arrRef spec2 5) : S128x128.Idx → EReal) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega
/-- Window 7's block at every point is its whole array. -/
theorem whole2_7 (c : Dev nD) (t : Fin cfg2.N) :
    (((cfg2.win 7).blk t).view.read (Elt Ideal) (V c (Pipeline.arrRef spec2 7)) : Vec Ideal S128x128 .f32)
      = (V c (Pipeline.arrRef spec2 7) : S128x128.Idx → EReal) := by
  obtain ⟨e0, e1⟩ := idx2_7 t
  funext y
  show (V c (Pipeline.arrRef spec2 7) : S128x128.Idx → EReal) (((cfg2.win 7).blk t).view.emb y) = _
  refine congrArg (V c (Pipeline.arrRef spec2 7) : S128x128.Idx → EReal) (funext fun a => Fin.ext ?_)
  match a with
  | ⟨0, _⟩ => show win2_7.index t (0 : Fin 2) * 128 + 1 * (y 0).val = (y 0).val; rw [e0]; omega
  | ⟨1, _⟩ => show win2_7.index t (1 : Fin 2) * 128 + 1 * (y 1).val = (y 1).val; rw [e1]; omega
/-- Window 8's block at every point is its whole array. -/
theorem whole2_8 (c : Dev nD) (t : Fin cfg2.N) :
    (((cfg2.win 8).blk t).view.read (Elt Ideal) (V c (Pipeline.arrRef spec2 8)) : Vec Ideal S128x128 .f32)
      = (V c (Pipeline.arrRef spec2 8) : S128x128.Idx → EReal) := by
  obtain ⟨e0, e1⟩ := idx2_8 t
  funext y
  show (V c (Pipeline.arrRef spec2 8) : S128x128.Idx → EReal) (((cfg2.win 8).blk t).view.emb y) = _
  refine congrArg (V c (Pipeline.arrRef spec2 8) : S128x128.Idx → EReal) (funext fun a => Fin.ext ?_)
  match a with
  | ⟨0, _⟩ => show win2_8.index t (0 : Fin 2) * 128 + 1 * (y 0).val = (y 0).val; rw [e0]; omega
  | ⟨1, _⟩ => show win2_8.index t (1 : Fin 2) * 128 + 1 * (y 1).val = (y 1).val; rw [e1]; omega
/-- Window 10's block at every point is its whole array. -/
theorem whole2_10 (c : Dev nD) (t : Fin cfg2.N) :
    (((cfg2.win 10).blk t).view.read (Elt Ideal) (V c (Pipeline.arrRef spec2 10)) : Vec Ideal S128x128 .f32)
      = (V c (Pipeline.arrRef spec2 10) : S128x128.Idx → EReal) := by
  obtain ⟨e0, e1⟩ := idx2_10 t
  funext y
  show (V c (Pipeline.arrRef spec2 10) : S128x128.Idx → EReal) (((cfg2.win 10).blk t).view.emb y) = _
  refine congrArg (V c (Pipeline.arrRef spec2 10) : S128x128.Idx → EReal) (funext fun a => Fin.ext ?_)
  match a with
  | ⟨0, _⟩ => show win2_10.index t (0 : Fin 2) * 128 + 1 * (y 0).val = (y 0).val; rw [e0]; omega
  | ⟨1, _⟩ => show win2_10.index t (1 : Fin 2) * 128 + 1 * (y 1).val = (y 1).val; rw [e1]; omega
/-- Window 11's block at every point is its whole array. -/
theorem whole2_11 (c : Dev nD) (t : Fin cfg2.N) :
    (((cfg2.win 11).blk t).view.read (Elt Ideal) (V c (Pipeline.arrRef spec2 11)) : Vec Ideal S128x128 .f32)
      = (V c (Pipeline.arrRef spec2 11) : S128x128.Idx → EReal) := by
  obtain ⟨e0, e1⟩ := idx2_11 t
  funext y
  show (V c (Pipeline.arrRef spec2 11) : S128x128.Idx → EReal) (((cfg2.win 11).blk t).view.emb y) = _
  refine congrArg (V c (Pipeline.arrRef spec2 11) : S128x128.Idx → EReal) (funext fun a => Fin.ext ?_)
  match a with
  | ⟨0, _⟩ => show win2_11.index t (0 : Fin 2) * 128 + 1 * (y 0).val = (y 0).val; rw [e0]; omega
  | ⟨1, _⟩ => show win2_11.index t (1 : Fin 2) * 128 + 1 * (y 1).val = (y 1).val; rw [e1]; omega
/-- Window 13's block at every point is its whole array. -/
theorem whole2_13 (c : Dev nD) (t : Fin cfg2.N) :
    (((cfg2.win 13).blk t).view.read (Elt Ideal) (V c (Pipeline.arrRef spec2 13)) : Vec Ideal S128x128 .f32)
      = (V c (Pipeline.arrRef spec2 13) : S128x128.Idx → EReal) := by
  obtain ⟨e0, e1⟩ := idx2_13 t
  funext y
  show (V c (Pipeline.arrRef spec2 13) : S128x128.Idx → EReal) (((cfg2.win 13).blk t).view.emb y) = _
  refine congrArg (V c (Pipeline.arrRef spec2 13) : S128x128.Idx → EReal) (funext fun a => Fin.ext ?_)
  match a with
  | ⟨0, _⟩ => show win2_13.index t (0 : Fin 2) * 128 + 1 * (y 0).val = (y 0).val; rw [e0]; omega
  | ⟨1, _⟩ => show win2_13.index t (1 : Fin 2) * 128 + 1 * (y 1).val = (y 1).val; rw [e1]; omega
/-- Window 6's block at every point is its whole array. -/
theorem whole2_6 (c : Dev nD) (t : Fin cfg2.N) :
    (((cfg2.win 6).blk t).view.read (Elt Ideal) (V c (Pipeline.arrRef spec2 6)) : Vec Ideal S1x128 .f32)
      = (V c (Pipeline.arrRef spec2 6) : S1x128.Idx → EReal) := by
  obtain ⟨e0, e1⟩ := idx2_6 t
  funext y
  show (V c (Pipeline.arrRef spec2 6) : S1x128.Idx → EReal) (((cfg2.win 6).blk t).view.emb y) = _
  refine congrArg (V c (Pipeline.arrRef spec2 6) : S1x128.Idx → EReal) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega
/-- Window 9's block at every point is its whole array. -/
theorem whole2_9 (c : Dev nD) (t : Fin cfg2.N) :
    (((cfg2.win 9).blk t).view.read (Elt Ideal) (V c (Pipeline.arrRef spec2 9)) : Vec Ideal S1x128 .f32)
      = (V c (Pipeline.arrRef spec2 9) : S1x128.Idx → EReal) := by
  obtain ⟨e0, e1⟩ := idx2_9 t
  funext y
  show (V c (Pipeline.arrRef spec2 9) : S1x128.Idx → EReal) (((cfg2.win 9).blk t).view.emb y) = _
  refine congrArg (V c (Pipeline.arrRef spec2 9) : S1x128.Idx → EReal) (funext fun a => Fin.ext ?_)
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega
/-- Window 12's block at every point is its whole array. -/
theorem whole2_12 (c : Dev nD) (t : Fin cfg2.N) :
    (((cfg2.win 12).blk t).view.read (Elt Ideal) (V c (Pipeline.arrRef spec2 12)) : Vec Ideal S1x128 .f32)
      = (V c (Pipeline.arrRef spec2 12) : S1x128.Idx → EReal) := by
  obtain ⟨e0, e1⟩ := idx2_12 t
  funext y
  show (V c (Pipeline.arrRef spec2 12) : S1x128.Idx → EReal) (((cfg2.win 12).blk t).view.emb y) = _
  refine congrArg (V c (Pipeline.arrRef spec2 12) : S1x128.Idx → EReal) (funext fun a => Fin.ext ?_)
  match a with
  | ⟨0, _⟩ => show win2_12.index t (0 : Fin 2) * 1 + 1 * (y 0).val = (y 0).val; rw [e0]; omega
  | ⟨1, _⟩ => show win2_12.index t (1 : Fin 2) * 128 + 1 * (y 1).val = (y 1).val; rw [e1]; omega

/-! ## Where an output block sits in its array, and the cover -/

/-- Entry (p, q) of output window 14's block at point t is entry (t · 2000 + p, q) of its array. -/
theorem emb2_14 (t : Fin cfg2.N) (p : Fin 2000) (q : Fin 128) :
    ((cfg2.win 14).blk t).view.emb (ix2 p q) = (ix2 (rowOf t p) q : S50000x128.Idx) := by
  obtain ⟨e0, e1⟩ := idx2_14 t
  funext a; apply Fin.ext
  match a with
  | ⟨0, _⟩ => show win2_14.index t (0 : Fin 2) * 2000 + 1 * p.val = t.val * 2000 + p.val; rw [e0]; omega
  | ⟨1, _⟩ => show win2_14.index t (1 : Fin 2) * 128 + 1 * q.val = q.val; rw [e1]; omega

/-- An index of the array is in point t's block of output window 14 iff each coordinate is in the block's range. -/
theorem mem_blk2_14 (t : Fin cfg2.N) (i : S50000x128.Idx) :
    i ∈ ((cfg2.win 14).blk t).view.set ↔ ∀ a : Fin 2, win2_14.index t a * S2000x128.size a ≤ (i a).val ∧ (i a).val < win2_14.index t a * S2000x128.size a + S2000x128.size a := by
  show i ∈ ((View.whole main_v236_0).slice (win2_14.rect t)).set ↔ _
  rw [View.set_slice_whole, Rect.mem_set_unit]
  exact Iff.rfl

/-- Row r of output window 14's array is in the block of point r / 2000, which is written back. -/
theorem cover2_14 (i : S50000x128.Idx) :
    ∃ t : Fin cfg2.N, (cfg2.win 14).flush t = true ∧ i ∈ ((cfg2.win 14).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨e0, e1⟩ := idx2_14 ⟨(i 0).val / 2000, hlt⟩
  refine ⟨⟨(i 0).val / 2000, hlt⟩, flush2_14 _, ?_⟩
  rw [mem_blk2_14]
  intro a
  match a with
  | ⟨0, _⟩ =>
    show win2_14.index ⟨(i 0).val / 2000, hlt⟩ (0 : Fin 2) * 2000 ≤ (i 0).val ∧ (i 0).val < win2_14.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_14.index ⟨(i 0).val / 2000, hlt⟩ (1 : Fin 2) * 128 ≤ (i 1).val ∧ (i 1).val < win2_14.index ⟨(i 0).val / 2000, hlt⟩ (1 : Fin 2) * 128 + 128
    rw [e1]; omega

/-- Entry (p, q) of output window 15's block at point t is entry (t · 2000 + p, q) of its array. -/
theorem emb2_15 (t : Fin cfg2.N) (p : Fin 2000) (q : Fin 128) :
    ((cfg2.win 15).blk t).view.emb (ix2 p q) = (ix2 (rowOf t p) q : S50000x128.Idx) := by
  obtain ⟨e0, e1⟩ := idx2_15 t
  funext a; apply Fin.ext
  match a with
  | ⟨0, _⟩ => show win2_15.index t (0 : Fin 2) * 2000 + 1 * p.val = t.val * 2000 + p.val; rw [e0]; omega
  | ⟨1, _⟩ => show win2_15.index t (1 : Fin 2) * 128 + 1 * q.val = q.val; rw [e1]; omega

/-- An index of the array is in point t's block of output window 15 iff each coordinate is in the block's range. -/
theorem mem_blk2_15 (t : Fin cfg2.N) (i : S50000x128.Idx) :
    i ∈ ((cfg2.win 15).blk t).view.set ↔ ∀ a : Fin 2, win2_15.index t a * S2000x128.size a ≤ (i a).val ∧ (i a).val < win2_15.index t a * S2000x128.size a + S2000x128.size a := by
  show i ∈ ((View.whole main_v236_1).slice (win2_15.rect t)).set ↔ _
  rw [View.set_slice_whole, Rect.mem_set_unit]
  exact Iff.rfl

/-- Row r of output window 15's array is in the block of point r / 2000, which is written back. -/
theorem cover2_15 (i : S50000x128.Idx) :
    ∃ t : Fin cfg2.N, (cfg2.win 15).flush t = true ∧ i ∈ ((cfg2.win 15).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨e0, e1⟩ := idx2_15 ⟨(i 0).val / 2000, hlt⟩
  refine ⟨⟨(i 0).val / 2000, hlt⟩, flush2_15 _, ?_⟩
  rw [mem_blk2_15]
  intro a
  match a with
  | ⟨0, _⟩ =>
    show win2_15.index ⟨(i 0).val / 2000, hlt⟩ (0 : Fin 2) * 2000 ≤ (i 0).val ∧ (i 0).val < win2_15.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_15.index ⟨(i 0).val / 2000, hlt⟩ (1 : Fin 2) * 128 ≤ (i 1).val ∧ (i 1).val < win2_15.index ⟨(i 0).val / 2000, hlt⟩ (1 : Fin 2) * 128 + 128
    rw [e1]; omega

/-! ## The two outputs as whole-array functions of the region's input arrays -/

/-- The first output: the new rows of the node type two edge types arrive at, of the arrays the region finds. -/
def newP2 (c : Dev nD) : Cert.Gnn.Mat 50000 128 :=
  Cert.Gnn.newP false (V c (Pipeline.arrRef spec2 0)) (V c (Pipeline.arrRef spec2 1)) (V c (Pipeline.arrRef spec2 2))
    (V c (Pipeline.arrRef spec2 5)) (V c (Pipeline.arrRef spec2 7)) (V c (Pipeline.arrRef spec2 8)) (V c (Pipeline.arrRef spec2 10))
    (V c (Pipeline.arrRef spec2 6)) (V c (Pipeline.arrRef spec2 9))

/-- The second output: the new rows of the node type one edge type arrives at. -/
def newG2 (c : Dev nD) : Cert.Gnn.Mat 50000 128 :=
  Cert.Gnn.newG false (V c (Pipeline.arrRef spec2 3)) (V c (Pipeline.arrRef spec2 4))
    (V c (Pipeline.arrRef spec2 11)) (V c (Pipeline.arrRef spec2 13)) (V c (Pipeline.arrRef spec2 12))

/-! ## What a point writes back is its block of the whole-array function -/

/-- Point t writes back, to the first output's array, block t of `newP2` of the arrays the region finds: the body's
    stored value at (p, q) is the formula over the blocks, row p of each node block is row t · 2000 + p of its
    array, and the weights and biases are whole. -/
theorem flushed2_14_eq (c : Dev nD) (t : Fin cfg2.N) :
    (dat2 V c).flushed 14 t = ((cfg2.win 14).blk t).view.read (Elt Ideal) (newP2 V c) := by
  show (cfg2.win 14).cut (grid2.coords t) ((dat2 V c).after 14 t) = _
  rw [after2_14]
  unfold out2_14
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  show k2_pay1 (k2_pay3 (iblk2 V c 0 t)) (k2_pay4 (iblk2 V c 1 t)) (k2_pay5 (iblk2 V c 2 t)) (k2_pay8 (iblk2 V c 5 t)) (k2_pay9 (iblk2 V c 7 t)) (k2_pay10 (iblk2 V c 8 t)) (k2_pay11 (iblk2 V c 10 t)) (k2_pay14 (iblk2 V c 6 t)) (iblk2 V c 9 t) (ix2 p q)
      = newP2 V c (((cfg2.win 14).blk t).view.emb (ix2 p q))
  rw [emb2_14 t p q]
  refine (PayloadAt.pay2_1_at (iblk2 V c 0 t) (iblk2 V c 1 t) (iblk2 V c 2 t) (iblk2 V c 5 t) (iblk2 V c 7 t) (iblk2 V c 8 t) (iblk2 V c 10 t) (iblk2 V c 6 t) (iblk2 V c 9 t) p q).trans ?_
  show Cert.Gnn.act false (_ + _) = Cert.Gnn.act false (Cert.Gnn.sageAt _ _ _ _ _ (rowOf t p) q + Cert.Gnn.sageAt _ _ _ _ _ (rowOf t p) q)
  refine congrArg (Cert.Gnn.act false) (congrArg₂ (· + ·) ?_ ?_)
  · exact Cert.Gnn.sageAt_block _ _ _ _ _ _ _ _ _ _ p (rowOf t p) q (rows2_0 V c t p) (rows2_1 V c t p) (whole2_5 V c t) (whole2_7 V c t) (whole2_6 V c t)
  · exact Cert.Gnn.sageAt_block _ _ _ _ _ _ _ _ _ _ p (rowOf t p) q (rows2_2 V c t p) (rows2_1 V c t p) (whole2_8 V c t) (whole2_10 V c t) (whole2_9 V c t)

/-- Point t writes back, to the second output's array, block t of `newG2` of the arrays the region finds. -/
theorem flushed2_15_eq (c : Dev nD) (t : Fin cfg2.N) :
    (dat2 V c).flushed 15 t = ((cfg2.win 15).blk t).view.read (Elt Ideal) (newG2 V c) := by
  show (cfg2.win 15).cut (grid2.coords t) ((dat2 V c).after 15 t) = _
  rw [after2_15]
  unfold out2_15
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  show k2_pay2 (k2_pay6 (iblk2 V c 3 t)) (k2_pay7 (iblk2 V c 4 t)) (k2_pay12 (iblk2 V c 11 t)) (k2_pay13 (iblk2 V c 13 t)) (iblk2 V c 12 t) (ix2 p q)
      = newG2 V c (((cfg2.win 15).blk t).view.emb (ix2 p q))
  rw [emb2_15 t p q]
  refine (PayloadAt.pay2_2_at (iblk2 V c 3 t) (iblk2 V c 4 t) (iblk2 V c 11 t) (iblk2 V c 13 t) (iblk2 V c 12 t) p q).trans ?_
  show Cert.Gnn.act false _ = Cert.Gnn.act false (Cert.Gnn.sageAt _ _ _ _ _ (rowOf t p) q)
  refine congrArg (Cert.Gnn.act false) ?_
  exact Cert.Gnn.sageAt_block _ _ _ _ _ _ _ _ _ _ p (rowOf t p) q (rows2_3 V c t p) (rows2_4 V c t p) (whole2_11 V c t) (whole2_13 V c t) (whole2_12 V c t)

/-! ## The arrays after the region -/

/-- The first output array after the region: every row is in the block of the point that wrote it back, so the
    array is the whole-array function. -/
theorem final2_14 (c : Dev nD) : (dat2 V c).arrAt 14 cfg2.N = newP2 V c :=
  (dat2 V c).arrAt_eq_of_cover 14 (newP2 V c) (fun t _ => flushed2_14_eq V c t) cover2_14

/-- The second output array after the region. -/
theorem final2_15 (c : Dev nD) : (dat2 V c).arrAt 15 cfg2.N = newG2 V c :=
  (dat2 V c).arrAt_eq_of_cover 15 (newG2 V c) (fun t _ => flushed2_15_eq V c t) cover2_15

/-- The first output array after the region, as the layer's formula of the arrays the region finds:
    windows 0, 1, 2 the neighbour means and own rows, 5, 7, 8, 10 the weights, 6, 9 the biases. -/
theorem arr2_14 (c : Dev nD) :
    (dat2 (F := Ideal) V c).arrAt 14 cfg2.N
      = Cert.Gnn.newP false (V c (Pipeline.arrRef spec2 0)) (V c (Pipeline.arrRef spec2 1)) (V c (Pipeline.arrRef spec2 2))
          (V c (Pipeline.arrRef spec2 5)) (V c (Pipeline.arrRef spec2 7)) (V c (Pipeline.arrRef spec2 8)) (V c (Pipeline.arrRef spec2 10))
          (V c (Pipeline.arrRef spec2 6)) (V c (Pipeline.arrRef spec2 9)) :=
  final2_14 V c

/-- The second output array after the region: windows 3, 4 the neighbour mean and own rows, 11, 13 the weights,
    12 the bias. -/
theorem arr2_15 (c : Dev nD) :
    (dat2 (F := Ideal) V c).arrAt 15 cfg2.N
      = Cert.Gnn.newG false (V c (Pipeline.arrRef spec2 3)) (V c (Pipeline.arrRef spec2 4))
          (V c (Pipeline.arrRef spec2 11)) (V c (Pipeline.arrRef spec2 13)) (V c (Pipeline.arrRef spec2 12)) :=
  final2_15 V c

end Cert.KernelIdeal.Region2

end
-- ==== Proof.Region3.lean ====
/-
  The scoring kernel, read as one whole array.

  The region runs over 50 grid points. At point t the two endpoint arrays [500000, 128] are windowed at rows
  t · 10000 … t · 10000 + 9999 and the output's block [10000, 1] is written back. The body's stored value at row
  e of the block is the logistic function of the inner product of the two blocks' rows e; a block's row e is
  its array's row t · 10000 + e; row r of the output is covered by point r / 10000. So the output array after
  the region holds, at row r, the logistic function of the inner product of the two arrays' rows r.
-/
import proofs.«146278_j35390530519883_1_alg».proof.Proof.Gen.KernelIdeal.Frame
import proofs.«146278_j35390530519883_1_alg».proof.Proof.Spec
import proofs.«146278_j35390530519883_1_alg».proof.Proof.SpecBlock
import proofs.«146278_j35390530519883_1_alg».proof.Proof.PayloadAt
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer load or store, however spelt. -/
theorem hz : (![0, 0] : Fin 2 → Nat) = fun _ => 0 := funext fun a => by fin_cases a <;> rfl

/-! ## The printed index maps, decided over the 50 grid points: every window is at block (t, 0) at point t -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)

/-- Row t · 10000 + p of an edge array: the row of the array that row p of point t's block is. -/
def rowOf (t : Fin cfg3.N) (p : Fin 10000) : Fin 500000 :=
  ⟨t.val * 10000 + p.val, by have h := t.isLt; have hN : cfg3.N = 50 := N_3; have := p.isLt; omega⟩

/-! ## Each input block read off its array -/

/-- Window 0's block at point t is rows t · 10000 … t · 10000 + 9999 of its array. -/
theorem rows3_0 (c : Dev nD) (t : Fin cfg3.N) (p : Fin 10000) (k : Fin 128) :
    (((cfg3.win 0).blk t).view.read (Elt Ideal) (V c (Pipeline.arrRef spec3 0)) : Vec Ideal S10000x128 .f32) (ix2 p k)
      = (V c (Pipeline.arrRef spec3 0) : S500000x128.Idx → EReal) (ix2 (rowOf t p) k) := by
  obtain ⟨e0, e1⟩ := idx3_0 t
  show (V c (Pipeline.arrRef spec3 0) : S500000x128.Idx → EReal) (((cfg3.win 0).blk t).view.emb (ix2 p k)) = _
  refine congrArg (V c (Pipeline.arrRef spec3 0) : S500000x128.Idx → EReal) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 128 + 1 * k.val = k.val; rw [e1]; omega
/-- Window 1's block at point t is rows t · 10000 … t · 10000 + 9999 of its array. -/
theorem rows3_1 (c : Dev nD) (t : Fin cfg3.N) (p : Fin 10000) (k : Fin 128) :
    (((cfg3.win 1).blk t).view.read (Elt Ideal) (V c (Pipeline.arrRef spec3 1)) : Vec Ideal S10000x128 .f32) (ix2 p k)
      = (V c (Pipeline.arrRef spec3 1) : S500000x128.Idx → EReal) (ix2 (rowOf t p) k) := by
  obtain ⟨e0, e1⟩ := idx3_1 t
  show (V c (Pipeline.arrRef spec3 1) : S500000x128.Idx → EReal) (((cfg3.win 1).blk t).view.emb (ix2 p k)) = _
  refine congrArg (V c (Pipeline.arrRef spec3 1) : S500000x128.Idx → EReal) (funext fun a => Fin.ext ?_)
  match a with
  | ⟨0, _⟩ => show win3_1.index t (0 : Fin 2) * 10000 + 1 * p.val = t.val * 10000 + p.val; rw [e0]; omega
  | ⟨1, _⟩ => show win3_1.index t (1 : Fin 2) * 128 + 1 * k.val = k.val; rw [e1]; omega

/-! ## Where the output block sits in its array, and the cover -/

/-- Entry (p, u) of the output's block at point t is entry (t · 10000 + p, u) of its array. -/
theorem emb3_2 (t : Fin cfg3.N) (p : Fin 10000) (u : Fin 1) :
    ((cfg3.win 2).blk t).view.emb (ix2 p u) = (ix2 (rowOf t p) u : S500000x1.Idx) := by
  obtain ⟨e0, e1⟩ := idx3_2 t
  funext a; apply Fin.ext
  match a with
  | ⟨0, _⟩ => show win3_2.index t (0 : Fin 2) * 10000 + 1 * p.val = t.val * 10000 + p.val; rw [e0]; omega
  | ⟨1, _⟩ => show win3_2.index t (1 : Fin 2) * 1 + 1 * u.val = u.val; rw [e1]; omega

/-- An index of the array is in point t's block of the output iff each coordinate is in the block's range. -/
theorem mem_blk3_2 (t : Fin cfg3.N) (i : S500000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v255).slice (win3_2.rect t)).set ↔ _
  rw [View.set_slice_whole, Rect.mem_set_unit]
  exact Iff.rfl

/-- Row r of the output's array is in the block of point r / 10000, which is written back. -/
theorem cover3_2 (i : S500000x1.Idx) :
    ∃ t : Fin cfg3.N, (cfg3.win 2).flush t = true ∧ i ∈ ((cfg3.win 2).blk t).view.set := by
  have hi0 : (i 0).val < 500000 := (i 0).isLt
  have hi1 : (i 1).val < 1 := (i 1).isLt
  have hN : cfg3.N = 50 := N_3
  have hlt : (i 0).val / 10000 < cfg3.N := by rw [hN]; omega
  obtain ⟨e0, e1⟩ := idx3_2 ⟨(i 0).val / 10000, hlt⟩
  refine ⟨⟨(i 0).val / 10000, hlt⟩, flush3_2 _, ?_⟩
  rw [mem_blk3_2]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_2.index ⟨(i 0).val / 10000, hlt⟩ (1 : Fin 2) * 1 ≤ (i 1).val ∧ (i 1).val < win3_2.index ⟨(i 0).val / 10000, hlt⟩ (1 : Fin 2) * 1 + 1
    rw [e1]; omega

/-! ## The output as a whole-array function of the region's input arrays -/

/-- The scores: at row r (its one column), the logistic function of the inner product of the two arrays' rows r. -/
def score3 (c : Dev nD) : S500000x1.Idx → EReal :=
  fun i => Cert.Gnn.scoreAt (V c (Pipeline.arrRef spec3 0)) (V c (Pipeline.arrRef spec3 1)) (i 0)

/-! ## What a point writes back is its block of the whole-array function -/

/-- Point t writes back block t of `score3` of the arrays the region finds. -/
theorem flushed3_2_eq (c : Dev nD) (t : Fin cfg3.N) :
    (dat3 V c).flushed 2 t = ((cfg3.win 2).blk t).view.read (Elt Ideal) (score3 V c) := by
  show (cfg3.win 2).cut (grid3.coords t) ((dat3 V c).after 2 t) = _
  rw [after3_2]
  unfold out3_2
  rw [View.canon_unit_zero hz]
  simp only [View.ld_unit_zero (S := S10000x128) hz]
  funext j
  obtain ⟨p, u, rfl⟩ : ∃ (p : Fin 10000) (u : Fin 1), j = ix2 p u := ⟨j 0, j 1, eq_ix2 (n0 := 10000) (n1 := 1) j⟩
  show k3_pay1 (iblk3 V c 0 t) (iblk3 V c 1 t) (ix2 p u) = score3 V c (((cfg3.win 2).blk t).view.emb (ix2 p u))
  rw [emb3_2 t p u]
  refine (PayloadAt.pay3_at (iblk3 V c 0 t) (iblk3 V c 1 t) p u).trans ?_
  show Ideal.logistic _ = Cert.Gnn.scoreAt (V c (Pipeline.arrRef spec3 0)) (V c (Pipeline.arrRef spec3 1)) (rowOf t p)
  exact Cert.Gnn.scoreAt_block _ _ _ _ p (rowOf t p) (rows3_0 V c t p) (rows3_1 V c t p)

/-! ## The array after the region -/

theorem final3_2 (c : Dev nD) : (dat3 V c).arrAt 2 cfg3.N = score3 V c :=
  (dat3 V c).arrAt_eq_of_cover 2 (score3 V c) (fun t _ => flushed3_2_eq V c t) cover3_2

/-- The output array [500000, 1] after the region: at row r the score of the two endpoint arrays' rows r
    (window 0 and window 1 of the region). -/
theorem arr3_2 (c : Dev nD) :
    (dat3 (F := Ideal) V c).arrAt 2 cfg3.N
      = fun i => Cert.Gnn.scoreAt (V c (Pipeline.arrRef spec3 0)) (V c (Pipeline.arrRef spec3 1)) (i 0) :=
  final3_2 V c

end Cert.KernelIdeal.Region3

end
-- ==== Proof.KLayers.lean ====
/-
  The kernel program's buffers at every boundary between its host stretches and its four regions, read as the
  specification's layers. After the first region the two output arrays are layer 1's rows; the next stretch
  aggregates them again (over the degree columns computed once, before the first region) and the second region
  gives layer 2's rows; the third gives layer 3's, unrectified; the last stretch gathers the queried edges'
  endpoint rows, the fourth region scores them, and a final reshape drops the unit axis. Buffers a stretch or a
  region does not write keep their contents, so the arguments and the degree columns are read through unchanged.
-/
import proofs.«146278_j35390530519883_1_alg».proof.Proof.KernelRun
import proofs.«146278_j35390530519883_1_alg».proof.Proof.SpecHost
import proofs.«146278_j35390530519883_1_alg».proof.Proof.KArgs
import proofs.«146278_j35390530519883_1_alg».proof.Proof.RefMath
import proofs.«146278_j35390530519883_1_alg».proof.Proof.KKeep
import proofs.«146278_j35390530519883_1_alg».proof.Proof.KHost0a
import proofs.«146278_j35390530519883_1_alg».proof.Proof.KHost0b
import proofs.«146278_j35390530519883_1_alg».proof.Proof.KHost1a
import proofs.«146278_j35390530519883_1_alg».proof.Proof.KHost1b
import proofs.«146278_j35390530519883_1_alg».proof.Proof.KHost2a
import proofs.«146278_j35390530519883_1_alg».proof.Proof.KHost2b
import proofs.«146278_j35390530519883_1_alg».proof.Proof.KHost3
import proofs.«146278_j35390530519883_1_alg».proof.Proof.Region0
import proofs.«146278_j35390530519883_1_alg».proof.Proof.Region1
import proofs.«146278_j35390530519883_1_alg».proof.Proof.Region2
import proofs.«146278_j35390530519883_1_alg».proof.Proof.Region3
import Idealize.ShloMosaic.Lib.Pipeline.Value
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Idealize.ShloMosaic.ValueIdx
open Cert.Gnn.HostTerms

variable (m : (ℓ : Loc nD τ sig) → Buf (Elt Ideal) ℓ) (ρ : Dev nD → PrngReg)

/-- The one-row array the kernel stages for a bias is the one-row matrix of the specification. -/
theorem krow_eq (v : A Cert.ReferenceIdeal.S128) : (krow v : Cert.Gnn.Mat 1 128) = bRow v := by
  funext i
  unfold krow bRow
  refine (shapeCast_addUnit_apply (n := 1) ![128] v _ i).trans ?_
  refine congrArg v (funext fun a => ?_)
  match a with | ⟨0, _⟩ => rfl

/-- Equal arrays give equal new rows. -/
theorem newP_congr {a : Bool} {A1 A1' X X' A2 A2' : Cert.Gnn.Mat 50000 128}
    {Wl1 Wl1' Wr1 Wr1' Wl2 Wl2' Wr2 Wr2' : Cert.Gnn.Mat 128 128} {b1 b1' b2 b2' : Cert.Gnn.Mat 1 128}
    (h0 : A1 = A1') (h1 : X = X') (h2 : A2 = A2') (h5 : Wl1 = Wl1') (h7 : Wr1 = Wr1') (h8 : Wl2 = Wl2') (h10 : Wr2 = Wr2')
    (h6 : b1 = b1') (h9 : b2 = b2') :
    Cert.Gnn.newP a A1 X A2 Wl1 Wr1 Wl2 Wr2 b1 b2 = Cert.Gnn.newP a A1' X' A2' Wl1' Wr1' Wl2' Wr2' b1' b2' := by
  subst h0 h1 h2 h5 h7 h8 h10 h6 h9; rfl
theorem newG_congr {a : Bool} {A1 A1' X X' : Cert.Gnn.Mat 50000 128} {Wl Wl' Wr Wr' : Cert.Gnn.Mat 128 128} {b b' : Cert.Gnn.Mat 1 128}
    (h3 : A1 = A1') (h4 : X = X') (h11 : Wl = Wl') (h13 : Wr = Wr') (h12 : b = b') :
    Cert.Gnn.newG a A1 X Wl Wr b = Cert.Gnn.newG a A1' X' Wl' Wr' b' := by
  subst h3 h4 h11 h13 h12; rfl

/-! ## What a region and a stretch leave alone -/

theorem W2_keep (c : Dev nD) (b : Ref sig .tc) (h : ∀ w, Pipeline.arrRef spec0 w ≠ b) (h' : b ∉ hostOps0_w) :
    W2 (F := Ideal) m ρ c (Proc.devRef .tc b) = W0 m ρ c (Proc.devRef .tc b) :=
  (W2_of_ne m ρ c b h).trans (hostOps0_keep h' _)
theorem W4_keep (c : Dev nD) (b : Ref sig .tc) (h : ∀ w, Pipeline.arrRef spec1 w ≠ b) (h' : b ∉ hostOps1_w) :
    W4 (F := Ideal) m ρ c (Proc.devRef .tc b) = W2 m ρ c (Proc.devRef .tc b) :=
  (W4_of_ne m ρ c b h).trans (hostOps1_keep h' _)
theorem W6_keep (c : Dev nD) (b : Ref sig .tc) (h : ∀ w, Pipeline.arrRef spec2 w ≠ b) (h' : b ∉ hostOps2_w) :
    W6 (F := Ideal) m ρ c (Proc.devRef .tc b) = W4 m ρ c (Proc.devRef .tc b) :=
  (W6_of_ne m ρ c b h).trans (hostOps2_keep h' _)

/-! ## The arguments and the degree columns at every boundary -/

theorem W2_arg2 (c : Dev nD) : W2 (F := Ideal) m ρ c (Proc.devRef .tc main_arg2) = (args m c).WlI :=
  W2_keep m ρ c main_arg2 (by decide) (by decide)
theorem W4_arg2 (c : Dev nD) : W4 (F := Ideal) m ρ c (Proc.devRef .tc main_arg2) = (args m c).WlI :=
  (W4_keep m ρ c main_arg2 (by decide) (by decide)).trans (W2_arg2 m ρ c)
theorem W6_arg2 (c : Dev nD) : W6 (F := Ideal) m ρ c (Proc.devRef .tc main_arg2) = (args m c).WlI :=
  (W6_keep m ρ c main_arg2 (by decide) (by decide)).trans (W4_arg2 m ρ c)
theorem W2_arg3 (c : Dev nD) : W2 (F := Ideal) m ρ c (Proc.devRef .tc main_arg3) = (args m c).blI :=
  W2_keep m ρ c main_arg3 (by decide) (by decide)
theorem W4_arg3 (c : Dev nD) : W4 (F := Ideal) m ρ c (Proc.devRef .tc main_arg3) = (args m c).blI :=
  (W4_keep m ρ c main_arg3 (by decide) (by decide)).trans (W2_arg3 m ρ c)
theorem W6_arg3 (c : Dev nD) : W6 (F := Ideal) m ρ c (Proc.devRef .tc main_arg3) = (args m c).blI :=
  (W6_keep m ρ c main_arg3 (by decide) (by decide)).trans (W4_arg3 m ρ c)
theorem W2_arg4 (c : Dev nD) : W2 (F := Ideal) m ρ c (Proc.devRef .tc main_arg4) = (args m c).WrI :=
  W2_keep m ρ c main_arg4 (by decide) (by decide)
theorem W4_arg4 (c : Dev nD) : W4 (F := Ideal) m ρ c (Proc.devRef .tc main_arg4) = (args m c).WrI :=
  (W4_keep m ρ c main_arg4 (by decide) (by decide)).trans (W2_arg4 m ρ c)
theorem W6_arg4 (c : Dev nD) : W6 (F := Ideal) m ρ c (Proc.devRef .tc main_arg4) = (args m c).WrI :=
  (W6_keep m ρ c main_arg4 (by decide) (by decide)).trans (W4_arg4 m ρ c)
theorem W2_arg5 (c : Dev nD) : W2 (F := Ideal) m ρ c (Proc.devRef .tc main_arg5) = (args m c).WlL :=
  W2_keep m ρ c main_arg5 (by decide) (by decide)
theorem W4_arg5 (c : Dev nD) : W4 (F := Ideal) m ρ c (Proc.devRef .tc main_arg5) = (args m c).WlL :=
  (W4_keep m ρ c main_arg5 (by decide) (by decide)).trans (W2_arg5 m ρ c)
theorem W6_arg5 (c : Dev nD) : W6 (F := Ideal) m ρ c (Proc.devRef .tc main_arg5) = (args m c).WlL :=
  (W6_keep m ρ c main_arg5 (by decide) (by decide)).trans (W4_arg5 m ρ c)
theorem W2_arg6 (c : Dev nD) : W2 (F := Ideal) m ρ c (Proc.devRef .tc main_arg6) = (args m c).blL :=
  W2_keep m ρ c main_arg6 (by decide) (by decide)
theorem W4_arg6 (c : Dev nD) : W4 (F := Ideal) m ρ c (Proc.devRef .tc main_arg6) = (args m c).blL :=
  (W4_keep m ρ c main_arg6 (by decide) (by decide)).trans (W2_arg6 m ρ c)
theorem W6_arg6 (c : Dev nD) : W6 (F := Ideal) m ρ c (Proc.devRef .tc main_arg6) = (args m c).blL :=
  (W6_keep m ρ c main_arg6 (by decide) (by decide)).trans (W4_arg6 m ρ c)
theorem W2_arg7 (c : Dev nD) : W2 (F := Ideal) m ρ c (Proc.devRef .tc main_arg7) = (args m c).WrL :=
  W2_keep m ρ c main_arg7 (by decide) (by decide)
theorem W4_arg7 (c : Dev nD) : W4 (F := Ideal) m ρ c (Proc.devRef .tc main_arg7) = (args m c).WrL :=
  (W4_keep m ρ c main_arg7 (by decide) (by decide)).trans (W2_arg7 m ρ c)
theorem W6_arg7 (c : Dev nD) : W6 (F := Ideal) m ρ c (Proc.devRef .tc main_arg7) = (args m c).WrL :=
  (W6_keep m ρ c main_arg7 (by decide) (by decide)).trans (W4_arg7 m ρ c)
theorem W2_arg8 (c : Dev nD) : W2 (F := Ideal) m ρ c (Proc.devRef .tc main_arg8) = (args m c).WlV :=
  W2_keep m ρ c main_arg8 (by decide) (by decide)
theorem W4_arg8 (c : Dev nD) : W4 (F := Ideal) m ρ c (Proc.devRef .tc main_arg8) = (args m c).WlV :=
  (W4_keep m ρ c main_arg8 (by decide) (by decide)).trans (W2_arg8 m ρ c)
theorem W6_arg8 (c : Dev nD) : W6 (F := Ideal) m ρ c (Proc.devRef .tc main_arg8) = (args m c).WlV :=
  (W6_keep m ρ c main_arg8 (by decide) (by decide)).trans (W4_arg8 m ρ c)
theorem W2_arg9 (c : Dev nD) : W2 (F := Ideal) m ρ c (Proc.devRef .tc main_arg9) = (args m c).blV :=
  W2_keep m ρ c main_arg9 (by decide) (by decide)
theorem W4_arg9 (c : Dev nD) : W4 (F := Ideal) m ρ c (Proc.devRef .tc main_arg9) = (args m c).blV :=
  (W4_keep m ρ c main_arg9 (by decide) (by decide)).trans (W2_arg9 m ρ c)
theorem W6_arg9 (c : Dev nD) : W6 (F := Ideal) m ρ c (Proc.devRef .tc main_arg9) = (args m c).blV :=
  (W6_keep m ρ c main_arg9 (by decide) (by decide)).trans (W4_arg9 m ρ c)
theorem W2_arg10 (c : Dev nD) : W2 (F := Ideal) m ρ c (Proc.devRef .tc main_arg10) = (args m c).WrV :=
  W2_keep m ρ c main_arg10 (by decide) (by decide)
theorem W4_arg10 (c : Dev nD) : W4 (F := Ideal) m ρ c (Proc.devRef .tc main_arg10) = (args m c).WrV :=
  (W4_keep m ρ c main_arg10 (by decide) (by decide)).trans (W2_arg10 m ρ c)
theorem W6_arg10 (c : Dev nD) : W6 (F := Ideal) m ρ c (Proc.devRef .tc main_arg10) = (args m c).WrV :=
  (W6_keep m ρ c main_arg10 (by decide) (by decide)).trans (W4_arg10 m ρ c)
theorem W2_arg11 (c : Dev nD) : W2 (F := Ideal) m ρ c (Proc.devRef .tc main_arg11) = (args m c).eI :=
  W2_keep m ρ c main_arg11 (by decide) (by decide)
theorem W4_arg11 (c : Dev nD) : W4 (F := Ideal) m ρ c (Proc.devRef .tc main_arg11) = (args m c).eI :=
  (W4_keep m ρ c main_arg11 (by decide) (by decide)).trans (W2_arg11 m ρ c)
theorem W6_arg11 (c : Dev nD) : W6 (F := Ideal) m ρ c (Proc.devRef .tc main_arg11) = (args m c).eI :=
  (W6_keep m ρ c main_arg11 (by decide) (by decide)).trans (W4_arg11 m ρ c)
theorem W2_arg12 (c : Dev nD) : W2 (F := Ideal) m ρ c (Proc.devRef .tc main_arg12) = (args m c).eL :=
  W2_keep m ρ c main_arg12 (by decide) (by decide)
theorem W4_arg12 (c : Dev nD) : W4 (F := Ideal) m ρ c (Proc.devRef .tc main_arg12) = (args m c).eL :=
  (W4_keep m ρ c main_arg12 (by decide) (by decide)).trans (W2_arg12 m ρ c)
theorem W6_arg12 (c : Dev nD) : W6 (F := Ideal) m ρ c (Proc.devRef .tc main_arg12) = (args m c).eL :=
  (W6_keep m ρ c main_arg12 (by decide) (by decide)).trans (W4_arg12 m ρ c)
theorem W2_arg13 (c : Dev nD) : W2 (F := Ideal) m ρ c (Proc.devRef .tc main_arg13) = (args m c).eV :=
  W2_keep m ρ c main_arg13 (by decide) (by decide)
theorem W4_arg13 (c : Dev nD) : W4 (F := Ideal) m ρ c (Proc.devRef .tc main_arg13) = (args m c).eV :=
  (W4_keep m ρ c main_arg13 (by decide) (by decide)).trans (W2_arg13 m ρ c)
theorem W6_arg13 (c : Dev nD) : W6 (F := Ideal) m ρ c (Proc.devRef .tc main_arg13) = (args m c).eV :=
  (W6_keep m ρ c main_arg13 (by decide) (by decide)).trans (W4_arg13 m ρ c)
theorem W2_arg14 (c : Dev nD) : W2 (F := Ideal) m ρ c (Proc.devRef .tc main_arg14) = (args m c).eQ :=
  W2_keep m ρ c main_arg14 (by decide) (by decide)
theorem W4_arg14 (c : Dev nD) : W4 (F := Ideal) m ρ c (Proc.devRef .tc main_arg14) = (args m c).eQ :=
  (W4_keep m ρ c main_arg14 (by decide) (by decide)).trans (W2_arg14 m ρ c)
theorem W6_arg14 (c : Dev nD) : W6 (F := Ideal) m ρ c (Proc.devRef .tc main_arg14) = (args m c).eQ :=
  (W6_keep m ρ c main_arg14 (by decide) (by decide)).trans (W4_arg14 m ρ c)
theorem W2_v10 (c : Dev nD) : W2 (F := Ideal) m ρ c (Proc.devRef .tc main_v10) = deg500 (args m c).eI :=
  (W2_of_ne m ρ c main_v10 (by decide)).trans (h0_deg_isa m ρ c)
theorem W4_v10 (c : Dev nD) : W4 (F := Ideal) m ρ c (Proc.devRef .tc main_v10) = deg500 (args m c).eI :=
  (W4_keep m ρ c main_v10 (by decide) (by decide)).trans (W2_v10 m ρ c)
theorem W2_v18 (c : Dev nD) : W2 (F := Ideal) m ρ c (Proc.devRef .tc main_v18) = deg1M (args m c).eL :=
  (W2_of_ne m ρ c main_v18 (by decide)).trans (h0_deg_rel m ρ c)
theorem W4_v18 (c : Dev nD) : W4 (F := Ideal) m ρ c (Proc.devRef .tc main_v18) = deg1M (args m c).eL :=
  (W4_keep m ρ c main_v18 (by decide) (by decide)).trans (W2_v18 m ρ c)
theorem W2_v26 (c : Dev nD) : W2 (F := Ideal) m ρ c (Proc.devRef .tc main_v26) = deg1M (args m c).eV :=
  (W2_of_ne m ρ c main_v26 (by decide)).trans (h0_deg_rev m ρ c)
theorem W4_v26 (c : Dev nD) : W4 (F := Ideal) m ρ c (Proc.devRef .tc main_v26) = deg1M (args m c).eV :=
  (W4_keep m ρ c main_v26 (by decide) (by decide)).trans (W2_v26 m ρ c)

/-! ## Layer 1: the first region -/

set_option maxHeartbeats 4000000 in
theorem W2_xp1 (c : Dev nD) : W2 (F := Ideal) m ρ c (Proc.devRef .tc main_v96_0) = xp1 (args m c) := by
  refine (W2_arr m ρ c 14).trans ((Region0.arr0_14 (V1 m ρ) c).trans ?_)
  have e0 : V1 (F := Ideal) m ρ c (Pipeline.arrRef spec0 0) = mean500 (args m c).xp (args m c).eI := h0_mean_isa m ρ c
  have e1 : V1 (F := Ideal) m ρ c (Pipeline.arrRef spec0 1) = (args m c).xp := h0_xp m ρ c
  have e2 : V1 (F := Ideal) m ρ c (Pipeline.arrRef spec0 2) = mean1M (args m c).xg (args m c).eV := h0_mean_rev m ρ c
  have e5 : V1 (F := Ideal) m ρ c (Pipeline.arrRef spec0 5) = w0 (args m c).WlI := h0_WlI m ρ c
  have e6 : V1 (F := Ideal) m ρ c (Pipeline.arrRef spec0 6) = krow (b0 (args m c).blI) := h0_bI m ρ c
  have e7 : V1 (F := Ideal) m ρ c (Pipeline.arrRef spec0 7) = w0 (args m c).WrI := h0_WrI m ρ c
  have e8 : V1 (F := Ideal) m ρ c (Pipeline.arrRef spec0 8) = w0 (args m c).WlV := h0_WlV m ρ c
  have e9 : V1 (F := Ideal) m ρ c (Pipeline.arrRef spec0 9) = krow (b0 (args m c).blV) := h0_bV m ρ c
  have e10 : V1 (F := Ideal) m ρ c (Pipeline.arrRef spec0 10) = w0 (args m c).WrV := h0_WrV m ρ c
  exact (newP_congr e0 e1 e2 e5 e7 e8 e10 (e6.trans (krow_eq _)) (e9.trans (krow_eq _))).trans (leaky_preP_eq _ _ _ _ _ _ _ _ _ _).symm

theorem W2_xg1 (c : Dev nD) : W2 (F := Ideal) m ρ c (Proc.devRef .tc main_v96_1) = xg1 (args m c) := by
  refine (W2_arr m ρ c 15).trans ((Region0.arr0_15 (V1 m ρ) c).trans ?_)
  have e3 : V1 (F := Ideal) m ρ c (Pipeline.arrRef spec0 3) = mean1M (args m c).xp (args m c).eL := h0_mean_rel m ρ c
  have e4 : V1 (F := Ideal) m ρ c (Pipeline.arrRef spec0 4) = (args m c).xg := h0_xg m ρ c
  have e11 : V1 (F := Ideal) m ρ c (Pipeline.arrRef spec0 11) = w0 (args m c).WlL := h0_WlL m ρ c
  have e12 : V1 (F := Ideal) m ρ c (Pipeline.arrRef spec0 12) = krow (b0 (args m c).blL) := h0_bL m ρ c
  have e13 : V1 (F := Ideal) m ρ c (Pipeline.arrRef spec0 13) = w0 (args m c).WrL := h0_WrL m ρ c
  exact (newG_congr e3 e4 e11 e13 (e12.trans (krow_eq _))).trans (leaky_preG_eq _ _ _ _ _ _).symm

/-! ## Layer 2: region 1 -/

set_option maxHeartbeats 4000000 in
theorem W4_xp2 (c : Dev nD) : W4 (F := Ideal) m ρ c (Proc.devRef .tc main_v166_0) = xp2 (args m c) := by
  refine (W4_arr m ρ c 14).trans ((Region1.arr1_14 (V3 m ρ) c).trans ?_)
  have e0 : V3 (F := Ideal) m ρ c (Pipeline.arrRef spec1 0) = mean500 (xp1 (args m c)) (args m c).eI :=
    (h1_mean_isa (W2 m ρ c)).trans (by rw [W2_xp1, W2_arg11, W2_v10]; rfl)
  have e1 : V3 (F := Ideal) m ρ c (Pipeline.arrRef spec1 1) = xp1 (args m c) :=
    (h1_xp (W2 m ρ c)).trans (W2_xp1 m ρ c)
  have e2 : V3 (F := Ideal) m ρ c (Pipeline.arrRef spec1 2) = mean1M (xg1 (args m c)) (args m c).eV :=
    (h1_mean_rev (W2 m ρ c)).trans (by rw [W2_xg1, W2_arg13, W2_v26]; rfl)
  have e5 : V3 (F := Ideal) m ρ c (Pipeline.arrRef spec1 5) = w1 (args m c).WlI :=
    (h1_WlI (W2 m ρ c)).trans (by rw [W2_arg2])
  have e6 : V3 (F := Ideal) m ρ c (Pipeline.arrRef spec1 6) = krow (b1 (args m c).blI) :=
    (h1_bI (W2 m ρ c)).trans (by rw [W2_arg3])
  have e7 : V3 (F := Ideal) m ρ c (Pipeline.arrRef spec1 7) = w1 (args m c).WrI :=
    (h1_WrI (W2 m ρ c)).trans (by rw [W2_arg4])
  have e8 : V3 (F := Ideal) m ρ c (Pipeline.arrRef spec1 8) = w1 (args m c).WlV :=
    (h1_WlV (W2 m ρ c)).trans (by rw [W2_arg8])
  have e9 : V3 (F := Ideal) m ρ c (Pipeline.arrRef spec1 9) = krow (b1 (args m c).blV) :=
    (h1_bV (W2 m ρ c)).trans (by rw [W2_arg9])
  have e10 : V3 (F := Ideal) m ρ c (Pipeline.arrRef spec1 10) = w1 (args m c).WrV :=
    (h1_WrV (W2 m ρ c)).trans (by rw [W2_arg10])
  exact (newP_congr e0 e1 e2 e5 e7 e8 e10 (e6.trans (krow_eq _)) (e9.trans (krow_eq _))).trans (leaky_preP_eq _ _ _ _ _ _ _ _ _ _).symm

theorem W4_xg2 (c : Dev nD) : W4 (F := Ideal) m ρ c (Proc.devRef .tc main_v166_1) = xg2 (args m c) := by
  refine (W4_arr m ρ c 15).trans ((Region1.arr1_15 (V3 m ρ) c).trans ?_)
  have e3 : V3 (F := Ideal) m ρ c (Pipeline.arrRef spec1 3) = mean1M (xp1 (args m c)) (args m c).eL :=
    (h1_mean_rel (W2 m ρ c)).trans (by rw [W2_xp1, W2_arg12, W2_v18]; rfl)
  have e4 : V3 (F := Ideal) m ρ c (Pipeline.arrRef spec1 4) = xg1 (args m c) :=
    (h1_xg (W2 m ρ c)).trans (W2_xg1 m ρ c)
  have e11 : V3 (F := Ideal) m ρ c (Pipeline.arrRef spec1 11) = w1 (args m c).WlL :=
    (h1_WlL (W2 m ρ c)).trans (by rw [W2_arg5])
  have e12 : V3 (F := Ideal) m ρ c (Pipeline.arrRef spec1 12) = krow (b1 (args m c).blL) :=
    (h1_bL (W2 m ρ c)).trans (by rw [W2_arg6])
  have e13 : V3 (F := Ideal) m ρ c (Pipeline.arrRef spec1 13) = w1 (args m c).WrL :=
    (h1_WrL (W2 m ρ c)).trans (by rw [W2_arg7])
  exact (newG_congr e3 e4 e11 e13 (e12.trans (krow_eq _))).trans (leaky_preG_eq _ _ _ _ _ _).symm

/-! ## Layer 3: region 2 -/

set_option maxHeartbeats 4000000 in
theorem W6_xp3 (c : Dev nD) : W6 (F := Ideal) m ρ c (Proc.devRef .tc main_v236_0) = xp3 (args m c) := by
  refine (W6_arr m ρ c 14).trans ((Region2.arr2_14 (V5 m ρ) c).trans ?_)
  have e0 : V5 (F := Ideal) m ρ c (Pipeline.arrRef spec2 0) = mean500 (xp2 (args m c)) (args m c).eI :=
    (h2_mean_isa (W4 m ρ c)).trans (by rw [W4_xp2, W4_arg11, W4_v10]; rfl)
  have e1 : V5 (F := Ideal) m ρ c (Pipeline.arrRef spec2 1) = xp2 (args m c) :=
    (h2_xp (W4 m ρ c)).trans (W4_xp2 m ρ c)
  have e2 : V5 (F := Ideal) m ρ c (Pipeline.arrRef spec2 2) = mean1M (xg2 (args m c)) (args m c).eV :=
    (h2_mean_rev (W4 m ρ c)).trans (by rw [W4_xg2, W4_arg13, W4_v26]; rfl)
  have e5 : V5 (F := Ideal) m ρ c (Pipeline.arrRef spec2 5) = w2 (args m c).WlI :=
    (h2_WlI (W4 m ρ c)).trans (by rw [W4_arg2])
  have e6 : V5 (F := Ideal) m ρ c (Pipeline.arrRef spec2 6) = krow (b2 (args m c).blI) :=
    (h2_bI (W4 m ρ c)).trans (by rw [W4_arg3])
  have e7 : V5 (F := Ideal) m ρ c (Pipeline.arrRef spec2 7) = w2 (args m c).WrI :=
    (h2_WrI (W4 m ρ c)).trans (by rw [W4_arg4])
  have e8 : V5 (F := Ideal) m ρ c (Pipeline.arrRef spec2 8) = w2 (args m c).WlV :=
    (h2_WlV (W4 m ρ c)).trans (by rw [W4_arg8])
  have e9 : V5 (F := Ideal) m ρ c (Pipeline.arrRef spec2 9) = krow (b2 (args m c).blV) :=
    (h2_bV (W4 m ρ c)).trans (by rw [W4_arg9])
  have e10 : V5 (F := Ideal) m ρ c (Pipeline.arrRef spec2 10) = w2 (args m c).WrV :=
    (h2_WrV (W4 m ρ c)).trans (by rw [W4_arg10])
  exact (newP_congr e0 e1 e2 e5 e7 e8 e10 (e6.trans (krow_eq _)) (e9.trans (krow_eq _))).trans (preP_eq _ _ _ _ _ _ _ _ _ _).symm

theorem W6_xg3 (c : Dev nD) : W6 (F := Ideal) m ρ c (Proc.devRef .tc main_v236_1) = xg3 (args m c) := by
  refine (W6_arr m ρ c 15).trans ((Region2.arr2_15 (V5 m ρ) c).trans ?_)
  have e3 : V5 (F := Ideal) m ρ c (Pipeline.arrRef spec2 3) = mean1M (xp2 (args m c)) (args m c).eL :=
    (h2_mean_rel (W4 m ρ c)).trans (by rw [W4_xp2, W4_arg12, W4_v18]; rfl)
  have e4 : V5 (F := Ideal) m ρ c (Pipeline.arrRef spec2 4) = xg2 (args m c) :=
    (h2_xg (W4 m ρ c)).trans (W4_xg2 m ρ c)
  have e11 : V5 (F := Ideal) m ρ c (Pipeline.arrRef spec2 11) = w2 (args m c).WlL :=
    (h2_WlL (W4 m ρ c)).trans (by rw [W4_arg5])
  have e12 : V5 (F := Ideal) m ρ c (Pipeline.arrRef spec2 12) = krow (b2 (args m c).blL) :=
    (h2_bL (W4 m ρ c)).trans (by rw [W4_arg6])
  have e13 : V5 (F := Ideal) m ρ c (Pipeline.arrRef spec2 13) = w2 (args m c).WrL :=
    (h2_WrL (W4 m ρ c)).trans (by rw [W4_arg7])
  exact (newG_congr e3 e4 e11 e13 (e12.trans (krow_eq _))).trans (preG_eq _ _ _ _ _ _).symm

/-! ## The scorer: the last stretch, the fourth region, the final reshape -/

theorem W8_scores (c : Dev nD) :
    W8 (F := Ideal) m ρ c (Proc.devRef .tc main_v255)
      = fun i => Cert.Gnn.scoreAt (rows500 (xp3 (args m c)) (src500 (args m c).eQ)) (rows500 (xg3 (args m c)) (dst500 (args m c).eQ)) (i 0) := by
  refine (W8_arr m ρ c 2).trans ((Region3.arr3_2 (V7 m ρ) c).trans ?_)
  have e0 : V7 (F := Ideal) m ρ c (Pipeline.arrRef spec3 0) = rows500 (xp3 (args m c)) (src500 (args m c).eQ) :=
    (h3_gp (W6 m ρ c)).trans (by rw [W6_xp3, W6_arg14])
  have e1 : V7 (F := Ideal) m ρ c (Pipeline.arrRef spec3 1) = rows500 (xg3 (args m c)) (dst500 (args m c).eQ) :=
    (h3_gg (W6 m ρ c)).trans (by rw [W6_xg3, W6_arg14])
  exact congrArg₂ (fun P G => fun i : Cert.ReferenceIdeal.S500000x1.Idx => Cert.Gnn.scoreAt P G (i 0)) e0 e1

/-- The kernel program's result buffer ends at the specification's model of the launched arguments. -/
theorem W9_out (c : Dev nD) : W9 (F := Ideal) m ρ c (Proc.devRef .tc main_v256) = model (args m c) := by
  show StableHlo.after hostOps4 (W8 m ρ c) (Proc.devRef .tc main_v256) = _
  after_results
  rw [W8_scores]
  funext j
  obtain ⟨e, rfl⟩ : ∃ e : Fin 500000, j = ix1 e := ⟨j 0, eq_ix1 j⟩
  unfold model
  rw [scoreH_apply]
  refine (shapeCast_apply _ _ (ix1 e) (ix2 e (0 : Fin 1)) ?_).trans rfl
  rw [Shape.rowMajor_val_two, Shape.rowMajor_val_one]
  show e.val * 1 + 0 = e.val
  omega

end Cert.KernelIdeal.HostChain

end
-- ==== Proof.RefOps0.lean ====
/-
  Window 0 of the reference program (statements 1 … 60 of 432) as the list of its host operations, in program order.
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 60 operations of window 0, in order. -/
abbrev ops0 : List (HloOp τ sig (Elt F)) :=
  ( StableHlo.unary main_arg2 main_v0 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v0 main_v1 rfl shapeCasts_S1x128x128_S128x128
  :: StableHlo.unary main_arg3 main_v2 ((extractStridedSlice S1x128 ![0, 0] · slices_S3x128_S1x128_0_0) : (⟨S3x128, .f32⟩ : BufTy).Contents (Elt F) → (⟨S1x128, .f32⟩ : BufTy).Contents (Elt F))
  :: StableHlo.reshape main_v2 main_v3 rfl shapeCasts_S1x128_S128
  :: StableHlo.unary main_arg4 main_v4 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v4 main_v5 rfl shapeCasts_S1x128x128_S128x128
  :: StableHlo.unary main_arg11 main_v6 ((extractStridedSlice S1x500000 ![0, 0] · slices_S2x500000_S1x500000_0_0) : (⟨S2x500000, .i32⟩ : BufTy).Contents (Elt F) → (⟨S1x500000, .i32⟩ : BufTy).Contents (Elt F))
  :: StableHlo.reshape main_v6 main_v7 rfl shapeCasts_S1x500000_S500000
  :: StableHlo.nullary main_c (constantI S_ 32 0#32)
  :: StableHlo.unary main_c main_v8 (broadcastInDim S500000 ![] bcast_S_S500000 : (⟨S_, .i32⟩ : BufTy).Contents (Elt F) → (⟨S500000, .i32⟩ : BufTy).Contents (Elt F))
  :: StableHlo.binary main_v7 main_v8 main_v9 (cmpi .slt : (⟨S500000, .i32⟩ : BufTy).Contents (Elt F) → (⟨S500000, .i32⟩ : BufTy).Contents (Elt F) → (⟨S500000, .i1⟩ : BufTy).Contents (Elt F))
  :: StableHlo.nullary main_c_0 (constantI S_ 32 50000#32)
  :: StableHlo.unary main_c_0 main_v10 (broadcastInDim S500000 ![] bcast_S_S500000 : (⟨S_, .i32⟩ : BufTy).Contents (Elt F) → (⟨S500000, .i32⟩ : BufTy).Contents (Elt F))
  :: StableHlo.binary main_v7 main_v10 main_v11 (addi : (⟨S500000, .i32⟩ : BufTy).Contents (Elt F) → (⟨S500000, .i32⟩ : BufTy).Contents (Elt F) → (⟨S500000, .i32⟩ : BufTy).Contents (Elt F))
  :: StableHlo.ternary main_v9 main_v11 main_v7 main_v12 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: StableHlo.unary main_v12 main_v13 (broadcastInDim S500000x1 ![0] bcast_S500000_S500000x1_0 : (⟨S500000, .i32⟩ : BufTy).Contents (Elt F) → (⟨S500000x1, .i32⟩ : BufTy).Contents (Elt F))
  :: StableHlo.binary main_arg0 main_v13 main_v14 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F))
  :: StableHlo.unary main_arg11 main_v15 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v15 main_v16 rfl shapeCasts_S1x500000_S500000
  :: StableHlo.nullary main_cst (constant S_ .f32 0x00000000#32)
  :: StableHlo.unary main_cst main_v17 (broadcastInDim S50000x128 ![] bcast_S_S50000x128 : (⟨S_, .f32⟩ : BufTy).Contents (Elt F) → (⟨S50000x128, .f32⟩ : BufTy).Contents (Elt F))
  :: StableHlo.unary main_v16 main_v18 (broadcastInDim S500000x1 ![0] bcast_S500000_S500000x1_0 : (⟨S500000, .i32⟩ : BufTy).Contents (Elt F) → (⟨S500000x1, .i32⟩ : BufTy).Contents (Elt F))
  :: StableHlo.ternary main_v17 main_v18 main_v14 main_v19 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F))
  :: StableHlo.nullary main_cst_1 (constant S_ .f32 0x3F800000#32)
  :: StableHlo.unary main_cst_1 main_v20 (broadcastInDim S500000 ![] bcast_S_S500000 : (⟨S_, .f32⟩ : BufTy).Contents (Elt F) → (⟨S500000, .f32⟩ : BufTy).Contents (Elt F))
  :: StableHlo.unary main_arg11 main_v21 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v21 main_v22 rfl shapeCasts_S1x500000_S500000
  :: StableHlo.nullary main_cst_2 (constant S_ .f32 0x00000000#32)
  :: StableHlo.unary main_cst_2 main_v23 (broadcastInDim S50000 ![] bcast_S_S50000 : (⟨S_, .f32⟩ : BufTy).Contents (Elt F) → (⟨S50000, .f32⟩ : BufTy).Contents (Elt F))
  :: StableHlo.unary main_v22 main_v24 (broadcastInDim S500000x1 ![0] bcast_S500000_S500000x1_0 : (⟨S500000, .i32⟩ : BufTy).Contents (Elt F) → (⟨S500000x1, .i32⟩ : BufTy).Contents (Elt F))
  :: StableHlo.ternary main_v23 main_v24 main_v20 main_v25 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F))
  :: StableHlo.nullary main_cst_3 (constant S_ .f32 0x3F800000#32)
  :: StableHlo.unary main_cst_3 main_v26 (broadcastInDim S50000 ![] bcast_S_S50000 : (⟨S_, .f32⟩ : BufTy).Contents (Elt F) → (⟨S50000, .f32⟩ : BufTy).Contents (Elt F))
  :: StableHlo.binary main_v25 main_v26 main_v27 (maximumf : (⟨S50000, .f32⟩ : BufTy).Contents (Elt F) → (⟨S50000, .f32⟩ : BufTy).Contents (Elt F) → (⟨S50000, .f32⟩ : BufTy).Contents (Elt F))
  :: StableHlo.unary main_v27 main_v28 (broadcastInDim S50000x1 ![0] bcast_S50000_S50000x1_0 : (⟨S50000, .f32⟩ : BufTy).Contents (Elt F) → (⟨S50000x1, .f32⟩ : BufTy).Contents (Elt F))
  :: StableHlo.unary main_v28 main_v29 (broadcastInDim S50000x128 ![0, 1] bcast_S50000x1_S50000x128_0_1 : (⟨S50000x1, .f32⟩ : BufTy).Contents (Elt F) → (⟨S50000x128, .f32⟩ : BufTy).Contents (Elt F))
  :: StableHlo.binary main_v19 main_v29 main_v30 (Host.divf : (⟨S50000x128, .f32⟩ : BufTy).Contents (Elt F) → (⟨S50000x128, .f32⟩ : BufTy).Contents (Elt F) → (⟨S50000x128, .f32⟩ : BufTy).Contents (Elt F))
  :: StableHlo.binary main_v30 main_v1 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v3 main_v32 (broadcastInDim S1x128 ![1] bcast_S128_S1x128_1 : (⟨S128, .f32⟩ : BufTy).Contents (Elt F) → (⟨S1x128, .f32⟩ : BufTy).Contents (Elt F))
  :: StableHlo.unary main_v32 main_v33 (broadcastInDim S50000x128 ![0, 1] bcast_S1x128_S50000x128_0_1 : (⟨S1x128, .f32⟩ : BufTy).Contents (Elt F) → (⟨S50000x128, .f32⟩ : BufTy).Contents (Elt F))
  :: StableHlo.binary main_v31 main_v33 main_v34 (addf : (⟨S50000x128, .f32⟩ : BufTy).Contents (Elt F) → (⟨S50000x128, .f32⟩ : BufTy).Contents (Elt F) → (⟨S50000x128, .f32⟩ : BufTy).Contents (Elt F))
  :: StableHlo.binary main_arg0 main_v5 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v34 main_v35 main_v36 (addf : (⟨S50000x128, .f32⟩ : BufTy).Contents (Elt F) → (⟨S50000x128, .f32⟩ : BufTy).Contents (Elt F) → (⟨S50000x128, .f32⟩ : BufTy).Contents (Elt F))
  :: StableHlo.unary main_arg8 main_v37 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v37 main_v38 rfl shapeCasts_S1x128x128_S128x128
  :: StableHlo.unary main_arg9 main_v39 ((extractStridedSlice S1x128 ![0, 0] · slices_S3x128_S1x128_0_0) : (⟨S3x128, .f32⟩ : BufTy).Contents (Elt F) → (⟨S1x128, .f32⟩ : BufTy).Contents (Elt F))
  :: StableHlo.reshape main_v39 main_v40 rfl shapeCasts_S1x128_S128
  :: StableHlo.unary main_arg10 main_v41 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v41 main_v42 rfl shapeCasts_S1x128x128_S128x128
  :: StableHlo.unary main_arg13 main_v43 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v43 main_v44 rfl shapeCasts_S1x1000000_S1000000
  :: StableHlo.nullary main_c_4 (constantI S_ 32 0#32)
  :: StableHlo.unary main_c_4 main_v45 (broadcastInDim S1000000 ![] bcast_S_S1000000 : (⟨S_, .i32⟩ : BufTy).Contents (Elt F) → (⟨S1000000, .i32⟩ : BufTy).Contents (Elt F))
  :: StableHlo.binary main_v44 main_v45 main_v46 (cmpi .slt : (⟨S1000000, .i32⟩ : BufTy).Contents (Elt F) → (⟨S1000000, .i32⟩ : BufTy).Contents (Elt F) → (⟨S1000000, .i1⟩ : BufTy).Contents (Elt F))
  :: StableHlo.nullary main_c_5 (constantI S_ 32 50000#32)
  :: StableHlo.unary main_c_5 main_v47 (broadcastInDim S1000000 ![] bcast_S_S1000000 : (⟨S_, .i32⟩ : BufTy).Contents (Elt F) → (⟨S1000000, .i32⟩ : BufTy).Contents (Elt F))
  :: StableHlo.binary main_v44 main_v47 main_v48 (addi : (⟨S1000000, .i32⟩ : BufTy).Contents (Elt F) → (⟨S1000000, .i32⟩ : BufTy).Contents (Elt F) → (⟨S1000000, .i32⟩ : BufTy).Contents (Elt F))
  :: StableHlo.ternary main_v46 main_v48 main_v44 main_v49 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v49 main_v50 (broadcastInDim S1000000x1 ![0] bcast_S1000000_S1000000x1_0 : (⟨S1000000, .i32⟩ : BufTy).Contents (Elt F) → (⟨S1000000x1, .i32⟩ : BufTy).Contents (Elt F))
  :: StableHlo.binary main_arg1 main_v50 main_v51 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F))
  :: [] )

set_option maxHeartbeats 40000000 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- The buffers these operations write, in order. -/
abbrev ops0_w : List (Ref sig .tc) :=
  [main_v0, main_v1, main_v2, main_v3, main_v4, main_v5, main_v6, main_v7, main_c, main_v8, main_v9, main_c_0, main_v10, main_v11, main_v12, main_v13, main_v14, main_v15, main_v16, main_cst, main_v17, main_v18, main_v19, main_cst_1, main_v20, main_v21, main_v22, main_cst_2, main_v23, main_v24, main_v25, main_cst_3, main_v26, main_v27, main_v28, main_v29, main_v30, main_v31, main_v32, main_v33, main_v34, main_v35, main_v36, main_v37, main_v38, main_v39, main_v40, main_v41, main_v42, main_v43, main_v44, main_c_4, main_v45, main_v46, main_c_5, main_v47, main_v48, main_v49, main_v50, main_v51]

set_option maxHeartbeats 40000000 in
theorem ops0_writes : (ops0 : List (HloOp τ sig (Elt F))).Forall fun op => op.writes ⊆ (ops0_w.map (Proc.devRef (τ := τ) .tc)).toFinset :=
  ⟨writes_sub_of_mem main_v0 rfl (by decide), writes_sub_of_mem main_v1 rfl (by decide), writes_sub_of_mem main_v2 rfl (by decide), writes_sub_of_mem main_v3 rfl (by decide), writes_sub_of_mem main_v4 rfl (by decide), writes_sub_of_mem main_v5 rfl (by decide), writes_sub_of_mem main_v6 rfl (by decide), writes_sub_of_mem main_v7 rfl (by decide), writes_sub_of_mem main_c rfl (by decide), writes_sub_of_mem main_v8 rfl (by decide), writes_sub_of_mem main_v9 rfl (by decide), writes_sub_of_mem main_c_0 rfl (by decide), writes_sub_of_mem main_v10 rfl (by decide), writes_sub_of_mem main_v11 rfl (by decide), writes_sub_of_mem main_v12 rfl (by decide), writes_sub_of_mem main_v13 rfl (by decide), writes_sub_of_mem main_v14 rfl (by decide), writes_sub_of_mem main_v15 rfl (by decide), writes_sub_of_mem main_v16 rfl (by decide), writes_sub_of_mem main_cst rfl (by decide), writes_sub_of_mem main_v17 rfl (by decide), writes_sub_of_mem main_v18 rfl (by decide), writes_sub_of_mem main_v19 rfl (by decide), writes_sub_of_mem main_cst_1 rfl (by decide), writes_sub_of_mem main_v20 rfl (by decide), writes_sub_of_mem main_v21 rfl (by decide), writes_sub_of_mem main_v22 rfl (by decide), writes_sub_of_mem main_cst_2 rfl (by decide), writes_sub_of_mem main_v23 rfl (by decide), writes_sub_of_mem main_v24 rfl (by decide), writes_sub_of_mem main_v25 rfl (by decide), writes_sub_of_mem main_cst_3 rfl (by decide), writes_sub_of_mem main_v26 rfl (by decide), writes_sub_of_mem main_v27 rfl (by decide), writes_sub_of_mem main_v28 rfl (by decide), writes_sub_of_mem main_v29 rfl (by decide), writes_sub_of_mem main_v30 rfl (by decide), writes_sub_of_mem main_v31 rfl (by decide), writes_sub_of_mem main_v32 rfl (by decide), writes_sub_of_mem main_v33 rfl (by decide), writes_sub_of_mem main_v34 rfl (by decide), writes_sub_of_mem main_v35 rfl (by decide), writes_sub_of_mem main_v36 rfl (by decide), writes_sub_of_mem main_v37 rfl (by decide), writes_sub_of_mem main_v38 rfl (by decide), writes_sub_of_mem main_v39 rfl (by decide), writes_sub_of_mem main_v40 rfl (by decide), writes_sub_of_mem main_v41 rfl (by decide), writes_sub_of_mem main_v42 rfl (by decide), writes_sub_of_mem main_v43 rfl (by decide), writes_sub_of_mem main_v44 rfl (by decide), writes_sub_of_mem main_c_4 rfl (by decide), writes_sub_of_mem main_v45 rfl (by decide), writes_sub_of_mem main_v46 rfl (by decide), writes_sub_of_mem main_c_5 rfl (by decide), writes_sub_of_mem main_v47 rfl (by decide), writes_sub_of_mem main_v48 rfl (by decide), writes_sub_of_mem main_v49 rfl (by decide), writes_sub_of_mem main_v50 rfl (by decide), writes_sub_of_mem main_v51 rfl (by decide)⟩

set_option maxHeartbeats 40000000 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops0_keep {r : Ref sig .tc} (hr : r ∉ ops0_w) (V : Valuation τ sig (Elt F)) :
    after ops0 V (Proc.devRef .tc r) = V (Proc.devRef .tc r) :=
  after_of_writes_sub ops0 V ops0_writes hr

/-- The window is its operations run in order. -/
theorem main_part0_eq (c : Dev nD) : main_part0 (F := F) c = seq ops0 := by
  chain_rfl

end Cert.ReferenceIdeal.RefRun

end
-- ==== Proof.RefOps1.lean ====
/-
  Window 1 of the reference program (statements 61 … 120 of 432) as the list of its host operations, in program order.
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 27 operations of window 1, in order. -/
abbrev ops1a : List (HloOp τ sig (Elt F)) :=
  ( StableHlo.unary main_arg13 main_v52 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v52 main_v53 rfl shapeCasts_S1x1000000_S1000000
  :: StableHlo.nullary main_cst_6 (constant S_ .f32 0x00000000#32)
  :: StableHlo.unary main_cst_6 main_v54 (broadcastInDim S50000x128 ![] bcast_S_S50000x128 : (⟨S_, .f32⟩ : BufTy).Contents (Elt F) → (⟨S50000x128, .f32⟩ : BufTy).Contents (Elt F))
  :: StableHlo.unary main_v53 main_v55 (broadcastInDim S1000000x1 ![0] bcast_S1000000_S1000000x1_0 : (⟨S1000000, .i32⟩ : BufTy).Contents (Elt F) → (⟨S1000000x1, .i32⟩ : BufTy).Contents (Elt F))
  :: StableHlo.ternary main_v54 main_v55 main_v51 main_v56 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F))
  :: StableHlo.nullary main_cst_7 (constant S_ .f32 0x3F800000#32)
  :: StableHlo.unary main_cst_7 main_v57 (broadcastInDim S1000000 ![] bcast_S_S1000000 : (⟨S_, .f32⟩ : BufTy).Contents (Elt F) → (⟨S1000000, .f32⟩ : BufTy).Contents (Elt F))
  :: StableHlo.unary main_arg13 main_v58 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v58 main_v59 rfl shapeCasts_S1x1000000_S1000000
  :: StableHlo.nullary main_cst_8 (constant S_ .f32 0x00000000#32)
  :: StableHlo.unary main_cst_8 main_v60 (broadcastInDim S50000 ![] bcast_S_S50000 : (⟨S_, .f32⟩ : BufTy).Contents (Elt F) → (⟨S50000, .f32⟩ : BufTy).Contents (Elt F))
  :: StableHlo.unary main_v59 main_v61 (broadcastInDim S1000000x1 ![0] bcast_S1000000_S1000000x1_0 : (⟨S1000000, .i32⟩ : BufTy).Contents (Elt F) → (⟨S1000000x1, .i32⟩ : BufTy).Contents (Elt F))
  :: StableHlo.ternary main_v60 main_v61 main_v57 main_v62 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F))
  :: StableHlo.nullary main_cst_9 (constant S_ .f32 0x3F800000#32)
  :: StableHlo.unary main_cst_9 main_v63 (broadcastInDim S50000 ![] bcast_S_S50000 : (⟨S_, .f32⟩ : BufTy).Contents (Elt F) → (⟨S50000, .f32⟩ : BufTy).Contents (Elt F))
  :: StableHlo.binary main_v62 main_v63 main_v64 (maximumf : (⟨S50000, .f32⟩ : BufTy).Contents (Elt F) → (⟨S50000, .f32⟩ : BufTy).Contents (Elt F) → (⟨S50000, .f32⟩ : BufTy).Contents (Elt F))
  :: StableHlo.unary main_v64 main_v65 (broadcastInDim S50000x1 ![0] bcast_S50000_S50000x1_0 : (⟨S50000, .f32⟩ : BufTy).Contents (Elt F) → (⟨S50000x1, .f32⟩ : BufTy).Contents (Elt F))
  :: StableHlo.unary main_v65 main_v66 (broadcastInDim S50000x128 ![0, 1] bcast_S50000x1_S50000x128_0_1 : (⟨S50000x1, .f32⟩ : BufTy).Contents (Elt F) → (⟨S50000x128, .f32⟩ : BufTy).Contents (Elt F))
  :: StableHlo.binary main_v56 main_v66 main_v67 (Host.divf : (⟨S50000x128, .f32⟩ : BufTy).Contents (Elt F) → (⟨S50000x128, .f32⟩ : BufTy).Contents (Elt F) → (⟨S50000x128, .f32⟩ : BufTy).Contents (Elt F))
  :: StableHlo.binary main_v67 main_v38 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v40 main_v69 (broadcastInDim S1x128 ![1] bcast_S128_S1x128_1 : (⟨S128, .f32⟩ : BufTy).Contents (Elt F) → (⟨S1x128, .f32⟩ : BufTy).Contents (Elt F))
  :: StableHlo.unary main_v69 main_v70 (broadcastInDim S50000x128 ![0, 1] bcast_S1x128_S50000x128_0_1 : (⟨S1x128, .f32⟩ : BufTy).Contents (Elt F) → (⟨S50000x128, .f32⟩ : BufTy).Contents (Elt F))
  :: StableHlo.binary main_v68 main_v70 main_v71 (addf : (⟨S50000x128, .f32⟩ : BufTy).Contents (Elt F) → (⟨S50000x128, .f32⟩ : BufTy).Contents (Elt F) → (⟨S50000x128, .f32⟩ : BufTy).Contents (Elt F))
  :: StableHlo.binary main_arg0 main_v42 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v71 main_v72 main_v73 (addf : (⟨S50000x128, .f32⟩ : BufTy).Contents (Elt F) → (⟨S50000x128, .f32⟩ : BufTy).Contents (Elt F) → (⟨S50000x128, .f32⟩ : BufTy).Contents (Elt F))
  :: StableHlo.binary main_v36 main_v73 main_v74 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
theorem ops1a_sub : (ops1a : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub ..⟩

/-- The buffers these operations write, in order. -/
abbrev ops1a_w : List (Ref sig .tc) :=
  [main_v52, main_v53, main_cst_6, main_v54, main_v55, main_v56, main_cst_7, main_v57, main_v58, main_v59, main_cst_8, main_v60, main_v61, main_v62, main_cst_9, main_v63, main_v64, main_v65, main_v66, main_v67, main_v68, main_v69, main_v70, main_v71, main_v72, main_v73, main_v74]

set_option maxHeartbeats 40000000 in
theorem ops1a_writes : (ops1a : List (HloOp τ sig (Elt F))).Forall fun op => op.writes ⊆ (ops1a_w.map (Proc.devRef (τ := τ) .tc)).toFinset :=
  ⟨writes_sub_of_mem main_v52 rfl (by decide), writes_sub_of_mem main_v53 rfl (by decide), writes_sub_of_mem main_cst_6 rfl (by decide), writes_sub_of_mem main_v54 rfl (by decide), writes_sub_of_mem main_v55 rfl (by decide), writes_sub_of_mem main_v56 rfl (by decide), writes_sub_of_mem main_cst_7 rfl (by decide), writes_sub_of_mem main_v57 rfl (by decide), writes_sub_of_mem main_v58 rfl (by decide), writes_sub_of_mem main_v59 rfl (by decide), writes_sub_of_mem main_cst_8 rfl (by decide), writes_sub_of_mem main_v60 rfl (by decide), writes_sub_of_mem main_v61 rfl (by decide), writes_sub_of_mem main_v62 rfl (by decide), writes_sub_of_mem main_cst_9 rfl (by decide), writes_sub_of_mem main_v63 rfl (by decide), writes_sub_of_mem main_v64 rfl (by decide), writes_sub_of_mem main_v65 rfl (by decide), writes_sub_of_mem main_v66 rfl (by decide), writes_sub_of_mem main_v67 rfl (by decide), writes_sub_of_mem main_v68 rfl (by decide), writes_sub_of_mem main_v69 rfl (by decide), writes_sub_of_mem main_v70 rfl (by decide), writes_sub_of_mem main_v71 rfl (by decide), writes_sub_of_mem main_v72 rfl (by decide), writes_sub_of_mem main_v73 rfl (by decide), writes_sub_of_mem main_v74 rfl (by decide)⟩

set_option maxHeartbeats 40000000 in
theorem ops1a_fresh : (ops1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops1a_keep {r : Ref sig .tc} (hr : r ∉ ops1a_w) (V : Valuation τ sig (Elt F)) :
    after ops1a V (Proc.devRef .tc r) = V (Proc.devRef .tc r) :=
  after_of_writes_sub ops1a V ops1a_writes hr

set_option maxHeartbeats 40000000 in
/-- 33 operations of window 1, in order. -/
abbrev ops1b : List (HloOp τ sig (Elt F)) :=
  ( StableHlo.unary main_arg5 main_v75 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v75 main_v76 rfl shapeCasts_S1x128x128_S128x128
  :: StableHlo.unary main_arg6 main_v77 ((extractStridedSlice S1x128 ![0, 0] · slices_S3x128_S1x128_0_0) : (⟨S3x128, .f32⟩ : BufTy).Contents (Elt F) → (⟨S1x128, .f32⟩ : BufTy).Contents (Elt F))
  :: StableHlo.reshape main_v77 main_v78 rfl shapeCasts_S1x128_S128
  :: StableHlo.unary main_arg7 main_v79 ((extractStridedSlice S1x128x128 ![0, 0, 0] · slices_S3x128x128_S1x128x128_0_0_0) : (⟨S3x128x128, .f32⟩ : BufTy).Contents (Elt F) → (⟨S1x128x128, .f32⟩ : BufTy).Contents (Elt F))
  :: StableHlo.reshape main_v79 main_v80 rfl shapeCasts_S1x128x128_S128x128
  :: StableHlo.unary main_arg12 main_v81 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v81 main_v82 rfl shapeCasts_S1x1000000_S1000000
  :: StableHlo.nullary main_c_10 (constantI S_ 32 0#32)
  :: StableHlo.unary main_c_10 main_v83 (broadcastInDim S1000000 ![] bcast_S_S1000000 : (⟨S_, .i32⟩ : BufTy).Contents (Elt F) → (⟨S1000000, .i32⟩ : BufTy).Contents (Elt F))
  :: StableHlo.binary main_v82 main_v83 main_v84 (cmpi .slt : (⟨S1000000, .i32⟩ : BufTy).Contents (Elt F) → (⟨S1000000, .i32⟩ : BufTy).Contents (Elt F) → (⟨S1000000, .i1⟩ : BufTy).Contents (Elt F))
  :: StableHlo.nullary main_c_11 (constantI S_ 32 50000#32)
  :: StableHlo.unary main_c_11 main_v85 (broadcastInDim S1000000 ![] bcast_S_S1000000 : (⟨S_, .i32⟩ : BufTy).Contents (Elt F) → (⟨S1000000, .i32⟩ : BufTy).Contents (Elt F))
  :: StableHlo.binary main_v82 main_v85 main_v86 (addi : (⟨S1000000, .i32⟩ : BufTy).Contents (Elt F) → (⟨S1000000, .i32⟩ : BufTy).Contents (Elt F) → (⟨S1000000, .i32⟩ : BufTy).Contents (Elt F))
  :: StableHlo.ternary main_v84 main_v86 main_v82 main_v87 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v87 main_v88 (broadcastInDim S1000000x1 ![0] bcast_S1000000_S1000000x1_0 : (⟨S1000000, .i32⟩ : BufTy).Contents (Elt F) → (⟨S1000000x1, .i32⟩ : BufTy).Contents (Elt F))
  :: StableHlo.binary main_arg0 main_v88 main_v89 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F))
  :: StableHlo.unary main_arg12 main_v90 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v90 main_v91 rfl shapeCasts_S1x1000000_S1000000
  :: StableHlo.nullary main_cst_12 (constant S_ .f32 0x00000000#32)
  :: StableHlo.unary main_cst_12 main_v92 (broadcastInDim S50000x128 ![] bcast_S_S50000x128 : (⟨S_, .f32⟩ : BufTy).Contents (Elt F) → (⟨S50000x128, .f32⟩ : BufTy).Contents (Elt F))
  :: StableHlo.unary main_v91 main_v93 (broadcastInDim S1000000x1 ![0] bcast_S1000000_S1000000x1_0 : (⟨S1000000, .i32⟩ : BufTy).Contents (Elt F) → (⟨S1000000x1, .i32⟩ : BufTy).Contents (Elt F))
  :: StableHlo.ternary main_v92 main_v93 main_v89 main_v94 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F))
  :: StableHlo.nullary main_cst_13 (constant S_ .f32 0x3F800000#32)
  :: StableHlo.unary main_cst_13 main_v95 (broadcastInDim S1000000 ![] bcast_S_S1000000 : (⟨S_, .f32⟩ : BufTy).Contents (Elt F) → (⟨S1000000, .f32⟩ : BufTy).Contents (Elt F))
  :: StableHlo.unary main_arg12 main_v96 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v96 main_v97 rfl shapeCasts_S1x1000000_S1000000
  :: StableHlo.nullary main_cst_14 (constant S_ .f32 0x00000000#32)
  :: StableHlo.unary main_cst_14 main_v98 (broadcastInDim S50000 ![] bcast_S_S50000 : (⟨S_, .f32⟩ : BufTy).Contents (Elt F) → (⟨S50000, .f32⟩ : BufTy).Contents (Elt F))
  :: StableHlo.unary main_v97 main_v99 (broadcastInDim S1000000x1 ![0] bcast_S1000000_S1000000x1_0 : (⟨S1000000, .i32⟩ : BufTy).Contents (Elt F) → (⟨S1000000x1, .i32⟩ : BufTy).Contents (Elt F))
  :: StableHlo.ternary main_v98 main_v99 main_v95 main_v100 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F))
  :: StableHlo.nullary main_cst_15 (constant S_ .f32 0x3F800000#32)
  :: StableHlo.unary main_cst_15 main_v101 (broadcastInDim S50000 ![] bcast_S_S50000 : (⟨S_, .f32⟩ : BufTy).Contents (Elt F) → (⟨S50000, .f32⟩ : BufTy).Contents (Elt F))
  :: [] )

set_option maxHeartbeats 40000000 in
theorem ops1b_sub : (ops1b : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub ..⟩

/-- The buffers these operations write, in order. -/
abbrev ops1b_w : List (Ref sig .tc) :=
  [main_v75, main_v76, main_v77, main_v78, main_v79, main_v80, main_v81, main_v82, main_c_10, main_v83, main_v84, main_c_11, main_v85, main_v86, main_v87, main_v88, main_v89, main_v90, main_v91, main_cst_12, main_v92, main_v93, main_v94, main_cst_13, main_v95, main_v96, main_v97, main_cst_14, main_v98, main_v99, main_v100, main_cst_15, main_v101]

set_option maxHeartbeats 40000000 in
theorem ops1b_writes : (ops1b : List (HloOp τ sig (Elt F))).Forall fun op => op.writes ⊆ (ops1b_w.map (Proc.devRef (τ := τ) .tc)).toFinset :=
  ⟨writes_sub_of_mem main_v75 rfl (by decide), writes_sub_of_mem main_v76 rfl (by decide), writes_sub_of_mem main_v77 rfl (by decide), writes_sub_of_mem main_v78 rfl (by decide), writes_sub_of_mem main_v79 rfl (by decide), writes_sub_of_mem main_v80 rfl (by decide), writes_sub_of_mem main_v81 rfl (by decide), writes_sub_of_mem main_v82 rfl (by decide), writes_sub_of_mem main_c_10 rfl (by decide), writes_sub_of_mem main_v83 rfl (by decide), writes_sub_of_mem main_v84 rfl (by decide), writes_sub_of_mem main_c_11 rfl (by decide), writes_sub_of_mem main_v85 rfl (by decide), writes_sub_of_mem main_v86 rfl (by decide), writes_sub_of_mem main_v87 rfl (by decide), writes_sub_of_mem main_v88 rfl (by decide), writes_sub_of_mem main_v89 rfl (by decide), writes_sub_of_mem main_v90 rfl (by decide), writes_sub_of_mem main_v91 rfl (by decide), writes_sub_of_mem main_cst_12 rfl (by decide), writes_sub_of_mem main_v92 rfl (by decide), writes_sub_of_mem main_v93 rfl (by decide), writes_sub_of_mem main_v94 rfl (by decide), writes_sub_of_mem main_cst_13 rfl (by decide), writes_sub_of_mem main_v95 rfl (by decide), writes_sub_of_mem main_v96 rfl (by decide), writes_sub_of_mem main_v97 rfl (by decide), writes_sub_of_mem main_cst_14 rfl (by decide), writes_sub_of_mem main_v98 rfl (by decide), writes_sub_of_mem main_v99 rfl (by decide), writes_sub_of_mem main_v100 rfl (by decide), writes_sub_of_mem main_cst_15 rfl (by decide), writes_sub_of_mem main_v101 rfl (by decide)⟩

set_option maxHeartbeats 40000000 in
theorem ops1b_fresh : (ops1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops1b_keep {r : Ref sig .tc} (hr : r ∉ ops1b_w) (V : Valuation τ sig (Elt F)) :
    after ops1b V (Proc.devRef .tc r) = V (Proc.devRef .tc r) :=
  after_of_writes_sub ops1b V ops1b_writes hr

/-- The window's operations: its pieces in order. -/
abbrev ops1 : List (HloOp τ sig (Elt F)) := ops1a ++ (ops1b)

theorem ops1_sub : (ops1 : List (HloOp τ sig (Elt F))).Forall fun op => op.bufs ⊆ tcRefs τ sig :=
  List.forall_append.2 ⟨ops1a_sub, ops1b_sub⟩

theorem ops1_fresh : (ops1 : List (HloOp τ sig (Elt F))).Forall fun op => op.fresh = ∅ :=
  List.forall_append.2 ⟨ops1a_fresh, ops1b_fresh⟩

/-- The window is its operations run in order. -/
theorem main_part1_eq (c : Dev nD) : main_part1 (F := F) c = seq ops1 := by
  rw [show (ops1 : List (HloOp τ sig (Elt F))) = ops1a ++ (ops1b) from rfl, seq_append]
  chain_rfl

end Cert.ReferenceIdeal.RefRun

end
-- ==== Proof.RefOps2.lean ====
/-
  Window 2 of the reference program (statements 121 … 180 of 432) as the list of its host operations, in program order;
  each call of the leaky rectifier appears as the callee's seven operations over the call's buffers (the constant zero,
  its broadcast, the comparison, the slope converted, its broadcast, the product, the selection).
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 10 operations of window 2, in order. -/
abbrev ops2a : List (HloOp τ sig (Elt F)) :=
  ( StableHlo.binary main_v100 main_v101 main_v102 (maximumf : (⟨S50000, .f32⟩ : BufTy).Contents (Elt F) → (⟨S50000, .f32⟩ : BufTy).Contents (Elt F) → (⟨S50000, .f32⟩ : BufTy).Contents (Elt F))
  :: StableHlo.unary main_v102 main_v103 (broadcastInDim S50000x1 ![0] bcast_S50000_S50000x1_0 : (⟨S50000, .f32⟩ : BufTy).Contents (Elt F) → (⟨S50000x1, .f32⟩ : BufTy).Contents (Elt F))
  :: StableHlo.unary main_v103 main_v104 (broadcastInDim S50000x128 ![0, 1] bcast_S50000x1_S50000x128_0_1 : (⟨S50000x1, .f32⟩ : BufTy).Contents (Elt F) → (⟨S50000x128, .f32⟩ : BufTy).Contents (Elt F))
  :: StableHlo.binary main_v94 main_v104 main_v105 (Host.divf : (⟨S50000x128, .f32⟩ : BufTy).Contents (Elt F) → (⟨S50000x128, .f32⟩ : BufTy).Contents (Elt F) → (⟨S50000x128, .f32⟩ : BufTy).Contents (Elt F))
  :: StableHlo.binary main_v105 main_v76 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v78 main_v107 (broadcastInDim S1x128 ![1] bcast_S128_S1x128_1 : (⟨S128, .f32⟩ : BufTy).Contents (Elt F) → (⟨S1x128, .f32⟩ : BufTy).Contents (Elt F))
  :: StableHlo.unary main_v107 main_v108 (broadcastInDim S50000x128 ![0, 1] bcast_S1x128_S50000x128_0_1 : (⟨S1x128, .f32⟩ : BufTy).Contents (Elt F) → (⟨S50000x128, .f32⟩ : BufTy).Contents (Elt F))
  :: StableHlo.binary main_v106 main_v108 main_v109 (addf : (⟨S50000x128, .f32⟩ : BufTy).Contents (Elt F) → (⟨S50000x128, .f32⟩ : BufTy).Contents (Elt F) → (⟨S50000x128, .f32⟩ : BufTy).Contents (Elt F))
  :: StableHlo.binary main_arg1 main_v80 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v109 main_v110 main_v111 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
theorem ops2a_sub : (ops2a : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub ..⟩

/-- The buffers these operations write, in order. -/
abbrev ops2a_w : List (Ref sig .tc) :=
  [main_v102, main_v103, main_v104, main_v105, main_v106, main_v107, main_v108, main_v109, main_v110, main_v111]

set_option maxHeartbeats 40000000 in
theorem ops2a_writes : (ops2a : List (HloOp τ sig (Elt F))).Forall fun op => op.writes ⊆ (ops2a_w.map (Proc.devRef (τ := τ) .tc)).toFinset :=
  ⟨writes_sub_of_mem main_v102 rfl (by decide), writes_sub_of_mem main_v103 rfl (by decide), writes_sub_of_mem main_v104 rfl (by decide), writes_sub_of_mem main_v105 rfl (by decide), writes_sub_of_mem main_v106 rfl (by decide), writes_sub_of_mem main_v107 rfl (by decide), writes_sub_of_mem main_v108 rfl (by decide), writes_sub_of_mem main_v109 rfl (by decide), writes_sub_of_mem main_v110 rfl (by decide), writes_sub_of_mem main_v111 rfl (by decide)⟩

set_option maxHeartbeats 40000000 in
theorem ops2a_fresh : (ops2a : List (HloOp τ sig (Elt F))).Forall fun op => op.fresh = ∅ :=
  ⟨rfl, rfl, rfl, rfl, rfl, rfl, rfl, rfl, rfl, rfl⟩

/-- A buffer none of them writes keeps its contents. -/
theorem ops2a_keep {r : Ref sig .tc} (hr : r ∉ ops2a_w) (V : Valuation τ sig (Elt F)) :
    after ops2a V (Proc.devRef .tc r) = V (Proc.devRef .tc r) :=
  after_of_writes_sub ops2a V ops2a_writes hr

set_option maxHeartbeats 40000000 in
/-- 1 operation of window 2, in order. -/
abbrev ops2b : List (HloOp τ sig (Elt F)) :=
  ( StableHlo.nullary main_cst_16 (constant S_ .f32 0x3C23D70A#32)
  :: [] )

set_option maxHeartbeats 40000000 in
theorem ops2b_sub : (ops2b : List (HloOp τ sig (Elt F))).Forall fun op => op.bufs ⊆ tcRefs τ sig :=
  nullary_bufs_sub ..

/-- The buffers these operations write, in order. -/
abbrev ops2b_w : List (Ref sig .tc) :=
  [main_cst_16]

set_option maxHeartbeats 40000000 in
theorem ops2b_writes : (ops2b : List (HloOp τ sig (Elt F))).Forall fun op => op.writes ⊆ (ops2b_w.map (Proc.devRef (τ := τ) .tc)).toFinset :=
  writes_sub_of_mem main_cst_16 rfl (by decide)

set_option maxHeartbeats 40000000 in
theorem ops2b_fresh : (ops2b : List (HloOp τ sig (Elt F))).Forall fun op => op.fresh = ∅ :=
  rfl

/-- A buffer none of them writes keeps its contents. -/
theorem ops2b_keep {r : Ref sig .tc} (hr : r ∉ ops2b_w) (V : Valuation τ sig (Elt F)) :
    after ops2b V (Proc.devRef .tc r) = V (Proc.devRef .tc r) :=
  after_of_writes_sub ops2b V ops2b_writes hr

set_option maxHeartbeats 40000000 in
/-- 7 operations of window 2 (a call of the leaky rectifier), in order. -/
abbrev ops2c : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S50000x128, .f32⟩) (broadcastInDim S50000x128 ![] bcast_S_S50000x128)
  :: StableHlo.TRef.binary (.of main_v74 : StableHlo.TRef sig ⟨S50000x128, .f32⟩) (.of main_call0_v0 : StableHlo.TRef sig ⟨S50000x128, .f32⟩) (.of main_call0_v1 : StableHlo.TRef sig ⟨S50000x128, .i1⟩) (cmpf .oge)
  :: StableHlo.TRef.unary (.of main_cst_16 : StableHlo.TRef sig ⟨S_, .f32⟩) (.of main_call0_v2 : StableHlo.TRef sig ⟨S_, .f32⟩) id
  :: StableHlo.TRef.unary (.of main_call0_v2 : StableHlo.TRef sig ⟨S_, .f32⟩) (.of main_call0_v3 : StableHlo.TRef sig ⟨S50000x128, .f32⟩) (broadcastInDim S50000x128 ![] bcast_S_S50000x128)
  :: StableHlo.TRef.binary (.of main_call0_v3 : StableHlo.TRef sig ⟨S50000x128, .f32⟩) (.of main_v74 : StableHlo.TRef sig ⟨S50000x128, .f32⟩) (.of main_call0_v4 : StableHlo.TRef sig ⟨S50000x128, .f32⟩) mulf
  :: StableHlo.TRef.ternary (.of main_call0_v1 : StableHlo.TRef sig ⟨S50000x128, .i1⟩) (.of main_v74 : StableHlo.TRef sig ⟨S50000x128, .f32⟩) (.of main_call0_v4 : StableHlo.TRef sig ⟨S50000x128, .f32⟩) (.of main_v112 : StableHlo.TRef sig ⟨S50000x128, .f32⟩) select
  :: [] )

set_option maxHeartbeats 40000000 in
theorem ops2c_sub : (ops2c : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

/-- The buffers these operations write, in order. -/
abbrev ops2c_w : List (Ref sig .tc) :=
  [main_call0_cst, main_call0_v0, main_call0_v1, main_call0_v2, main_call0_v3, main_call0_v4, main_v112]

set_option maxHeartbeats 40000000 in
theorem ops2c_writes : (ops2c : List (HloOp τ sig (Elt F))).Forall fun op => op.writes ⊆ (ops2c_w.map (Proc.devRef (τ := τ) .tc)).toFinset :=
  ⟨writes_sub_of_mem main_call0_cst rfl (by decide), writes_sub_of_mem main_call0_v0 rfl (by decide), writes_sub_of_mem main_call0_v1 rfl (by decide), writes_sub_of_mem main_call0_v2 rfl (by decide), writes_sub_of_mem main_call0_v3 rfl (by decide), writes_sub_of_mem main_call0_v4 rfl (by decide), writes_sub_of_mem main_v112 rfl (by decide)⟩

set_option maxHeartbeats 40000000 in
theorem ops2c_fresh : (ops2c : List (HloOp τ sig (Elt F))).Forall fun op => op.fresh = ∅ :=
  ⟨rfl, rfl, rfl, rfl, rfl, rfl, rfl⟩

/-- A buffer none of them writes keeps its contents. -/
theorem ops2c_keep {r : Ref sig .tc} (hr : r ∉ ops2c_w) (V : Valuation τ sig (Elt F)) :
    after ops2c V (Proc.devRef .tc r) = V (Proc.devRef .tc r) :=
  after_of_writes_sub ops2c V ops2c_writes hr

set_option maxHeartbeats 40000000 in
/-- 1 operation of window 2, in order. -/
abbrev ops2d : List (HloOp τ sig (Elt F)) :=
  ( StableHlo.nullary main_cst_17 (constant S_ .f32 0x3C23D70A#32)
  :: [] )

set_option maxHeartbeats 40000000 in
theorem ops2d_sub : (ops2d : List (HloOp τ sig (Elt F))).Forall fun op => op.bufs ⊆ tcRefs τ sig :=
  nullary_bufs_sub ..

/-- The buffers these operations write, in order. -/
abbrev ops2d_w : List (Ref sig .tc) :=
  [main_cst_17]

set_option maxHeartbeats 40000000 in
theorem ops2d_writes : (ops2d : List (HloOp τ sig (Elt F))).Forall fun op => op.writes ⊆ (ops2d_w.map (Proc.devRef (τ := τ) .tc)).toFinset :=
  writes_sub_of_mem main_cst_17 rfl (by decide)

set_option maxHeartbeats 40000000 in
theorem ops2d_fresh : (ops2d : List (HloOp τ sig (Elt F))).Forall fun op => op.fresh = ∅ :=
  rfl

/-- A buffer none of them writes keeps its contents. -/
theorem ops2d_keep {r : Ref sig .tc} (hr : r ∉ ops2d_w) (V : Valuation τ sig (Elt F)) :
    after ops2d V (Proc.devRef .tc r) = V (Proc.devRef .tc r) :=
  after_of_writes_sub ops2d V ops2d_writes hr

set_option maxHeartbeats 40000000 in
/-- 7 operations of window 2 (a call of the leaky rectifier), in order. -/
abbrev ops2e : List (HloOp τ sig (Elt F)) :=
  ( StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S50000x128, .f32⟩) (broadcastInDim S50000x128 ![] bcast_S_S50000x128)
  :: StableHlo.TRef.binary (.of main_v111 : StableHlo.TRef sig ⟨S50000x128, .f32⟩) (.of main_call1_v0 : StableHlo.TRef sig ⟨S50000x128, .f32⟩) (.of main_call1_v1 : StableHlo.TRef sig ⟨S50000x128, .i1⟩) (cmpf .oge)
  :: StableHlo.TRef.unary (.of main_cst_17 : StableHlo.TRef sig ⟨S_, .f32⟩) (.of main_call1_v2 : StableHlo.TRef sig ⟨S_, .f32⟩) id
  :: StableHlo.TRef.unary (.of main_call1_v2 : StableHlo.TRef sig ⟨S_, .f32⟩) (.of main_call1_v3 : StableHlo.TRef sig ⟨S50000x128, .f32⟩) (broadcastInDim S50000x128 ![] bcast_S_S50000x128)
  :: StableHlo.TRef.binary (.of main_call1_v3 : StableHlo.TRef sig ⟨S50000x128, .f32⟩) (.of main_v111 : StableHlo.TRef sig ⟨S50000x128, .f32⟩) (.of main_call1_v4 : StableHlo.TRef sig ⟨S50000x128, .f32⟩) mulf
  :: StableHlo.TRef.ternary (.of main_call1_v1 : StableHlo.TRef sig ⟨S50000x128, .i1⟩) (.of main_v111 : StableHlo.TRef sig ⟨S50000x128, .f32⟩) (.of main_call1_v4 : StableHlo.TRef sig ⟨S50000x128, .f32⟩) (.of main_v113 : StableHlo.TRef sig ⟨S50000x128, .f32⟩) select
  :: [] )

set_option maxHeartbeats 40000000 in
theorem ops2e_sub : (ops2e : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

/-- The buffers these operations write, in order. -/
abbrev ops2e_w : List (Ref sig .tc) :=
  [main_call1_cst, main_call1_v0, main_call1_v1, main_call1_v2, main_call1_v3, main_call1_v4, main_v113]

set_option maxHeartbeats 40000000 in
theorem ops2e_writes : (ops2e : List (HloOp τ sig (Elt F))).Forall fun op => op.writes ⊆ (ops2e_w.map (Proc.devRef (τ := τ) .tc)).toFinset :=
  ⟨writes_sub_of_mem main_call1_cst rfl (by decide), writes_sub_of_mem main_call1_v0 rfl (by decide), writes_sub_of_mem main_call1_v1 rfl (by decide), writes_sub_of_mem main_call1_v2 rfl (by decide), writes_sub_of_mem main_call1_v3 rfl (by decide), writes_sub_of_mem main_call1_v4 rfl (by decide), writes_sub_of_mem main_v113 rfl (by decide)⟩

set_option maxHeartbeats 40000000 in
theorem ops2e_fresh : (ops2e : List (HloOp τ sig (Elt F))).Forall fun op => op.fresh = ∅ :=
  ⟨rfl, rfl, rfl, rfl, rfl, rfl, rfl⟩

/-- A buffer none of them writes keeps its contents. -/
theorem ops2e_keep {r : Ref sig .tc} (hr : r ∉ ops2e_w) (V : Valuation τ sig (Elt F)) :
    after ops2e V (Proc.devRef .tc r) = V (Proc.devRef .tc r) :=
  after_of_writes_sub ops2e V ops2e_writes hr

set_option maxHeartbeats 40000000 in
/-- 46 operations of window 2, in order. -/
abbrev ops2f : List (HloOp τ sig (Elt F)) :=
  ( StableHlo.unary main_arg2 main_v114 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v114 main_v115 rfl shapeCasts_S1x128x128_S128x128
  :: StableHlo.unary main_arg3 main_v116 ((extractStridedSlice S1x128 ![1, 0] · slices_S3x128_S1x128_1_0) : (⟨S3x128, .f32⟩ : BufTy).Contents (Elt F) → (⟨S1x128, .f32⟩ : BufTy).Contents (Elt F))
  :: StableHlo.reshape main_v116 main_v117 rfl shapeCasts_S1x128_S128
  :: StableHlo.unary main_arg4 main_v118 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v118 main_v119 rfl shapeCasts_S1x128x128_S128x128
  :: StableHlo.unary main_arg11 main_v120 ((extractStridedSlice S1x500000 ![0, 0] · slices_S2x500000_S1x500000_0_0) : (⟨S2x500000, .i32⟩ : BufTy).Contents (Elt F) → (⟨S1x500000, .i32⟩ : BufTy).Contents (Elt F))
  :: StableHlo.reshape main_v120 main_v121 rfl shapeCasts_S1x500000_S500000
  :: StableHlo.nullary main_c_18 (constantI S_ 32 0#32)
  :: StableHlo.unary main_c_18 main_v122 (broadcastInDim S500000 ![] bcast_S_S500000 : (⟨S_, .i32⟩ : BufTy).Contents (Elt F) → (⟨S500000, .i32⟩ : BufTy).Contents (Elt F))
  :: StableHlo.binary main_v121 main_v122 main_v123 (cmpi .slt : (⟨S500000, .i32⟩ : BufTy).Contents (Elt F) → (⟨S500000, .i32⟩ : BufTy).Contents (Elt F) → (⟨S500000, .i1⟩ : BufTy).Contents (Elt F))
  :: StableHlo.nullary main_c_19 (constantI S_ 32 50000#32)
  :: StableHlo.unary main_c_19 main_v124 (broadcastInDim S500000 ![] bcast_S_S500000 : (⟨S_, .i32⟩ : BufTy).Contents (Elt F) → (⟨S500000, .i32⟩ : BufTy).Contents (Elt F))
  :: StableHlo.binary main_v121 main_v124 main_v125 (addi : (⟨S500000, .i32⟩ : BufTy).Contents (Elt F) → (⟨S500000, .i32⟩ : BufTy).Contents (Elt F) → (⟨S500000, .i32⟩ : BufTy).Contents (Elt F))
  :: StableHlo.ternary main_v123 main_v125 main_v121 main_v126 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: StableHlo.unary main_v126 main_v127 (broadcastInDim S500000x1 ![0] bcast_S500000_S500000x1_0 : (⟨S500000, .i32⟩ : BufTy).Contents (Elt F) → (⟨S500000x1, .i32⟩ : BufTy).Contents (Elt F))
  :: StableHlo.binary main_v112 main_v127 main_v128 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F))
  :: StableHlo.unary main_arg11 main_v129 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v129 main_v130 rfl shapeCasts_S1x500000_S500000
  :: StableHlo.nullary main_cst_20 (constant S_ .f32 0x00000000#32)
  :: StableHlo.unary main_cst_20 main_v131 (broadcastInDim S50000x128 ![] bcast_S_S50000x128 : (⟨S_, .f32⟩ : BufTy).Contents (Elt F) → (⟨S50000x128, .f32⟩ : BufTy).Contents (Elt F))
  :: StableHlo.unary main_v130 main_v132 (broadcastInDim S500000x1 ![0] bcast_S500000_S500000x1_0 : (⟨S500000, .i32⟩ : BufTy).Contents (Elt F) → (⟨S500000x1, .i32⟩ : BufTy).Contents (Elt F))
  :: StableHlo.ternary main_v131 main_v132 main_v128 main_v133 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F))
  :: StableHlo.nullary main_cst_21 (constant S_ .f32 0x3F800000#32)
  :: StableHlo.unary main_cst_21 main_v134 (broadcastInDim S500000 ![] bcast_S_S500000 : (⟨S_, .f32⟩ : BufTy).Contents (Elt F) → (⟨S500000, .f32⟩ : BufTy).Contents (Elt F))
  :: StableHlo.unary main_arg11 main_v135 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v135 main_v136 rfl shapeCasts_S1x500000_S500000
  :: StableHlo.nullary main_cst_22 (constant S_ .f32 0x00000000#32)
  :: StableHlo.unary main_cst_22 main_v137 (broadcastInDim S50000 ![] bcast_S_S50000 : (⟨S_, .f32⟩ : BufTy).Contents (Elt F) → (⟨S50000, .f32⟩ : BufTy).Contents (Elt F))
  :: StableHlo.unary main_v136 main_v138 (broadcastInDim S500000x1 ![0] bcast_S500000_S500000x1_0 : (⟨S500000, .i32⟩ : BufTy).Contents (Elt F) → (⟨S500000x1, .i32⟩ : BufTy).Contents (Elt F))
  :: StableHlo.ternary main_v137 main_v138 main_v134 main_v139 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F))
  :: StableHlo.nullary main_cst_23 (constant S_ .f32 0x3F800000#32)
  :: StableHlo.unary main_cst_23 main_v140 (broadcastInDim S50000 ![] bcast_S_S50000 : (⟨S_, .f32⟩ : BufTy).Contents (Elt F) → (⟨S50000, .f32⟩ : BufTy).Contents (Elt F))
  :: StableHlo.binary main_v139 main_v140 main_v141 (maximumf : (⟨S50000, .f32⟩ : BufTy).Contents (Elt F) → (⟨S50000, .f32⟩ : BufTy).Contents (Elt F) → (⟨S50000, .f32⟩ : BufTy).Contents (Elt F))
  :: StableHlo.unary main_v141 main_v142 (broadcastInDim S50000x1 ![0] bcast_S50000_S50000x1_0 : (⟨S50000, .f32⟩ : BufTy).Contents (Elt F) → (⟨S50000x1, .f32⟩ : BufTy).Contents (Elt F))
  :: StableHlo.unary main_v142 main_v143 (broadcastInDim S50000x128 ![0, 1] bcast_S50000x1_S50000x128_0_1 : (⟨S50000x1, .f32⟩ : BufTy).Contents (Elt F) → (⟨S50000x128, .f32⟩ : BufTy).Contents (Elt F))
  :: StableHlo.binary main_v133 main_v143 main_v144 (Host.divf : (⟨S50000x128, .f32⟩ : BufTy).Contents (Elt F) → (⟨S50000x128, .f32⟩ : BufTy).Contents (Elt F) → (⟨S50000x128, .f32⟩ : BufTy).Contents (Elt F))
  :: StableHlo.binary main_v144 main_v115 main_v145 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v117 main_v146 (broadcastInDim S1x128 ![1] bcast_S128_S1x128_1 : (⟨S128, .f32⟩ : BufTy).Contents (Elt F) → (⟨S1x128, .f32⟩ : BufTy).Contents (Elt F))
  :: StableHlo.unary main_v146 main_v147 (broadcastInDim S50000x128 ![0, 1] bcast_S1x128_S50000x128_0_1 : (⟨S1x128, .f32⟩ : BufTy).Contents (Elt F) → (⟨S50000x128, .f32⟩ : BufTy).Contents (Elt F))
  :: StableHlo.binary main_v145 main_v147 main_v148 (addf : (⟨S50000x128, .f32⟩ : BufTy).Contents (Elt F) → (⟨S50000x128, .f32⟩ : BufTy).Contents (Elt F) → (⟨S50000x128, .f32⟩ : BufTy).Contents (Elt F))
  :: StableHlo.binary main_v112 main_v119 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v148 main_v149 main_v150 (addf : (⟨S50000x128, .f32⟩ : BufTy).Contents (Elt F) → (⟨S50000x128, .f32⟩ : BufTy).Contents (Elt F) → (⟨S50000x128, .f32⟩ : BufTy).Contents (Elt F))
  :: StableHlo.unary main_arg8 main_v151 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v151 main_v152 rfl shapeCasts_S1x128x128_S128x128
  :: StableHlo.unary main_arg9 main_v153 ((extractStridedSlice S1x128 ![1, 0] · slices_S3x128_S1x128_1_0) : (⟨S3x128, .f32⟩ : BufTy).Contents (Elt F) → (⟨S1x128, .f32⟩ : BufTy).Contents (Elt F))
  :: [] )

set_option maxHeartbeats 40000000 in
theorem ops2f_sub : (ops2f : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub ..⟩

/-- The buffers these operations write, in order. -/
abbrev ops2f_w : List (Ref sig .tc) :=
  [main_v114, main_v115, main_v116, main_v117, main_v118, main_v119, main_v120, main_v121, main_c_18, main_v122, main_v123, main_c_19, main_v124, main_v125, main_v126, main_v127, main_v128, main_v129, main_v130, main_cst_20, main_v131, main_v132, main_v133, main_cst_21, main_v134, main_v135, main_v136, main_cst_22, main_v137, main_v138, main_v139, main_cst_23, main_v140, main_v141, main_v142, main_v143, main_v144, main_v145, main_v146, main_v147, main_v148, main_v149, main_v150, main_v151, main_v152, main_v153]

set_option maxHeartbeats 40000000 in
theorem ops2f_writes : (ops2f : List (HloOp τ sig (Elt F))).Forall fun op => op.writes ⊆ (ops2f_w.map (Proc.devRef (τ := τ) .tc)).toFinset :=
  ⟨writes_sub_of_mem main_v114 rfl (by decide), writes_sub_of_mem main_v115 rfl (by decide), writes_sub_of_mem main_v116 rfl (by decide), writes_sub_of_mem main_v117 rfl (by decide), writes_sub_of_mem main_v118 rfl (by decide), writes_sub_of_mem main_v119 rfl (by decide), writes_sub_of_mem main_v120 rfl (by decide), writes_sub_of_mem main_v121 rfl (by decide), writes_sub_of_mem main_c_18 rfl (by decide), writes_sub_of_mem main_v122 rfl (by decide), writes_sub_of_mem main_v123 rfl (by decide), writes_sub_of_mem main_c_19 rfl (by decide), writes_sub_of_mem main_v124 rfl (by decide), writes_sub_of_mem main_v125 rfl (by decide), writes_sub_of_mem main_v126 rfl (by decide), writes_sub_of_mem main_v127 rfl (by decide), writes_sub_of_mem main_v128 rfl (by decide), writes_sub_of_mem main_v129 rfl (by decide), writes_sub_of_mem main_v130 rfl (by decide), writes_sub_of_mem main_cst_20 rfl (by decide), writes_sub_of_mem main_v131 rfl (by decide), writes_sub_of_mem main_v132 rfl (by decide), writes_sub_of_mem main_v133 rfl (by decide), writes_sub_of_mem main_cst_21 rfl (by decide), writes_sub_of_mem main_v134 rfl (by decide), writes_sub_of_mem main_v135 rfl (by decide), writes_sub_of_mem main_v136 rfl (by decide), writes_sub_of_mem main_cst_22 rfl (by decide), writes_sub_of_mem main_v137 rfl (by decide), writes_sub_of_mem main_v138 rfl (by decide), writes_sub_of_mem main_v139 rfl (by decide), writes_sub_of_mem main_cst_23 rfl (by decide), writes_sub_of_mem main_v140 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_v147 rfl (by decide), writes_sub_of_mem main_v148 rfl (by decide), writes_sub_of_mem main_v149 rfl (by decide), writes_sub_of_mem main_v150 rfl (by decide), writes_sub_of_mem main_v151 rfl (by decide), writes_sub_of_mem main_v152 rfl (by decide), writes_sub_of_mem main_v153 rfl (by decide)⟩

set_option maxHeartbeats 40000000 in
theorem ops2f_fresh : (ops2f : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops2f_keep {r : Ref sig .tc} (hr : r ∉ ops2f_w) (V : Valuation τ sig (Elt F)) :
    after ops2f V (Proc.devRef .tc r) = V (Proc.devRef .tc r) :=
  after_of_writes_sub ops2f V ops2f_writes hr

/-- The window's operations: its pieces in order. -/
abbrev ops2 : List (HloOp τ sig (Elt F)) := ops2a ++ (ops2b ++ (ops2c ++ (ops2d ++ (ops2e ++ (ops2f)))))

theorem ops2_sub : (ops2 : List (HloOp τ sig (Elt F))).Forall fun op => op.bufs ⊆ tcRefs τ sig :=
  List.forall_append.2 ⟨ops2a_sub, List.forall_append.2 ⟨ops2b_sub, List.forall_append.2 ⟨ops2c_sub, List.forall_append.2 ⟨ops2d_sub, List.forall_append.2 ⟨ops2e_sub, ops2f_sub⟩⟩⟩⟩⟩

theorem ops2_fresh : (ops2 : List (HloOp τ sig (Elt F))).Forall fun op => op.fresh = ∅ :=
  List.forall_append.2 ⟨ops2a_fresh, List.forall_append.2 ⟨ops2b_fresh, List.forall_append.2 ⟨ops2c_fresh, List.forall_append.2 ⟨ops2d_fresh, List.forall_append.2 ⟨ops2e_fresh, ops2f_fresh⟩⟩⟩⟩⟩

/-- The window is its operations run in order. -/
theorem main_part2_eq (c : Dev nD) : main_part2 (F := F) c = seq ops2 := by
  rw [show (ops2 : List (HloOp τ sig (Elt F))) = ops2a ++ (ops2b ++ (ops2c ++ (ops2d ++ (ops2e ++ (ops2f))))) from rfl, seq_append, seq_append, seq_append, seq_append, seq_append]
  chain_rfl

end Cert.ReferenceIdeal.RefRun

end
-- ==== Proof.RefOps3.lean ====
/-
  Window 3 of the reference program (statements 181 … 240 of 432) as the list of its host operations, in program order.
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 41 operations of window 3, in order. -/
abbrev ops3a : List (HloOp τ sig (Elt F)) :=
  ( StableHlo.reshape main_v153 main_v154 rfl shapeCasts_S1x128_S128
  :: StableHlo.unary main_arg10 main_v155 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v155 main_v156 rfl shapeCasts_S1x128x128_S128x128
  :: StableHlo.unary main_arg13 main_v157 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v157 main_v158 rfl shapeCasts_S1x1000000_S1000000
  :: StableHlo.nullary main_c_24 (constantI S_ 32 0#32)
  :: StableHlo.unary main_c_24 main_v159 (broadcastInDim S1000000 ![] bcast_S_S1000000 : (⟨S_, .i32⟩ : BufTy).Contents (Elt F) → (⟨S1000000, .i32⟩ : BufTy).Contents (Elt F))
  :: StableHlo.binary main_v158 main_v159 main_v160 (cmpi .slt : (⟨S1000000, .i32⟩ : BufTy).Contents (Elt F) → (⟨S1000000, .i32⟩ : BufTy).Contents (Elt F) → (⟨S1000000, .i1⟩ : BufTy).Contents (Elt F))
  :: StableHlo.nullary main_c_25 (constantI S_ 32 50000#32)
  :: StableHlo.unary main_c_25 main_v161 (broadcastInDim S1000000 ![] bcast_S_S1000000 : (⟨S_, .i32⟩ : BufTy).Contents (Elt F) → (⟨S1000000, .i32⟩ : BufTy).Contents (Elt F))
  :: StableHlo.binary main_v158 main_v161 main_v162 (addi : (⟨S1000000, .i32⟩ : BufTy).Contents (Elt F) → (⟨S1000000, .i32⟩ : BufTy).Contents (Elt F) → (⟨S1000000, .i32⟩ : BufTy).Contents (Elt F))
  :: StableHlo.ternary main_v160 main_v162 main_v158 main_v163 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v163 main_v164 (broadcastInDim S1000000x1 ![0] bcast_S1000000_S1000000x1_0 : (⟨S1000000, .i32⟩ : BufTy).Contents (Elt F) → (⟨S1000000x1, .i32⟩ : BufTy).Contents (Elt F))
  :: StableHlo.binary main_v113 main_v164 main_v165 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F))
  :: StableHlo.unary main_arg13 main_v166 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v166 main_v167 rfl shapeCasts_S1x1000000_S1000000
  :: StableHlo.nullary main_cst_26 (constant S_ .f32 0x00000000#32)
  :: StableHlo.unary main_cst_26 main_v168 (broadcastInDim S50000x128 ![] bcast_S_S50000x128 : (⟨S_, .f32⟩ : BufTy).Contents (Elt F) → (⟨S50000x128, .f32⟩ : BufTy).Contents (Elt F))
  :: StableHlo.unary main_v167 main_v169 (broadcastInDim S1000000x1 ![0] bcast_S1000000_S1000000x1_0 : (⟨S1000000, .i32⟩ : BufTy).Contents (Elt F) → (⟨S1000000x1, .i32⟩ : BufTy).Contents (Elt F))
  :: StableHlo.ternary main_v168 main_v169 main_v165 main_v170 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F))
  :: StableHlo.nullary main_cst_27 (constant S_ .f32 0x3F800000#32)
  :: StableHlo.unary main_cst_27 main_v171 (broadcastInDim S1000000 ![] bcast_S_S1000000 : (⟨S_, .f32⟩ : BufTy).Contents (Elt F) → (⟨S1000000, .f32⟩ : BufTy).Contents (Elt F))
  :: StableHlo.unary main_arg13 main_v172 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v172 main_v173 rfl shapeCasts_S1x1000000_S1000000
  :: StableHlo.nullary main_cst_28 (constant S_ .f32 0x00000000#32)
  :: StableHlo.unary main_cst_28 main_v174 (broadcastInDim S50000 ![] bcast_S_S50000 : (⟨S_, .f32⟩ : BufTy).Contents (Elt F) → (⟨S50000, .f32⟩ : BufTy).Contents (Elt F))
  :: StableHlo.unary main_v173 main_v175 (broadcastInDim S1000000x1 ![0] bcast_S1000000_S1000000x1_0 : (⟨S1000000, .i32⟩ : BufTy).Contents (Elt F) → (⟨S1000000x1, .i32⟩ : BufTy).Contents (Elt F))
  :: StableHlo.ternary main_v174 main_v175 main_v171 main_v176 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F))
  :: StableHlo.nullary main_cst_29 (constant S_ .f32 0x3F800000#32)
  :: StableHlo.unary main_cst_29 main_v177 (broadcastInDim S50000 ![] bcast_S_S50000 : (⟨S_, .f32⟩ : BufTy).Contents (Elt F) → (⟨S50000, .f32⟩ : BufTy).Contents (Elt F))
  :: StableHlo.binary main_v176 main_v177 main_v178 (maximumf : (⟨S50000, .f32⟩ : BufTy).Contents (Elt F) → (⟨S50000, .f32⟩ : BufTy).Contents (Elt F) → (⟨S50000, .f32⟩ : BufTy).Contents (Elt F))
  :: StableHlo.unary main_v178 main_v179 (broadcastInDim S50000x1 ![0] bcast_S50000_S50000x1_0 : (⟨S50000, .f32⟩ : BufTy).Contents (Elt F) → (⟨S50000x1, .f32⟩ : BufTy).Contents (Elt F))
  :: StableHlo.unary main_v179 main_v180 (broadcastInDim S50000x128 ![0, 1] bcast_S50000x1_S50000x128_0_1 : (⟨S50000x1, .f32⟩ : BufTy).Contents (Elt F) → (⟨S50000x128, .f32⟩ : BufTy).Contents (Elt F))
  :: StableHlo.binary main_v170 main_v180 main_v181 (Host.divf : (⟨S50000x128, .f32⟩ : BufTy).Contents (Elt F) → (⟨S50000x128, .f32⟩ : BufTy).Contents (Elt F) → (⟨S50000x128, .f32⟩ : BufTy).Contents (Elt F))
  :: StableHlo.binary main_v181 main_v152 main_v182 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v154 main_v183 (broadcastInDim S1x128 ![1] bcast_S128_S1x128_1 : (⟨S128, .f32⟩ : BufTy).Contents (Elt F) → (⟨S1x128, .f32⟩ : BufTy).Contents (Elt F))
  :: StableHlo.unary main_v183 main_v184 (broadcastInDim S50000x128 ![0, 1] bcast_S1x128_S50000x128_0_1 : (⟨S1x128, .f32⟩ : BufTy).Contents (Elt F) → (⟨S50000x128, .f32⟩ : BufTy).Contents (Elt F))
  :: StableHlo.binary main_v182 main_v184 main_v185 (addf : (⟨S50000x128, .f32⟩ : BufTy).Contents (Elt F) → (⟨S50000x128, .f32⟩ : BufTy).Contents (Elt F) → (⟨S50000x128, .f32⟩ : BufTy).Contents (Elt F))
  :: StableHlo.binary main_v112 main_v156 main_v186 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v185 main_v186 main_v187 (addf : (⟨S50000x128, .f32⟩ : BufTy).Contents (Elt F) → (⟨S50000x128, .f32⟩ : BufTy).Contents (Elt F) → (⟨S50000x128, .f32⟩ : BufTy).Contents (Elt F))
  :: StableHlo.binary main_v150 main_v187 main_v188 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
theorem ops3a_sub : (ops3a : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub ..⟩

/-- The buffers these operations write, in order. -/
abbrev ops3a_w : List (Ref sig .tc) :=
  [main_v154, main_v155, main_v156, main_v157, main_v158, main_c_24, main_v159, main_v160, main_c_25, main_v161, main_v162, main_v163, main_v164, main_v165, main_v166, main_v167, main_cst_26, main_v168, main_v169, main_v170, main_cst_27, main_v171, main_v172, main_v173, main_cst_28, main_v174, main_v175, main_v176, main_cst_29, main_v177, main_v178, main_v179, main_v180, main_v181, main_v182, main_v183, main_v184, main_v185, main_v186, main_v187, main_v188]

set_option maxHeartbeats 40000000 in
theorem ops3a_writes : (ops3a : List (HloOp τ sig (Elt F))).Forall fun op => op.writes ⊆ (ops3a_w.map (Proc.devRef (τ := τ) .tc)).toFinset :=
  ⟨writes_sub_of_mem main_v154 rfl (by decide), writes_sub_of_mem main_v155 rfl (by decide), writes_sub_of_mem main_v156 rfl (by decide), writes_sub_of_mem main_v157 rfl (by decide), writes_sub_of_mem main_v158 rfl (by decide), writes_sub_of_mem main_c_24 rfl (by decide), writes_sub_of_mem main_v159 rfl (by decide), writes_sub_of_mem main_v160 rfl (by decide), writes_sub_of_mem main_c_25 rfl (by decide), writes_sub_of_mem main_v161 rfl (by decide), writes_sub_of_mem main_v162 rfl (by decide), writes_sub_of_mem main_v163 rfl (by decide), writes_sub_of_mem main_v164 rfl (by decide), writes_sub_of_mem main_v165 rfl (by decide), writes_sub_of_mem main_v166 rfl (by decide), writes_sub_of_mem main_v167 rfl (by decide), writes_sub_of_mem main_cst_26 rfl (by decide), writes_sub_of_mem main_v168 rfl (by decide), writes_sub_of_mem main_v169 rfl (by decide), writes_sub_of_mem main_v170 rfl (by decide), writes_sub_of_mem main_cst_27 rfl (by decide), writes_sub_of_mem main_v171 rfl (by decide), writes_sub_of_mem main_v172 rfl (by decide), writes_sub_of_mem main_v173 rfl (by decide), writes_sub_of_mem main_cst_28 rfl (by decide), writes_sub_of_mem main_v174 rfl (by decide), writes_sub_of_mem main_v175 rfl (by decide), writes_sub_of_mem main_v176 rfl (by decide), writes_sub_of_mem main_cst_29 rfl (by decide), writes_sub_of_mem main_v177 rfl (by decide), writes_sub_of_mem main_v178 rfl (by decide), writes_sub_of_mem main_v179 rfl (by decide), writes_sub_of_mem main_v180 rfl (by decide), writes_sub_of_mem main_v181 rfl (by decide), writes_sub_of_mem main_v182 rfl (by decide), writes_sub_of_mem main_v183 rfl (by decide), writes_sub_of_mem main_v184 rfl (by decide), writes_sub_of_mem main_v185 rfl (by decide), writes_sub_of_mem main_v186 rfl (by decide), writes_sub_of_mem main_v187 rfl (by decide), writes_sub_of_mem main_v188 rfl (by decide)⟩

set_option maxHeartbeats 40000000 in
theorem ops3a_fresh : (ops3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops3a_keep {r : Ref sig .tc} (hr : r ∉ ops3a_w) (V : Valuation τ sig (Elt F)) :
    after ops3a V (Proc.devRef .tc r) = V (Proc.devRef .tc r) :=
  after_of_writes_sub ops3a V ops3a_writes hr

set_option maxHeartbeats 40000000 in
/-- 19 operations of window 3, in order. -/
abbrev ops3b : List (HloOp τ sig (Elt F)) :=
  ( StableHlo.unary main_arg5 main_v189 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v189 main_v190 rfl shapeCasts_S1x128x128_S128x128
  :: StableHlo.unary main_arg6 main_v191 ((extractStridedSlice S1x128 ![1, 0] · slices_S3x128_S1x128_1_0) : (⟨S3x128, .f32⟩ : BufTy).Contents (Elt F) → (⟨S1x128, .f32⟩ : BufTy).Contents (Elt F))
  :: StableHlo.reshape main_v191 main_v192 rfl shapeCasts_S1x128_S128
  :: StableHlo.unary main_arg7 main_v193 ((extractStridedSlice S1x128x128 ![1, 0, 0] · slices_S3x128x128_S1x128x128_1_0_0) : (⟨S3x128x128, .f32⟩ : BufTy).Contents (Elt F) → (⟨S1x128x128, .f32⟩ : BufTy).Contents (Elt F))
  :: StableHlo.reshape main_v193 main_v194 rfl shapeCasts_S1x128x128_S128x128
  :: StableHlo.unary main_arg12 main_v195 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v195 main_v196 rfl shapeCasts_S1x1000000_S1000000
  :: StableHlo.nullary main_c_30 (constantI S_ 32 0#32)
  :: StableHlo.unary main_c_30 main_v197 (broadcastInDim S1000000 ![] bcast_S_S1000000 : (⟨S_, .i32⟩ : BufTy).Contents (Elt F) → (⟨S1000000, .i32⟩ : BufTy).Contents (Elt F))
  :: StableHlo.binary main_v196 main_v197 main_v198 (cmpi .slt : (⟨S1000000, .i32⟩ : BufTy).Contents (Elt F) → (⟨S1000000, .i32⟩ : BufTy).Contents (Elt F) → (⟨S1000000, .i1⟩ : BufTy).Contents (Elt F))
  :: StableHlo.nullary main_c_31 (constantI S_ 32 50000#32)
  :: StableHlo.unary main_c_31 main_v199 (broadcastInDim S1000000 ![] bcast_S_S1000000 : (⟨S_, .i32⟩ : BufTy).Contents (Elt F) → (⟨S1000000, .i32⟩ : BufTy).Contents (Elt F))
  :: StableHlo.binary main_v196 main_v199 main_v200 (addi : (⟨S1000000, .i32⟩ : BufTy).Contents (Elt F) → (⟨S1000000, .i32⟩ : BufTy).Contents (Elt F) → (⟨S1000000, .i32⟩ : BufTy).Contents (Elt F))
  :: StableHlo.ternary main_v198 main_v200 main_v196 main_v201 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v201 main_v202 (broadcastInDim S1000000x1 ![0] bcast_S1000000_S1000000x1_0 : (⟨S1000000, .i32⟩ : BufTy).Contents (Elt F) → (⟨S1000000x1, .i32⟩ : BufTy).Contents (Elt F))
  :: StableHlo.binary main_v112 main_v202 main_v203 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F))
  :: StableHlo.unary main_arg12 main_v204 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v204 main_v205 rfl shapeCasts_S1x1000000_S1000000
  :: [] )

set_option maxHeartbeats 40000000 in
theorem ops3b_sub : (ops3b : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

/-- The buffers these operations write, in order. -/
abbrev ops3b_w : List (Ref sig .tc) :=
  [main_v189, main_v190, main_v191, main_v192, main_v193, main_v194, main_v195, main_v196, main_c_30, main_v197, main_v198, main_c_31, main_v199, main_v200, main_v201, main_v202, main_v203, main_v204, main_v205]

set_option maxHeartbeats 40000000 in
theorem ops3b_writes : (ops3b : List (HloOp τ sig (Elt F))).Forall fun op => op.writes ⊆ (ops3b_w.map (Proc.devRef (τ := τ) .tc)).toFinset :=
  ⟨writes_sub_of_mem main_v189 rfl (by decide), writes_sub_of_mem main_v190 rfl (by decide), writes_sub_of_mem main_v191 rfl (by decide), writes_sub_of_mem main_v192 rfl (by decide), writes_sub_of_mem main_v193 rfl (by decide), writes_sub_of_mem main_v194 rfl (by decide), writes_sub_of_mem main_v195 rfl (by decide), writes_sub_of_mem main_v196 rfl (by decide), writes_sub_of_mem main_c_30 rfl (by decide), writes_sub_of_mem main_v197 rfl (by decide), writes_sub_of_mem main_v198 rfl (by decide), writes_sub_of_mem main_c_31 rfl (by decide), writes_sub_of_mem main_v199 rfl (by decide), writes_sub_of_mem main_v200 rfl (by decide), writes_sub_of_mem main_v201 rfl (by decide), writes_sub_of_mem main_v202 rfl (by decide), writes_sub_of_mem main_v203 rfl (by decide), writes_sub_of_mem main_v204 rfl (by decide), writes_sub_of_mem main_v205 rfl (by decide)⟩

set_option maxHeartbeats 40000000 in
theorem ops3b_fresh : (ops3b : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- A buffer none of them writes keeps its contents. -/
theorem ops3b_keep {r : Ref sig .tc} (hr : r ∉ ops3b_w) (V : Valuation τ sig (Elt F)) :
    after ops3b V (Proc.devRef .tc r) = V (Proc.devRef .tc r) :=
  after_of_writes_sub ops3b V ops3b_writes hr

/-- The window's operations: its pieces in order. -/
abbrev ops3 : List (HloOp τ sig (Elt F)) := ops3a ++ (ops3b)

theorem ops3_sub : (ops3 : List (HloOp τ sig (Elt F))).Forall fun op => op.bufs ⊆ tcRefs τ sig :=
  List.forall_append.2 ⟨ops3a_sub, ops3b_sub⟩

theorem ops3_fresh : (ops3 : List (HloOp τ sig (Elt F))).Forall fun op => op.fresh = ∅ :=
  List.forall_append.2 ⟨ops3a_fresh, ops3b_fresh⟩

/-- The window is its operations run in order. -/
theorem main_part3_eq (c : Dev nD) : main_part3 (F := F) c = seq ops3 := by
  rw [show (ops3 : List (HloOp τ sig (Elt F))) = ops3a ++ (ops3b) from rfl, seq_append]
  chain_rfl

end Cert.ReferenceIdeal.RefRun

end
-- ==== Proof.RefOps4.lean ====
/-
  Window 4 of the reference program (statements 241 … 300 of 432) as the list of its host operations, in program order;
  each call of the leaky rectifier appears as the callee's seven operations over the call's buffers (the constant zero,
  its broadcast, the comparison, the slope converted, its broadcast, the product, the selection).
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 24 operations of window 4, in order. -/
abbrev ops4a : List (HloOp τ sig (Elt F)) :=
  ( StableHlo.nullary main_cst_32 (constant S_ .f32 0x00000000#32)
  :: StableHlo.unary main_cst_32 main_v206 (broadcastInDim S50000x128 ![] bcast_S_S50000x128 : (⟨S_, .f32⟩ : BufTy).Contents (Elt F) → (⟨S50000x128, .f32⟩ : BufTy).Contents (Elt F))
  :: StableHlo.unary main_v205 main_v207 (broadcastInDim S1000000x1 ![0] bcast_S1000000_S1000000x1_0 : (⟨S1000000, .i32⟩ : BufTy).Contents (Elt F) → (⟨S1000000x1, .i32⟩ : BufTy).Contents (Elt F))
  :: StableHlo.ternary main_v206 main_v207 main_v203 main_v208 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F))
  :: StableHlo.nullary main_cst_33 (constant S_ .f32 0x3F800000#32)
  :: StableHlo.unary main_cst_33 main_v209 (broadcastInDim S1000000 ![] bcast_S_S1000000 : (⟨S_, .f32⟩ : BufTy).Contents (Elt F) → (⟨S1000000, .f32⟩ : BufTy).Contents (Elt F))
  :: StableHlo.unary main_arg12 main_v210 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v210 main_v211 rfl shapeCasts_S1x1000000_S1000000
  :: StableHlo.nullary main_cst_34 (constant S_ .f32 0x00000000#32)
  :: StableHlo.unary main_cst_34 main_v212 (broadcastInDim S50000 ![] bcast_S_S50000 : (⟨S_, .f32⟩ : BufTy).Contents (Elt F) → (⟨S50000, .f32⟩ : BufTy).Contents (Elt F))
  :: StableHlo.unary main_v211 main_v213 (broadcastInDim S1000000x1 ![0] bcast_S1000000_S1000000x1_0 : (⟨S1000000, .i32⟩ : BufTy).Contents (Elt F) → (⟨S1000000x1, .i32⟩ : BufTy).Contents (Elt F))
  :: StableHlo.ternary main_v212 main_v213 main_v209 main_v214 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F))
  :: StableHlo.nullary main_cst_35 (constant S_ .f32 0x3F800000#32)
  :: StableHlo.unary main_cst_35 main_v215 (broadcastInDim S50000 ![] bcast_S_S50000 : (⟨S_, .f32⟩ : BufTy).Contents (Elt F) → (⟨S50000, .f32⟩ : BufTy).Contents (Elt F))
  :: StableHlo.binary main_v214 main_v215 main_v216 (maximumf : (⟨S50000, .f32⟩ : BufTy).Contents (Elt F) → (⟨S50000, .f32⟩ : BufTy).Contents (Elt F) → (⟨S50000, .f32⟩ : BufTy).Contents (Elt F))
  :: StableHlo.unary main_v216 main_v217 (broadcastInDim S50000x1 ![0] bcast_S50000_S50000x1_0 : (⟨S50000, .f32⟩ : BufTy).Contents (Elt F) → (⟨S50000x1, .f32⟩ : BufTy).Contents (Elt F))
  :: StableHlo.unary main_v217 main_v218 (broadcastInDim S50000x128 ![0, 1] bcast_S50000x1_S50000x128_0_1 : (⟨S50000x1, .f32⟩ : BufTy).Contents (Elt F) → (⟨S50000x128, .f32⟩ : BufTy).Contents (Elt F))
  :: StableHlo.binary main_v208 main_v218 main_v219 (Host.divf : (⟨S50000x128, .f32⟩ : BufTy).Contents (Elt F) → (⟨S50000x128, .f32⟩ : BufTy).Contents (Elt F) → (⟨S50000x128, .f32⟩ : BufTy).Contents (Elt F))
  :: StableHlo.binary main_v219 main_v190 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v192 main_v221 (broadcastInDim S1x128 ![1] bcast_S128_S1x128_1 : (⟨S128, .f32⟩ : BufTy).Contents (Elt F) → (⟨S1x128, .f32⟩ : BufTy).Contents (Elt F))
  :: StableHlo.unary main_v221 main_v222 (broadcastInDim S50000x128 ![0, 1] bcast_S1x128_S50000x128_0_1 : (⟨S1x128, .f32⟩ : BufTy).Contents (Elt F) → (⟨S50000x128, .f32⟩ : BufTy).Contents (Elt F))
  :: StableHlo.binary main_v220 main_v222 main_v223 (addf : (⟨S50000x128, .f32⟩ : BufTy).Contents (Elt F) → (⟨S50000x128, .f32⟩ : BufTy).Contents (Elt F) → (⟨S50000x128, .f32⟩ : BufTy).Contents (Elt F))
  :: StableHlo.binary main_v113 main_v194 main_v224 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v223 main_v224 main_v225 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
theorem ops4a_sub : (ops4a : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

/-- The buffers these operations write, in order. -/
abbrev ops4a_w : List (Ref sig .tc) :=
  [main_cst_32, main_v206, main_v207, main_v208, main_cst_33, main_v209, main_v210, main_v211, main_cst_34, main_v212, main_v213, main_v214, main_cst_35, main_v215, main_v216, main_v217, main_v218, main_v219, main_v220, main_v221, main_v222, main_v223, main_v224, main_v225]

set_option maxHeartbeats 40000000 in
theorem ops4a_writes : (ops4a : List (HloOp τ sig (Elt F))).Forall fun op => op.writes ⊆ (ops4a_w.map (Proc.devRef (τ := τ) .tc)).toFinset :=
  ⟨writes_sub_of_mem main_cst_32 rfl (by decide), writes_sub_of_mem main_v206 rfl (by decide), writes_sub_of_mem main_v207 rfl (by decide), writes_sub_of_mem main_v208 rfl (by decide), writes_sub_of_mem main_cst_33 rfl (by decide), writes_sub_of_mem main_v209 rfl (by decide), writes_sub_of_mem main_v210 rfl (by decide), writes_sub_of_mem main_v211 rfl (by decide), writes_sub_of_mem main_cst_34 rfl (by decide), writes_sub_of_mem main_v212 rfl (by decide), writes_sub_of_mem main_v213 rfl (by decide), writes_sub_of_mem main_v214 rfl (by decide), writes_sub_of_mem main_cst_35 rfl (by decide), writes_sub_of_mem main_v215 rfl (by decide), writes_sub_of_mem main_v216 rfl (by decide), writes_sub_of_mem main_v217 rfl (by decide), writes_sub_of_mem main_v218 rfl (by decide), writes_sub_of_mem main_v219 rfl (by decide), writes_sub_of_mem main_v220 rfl (by decide), writes_sub_of_mem main_v221 rfl (by decide), writes_sub_of_mem main_v222 rfl (by decide), writes_sub_of_mem main_v223 rfl (by decide), writes_sub_of_mem main_v224 rfl (by decide), writes_sub_of_mem main_v225 rfl (by decide)⟩

set_option maxHeartbeats 40000000 in
theorem ops4a_fresh : (ops4a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops4a_keep {r : Ref sig .tc} (hr : r ∉ ops4a_w) (V : Valuation τ sig (Elt F)) :
    after ops4a V (Proc.devRef .tc r) = V (Proc.devRef .tc r) :=
  after_of_writes_sub ops4a V ops4a_writes hr

set_option maxHeartbeats 40000000 in
/-- 1 operation of window 4, in order. -/
abbrev ops4b : List (HloOp τ sig (Elt F)) :=
  ( StableHlo.nullary main_cst_36 (constant S_ .f32 0x3C23D70A#32)
  :: [] )

set_option maxHeartbeats 40000000 in
theorem ops4b_sub : (ops4b : List (HloOp τ sig (Elt F))).Forall fun op => op.bufs ⊆ tcRefs τ sig :=
  nullary_bufs_sub ..

/-- The buffers these operations write, in order. -/
abbrev ops4b_w : List (Ref sig .tc) :=
  [main_cst_36]

set_option maxHeartbeats 40000000 in
theorem ops4b_writes : (ops4b : List (HloOp τ sig (Elt F))).Forall fun op => op.writes ⊆ (ops4b_w.map (Proc.devRef (τ := τ) .tc)).toFinset :=
  writes_sub_of_mem main_cst_36 rfl (by decide)

set_option maxHeartbeats 40000000 in
theorem ops4b_fresh : (ops4b : List (HloOp τ sig (Elt F))).Forall fun op => op.fresh = ∅ :=
  rfl

/-- A buffer none of them writes keeps its contents. -/
theorem ops4b_keep {r : Ref sig .tc} (hr : r ∉ ops4b_w) (V : Valuation τ sig (Elt F)) :
    after ops4b V (Proc.devRef .tc r) = V (Proc.devRef .tc r) :=
  after_of_writes_sub ops4b V ops4b_writes hr

set_option maxHeartbeats 40000000 in
/-- 7 operations of window 4 (a call of the leaky rectifier), in order. -/
abbrev ops4c : List (HloOp τ sig (Elt F)) :=
  ( StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S50000x128, .f32⟩) (broadcastInDim S50000x128 ![] bcast_S_S50000x128)
  :: StableHlo.TRef.binary (.of main_v188 : StableHlo.TRef sig ⟨S50000x128, .f32⟩) (.of main_call2_v0 : StableHlo.TRef sig ⟨S50000x128, .f32⟩) (.of main_call2_v1 : StableHlo.TRef sig ⟨S50000x128, .i1⟩) (cmpf .oge)
  :: StableHlo.TRef.unary (.of main_cst_36 : StableHlo.TRef sig ⟨S_, .f32⟩) (.of main_call2_v2 : StableHlo.TRef sig ⟨S_, .f32⟩) id
  :: StableHlo.TRef.unary (.of main_call2_v2 : StableHlo.TRef sig ⟨S_, .f32⟩) (.of main_call2_v3 : StableHlo.TRef sig ⟨S50000x128, .f32⟩) (broadcastInDim S50000x128 ![] bcast_S_S50000x128)
  :: StableHlo.TRef.binary (.of main_call2_v3 : StableHlo.TRef sig ⟨S50000x128, .f32⟩) (.of main_v188 : StableHlo.TRef sig ⟨S50000x128, .f32⟩) (.of main_call2_v4 : StableHlo.TRef sig ⟨S50000x128, .f32⟩) mulf
  :: StableHlo.TRef.ternary (.of main_call2_v1 : StableHlo.TRef sig ⟨S50000x128, .i1⟩) (.of main_v188 : StableHlo.TRef sig ⟨S50000x128, .f32⟩) (.of main_call2_v4 : StableHlo.TRef sig ⟨S50000x128, .f32⟩) (.of main_v226 : StableHlo.TRef sig ⟨S50000x128, .f32⟩) select
  :: [] )

set_option maxHeartbeats 40000000 in
theorem ops4c_sub : (ops4c : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

/-- The buffers these operations write, in order. -/
abbrev ops4c_w : List (Ref sig .tc) :=
  [main_call2_cst, main_call2_v0, main_call2_v1, main_call2_v2, main_call2_v3, main_call2_v4, main_v226]

set_option maxHeartbeats 40000000 in
theorem ops4c_writes : (ops4c : List (HloOp τ sig (Elt F))).Forall fun op => op.writes ⊆ (ops4c_w.map (Proc.devRef (τ := τ) .tc)).toFinset :=
  ⟨writes_sub_of_mem main_call2_cst rfl (by decide), writes_sub_of_mem main_call2_v0 rfl (by decide), writes_sub_of_mem main_call2_v1 rfl (by decide), writes_sub_of_mem main_call2_v2 rfl (by decide), writes_sub_of_mem main_call2_v3 rfl (by decide), writes_sub_of_mem main_call2_v4 rfl (by decide), writes_sub_of_mem main_v226 rfl (by decide)⟩

set_option maxHeartbeats 40000000 in
theorem ops4c_fresh : (ops4c : List (HloOp τ sig (Elt F))).Forall fun op => op.fresh = ∅ :=
  ⟨rfl, rfl, rfl, rfl, rfl, rfl, rfl⟩

/-- A buffer none of them writes keeps its contents. -/
theorem ops4c_keep {r : Ref sig .tc} (hr : r ∉ ops4c_w) (V : Valuation τ sig (Elt F)) :
    after ops4c V (Proc.devRef .tc r) = V (Proc.devRef .tc r) :=
  after_of_writes_sub ops4c V ops4c_writes hr

set_option maxHeartbeats 40000000 in
/-- 1 operation of window 4, in order. -/
abbrev ops4d : List (HloOp τ sig (Elt F)) :=
  ( StableHlo.nullary main_cst_37 (constant S_ .f32 0x3C23D70A#32)
  :: [] )

set_option maxHeartbeats 40000000 in
theorem ops4d_sub : (ops4d : List (HloOp τ sig (Elt F))).Forall fun op => op.bufs ⊆ tcRefs τ sig :=
  nullary_bufs_sub ..

/-- The buffers these operations write, in order. -/
abbrev ops4d_w : List (Ref sig .tc) :=
  [main_cst_37]

set_option maxHeartbeats 40000000 in
theorem ops4d_writes : (ops4d : List (HloOp τ sig (Elt F))).Forall fun op => op.writes ⊆ (ops4d_w.map (Proc.devRef (τ := τ) .tc)).toFinset :=
  writes_sub_of_mem main_cst_37 rfl (by decide)

set_option maxHeartbeats 40000000 in
theorem ops4d_fresh : (ops4d : List (HloOp τ sig (Elt F))).Forall fun op => op.fresh = ∅ :=
  rfl

/-- A buffer none of them writes keeps its contents. -/
theorem ops4d_keep {r : Ref sig .tc} (hr : r ∉ ops4d_w) (V : Valuation τ sig (Elt F)) :
    after ops4d V (Proc.devRef .tc r) = V (Proc.devRef .tc r) :=
  after_of_writes_sub ops4d V ops4d_writes hr

set_option maxHeartbeats 40000000 in
/-- 7 operations of window 4 (a call of the leaky rectifier), in order. -/
abbrev ops4e : List (HloOp τ sig (Elt F)) :=
  ( StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S50000x128, .f32⟩) (broadcastInDim S50000x128 ![] bcast_S_S50000x128)
  :: StableHlo.TRef.binary (.of main_v225 : StableHlo.TRef sig ⟨S50000x128, .f32⟩) (.of main_call3_v0 : StableHlo.TRef sig ⟨S50000x128, .f32⟩) (.of main_call3_v1 : StableHlo.TRef sig ⟨S50000x128, .i1⟩) (cmpf .oge)
  :: StableHlo.TRef.unary (.of main_cst_37 : StableHlo.TRef sig ⟨S_, .f32⟩) (.of main_call3_v2 : StableHlo.TRef sig ⟨S_, .f32⟩) id
  :: StableHlo.TRef.unary (.of main_call3_v2 : StableHlo.TRef sig ⟨S_, .f32⟩) (.of main_call3_v3 : StableHlo.TRef sig ⟨S50000x128, .f32⟩) (broadcastInDim S50000x128 ![] bcast_S_S50000x128)
  :: StableHlo.TRef.binary (.of main_call3_v3 : StableHlo.TRef sig ⟨S50000x128, .f32⟩) (.of main_v225 : StableHlo.TRef sig ⟨S50000x128, .f32⟩) (.of main_call3_v4 : StableHlo.TRef sig ⟨S50000x128, .f32⟩) mulf
  :: StableHlo.TRef.ternary (.of main_call3_v1 : StableHlo.TRef sig ⟨S50000x128, .i1⟩) (.of main_v225 : StableHlo.TRef sig ⟨S50000x128, .f32⟩) (.of main_call3_v4 : StableHlo.TRef sig ⟨S50000x128, .f32⟩) (.of main_v227 : StableHlo.TRef sig ⟨S50000x128, .f32⟩) select
  :: [] )

set_option maxHeartbeats 40000000 in
theorem ops4e_sub : (ops4e : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

/-- The buffers these operations write, in order. -/
abbrev ops4e_w : List (Ref sig .tc) :=
  [main_call3_cst, main_call3_v0, main_call3_v1, main_call3_v2, main_call3_v3, main_call3_v4, main_v227]

set_option maxHeartbeats 40000000 in
theorem ops4e_writes : (ops4e : List (HloOp τ sig (Elt F))).Forall fun op => op.writes ⊆ (ops4e_w.map (Proc.devRef (τ := τ) .tc)).toFinset :=
  ⟨writes_sub_of_mem main_call3_cst rfl (by decide), writes_sub_of_mem main_call3_v0 rfl (by decide), writes_sub_of_mem main_call3_v1 rfl (by decide), writes_sub_of_mem main_call3_v2 rfl (by decide), writes_sub_of_mem main_call3_v3 rfl (by decide), writes_sub_of_mem main_call3_v4 rfl (by decide), writes_sub_of_mem main_v227 rfl (by decide)⟩

set_option maxHeartbeats 40000000 in
theorem ops4e_fresh : (ops4e : List (HloOp τ sig (Elt F))).Forall fun op => op.fresh = ∅ :=
  ⟨rfl, rfl, rfl, rfl, rfl, rfl, rfl⟩

/-- A buffer none of them writes keeps its contents. -/
theorem ops4e_keep {r : Ref sig .tc} (hr : r ∉ ops4e_w) (V : Valuation τ sig (Elt F)) :
    after ops4e V (Proc.devRef .tc r) = V (Proc.devRef .tc r) :=
  after_of_writes_sub ops4e V ops4e_writes hr

set_option maxHeartbeats 40000000 in
/-- 32 operations of window 4, in order. -/
abbrev ops4f : List (HloOp τ sig (Elt F)) :=
  ( StableHlo.unary main_arg2 main_v228 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v228 main_v229 rfl shapeCasts_S1x128x128_S128x128
  :: StableHlo.unary main_arg3 main_v230 ((extractStridedSlice S1x128 ![2, 0] · slices_S3x128_S1x128_2_0) : (⟨S3x128, .f32⟩ : BufTy).Contents (Elt F) → (⟨S1x128, .f32⟩ : BufTy).Contents (Elt F))
  :: StableHlo.reshape main_v230 main_v231 rfl shapeCasts_S1x128_S128
  :: StableHlo.unary main_arg4 main_v232 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v232 main_v233 rfl shapeCasts_S1x128x128_S128x128
  :: StableHlo.unary main_arg11 main_v234 ((extractStridedSlice S1x500000 ![0, 0] · slices_S2x500000_S1x500000_0_0) : (⟨S2x500000, .i32⟩ : BufTy).Contents (Elt F) → (⟨S1x500000, .i32⟩ : BufTy).Contents (Elt F))
  :: StableHlo.reshape main_v234 main_v235 rfl shapeCasts_S1x500000_S500000
  :: StableHlo.nullary main_c_38 (constantI S_ 32 0#32)
  :: StableHlo.unary main_c_38 main_v236 (broadcastInDim S500000 ![] bcast_S_S500000 : (⟨S_, .i32⟩ : BufTy).Contents (Elt F) → (⟨S500000, .i32⟩ : BufTy).Contents (Elt F))
  :: StableHlo.binary main_v235 main_v236 main_v237 (cmpi .slt : (⟨S500000, .i32⟩ : BufTy).Contents (Elt F) → (⟨S500000, .i32⟩ : BufTy).Contents (Elt F) → (⟨S500000, .i1⟩ : BufTy).Contents (Elt F))
  :: StableHlo.nullary main_c_39 (constantI S_ 32 50000#32)
  :: StableHlo.unary main_c_39 main_v238 (broadcastInDim S500000 ![] bcast_S_S500000 : (⟨S_, .i32⟩ : BufTy).Contents (Elt F) → (⟨S500000, .i32⟩ : BufTy).Contents (Elt F))
  :: StableHlo.binary main_v235 main_v238 main_v239 (addi : (⟨S500000, .i32⟩ : BufTy).Contents (Elt F) → (⟨S500000, .i32⟩ : BufTy).Contents (Elt F) → (⟨S500000, .i32⟩ : BufTy).Contents (Elt F))
  :: StableHlo.ternary main_v237 main_v239 main_v235 main_v240 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: StableHlo.unary main_v240 main_v241 (broadcastInDim S500000x1 ![0] bcast_S500000_S500000x1_0 : (⟨S500000, .i32⟩ : BufTy).Contents (Elt F) → (⟨S500000x1, .i32⟩ : BufTy).Contents (Elt F))
  :: StableHlo.binary main_v226 main_v241 main_v242 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F))
  :: StableHlo.unary main_arg11 main_v243 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v243 main_v244 rfl shapeCasts_S1x500000_S500000
  :: StableHlo.nullary main_cst_40 (constant S_ .f32 0x00000000#32)
  :: StableHlo.unary main_cst_40 main_v245 (broadcastInDim S50000x128 ![] bcast_S_S50000x128 : (⟨S_, .f32⟩ : BufTy).Contents (Elt F) → (⟨S50000x128, .f32⟩ : BufTy).Contents (Elt F))
  :: StableHlo.unary main_v244 main_v246 (broadcastInDim S500000x1 ![0] bcast_S500000_S500000x1_0 : (⟨S500000, .i32⟩ : BufTy).Contents (Elt F) → (⟨S500000x1, .i32⟩ : BufTy).Contents (Elt F))
  :: StableHlo.ternary main_v245 main_v246 main_v242 main_v247 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F))
  :: StableHlo.nullary main_cst_41 (constant S_ .f32 0x3F800000#32)
  :: StableHlo.unary main_cst_41 main_v248 (broadcastInDim S500000 ![] bcast_S_S500000 : (⟨S_, .f32⟩ : BufTy).Contents (Elt F) → (⟨S500000, .f32⟩ : BufTy).Contents (Elt F))
  :: StableHlo.unary main_arg11 main_v249 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v249 main_v250 rfl shapeCasts_S1x500000_S500000
  :: StableHlo.nullary main_cst_42 (constant S_ .f32 0x00000000#32)
  :: StableHlo.unary main_cst_42 main_v251 (broadcastInDim S50000 ![] bcast_S_S50000 : (⟨S_, .f32⟩ : BufTy).Contents (Elt F) → (⟨S50000, .f32⟩ : BufTy).Contents (Elt F))
  :: StableHlo.unary main_v250 main_v252 (broadcastInDim S500000x1 ![0] bcast_S500000_S500000x1_0 : (⟨S500000, .i32⟩ : BufTy).Contents (Elt F) → (⟨S500000x1, .i32⟩ : BufTy).Contents (Elt F))
  :: StableHlo.ternary main_v251 main_v252 main_v248 main_v253 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F))
  :: StableHlo.nullary main_cst_43 (constant S_ .f32 0x3F800000#32)
  :: [] )

set_option maxHeartbeats 40000000 in
theorem ops4f_sub : (ops4f : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub ..⟩

/-- The buffers these operations write, in order. -/
abbrev ops4f_w : List (Ref sig .tc) :=
  [main_v228, main_v229, main_v230, main_v231, main_v232, main_v233, main_v234, main_v235, main_c_38, main_v236, main_v237, main_c_39, main_v238, main_v239, main_v240, main_v241, main_v242, main_v243, main_v244, main_cst_40, main_v245, main_v246, main_v247, main_cst_41, main_v248, main_v249, main_v250, main_cst_42, main_v251, main_v252, main_v253, main_cst_43]

set_option maxHeartbeats 40000000 in
theorem ops4f_writes : (ops4f : List (HloOp τ sig (Elt F))).Forall fun op => op.writes ⊆ (ops4f_w.map (Proc.devRef (τ := τ) .tc)).toFinset :=
  ⟨writes_sub_of_mem main_v228 rfl (by decide), writes_sub_of_mem main_v229 rfl (by decide), writes_sub_of_mem main_v230 rfl (by decide), writes_sub_of_mem main_v231 rfl (by decide), writes_sub_of_mem main_v232 rfl (by decide), writes_sub_of_mem main_v233 rfl (by decide), writes_sub_of_mem main_v234 rfl (by decide), writes_sub_of_mem main_v235 rfl (by decide), writes_sub_of_mem main_c_38 rfl (by decide), writes_sub_of_mem main_v236 rfl (by decide), writes_sub_of_mem main_v237 rfl (by decide), writes_sub_of_mem main_c_39 rfl (by decide), writes_sub_of_mem main_v238 rfl (by decide), writes_sub_of_mem main_v239 rfl (by decide), writes_sub_of_mem main_v240 rfl (by decide), writes_sub_of_mem main_v241 rfl (by decide), writes_sub_of_mem main_v242 rfl (by decide), writes_sub_of_mem main_v243 rfl (by decide), writes_sub_of_mem main_v244 rfl (by decide), writes_sub_of_mem main_cst_40 rfl (by decide), writes_sub_of_mem main_v245 rfl (by decide), writes_sub_of_mem main_v246 rfl (by decide), writes_sub_of_mem main_v247 rfl (by decide), writes_sub_of_mem main_cst_41 rfl (by decide), writes_sub_of_mem main_v248 rfl (by decide), writes_sub_of_mem main_v249 rfl (by decide), writes_sub_of_mem main_v250 rfl (by decide), writes_sub_of_mem main_cst_42 rfl (by decide), writes_sub_of_mem main_v251 rfl (by decide), writes_sub_of_mem main_v252 rfl (by decide), writes_sub_of_mem main_v253 rfl (by decide), writes_sub_of_mem main_cst_43 rfl (by decide)⟩

set_option maxHeartbeats 40000000 in
theorem ops4f_fresh : (ops4f : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops4f_keep {r : Ref sig .tc} (hr : r ∉ ops4f_w) (V : Valuation τ sig (Elt F)) :
    after ops4f V (Proc.devRef .tc r) = V (Proc.devRef .tc r) :=
  after_of_writes_sub ops4f V ops4f_writes hr

/-- The window's operations: its pieces in order. -/
abbrev ops4 : List (HloOp τ sig (Elt F)) := ops4a ++ (ops4b ++ (ops4c ++ (ops4d ++ (ops4e ++ (ops4f)))))

theorem ops4_sub : (ops4 : List (HloOp τ sig (Elt F))).Forall fun op => op.bufs ⊆ tcRefs τ sig :=
  List.forall_append.2 ⟨ops4a_sub, List.forall_append.2 ⟨ops4b_sub, List.forall_append.2 ⟨ops4c_sub, List.forall_append.2 ⟨ops4d_sub, List.forall_append.2 ⟨ops4e_sub, ops4f_sub⟩⟩⟩⟩⟩

theorem ops4_fresh : (ops4 : List (HloOp τ sig (Elt F))).Forall fun op => op.fresh = ∅ :=
  List.forall_append.2 ⟨ops4a_fresh, List.forall_append.2 ⟨ops4b_fresh, List.forall_append.2 ⟨ops4c_fresh, List.forall_append.2 ⟨ops4d_fresh, List.forall_append.2 ⟨ops4e_fresh, ops4f_fresh⟩⟩⟩⟩⟩

/-- The window is its operations run in order. -/
theorem main_part4_eq (c : Dev nD) : main_part4 (F := F) c = seq ops4 := by
  rw [show (ops4 : List (HloOp τ sig (Elt F))) = ops4a ++ (ops4b ++ (ops4c ++ (ops4d ++ (ops4e ++ (ops4f))))) from rfl, seq_append, seq_append, seq_append, seq_append, seq_append]
  chain_rfl

end Cert.ReferenceIdeal.RefRun

end
-- ==== Proof.RefOps5.lean ====
/-
  Window 5 of the reference program (statements 301 … 360 of 432) as the list of its host operations, in program order.
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 55 operations of window 5, in order. -/
abbrev ops5a : List (HloOp τ sig (Elt F)) :=
  ( StableHlo.unary main_cst_43 main_v254 (broadcastInDim S50000 ![] bcast_S_S50000 : (⟨S_, .f32⟩ : BufTy).Contents (Elt F) → (⟨S50000, .f32⟩ : BufTy).Contents (Elt F))
  :: StableHlo.binary main_v253 main_v254 main_v255 (maximumf : (⟨S50000, .f32⟩ : BufTy).Contents (Elt F) → (⟨S50000, .f32⟩ : BufTy).Contents (Elt F) → (⟨S50000, .f32⟩ : BufTy).Contents (Elt F))
  :: StableHlo.unary main_v255 main_v256 (broadcastInDim S50000x1 ![0] bcast_S50000_S50000x1_0 : (⟨S50000, .f32⟩ : BufTy).Contents (Elt F) → (⟨S50000x1, .f32⟩ : BufTy).Contents (Elt F))
  :: StableHlo.unary main_v256 main_v257 (broadcastInDim S50000x128 ![0, 1] bcast_S50000x1_S50000x128_0_1 : (⟨S50000x1, .f32⟩ : BufTy).Contents (Elt F) → (⟨S50000x128, .f32⟩ : BufTy).Contents (Elt F))
  :: StableHlo.binary main_v247 main_v257 main_v258 (Host.divf : (⟨S50000x128, .f32⟩ : BufTy).Contents (Elt F) → (⟨S50000x128, .f32⟩ : BufTy).Contents (Elt F) → (⟨S50000x128, .f32⟩ : BufTy).Contents (Elt F))
  :: StableHlo.binary main_v258 main_v229 main_v259 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v231 main_v260 (broadcastInDim S1x128 ![1] bcast_S128_S1x128_1 : (⟨S128, .f32⟩ : BufTy).Contents (Elt F) → (⟨S1x128, .f32⟩ : BufTy).Contents (Elt F))
  :: StableHlo.unary main_v260 main_v261 (broadcastInDim S50000x128 ![0, 1] bcast_S1x128_S50000x128_0_1 : (⟨S1x128, .f32⟩ : BufTy).Contents (Elt F) → (⟨S50000x128, .f32⟩ : BufTy).Contents (Elt F))
  :: StableHlo.binary main_v259 main_v261 main_v262 (addf : (⟨S50000x128, .f32⟩ : BufTy).Contents (Elt F) → (⟨S50000x128, .f32⟩ : BufTy).Contents (Elt F) → (⟨S50000x128, .f32⟩ : BufTy).Contents (Elt F))
  :: StableHlo.binary main_v226 main_v233 main_v263 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v262 main_v263 main_v264 (addf : (⟨S50000x128, .f32⟩ : BufTy).Contents (Elt F) → (⟨S50000x128, .f32⟩ : BufTy).Contents (Elt F) → (⟨S50000x128, .f32⟩ : BufTy).Contents (Elt F))
  :: StableHlo.unary main_arg8 main_v265 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v265 main_v266 rfl shapeCasts_S1x128x128_S128x128
  :: StableHlo.unary main_arg9 main_v267 ((extractStridedSlice S1x128 ![2, 0] · slices_S3x128_S1x128_2_0) : (⟨S3x128, .f32⟩ : BufTy).Contents (Elt F) → (⟨S1x128, .f32⟩ : BufTy).Contents (Elt F))
  :: StableHlo.reshape main_v267 main_v268 rfl shapeCasts_S1x128_S128
  :: StableHlo.unary main_arg10 main_v269 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v269 main_v270 rfl shapeCasts_S1x128x128_S128x128
  :: StableHlo.unary main_arg13 main_v271 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v271 main_v272 rfl shapeCasts_S1x1000000_S1000000
  :: StableHlo.nullary main_c_44 (constantI S_ 32 0#32)
  :: StableHlo.unary main_c_44 main_v273 (broadcastInDim S1000000 ![] bcast_S_S1000000 : (⟨S_, .i32⟩ : BufTy).Contents (Elt F) → (⟨S1000000, .i32⟩ : BufTy).Contents (Elt F))
  :: StableHlo.binary main_v272 main_v273 main_v274 (cmpi .slt : (⟨S1000000, .i32⟩ : BufTy).Contents (Elt F) → (⟨S1000000, .i32⟩ : BufTy).Contents (Elt F) → (⟨S1000000, .i1⟩ : BufTy).Contents (Elt F))
  :: StableHlo.nullary main_c_45 (constantI S_ 32 50000#32)
  :: StableHlo.unary main_c_45 main_v275 (broadcastInDim S1000000 ![] bcast_S_S1000000 : (⟨S_, .i32⟩ : BufTy).Contents (Elt F) → (⟨S1000000, .i32⟩ : BufTy).Contents (Elt F))
  :: StableHlo.binary main_v272 main_v275 main_v276 (addi : (⟨S1000000, .i32⟩ : BufTy).Contents (Elt F) → (⟨S1000000, .i32⟩ : BufTy).Contents (Elt F) → (⟨S1000000, .i32⟩ : BufTy).Contents (Elt F))
  :: StableHlo.ternary main_v274 main_v276 main_v272 main_v277 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v277 main_v278 (broadcastInDim S1000000x1 ![0] bcast_S1000000_S1000000x1_0 : (⟨S1000000, .i32⟩ : BufTy).Contents (Elt F) → (⟨S1000000x1, .i32⟩ : BufTy).Contents (Elt F))
  :: StableHlo.binary main_v227 main_v278 main_v279 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F))
  :: StableHlo.unary main_arg13 main_v280 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v280 main_v281 rfl shapeCasts_S1x1000000_S1000000
  :: StableHlo.nullary main_cst_46 (constant S_ .f32 0x00000000#32)
  :: StableHlo.unary main_cst_46 main_v282 (broadcastInDim S50000x128 ![] bcast_S_S50000x128 : (⟨S_, .f32⟩ : BufTy).Contents (Elt F) → (⟨S50000x128, .f32⟩ : BufTy).Contents (Elt F))
  :: StableHlo.unary main_v281 main_v283 (broadcastInDim S1000000x1 ![0] bcast_S1000000_S1000000x1_0 : (⟨S1000000, .i32⟩ : BufTy).Contents (Elt F) → (⟨S1000000x1, .i32⟩ : BufTy).Contents (Elt F))
  :: StableHlo.ternary main_v282 main_v283 main_v279 main_v284 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F))
  :: StableHlo.nullary main_cst_47 (constant S_ .f32 0x3F800000#32)
  :: StableHlo.unary main_cst_47 main_v285 (broadcastInDim S1000000 ![] bcast_S_S1000000 : (⟨S_, .f32⟩ : BufTy).Contents (Elt F) → (⟨S1000000, .f32⟩ : BufTy).Contents (Elt F))
  :: StableHlo.unary main_arg13 main_v286 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v286 main_v287 rfl shapeCasts_S1x1000000_S1000000
  :: StableHlo.nullary main_cst_48 (constant S_ .f32 0x00000000#32)
  :: StableHlo.unary main_cst_48 main_v288 (broadcastInDim S50000 ![] bcast_S_S50000 : (⟨S_, .f32⟩ : BufTy).Contents (Elt F) → (⟨S50000, .f32⟩ : BufTy).Contents (Elt F))
  :: StableHlo.unary main_v287 main_v289 (broadcastInDim S1000000x1 ![0] bcast_S1000000_S1000000x1_0 : (⟨S1000000, .i32⟩ : BufTy).Contents (Elt F) → (⟨S1000000x1, .i32⟩ : BufTy).Contents (Elt F))
  :: StableHlo.ternary main_v288 main_v289 main_v285 main_v290 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F))
  :: StableHlo.nullary main_cst_49 (constant S_ .f32 0x3F800000#32)
  :: StableHlo.unary main_cst_49 main_v291 (broadcastInDim S50000 ![] bcast_S_S50000 : (⟨S_, .f32⟩ : BufTy).Contents (Elt F) → (⟨S50000, .f32⟩ : BufTy).Contents (Elt F))
  :: StableHlo.binary main_v290 main_v291 main_v292 (maximumf : (⟨S50000, .f32⟩ : BufTy).Contents (Elt F) → (⟨S50000, .f32⟩ : BufTy).Contents (Elt F) → (⟨S50000, .f32⟩ : BufTy).Contents (Elt F))
  :: StableHlo.unary main_v292 main_v293 (broadcastInDim S50000x1 ![0] bcast_S50000_S50000x1_0 : (⟨S50000, .f32⟩ : BufTy).Contents (Elt F) → (⟨S50000x1, .f32⟩ : BufTy).Contents (Elt F))
  :: StableHlo.unary main_v293 main_v294 (broadcastInDim S50000x128 ![0, 1] bcast_S50000x1_S50000x128_0_1 : (⟨S50000x1, .f32⟩ : BufTy).Contents (Elt F) → (⟨S50000x128, .f32⟩ : BufTy).Contents (Elt F))
  :: StableHlo.binary main_v284 main_v294 main_v295 (Host.divf : (⟨S50000x128, .f32⟩ : BufTy).Contents (Elt F) → (⟨S50000x128, .f32⟩ : BufTy).Contents (Elt F) → (⟨S50000x128, .f32⟩ : BufTy).Contents (Elt F))
  :: StableHlo.binary main_v295 main_v266 main_v296 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v268 main_v297 (broadcastInDim S1x128 ![1] bcast_S128_S1x128_1 : (⟨S128, .f32⟩ : BufTy).Contents (Elt F) → (⟨S1x128, .f32⟩ : BufTy).Contents (Elt F))
  :: StableHlo.unary main_v297 main_v298 (broadcastInDim S50000x128 ![0, 1] bcast_S1x128_S50000x128_0_1 : (⟨S1x128, .f32⟩ : BufTy).Contents (Elt F) → (⟨S50000x128, .f32⟩ : BufTy).Contents (Elt F))
  :: StableHlo.binary main_v296 main_v298 main_v299 (addf : (⟨S50000x128, .f32⟩ : BufTy).Contents (Elt F) → (⟨S50000x128, .f32⟩ : BufTy).Contents (Elt F) → (⟨S50000x128, .f32⟩ : BufTy).Contents (Elt F))
  :: StableHlo.binary main_v226 main_v270 main_v300 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v299 main_v300 main_v301 (addf : (⟨S50000x128, .f32⟩ : BufTy).Contents (Elt F) → (⟨S50000x128, .f32⟩ : BufTy).Contents (Elt F) → (⟨S50000x128, .f32⟩ : BufTy).Contents (Elt F))
  :: StableHlo.binary main_v264 main_v301 main_v302 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
theorem ops5a_sub : (ops5a : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub ..⟩

/-- The buffers these operations write, in order. -/
abbrev ops5a_w : List (Ref sig .tc) :=
  [main_v254, main_v255, main_v256, main_v257, main_v258, main_v259, main_v260, main_v261, main_v262, main_v263, main_v264, main_v265, main_v266, main_v267, main_v268, main_v269, main_v270, main_v271, main_v272, main_c_44, main_v273, main_v274, main_c_45, main_v275, main_v276, main_v277, main_v278, main_v279, main_v280, main_v281, main_cst_46, main_v282, main_v283, main_v284, main_cst_47, main_v285, main_v286, main_v287, main_cst_48, main_v288, main_v289, main_v290, main_cst_49, main_v291, main_v292, main_v293, main_v294, main_v295, main_v296, main_v297, main_v298, main_v299, main_v300, main_v301, main_v302]

set_option maxHeartbeats 40000000 in
theorem ops5a_writes : (ops5a : List (HloOp τ sig (Elt F))).Forall fun op => op.writes ⊆ (ops5a_w.map (Proc.devRef (τ := τ) .tc)).toFinset :=
  ⟨writes_sub_of_mem main_v254 rfl (by decide), writes_sub_of_mem main_v255 rfl (by decide), writes_sub_of_mem main_v256 rfl (by decide), writes_sub_of_mem main_v257 rfl (by decide), writes_sub_of_mem main_v258 rfl (by decide), writes_sub_of_mem main_v259 rfl (by decide), writes_sub_of_mem main_v260 rfl (by decide), writes_sub_of_mem main_v261 rfl (by decide), writes_sub_of_mem main_v262 rfl (by decide), writes_sub_of_mem main_v263 rfl (by decide), writes_sub_of_mem main_v264 rfl (by decide), writes_sub_of_mem main_v265 rfl (by decide), writes_sub_of_mem main_v266 rfl (by decide), writes_sub_of_mem main_v267 rfl (by decide), writes_sub_of_mem main_v268 rfl (by decide), writes_sub_of_mem main_v269 rfl (by decide), writes_sub_of_mem main_v270 rfl (by decide), writes_sub_of_mem main_v271 rfl (by decide), writes_sub_of_mem main_v272 rfl (by decide), writes_sub_of_mem main_c_44 rfl (by decide), writes_sub_of_mem main_v273 rfl (by decide), writes_sub_of_mem main_v274 rfl (by decide), writes_sub_of_mem main_c_45 rfl (by decide), writes_sub_of_mem main_v275 rfl (by decide), writes_sub_of_mem main_v276 rfl (by decide), writes_sub_of_mem main_v277 rfl (by decide), writes_sub_of_mem main_v278 rfl (by decide), writes_sub_of_mem main_v279 rfl (by decide), writes_sub_of_mem main_v280 rfl (by decide), writes_sub_of_mem main_v281 rfl (by decide), writes_sub_of_mem main_cst_46 rfl (by decide), writes_sub_of_mem main_v282 rfl (by decide), writes_sub_of_mem main_v283 rfl (by decide), writes_sub_of_mem main_v284 rfl (by decide), writes_sub_of_mem main_cst_47 rfl (by decide), writes_sub_of_mem main_v285 rfl (by decide), writes_sub_of_mem main_v286 rfl (by decide), writes_sub_of_mem main_v287 rfl (by decide), writes_sub_of_mem main_cst_48 rfl (by decide), writes_sub_of_mem main_v288 rfl (by decide), writes_sub_of_mem main_v289 rfl (by decide), writes_sub_of_mem main_v290 rfl (by decide), writes_sub_of_mem main_cst_49 rfl (by decide), writes_sub_of_mem main_v291 rfl (by decide), writes_sub_of_mem main_v292 rfl (by decide), writes_sub_of_mem main_v293 rfl (by decide), writes_sub_of_mem main_v294 rfl (by decide), writes_sub_of_mem main_v295 rfl (by decide), writes_sub_of_mem main_v296 rfl (by decide), writes_sub_of_mem main_v297 rfl (by decide), writes_sub_of_mem main_v298 rfl (by decide), writes_sub_of_mem main_v299 rfl (by decide), writes_sub_of_mem main_v300 rfl (by decide), writes_sub_of_mem main_v301 rfl (by decide), writes_sub_of_mem main_v302 rfl (by decide)⟩

set_option maxHeartbeats 40000000 in
theorem ops5a_fresh : (ops5a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops5a_keep {r : Ref sig .tc} (hr : r ∉ ops5a_w) (V : Valuation τ sig (Elt F)) :
    after ops5a V (Proc.devRef .tc r) = V (Proc.devRef .tc r) :=
  after_of_writes_sub ops5a V ops5a_writes hr

set_option maxHeartbeats 40000000 in
/-- 5 operations of window 5, in order. -/
abbrev ops5b : List (HloOp τ sig (Elt F)) :=
  ( StableHlo.unary main_arg5 main_v303 ((extractStridedSlice S1x128x128 ![2, 0, 0] · slices_S3x128x128_S1x128x128_2_0_0) : (⟨S3x128x128, .f32⟩ : BufTy).Contents (Elt F) → (⟨S1x128x128, .f32⟩ : BufTy).Contents (Elt F))
  :: StableHlo.reshape main_v303 main_v304 rfl shapeCasts_S1x128x128_S128x128
  :: StableHlo.unary main_arg6 main_v305 ((extractStridedSlice S1x128 ![2, 0] · slices_S3x128_S1x128_2_0) : (⟨S3x128, .f32⟩ : BufTy).Contents (Elt F) → (⟨S1x128, .f32⟩ : BufTy).Contents (Elt F))
  :: StableHlo.reshape main_v305 main_v306 rfl shapeCasts_S1x128_S128
  :: StableHlo.unary main_arg7 main_v307 ((extractStridedSlice S1x128x128 ![2, 0, 0] · slices_S3x128x128_S1x128x128_2_0_0) : (⟨S3x128x128, .f32⟩ : BufTy).Contents (Elt F) → (⟨S1x128x128, .f32⟩ : BufTy).Contents (Elt F))
  :: [] )

set_option maxHeartbeats 40000000 in
theorem ops5b_sub : (ops5b : List (HloOp τ sig (Elt F))).Forall fun op => op.bufs ⊆ tcRefs τ sig :=
  ⟨unary_bufs_sub .., reshape_bufs_sub .., unary_bufs_sub .., reshape_bufs_sub .., unary_bufs_sub ..⟩

/-- The buffers these operations write, in order. -/
abbrev ops5b_w : List (Ref sig .tc) :=
  [main_v303, main_v304, main_v305, main_v306, main_v307]

set_option maxHeartbeats 40000000 in
theorem ops5b_writes : (ops5b : List (HloOp τ sig (Elt F))).Forall fun op => op.writes ⊆ (ops5b_w.map (Proc.devRef (τ := τ) .tc)).toFinset :=
  ⟨writes_sub_of_mem main_v303 rfl (by decide), writes_sub_of_mem main_v304 rfl (by decide), writes_sub_of_mem main_v305 rfl (by decide), writes_sub_of_mem main_v306 rfl (by decide), writes_sub_of_mem main_v307 rfl (by decide)⟩

set_option maxHeartbeats 40000000 in
theorem ops5b_fresh : (ops5b : List (HloOp τ sig (Elt F))).Forall fun op => op.fresh = ∅ :=
  ⟨rfl, rfl, rfl, rfl, rfl⟩

/-- A buffer none of them writes keeps its contents. -/
theorem ops5b_keep {r : Ref sig .tc} (hr : r ∉ ops5b_w) (V : Valuation τ sig (Elt F)) :
    after ops5b V (Proc.devRef .tc r) = V (Proc.devRef .tc r) :=
  after_of_writes_sub ops5b V ops5b_writes hr

/-- The window's operations: its pieces in order. -/
abbrev ops5 : List (HloOp τ sig (Elt F)) := ops5a ++ (ops5b)

theorem ops5_sub : (ops5 : List (HloOp τ sig (Elt F))).Forall fun op => op.bufs ⊆ tcRefs τ sig :=
  List.forall_append.2 ⟨ops5a_sub, ops5b_sub⟩

theorem ops5_fresh : (ops5 : List (HloOp τ sig (Elt F))).Forall fun op => op.fresh = ∅ :=
  List.forall_append.2 ⟨ops5a_fresh, ops5b_fresh⟩

/-- The window is its operations run in order. -/
theorem main_part5_eq (c : Dev nD) : main_part5 (F := F) c = seq ops5 := by
  rw [show (ops5 : List (HloOp τ sig (Elt F))) = ops5a ++ (ops5b) from rfl, seq_append]
  chain_rfl

end Cert.ReferenceIdeal.RefRun

end
-- ==== Proof.RefOps6.lean ====
/-
  Window 6 of the reference program (statements 361 … 420 of 432) as the list of its host operations, in program order.
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 38 operations of window 6, in order. -/
abbrev ops6a : List (HloOp τ sig (Elt F)) :=
  ( StableHlo.reshape main_v307 main_v308 rfl shapeCasts_S1x128x128_S128x128
  :: StableHlo.unary main_arg12 main_v309 ((extractStridedSlice S1x1000000 ![0, 0] · slices_S2x1000000_S1x1000000_0_0) : (⟨S2x1000000, .i32⟩ : BufTy).Contents (Elt F) → (⟨S1x1000000, .i32⟩ : BufTy).Contents (Elt F))
  :: StableHlo.reshape main_v309 main_v310 rfl shapeCasts_S1x1000000_S1000000
  :: StableHlo.nullary main_c_50 (constantI S_ 32 0#32)
  :: StableHlo.unary main_c_50 main_v311 (broadcastInDim S1000000 ![] bcast_S_S1000000 : (⟨S_, .i32⟩ : BufTy).Contents (Elt F) → (⟨S1000000, .i32⟩ : BufTy).Contents (Elt F))
  :: StableHlo.binary main_v310 main_v311 main_v312 (cmpi .slt : (⟨S1000000, .i32⟩ : BufTy).Contents (Elt F) → (⟨S1000000, .i32⟩ : BufTy).Contents (Elt F) → (⟨S1000000, .i1⟩ : BufTy).Contents (Elt F))
  :: StableHlo.nullary main_c_51 (constantI S_ 32 50000#32)
  :: StableHlo.unary main_c_51 main_v313 (broadcastInDim S1000000 ![] bcast_S_S1000000 : (⟨S_, .i32⟩ : BufTy).Contents (Elt F) → (⟨S1000000, .i32⟩ : BufTy).Contents (Elt F))
  :: StableHlo.binary main_v310 main_v313 main_v314 (addi : (⟨S1000000, .i32⟩ : BufTy).Contents (Elt F) → (⟨S1000000, .i32⟩ : BufTy).Contents (Elt F) → (⟨S1000000, .i32⟩ : BufTy).Contents (Elt F))
  :: StableHlo.ternary main_v312 main_v314 main_v310 main_v315 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v315 main_v316 (broadcastInDim S1000000x1 ![0] bcast_S1000000_S1000000x1_0 : (⟨S1000000, .i32⟩ : BufTy).Contents (Elt F) → (⟨S1000000x1, .i32⟩ : BufTy).Contents (Elt F))
  :: StableHlo.binary main_v226 main_v316 main_v317 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F))
  :: StableHlo.unary main_arg12 main_v318 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v318 main_v319 rfl shapeCasts_S1x1000000_S1000000
  :: StableHlo.nullary main_cst_52 (constant S_ .f32 0x00000000#32)
  :: StableHlo.unary main_cst_52 main_v320 (broadcastInDim S50000x128 ![] bcast_S_S50000x128 : (⟨S_, .f32⟩ : BufTy).Contents (Elt F) → (⟨S50000x128, .f32⟩ : BufTy).Contents (Elt F))
  :: StableHlo.unary main_v319 main_v321 (broadcastInDim S1000000x1 ![0] bcast_S1000000_S1000000x1_0 : (⟨S1000000, .i32⟩ : BufTy).Contents (Elt F) → (⟨S1000000x1, .i32⟩ : BufTy).Contents (Elt F))
  :: StableHlo.ternary main_v320 main_v321 main_v317 main_v322 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F))
  :: StableHlo.nullary main_cst_53 (constant S_ .f32 0x3F800000#32)
  :: StableHlo.unary main_cst_53 main_v323 (broadcastInDim S1000000 ![] bcast_S_S1000000 : (⟨S_, .f32⟩ : BufTy).Contents (Elt F) → (⟨S1000000, .f32⟩ : BufTy).Contents (Elt F))
  :: StableHlo.unary main_arg12 main_v324 ((extractStridedSlice S1x1000000 ![1, 0] · slices_S2x1000000_S1x1000000_1_0) : (⟨S2x1000000, .i32⟩ : BufTy).Contents (Elt F) → (⟨S1x1000000, .i32⟩ : BufTy).Contents (Elt F))
  :: StableHlo.reshape main_v324 main_v325 rfl shapeCasts_S1x1000000_S1000000
  :: StableHlo.nullary main_cst_54 (constant S_ .f32 0x00000000#32)
  :: StableHlo.unary main_cst_54 main_v326 (broadcastInDim S50000 ![] bcast_S_S50000 : (⟨S_, .f32⟩ : BufTy).Contents (Elt F) → (⟨S50000, .f32⟩ : BufTy).Contents (Elt F))
  :: StableHlo.unary main_v325 main_v327 (broadcastInDim S1000000x1 ![0] bcast_S1000000_S1000000x1_0 : (⟨S1000000, .i32⟩ : BufTy).Contents (Elt F) → (⟨S1000000x1, .i32⟩ : BufTy).Contents (Elt F))
  :: StableHlo.ternary main_v326 main_v327 main_v323 main_v328 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F))
  :: StableHlo.nullary main_cst_55 (constant S_ .f32 0x3F800000#32)
  :: StableHlo.unary main_cst_55 main_v329 (broadcastInDim S50000 ![] bcast_S_S50000 : (⟨S_, .f32⟩ : BufTy).Contents (Elt F) → (⟨S50000, .f32⟩ : BufTy).Contents (Elt F))
  :: StableHlo.binary main_v328 main_v329 main_v330 (maximumf : (⟨S50000, .f32⟩ : BufTy).Contents (Elt F) → (⟨S50000, .f32⟩ : BufTy).Contents (Elt F) → (⟨S50000, .f32⟩ : BufTy).Contents (Elt F))
  :: StableHlo.unary main_v330 main_v331 (broadcastInDim S50000x1 ![0] bcast_S50000_S50000x1_0 : (⟨S50000, .f32⟩ : BufTy).Contents (Elt F) → (⟨S50000x1, .f32⟩ : BufTy).Contents (Elt F))
  :: StableHlo.unary main_v331 main_v332 (broadcastInDim S50000x128 ![0, 1] bcast_S50000x1_S50000x128_0_1 : (⟨S50000x1, .f32⟩ : BufTy).Contents (Elt F) → (⟨S50000x128, .f32⟩ : BufTy).Contents (Elt F))
  :: StableHlo.binary main_v322 main_v332 main_v333 (Host.divf : (⟨S50000x128, .f32⟩ : BufTy).Contents (Elt F) → (⟨S50000x128, .f32⟩ : BufTy).Contents (Elt F) → (⟨S50000x128, .f32⟩ : BufTy).Contents (Elt F))
  :: StableHlo.binary main_v333 main_v304 main_v334 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.unary main_v306 main_v335 (broadcastInDim S1x128 ![1] bcast_S128_S1x128_1 : (⟨S128, .f32⟩ : BufTy).Contents (Elt F) → (⟨S1x128, .f32⟩ : BufTy).Contents (Elt F))
  :: StableHlo.unary main_v335 main_v336 (broadcastInDim S50000x128 ![0, 1] bcast_S1x128_S50000x128_0_1 : (⟨S1x128, .f32⟩ : BufTy).Contents (Elt F) → (⟨S50000x128, .f32⟩ : BufTy).Contents (Elt F))
  :: StableHlo.binary main_v334 main_v336 main_v337 (addf : (⟨S50000x128, .f32⟩ : BufTy).Contents (Elt F) → (⟨S50000x128, .f32⟩ : BufTy).Contents (Elt F) → (⟨S50000x128, .f32⟩ : BufTy).Contents (Elt F))
  :: StableHlo.binary main_v227 main_v308 main_v338 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v337 main_v338 main_v339 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
theorem ops6a_sub : (ops6a : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩

/-- The buffers these operations write, in order. -/
abbrev ops6a_w : List (Ref sig .tc) :=
  [main_v308, main_v309, main_v310, main_c_50, main_v311, main_v312, main_c_51, main_v313, main_v314, main_v315, main_v316, main_v317, main_v318, main_v319, main_cst_52, main_v320, main_v321, main_v322, main_cst_53, main_v323, main_v324, main_v325, main_cst_54, main_v326, main_v327, main_v328, main_cst_55, main_v329, main_v330, main_v331, main_v332, main_v333, main_v334, main_v335, main_v336, main_v337, main_v338, main_v339]

set_option maxHeartbeats 40000000 in
theorem ops6a_writes : (ops6a : List (HloOp τ sig (Elt F))).Forall fun op => op.writes ⊆ (ops6a_w.map (Proc.devRef (τ := τ) .tc)).toFinset :=
  ⟨writes_sub_of_mem main_v308 rfl (by decide), writes_sub_of_mem main_v309 rfl (by decide), writes_sub_of_mem main_v310 rfl (by decide), writes_sub_of_mem main_c_50 rfl (by decide), writes_sub_of_mem main_v311 rfl (by decide), writes_sub_of_mem main_v312 rfl (by decide), writes_sub_of_mem main_c_51 rfl (by decide), writes_sub_of_mem main_v313 rfl (by decide), writes_sub_of_mem main_v314 rfl (by decide), writes_sub_of_mem main_v315 rfl (by decide), writes_sub_of_mem main_v316 rfl (by decide), writes_sub_of_mem main_v317 rfl (by decide), writes_sub_of_mem main_v318 rfl (by decide), writes_sub_of_mem main_v319 rfl (by decide), writes_sub_of_mem main_cst_52 rfl (by decide), writes_sub_of_mem main_v320 rfl (by decide), writes_sub_of_mem main_v321 rfl (by decide), writes_sub_of_mem main_v322 rfl (by decide), writes_sub_of_mem main_cst_53 rfl (by decide), writes_sub_of_mem main_v323 rfl (by decide), writes_sub_of_mem main_v324 rfl (by decide), writes_sub_of_mem main_v325 rfl (by decide), writes_sub_of_mem main_cst_54 rfl (by decide), writes_sub_of_mem main_v326 rfl (by decide), writes_sub_of_mem main_v327 rfl (by decide), writes_sub_of_mem main_v328 rfl (by decide), writes_sub_of_mem main_cst_55 rfl (by decide), writes_sub_of_mem main_v329 rfl (by decide), writes_sub_of_mem main_v330 rfl (by decide), writes_sub_of_mem main_v331 rfl (by decide), writes_sub_of_mem main_v332 rfl (by decide), writes_sub_of_mem main_v333 rfl (by decide), writes_sub_of_mem main_v334 rfl (by decide), writes_sub_of_mem main_v335 rfl (by decide), writes_sub_of_mem main_v336 rfl (by decide), writes_sub_of_mem main_v337 rfl (by decide), writes_sub_of_mem main_v338 rfl (by decide), writes_sub_of_mem main_v339 rfl (by decide)⟩

set_option maxHeartbeats 40000000 in
theorem ops6a_fresh : (ops6a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem ops6a_keep {r : Ref sig .tc} (hr : r ∉ ops6a_w) (V : Valuation τ sig (Elt F)) :
    after ops6a V (Proc.devRef .tc r) = V (Proc.devRef .tc r) :=
  after_of_writes_sub ops6a V ops6a_writes hr

set_option maxHeartbeats 40000000 in
/-- 22 operations of window 6, in order. -/
abbrev ops6b : List (HloOp τ sig (Elt F)) :=
  ( StableHlo.unary main_arg14 main_v340 ((extractStridedSlice S1x500000 ![0, 0] · slices_S2x500000_S1x500000_0_0) : (⟨S2x500000, .i32⟩ : BufTy).Contents (Elt F) → (⟨S1x500000, .i32⟩ : BufTy).Contents (Elt F))
  :: StableHlo.reshape main_v340 main_v341 rfl shapeCasts_S1x500000_S500000
  :: StableHlo.nullary main_c_56 (constantI S_ 32 0#32)
  :: StableHlo.unary main_c_56 main_v342 (broadcastInDim S500000 ![] bcast_S_S500000 : (⟨S_, .i32⟩ : BufTy).Contents (Elt F) → (⟨S500000, .i32⟩ : BufTy).Contents (Elt F))
  :: StableHlo.binary main_v341 main_v342 main_v343 (cmpi .slt : (⟨S500000, .i32⟩ : BufTy).Contents (Elt F) → (⟨S500000, .i32⟩ : BufTy).Contents (Elt F) → (⟨S500000, .i1⟩ : BufTy).Contents (Elt F))
  :: StableHlo.nullary main_c_57 (constantI S_ 32 50000#32)
  :: StableHlo.unary main_c_57 main_v344 (broadcastInDim S500000 ![] bcast_S_S500000 : (⟨S_, .i32⟩ : BufTy).Contents (Elt F) → (⟨S500000, .i32⟩ : BufTy).Contents (Elt F))
  :: StableHlo.binary main_v341 main_v344 main_v345 (addi : (⟨S500000, .i32⟩ : BufTy).Contents (Elt F) → (⟨S500000, .i32⟩ : BufTy).Contents (Elt F) → (⟨S500000, .i32⟩ : BufTy).Contents (Elt F))
  :: StableHlo.ternary main_v343 main_v345 main_v341 main_v346 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: StableHlo.unary main_v346 main_v347 (broadcastInDim S500000x1 ![0] bcast_S500000_S500000x1_0 : (⟨S500000, .i32⟩ : BufTy).Contents (Elt F) → (⟨S500000x1, .i32⟩ : BufTy).Contents (Elt F))
  :: StableHlo.binary main_v302 main_v347 main_v348 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F))
  :: StableHlo.unary main_arg14 main_v349 ((extractStridedSlice S1x500000 ![1, 0] · slices_S2x500000_S1x500000_1_0) : (⟨S2x500000, .i32⟩ : BufTy).Contents (Elt F) → (⟨S1x500000, .i32⟩ : BufTy).Contents (Elt F))
  :: StableHlo.reshape main_v349 main_v350 rfl shapeCasts_S1x500000_S500000
  :: StableHlo.nullary main_c_58 (constantI S_ 32 0#32)
  :: StableHlo.unary main_c_58 main_v351 (broadcastInDim S500000 ![] bcast_S_S500000 : (⟨S_, .i32⟩ : BufTy).Contents (Elt F) → (⟨S500000, .i32⟩ : BufTy).Contents (Elt F))
  :: StableHlo.binary main_v350 main_v351 main_v352 (cmpi .slt : (⟨S500000, .i32⟩ : BufTy).Contents (Elt F) → (⟨S500000, .i32⟩ : BufTy).Contents (Elt F) → (⟨S500000, .i1⟩ : BufTy).Contents (Elt F))
  :: StableHlo.nullary main_c_59 (constantI S_ 32 50000#32)
  :: StableHlo.unary main_c_59 main_v353 (broadcastInDim S500000 ![] bcast_S_S500000 : (⟨S_, .i32⟩ : BufTy).Contents (Elt F) → (⟨S500000, .i32⟩ : BufTy).Contents (Elt F))
  :: StableHlo.binary main_v350 main_v353 main_v354 (addi : (⟨S500000, .i32⟩ : BufTy).Contents (Elt F) → (⟨S500000, .i32⟩ : BufTy).Contents (Elt F) → (⟨S500000, .i32⟩ : BufTy).Contents (Elt F))
  :: StableHlo.ternary main_v352 main_v354 main_v350 main_v355 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: StableHlo.unary main_v355 main_v356 (broadcastInDim S500000x1 ![0] bcast_S500000_S500000x1_0 : (⟨S500000, .i32⟩ : BufTy).Contents (Elt F) → (⟨S500000x1, .i32⟩ : BufTy).Contents (Elt F))
  :: StableHlo.binary main_v339 main_v356 main_v357 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F))
  :: [] )

set_option maxHeartbeats 40000000 in
theorem ops6b_sub : (ops6b : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- The buffers these operations write, in order. -/
abbrev ops6b_w : List (Ref sig .tc) :=
  [main_v340, main_v341, main_c_56, main_v342, main_v343, main_c_57, main_v344, main_v345, main_v346, main_v347, main_v348, main_v349, main_v350, main_c_58, main_v351, main_v352, main_c_59, main_v353, main_v354, main_v355, main_v356, main_v357]

set_option maxHeartbeats 40000000 in
theorem ops6b_writes : (ops6b : List (HloOp τ sig (Elt F))).Forall fun op => op.writes ⊆ (ops6b_w.map (Proc.devRef (τ := τ) .tc)).toFinset :=
  ⟨writes_sub_of_mem main_v340 rfl (by decide), writes_sub_of_mem main_v341 rfl (by decide), writes_sub_of_mem main_c_56 rfl (by decide), writes_sub_of_mem main_v342 rfl (by decide), writes_sub_of_mem main_v343 rfl (by decide), writes_sub_of_mem main_c_57 rfl (by decide), writes_sub_of_mem main_v344 rfl (by decide), writes_sub_of_mem main_v345 rfl (by decide), writes_sub_of_mem main_v346 rfl (by decide), writes_sub_of_mem main_v347 rfl (by decide), writes_sub_of_mem main_v348 rfl (by decide), writes_sub_of_mem main_v349 rfl (by decide), writes_sub_of_mem main_v350 rfl (by decide), writes_sub_of_mem main_c_58 rfl (by decide), writes_sub_of_mem main_v351 rfl (by decide), writes_sub_of_mem main_v352 rfl (by decide), writes_sub_of_mem main_c_59 rfl (by decide), writes_sub_of_mem main_v353 rfl (by decide), writes_sub_of_mem main_v354 rfl (by decide), writes_sub_of_mem main_v355 rfl (by decide), writes_sub_of_mem main_v356 rfl (by decide), writes_sub_of_mem main_v357 rfl (by decide)⟩

set_option maxHeartbeats 40000000 in
theorem ops6b_fresh : (ops6b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- A buffer none of them writes keeps its contents. -/
theorem ops6b_keep {r : Ref sig .tc} (hr : r ∉ ops6b_w) (V : Valuation τ sig (Elt F)) :
    after ops6b V (Proc.devRef .tc r) = V (Proc.devRef .tc r) :=
  after_of_writes_sub ops6b V ops6b_writes hr

/-- The window's operations: its pieces in order. -/
abbrev ops6 : List (HloOp τ sig (Elt F)) := ops6a ++ (ops6b)

theorem ops6_sub : (ops6 : List (HloOp τ sig (Elt F))).Forall fun op => op.bufs ⊆ tcRefs τ sig :=
  List.forall_append.2 ⟨ops6a_sub, ops6b_sub⟩

theorem ops6_fresh : (ops6 : List (HloOp τ sig (Elt F))).Forall fun op => op.fresh = ∅ :=
  List.forall_append.2 ⟨ops6a_fresh, ops6b_fresh⟩

/-- The window is its operations run in order. -/
theorem main_part6_eq (c : Dev nD) : main_part6 (F := F) c = seq ops6 := by
  rw [show (ops6 : List (HloOp τ sig (Elt F))) = ops6a ++ (ops6b) from rfl, seq_append]
  chain_rfl

end Cert.ReferenceIdeal.RefRun

end
-- ==== Proof.RefOps7.lean ====
/-
  Window 7 of the reference program (statements 421 … 431 of 432) as the list of its host operations, in program order.
  With each list: every operation touches TensorCore references only; the list of the buffers the operations write,
  and that each writes only there; no operation leaves its result unspecified; and the window is the operations run in order.
-/
import proofs.«146278_j35390530519883_1_alg».proof.Proof.Gen.ReferenceIdeal
import proofs.«146278_j35390530519883_1_alg».proof.Proof.RefLib

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 11 operations of window 7, in order. -/
abbrev ops7 : List (HloOp τ sig (Elt F)) :=
  ( StableHlo.binary main_v348 main_v357 main_v358 (mulf : (⟨S500000x128, .f32⟩ : BufTy).Contents (Elt F) → (⟨S500000x128, .f32⟩ : BufTy).Contents (Elt F) → (⟨S500000x128, .f32⟩ : BufTy).Contents (Elt F))
  :: StableHlo.nullary main_cst_60 (constant S_ .f32 0x00000000#32)
  :: StableHlo.binary main_v358 main_cst_60 main_v359 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F))
  :: StableHlo.unary main_v359 main_v360 (Host.negf : (⟨S500000, .f32⟩ : BufTy).Contents (Elt F) → (⟨S500000, .f32⟩ : BufTy).Contents (Elt F))
  :: StableHlo.unary main_v360 main_v361 (Host.exp : (⟨S500000, .f32⟩ : BufTy).Contents (Elt F) → (⟨S500000, .f32⟩ : BufTy).Contents (Elt F))
  :: StableHlo.nullary main_cst_61 (constant S_ .f32 0x3F800000#32)
  :: StableHlo.unary main_cst_61 main_v362 (broadcastInDim S500000 ![] bcast_S_S500000 : (⟨S_, .f32⟩ : BufTy).Contents (Elt F) → (⟨S500000, .f32⟩ : BufTy).Contents (Elt F))
  :: StableHlo.binary main_v362 main_v361 main_v363 (addf : (⟨S500000, .f32⟩ : BufTy).Contents (Elt F) → (⟨S500000, .f32⟩ : BufTy).Contents (Elt F) → (⟨S500000, .f32⟩ : BufTy).Contents (Elt F))
  :: StableHlo.nullary main_cst_62 (constant S_ .f32 0x3F800000#32)
  :: StableHlo.unary main_cst_62 main_v364 (broadcastInDim S500000 ![] bcast_S_S500000 : (⟨S_, .f32⟩ : BufTy).Contents (Elt F) → (⟨S500000, .f32⟩ : BufTy).Contents (Elt F))
  :: StableHlo.binary main_v364 main_v363 main_v365 (Host.divf : (⟨S500000, .f32⟩ : BufTy).Contents (Elt F) → (⟨S500000, .f32⟩ : BufTy).Contents (Elt F) → (⟨S500000, .f32⟩ : BufTy).Contents (Elt F))
  :: [] )

set_option maxHeartbeats 40000000 in
theorem ops7_sub : (ops7 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub ..⟩

/-- The buffers these operations write, in order. -/
abbrev ops7_w : List (Ref sig .tc) :=
  [main_v358, main_cst_60, main_v359, main_v360, main_v361, main_cst_61, main_v362, main_v363, main_cst_62, main_v364, main_v365]

set_option maxHeartbeats 40000000 in
theorem ops7_writes : (ops7 : List (HloOp τ sig (Elt F))).Forall fun op => op.writes ⊆ (ops7_w.map (Proc.devRef (τ := τ) .tc)).toFinset :=
  ⟨writes_sub_of_mem main_v358 rfl (by decide), writes_sub_of_mem main_cst_60 rfl (by decide), writes_sub_of_mem main_v359 rfl (by decide), writes_sub_of_mem main_v360 rfl (by decide), writes_sub_of_mem main_v361 rfl (by decide), writes_sub_of_mem main_cst_61 rfl (by decide), writes_sub_of_mem main_v362 rfl (by decide), writes_sub_of_mem main_v363 rfl (by decide), writes_sub_of_mem main_cst_62 rfl (by decide), writes_sub_of_mem main_v364 rfl (by decide), writes_sub_of_mem main_v365 rfl (by decide)⟩

set_option maxHeartbeats 40000000 in
theorem ops7_fresh : (ops7 : List (HloOp τ sig (Elt F))).Forall fun op => op.fresh = ∅ :=
  ⟨rfl, rfl, rfl, rfl, rfl, rfl, rfl, rfl, rfl, rfl, rfl⟩

/-- A buffer none of them writes keeps its contents. -/
theorem ops7_keep {r : Ref sig .tc} (hr : r ∉ ops7_w) (V : Valuation τ sig (Elt F)) :
    after ops7 V (Proc.devRef .tc r) = V (Proc.devRef .tc r) :=
  after_of_writes_sub ops7 V ops7_writes hr

/-- The window is its operations run in order. -/
theorem main_part7_eq (c : Dev nD) : main_part7 (F := F) c = seq ops7 := by
  chain_rfl

end Cert.ReferenceIdeal.RefRun

end
-- ==== Proof.RefRun.lean ====
/-
  The reference program's run. @main is its 456 host operations in order — the eight windows' lists one after the
  other —, so from any launch memory with zero counters every weakly fair execution terminates with each TensorCore
  buffer at the operations' fold over the launch contents. The result buffer is left as that fold, unevaluated; the
  fifteen argument buffers are unchanged, because no operation writes an argument.
-/
import proofs.«146278_j35390530519883_1_alg».proof.Proof.RefOps0
import proofs.«146278_j35390530519883_1_alg».proof.Proof.RefOps1
import proofs.«146278_j35390530519883_1_alg».proof.Proof.RefOps2
import proofs.«146278_j35390530519883_1_alg».proof.Proof.RefOps3
import proofs.«146278_j35390530519883_1_alg».proof.Proof.RefOps4
import proofs.«146278_j35390530519883_1_alg».proof.Proof.RefOps5
import proofs.«146278_j35390530519883_1_alg».proof.Proof.RefOps6
import proofs.«146278_j35390530519883_1_alg».proof.Proof.RefOps7

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Two lines one after the other -/

section General

variable {nD : Nat} {τ : Topo} {sig : RefSig} {Val : EltTy → Type} {Λ : Labels}

/-- Two programs that are straight lines, run one after the other, are the concatenated line. -/
theorem bind_eq_seq_append {p q : Prog (TpuEff nD τ sig Val Λ .tc) PUnit} {l₁ l₂ : List (HloOp τ sig Val)}
    (h₁ : p = seq l₁) (h₂ : q = seq l₂) : (p >>= fun _ => q) = seq (l₁ ++ l₂) := by
  rw [seq_append, h₁, h₂]

/-- If each of two lines keeps every buffer outside its list of written references, their concatenation keeps every
    buffer outside the two lists. -/
theorem keep_append_w {l₁ l₂ : List (HloOp τ sig Val)} {W₁ W₂ : List (Ref sig .tc)}
    (h₁ : ∀ r, r ∉ W₁ → ∀ V : Valuation τ sig Val, after l₁ V (Proc.devRef .tc r) = V (Proc.devRef .tc r))
    (h₂ : ∀ r, r ∉ W₂ → ∀ V : Valuation τ sig Val, after l₂ V (Proc.devRef .tc r) = V (Proc.devRef .tc r))
    (r : Ref sig .tc) (hr : r ∉ W₁ ++ W₂) (V : Valuation τ sig Val) :
    after (l₁ ++ l₂) V (Proc.devRef .tc r) = V (Proc.devRef .tc r) :=
  keep_append (h₁ r fun h => hr (List.mem_append_left _ h)) (h₂ r fun h => hr (List.mem_append_right _ h)) V

end General

variable {F : FTy → Type} [FloatOps F]

/-! ## The operations -/

/-- @main's operations: the windows' lists, in order. -/
abbrev ops : List (HloOp τ sig (Elt F)) := ops0 ++ (ops1 ++ (ops2 ++ (ops3 ++ (ops4 ++ (ops5 ++ (ops6 ++ (ops7)))))))

/-- @main is its operations run in order. -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c >>= fun _ => main_part5 (F := F) c >>= fun _ =>
    main_part6 (F := F) c >>= fun _ => main_part7 (F := F) c) = seq (ops0 ++ (ops1 ++ (ops2 ++ (ops3 ++ (ops4 ++ (ops5 ++ (ops6 ++ (ops7))))))))
  exact bind_eq_seq_append (main_part0_eq c) (bind_eq_seq_append (main_part1_eq c) (bind_eq_seq_append (main_part2_eq c)
    (bind_eq_seq_append (main_part3_eq c) (bind_eq_seq_append (main_part4_eq c) (bind_eq_seq_append (main_part5_eq c)
    (bind_eq_seq_append (main_part6_eq c) (main_part7_eq c)))))))

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, List.forall_append.2 ⟨ops6_sub, ops7_sub⟩⟩⟩⟩⟩⟩⟩

theorem ops_fresh : (ops : List (HloOp τ sig (Elt F))).Forall fun op => op.fresh = ∅ :=
  List.forall_append.2 ⟨ops0_fresh, List.forall_append.2 ⟨ops1_fresh, List.forall_append.2 ⟨ops2_fresh, List.forall_append.2 ⟨ops3_fresh,
    List.forall_append.2 ⟨ops4_fresh, List.forall_append.2 ⟨ops5_fresh, List.forall_append.2 ⟨ops6_fresh, ops7_fresh⟩⟩⟩⟩⟩⟩⟩

/-! ## What is written -/

/-- Every buffer some operation writes, in program order. -/
abbrev ops_w : List (Ref sig .tc) := ops0_w ++ ((ops1a_w ++ (ops1b_w)) ++ ((ops2a_w ++ (ops2b_w ++ (ops2c_w ++ (ops2d_w ++ (ops2e_w ++ (ops2f_w)))))) ++ ((ops3a_w ++ (ops3b_w)) ++ ((ops4a_w ++ (ops4b_w ++ (ops4c_w ++ (ops4d_w ++ (ops4e_w ++ (ops4f_w)))))) ++ ((ops5a_w ++ (ops5b_w)) ++ ((ops6a_w ++ (ops6b_w)) ++ (ops7_w)))))))

/-- A buffer no operation writes keeps its launch contents through the whole line. -/
theorem ops_keep (r : Ref sig .tc) (hr : r ∉ ops_w) (V : Valuation τ sig (Elt F)) :
    after ops V (Proc.devRef .tc r) = V (Proc.devRef .tc r) :=
  (keep_append_w (fun r => ops0_keep (r := r)) (keep_append_w (keep_append_w (fun r => ops1a_keep (r := r)) (fun r => ops1b_keep (r := r))) (keep_append_w (keep_append_w (fun r => ops2a_keep (r := r)) (keep_append_w (fun r => ops2b_keep (r := r)) (keep_append_w (fun r => ops2c_keep (r := r)) (keep_append_w (fun r => ops2d_keep (r := r)) (keep_append_w (fun r => ops2e_keep (r := r)) (fun r => ops2f_keep (r := r))))))) (keep_append_w (keep_append_w (fun r => ops3a_keep (r := r)) (fun r => ops3b_keep (r := r))) (keep_append_w (keep_append_w (fun r => ops4a_keep (r := r)) (keep_append_w (fun r => ops4b_keep (r := r)) (keep_append_w (fun r => ops4c_keep (r := r)) (keep_append_w (fun r => ops4d_keep (r := r)) (keep_append_w (fun r => ops4e_keep (r := r)) (fun r => ops4f_keep (r := r))))))) (keep_append_w (keep_append_w (fun r => ops5a_keep (r := r)) (fun r => ops5b_keep (r := r))) (keep_append_w (keep_append_w (fun r => ops6a_keep (r := r)) (fun r => ops6b_keep (r := r))) (fun r => ops7_keep (r := r))))))))) r hr V

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the operations' fold over the launch contents, and the fifteen arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v365) = after ops (launchContents m c) (Proc.devRef .tc main_v365)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v365,
      (h c main_arg0).trans (ops_keep main_arg0 (by decide) _),
      (h c main_arg1).trans (ops_keep main_arg1 (by decide) _),
      (h c main_arg2).trans (ops_keep main_arg2 (by decide) _),
      (h c main_arg3).trans (ops_keep main_arg3 (by decide) _),
      (h c main_arg4).trans (ops_keep main_arg4 (by decide) _),
      (h c main_arg5).trans (ops_keep main_arg5 (by decide) _),
      (h c main_arg6).trans (ops_keep main_arg6 (by decide) _),
      (h c main_arg7).trans (ops_keep main_arg7 (by decide) _),
      (h c main_arg8).trans (ops_keep main_arg8 (by decide) _),
      (h c main_arg9).trans (ops_keep main_arg9 (by decide) _),
      (h c main_arg10).trans (ops_keep main_arg10 (by decide) _),
      (h c main_arg11).trans (ops_keep main_arg11 (by decide) _),
      (h c main_arg12).trans (ops_keep main_arg12 (by decide) _),
      (h c main_arg13).trans (ops_keep main_arg13 (by decide) _),
      (h c main_arg14).trans (ops_keep main_arg14 (by decide) _)⟩)
    (run_seq scopedRefs_eq scopedSems_eq defs main (fun _ => ops) main_eq (fun _ => ops_sub) m ρ
      (fun _ => List.forall_iff_forall_mem.1 ops_fresh))

end Cert.ReferenceIdeal.RefRun

end
-- ==== Proof.RefArgs.lean ====
/-
  The fifteen argument arrays read off a valuation of the reference program's buffers, at the ideal values.
-/
import proofs.«146278_j35390530519883_1_alg».proof.Proof.RefRun
import proofs.«146278_j35390530519883_1_alg».proof.Proof.SpecHost

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gnn.HostTerms

/-- A valuation of the reference program's buffers at the ideal values. -/
abbrev Val0 : Type := Valuation τ sig (Elt Ideal)

/-- The fifteen arguments a valuation holds, named as the model names them. -/
def argsOf (V : Val0) : Args :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14)⟩

end Cert.ReferenceIdeal.RefRun

end
-- ==== Proof.RefLayer0.lean ====
/-
  The first layer of the reference program, block by block: the two node types' new rows before the rectifier
  (each a sum of convolution terms over mean-aggregated neighbours), then the rectifier on each; composed, the layer's two
  results from the fifteen arguments.
-/
import proofs.«146278_j35390530519883_1_alg».proof.Proof.RefArgs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gnn.HostTerms

/-! ## The layer's blocks: each a stretch of consecutive operations -/

abbrev L0G1 : List (HloOp τ sig (Elt Ideal)) := (ops0 ++ ops1a)
abbrev L0G1_w : List (Ref sig .tc) := (ops0_w ++ ops1a_w)
theorem L0G1_keep (r : Ref sig .tc) (hr : r ∉ L0G1_w) (V : Val0) :
    after L0G1 V (Proc.devRef .tc r) = V (Proc.devRef .tc r) :=
  (keep_append_w (fun r => ops0_keep (r := r)) (fun r => ops1a_keep (r := r))) r hr V

abbrev L0G2 : List (HloOp τ sig (Elt Ideal)) := (ops1b ++ ops2a)
abbrev L0G2_w : List (Ref sig .tc) := (ops1b_w ++ ops2a_w)
theorem L0G2_keep (r : Ref sig .tc) (hr : r ∉ L0G2_w) (V : Val0) :
    after L0G2 V (Proc.devRef .tc r) = V (Proc.devRef .tc r) :=
  (keep_append_w (fun r => ops1b_keep (r := r)) (fun r => ops2a_keep (r := r))) r hr V

abbrev L0C1 : List (HloOp τ sig (Elt Ideal)) := (ops2b ++ ops2c)
abbrev L0C1_w : List (Ref sig .tc) := (ops2b_w ++ ops2c_w)
theorem L0C1_keep (r : Ref sig .tc) (hr : r ∉ L0C1_w) (V : Val0) :
    after L0C1 V (Proc.devRef .tc r) = V (Proc.devRef .tc r) :=
  (keep_append_w (fun r => ops2b_keep (r := r)) (fun r => ops2c_keep (r := r))) r hr V

abbrev L0C2 : List (HloOp τ sig (Elt Ideal)) := (ops2d ++ ops2e)
abbrev L0C2_w : List (Ref sig .tc) := (ops2d_w ++ ops2e_w)
theorem L0C2_keep (r : Ref sig .tc) (hr : r ∉ L0C2_w) (V : Val0) :
    after L0C2 V (Proc.devRef .tc r) = V (Proc.devRef .tc r) :=
  (keep_append_w (fun r => ops2d_keep (r := r)) (fun r => ops2e_keep (r := r))) r hr V

/-! ## What each block computes -/

set_option maxHeartbeats 4000000 in
/-- The first node type's new rows before the rectifier. -/
theorem L0G1_out (V : Val0) :
    after L0G1 V (Proc.devRef .tc main_v74) = preP (V (Proc.devRef .tc main_arg0)) (V (Proc.devRef .tc main_arg1)) (V (Proc.devRef .tc main_arg11)) (V (Proc.devRef .tc main_arg13)) (w0 (V (Proc.devRef .tc main_arg2))) (w0 (V (Proc.devRef .tc main_arg4))) (w0 (V (Proc.devRef .tc main_arg8))) (w0 (V (Proc.devRef .tc main_arg10))) (b0 (V (Proc.devRef .tc main_arg3))) (b0 (V (Proc.devRef .tc main_arg9))) := by
  rw [show L0G1 = ops0 ++ ops1a from rfl, after_append]
  after_results_simp
  rfl

set_option maxHeartbeats 4000000 in
/-- The second node type's new rows before the rectifier. -/
theorem L0G2_out (V : Val0) :
    after L0G2 V (Proc.devRef .tc main_v111) = preG (V (Proc.devRef .tc main_arg0)) (V (Proc.devRef .tc main_arg1)) (V (Proc.devRef .tc main_arg12)) (w0 (V (Proc.devRef .tc main_arg5))) (w0 (V (Proc.devRef .tc main_arg7))) (b0 (V (Proc.devRef .tc main_arg6))) := by
  rw [show L0G2 = ops1b ++ ops2a from rfl, after_append]
  after_results_simp
  rfl

set_option maxHeartbeats 4000000 in
/-- The rectifier on the first node type's rows. -/
theorem L0C1_out (V : Val0) :
    after L0C1 V (Proc.devRef .tc main_v112) = leakyH (V (Proc.devRef .tc main_v74)) := by
  rw [show L0C1 = ops2b ++ ops2c from rfl, after_append]
  after_results_simp
  rfl

set_option maxHeartbeats 4000000 in
/-- The rectifier on the second node type's rows. -/
theorem L0C2_out (V : Val0) :
    after L0C2 V (Proc.devRef .tc main_v113) = leakyH (V (Proc.devRef .tc main_v111)) := by
  rw [show L0C2 = ops2d ++ ops2e from rfl, after_append]
  after_results_simp
  rfl

/-! ## The layer -/

abbrev layer0 : List (HloOp τ sig (Elt Ideal)) := L0G1 ++ (L0G2 ++ (L0C1 ++ (L0C2)))
abbrev layer0_w : List (Ref sig .tc) := L0G1_w ++ (L0G2_w ++ (L0C1_w ++ (L0C2_w)))
theorem layer0_keep (r : Ref sig .tc) (hr : r ∉ layer0_w) (V : Val0) :
    after layer0 V (Proc.devRef .tc r) = V (Proc.devRef .tc r) :=
  (keep_append_w L0G1_keep (keep_append_w L0G2_keep (keep_append_w L0C1_keep L0C2_keep))) r hr V

/-- The layer leaves the fifteen arguments as they were. -/
theorem argsOf_layer0 (V : Val0) : argsOf (after layer0 V) = argsOf V := by
  unfold argsOf
  rw [layer0_keep main_arg0 (by decide),
    layer0_keep main_arg1 (by decide),
    layer0_keep main_arg2 (by decide),
    layer0_keep main_arg3 (by decide),
    layer0_keep main_arg4 (by decide),
    layer0_keep main_arg5 (by decide),
    layer0_keep main_arg6 (by decide),
    layer0_keep main_arg7 (by decide),
    layer0_keep main_arg8 (by decide),
    layer0_keep main_arg9 (by decide),
    layer0_keep main_arg10 (by decide),
    layer0_keep main_arg11 (by decide),
    layer0_keep main_arg12 (by decide),
    layer0_keep main_arg13 (by decide),
    layer0_keep main_arg14 (by decide)]

/-- The first node type's new rows. -/
theorem layer0_P (V : Val0)  :
    after layer0 V (Proc.devRef .tc main_v112) = xp1 (argsOf V) := by
  rw [show layer0 = L0G1 ++ (L0G2 ++ (L0C1 ++ (L0C2))) from rfl, after_append, after_append, after_append]
  rw [L0C2_keep main_v112 (by decide), L0C1_out, L0G2_keep main_v74 (by decide), L0G1_out]
  rfl

/-- The second node type's new rows. -/
theorem layer0_G (V : Val0)  :
    after layer0 V (Proc.devRef .tc main_v113) = xg1 (argsOf V) := by
  rw [show layer0 = L0G1 ++ (L0G2 ++ (L0C1 ++ (L0C2))) from rfl, after_append, after_append, after_append]
  rw [L0C2_out, L0C1_keep main_v111 (by decide), L0G2_out]
  rw [L0G1_keep main_arg0 (by decide), L0G1_keep main_arg1 (by decide), L0G1_keep main_arg5 (by decide), L0G1_keep main_arg6 (by decide), L0G1_keep main_arg7 (by decide), L0G1_keep main_arg12 (by decide)]
  rfl

end Cert.ReferenceIdeal.RefRun

end
-- ==== Proof.RefLayer1.lean ====
/-
  The second layer of the reference program, block by block, from the first layer's two results and the arguments.
-/
import proofs.«146278_j35390530519883_1_alg».proof.Proof.RefArgs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gnn.HostTerms

/-! ## The layer's blocks: each a stretch of consecutive operations -/

abbrev L1G1 : List (HloOp τ sig (Elt Ideal)) := (ops2f ++ ops3a)
abbrev L1G1_w : List (Ref sig .tc) := (ops2f_w ++ ops3a_w)
theorem L1G1_keep (r : Ref sig .tc) (hr : r ∉ L1G1_w) (V : Val0) :
    after L1G1 V (Proc.devRef .tc r) = V (Proc.devRef .tc r) :=
  (keep_append_w (fun r => ops2f_keep (r := r)) (fun r => ops3a_keep (r := r))) r hr V

abbrev L1G2 : List (HloOp τ sig (Elt Ideal)) := (ops3b ++ ops4a)
abbrev L1G2_w : List (Ref sig .tc) := (ops3b_w ++ ops4a_w)
theorem L1G2_keep (r : Ref sig .tc) (hr : r ∉ L1G2_w) (V : Val0) :
    after L1G2 V (Proc.devRef .tc r) = V (Proc.devRef .tc r) :=
  (keep_append_w (fun r => ops3b_keep (r := r)) (fun r => ops4a_keep (r := r))) r hr V

abbrev L1C1 : List (HloOp τ sig (Elt Ideal)) := (ops4b ++ ops4c)
abbrev L1C1_w : List (Ref sig .tc) := (ops4b_w ++ ops4c_w)
theorem L1C1_keep (r : Ref sig .tc) (hr : r ∉ L1C1_w) (V : Val0) :
    after L1C1 V (Proc.devRef .tc r) = V (Proc.devRef .tc r) :=
  (keep_append_w (fun r => ops4b_keep (r := r)) (fun r => ops4c_keep (r := r))) r hr V

abbrev L1C2 : List (HloOp τ sig (Elt Ideal)) := (ops4d ++ ops4e)
abbrev L1C2_w : List (Ref sig .tc) := (ops4d_w ++ ops4e_w)
theorem L1C2_keep (r : Ref sig .tc) (hr : r ∉ L1C2_w) (V : Val0) :
    after L1C2 V (Proc.devRef .tc r) = V (Proc.devRef .tc r) :=
  (keep_append_w (fun r => ops4d_keep (r := r)) (fun r => ops4e_keep (r := r))) r hr V

/-! ## What each block computes -/

set_option maxHeartbeats 4000000 in
/-- The first node type's new rows before the rectifier. -/
theorem L1G1_out (V : Val0) :
    after L1G1 V (Proc.devRef .tc main_v188) = preP (V (Proc.devRef .tc main_v112)) (V (Proc.devRef .tc main_v113)) (V (Proc.devRef .tc main_arg11)) (V (Proc.devRef .tc main_arg13)) (w1 (V (Proc.devRef .tc main_arg2))) (w1 (V (Proc.devRef .tc main_arg4))) (w1 (V (Proc.devRef .tc main_arg8))) (w1 (V (Proc.devRef .tc main_arg10))) (b1 (V (Proc.devRef .tc main_arg3))) (b1 (V (Proc.devRef .tc main_arg9))) := by
  rw [show L1G1 = ops2f ++ ops3a from rfl, after_append]
  after_results_simp
  rfl

set_option maxHeartbeats 4000000 in
/-- The second node type's new rows before the rectifier. -/
theorem L1G2_out (V : Val0) :
    after L1G2 V (Proc.devRef .tc main_v225) = preG (V (Proc.devRef .tc main_v112)) (V (Proc.devRef .tc main_v113)) (V (Proc.devRef .tc main_arg12)) (w1 (V (Proc.devRef .tc main_arg5))) (w1 (V (Proc.devRef .tc main_arg7))) (b1 (V (Proc.devRef .tc main_arg6))) := by
  rw [show L1G2 = ops3b ++ ops4a from rfl, after_append]
  after_results_simp
  rfl

set_option maxHeartbeats 4000000 in
/-- The rectifier on the first node type's rows. -/
theorem L1C1_out (V : Val0) :
    after L1C1 V (Proc.devRef .tc main_v226) = leakyH (V (Proc.devRef .tc main_v188)) := by
  rw [show L1C1 = ops4b ++ ops4c from rfl, after_append]
  after_results_simp
  rfl

set_option maxHeartbeats 4000000 in
/-- The rectifier on the second node type's rows. -/
theorem L1C2_out (V : Val0) :
    after L1C2 V (Proc.devRef .tc main_v227) = leakyH (V (Proc.devRef .tc main_v225)) := by
  rw [show L1C2 = ops4d ++ ops4e from rfl, after_append]
  after_results_simp
  rfl

/-! ## The layer -/

abbrev layer1 : List (HloOp τ sig (Elt Ideal)) := L1G1 ++ (L1G2 ++ (L1C1 ++ (L1C2)))
abbrev layer1_w : List (Ref sig .tc) := L1G1_w ++ (L1G2_w ++ (L1C1_w ++ (L1C2_w)))
theorem layer1_keep (r : Ref sig .tc) (hr : r ∉ layer1_w) (V : Val0) :
    after layer1 V (Proc.devRef .tc r) = V (Proc.devRef .tc r) :=
  (keep_append_w L1G1_keep (keep_append_w L1G2_keep (keep_append_w L1C1_keep L1C2_keep))) r hr V

/-- The layer leaves the fifteen arguments as they were. -/
theorem argsOf_layer1 (V : Val0) : argsOf (after layer1 V) = argsOf V := by
  unfold argsOf
  rw [layer1_keep main_arg0 (by decide),
    layer1_keep main_arg1 (by decide),
    layer1_keep main_arg2 (by decide),
    layer1_keep main_arg3 (by decide),
    layer1_keep main_arg4 (by decide),
    layer1_keep main_arg5 (by decide),
    layer1_keep main_arg6 (by decide),
    layer1_keep main_arg7 (by decide),
    layer1_keep main_arg8 (by decide),
    layer1_keep main_arg9 (by decide),
    layer1_keep main_arg10 (by decide),
    layer1_keep main_arg11 (by decide),
    layer1_keep main_arg12 (by decide),
    layer1_keep main_arg13 (by decide),
    layer1_keep main_arg14 (by decide)]

/-- The first node type's new rows. -/
theorem layer1_P (V : Val0) (a : Args) (hp : V (Proc.devRef .tc main_v112) = xp1 a) (hg : V (Proc.devRef .tc main_v113) = xg1 a) (ha : argsOf V = a) :
    after layer1 V (Proc.devRef .tc main_v226) = xp2 a := by
  subst ha
  rw [show layer1 = L1G1 ++ (L1G2 ++ (L1C1 ++ (L1C2))) from rfl, after_append, after_append, after_append]
  rw [L1C2_keep main_v226 (by decide), L1C1_out, L1G2_keep main_v188 (by decide), L1G1_out]
  rw [hp, hg]
  rfl

/-- The second node type's new rows. -/
theorem layer1_G (V : Val0) (a : Args) (hp : V (Proc.devRef .tc main_v112) = xp1 a) (hg : V (Proc.devRef .tc main_v113) = xg1 a) (ha : argsOf V = a) :
    after layer1 V (Proc.devRef .tc main_v227) = xg2 a := by
  subst ha
  rw [show layer1 = L1G1 ++ (L1G2 ++ (L1C1 ++ (L1C2))) from rfl, after_append, after_append, after_append]
  rw [L1C2_out, L1C1_keep main_v225 (by decide), L1G2_out]
  rw [L1G1_keep main_v112 (by decide), L1G1_keep main_v113 (by decide), L1G1_keep main_arg5 (by decide), L1G1_keep main_arg6 (by decide), L1G1_keep main_arg7 (by decide), L1G1_keep main_arg12 (by decide)]
  rw [hp, hg]
  rfl

end Cert.ReferenceIdeal.RefRun

end
-- ==== Proof.RefLayer2.lean ====
/-
  The third layer of the reference program (no rectifier), block by block, from the second layer's two results and the arguments.
-/
import proofs.«146278_j35390530519883_1_alg».proof.Proof.RefArgs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gnn.HostTerms

/-! ## The layer's blocks: each a stretch of consecutive operations -/

abbrev L2G1 : List (HloOp τ sig (Elt Ideal)) := (ops4f ++ ops5a)
abbrev L2G1_w : List (Ref sig .tc) := (ops4f_w ++ ops5a_w)
theorem L2G1_keep (r : Ref sig .tc) (hr : r ∉ L2G1_w) (V : Val0) :
    after L2G1 V (Proc.devRef .tc r) = V (Proc.devRef .tc r) :=
  (keep_append_w (fun r => ops4f_keep (r := r)) (fun r => ops5a_keep (r := r))) r hr V

abbrev L2G2 : List (HloOp τ sig (Elt Ideal)) := (ops5b ++ ops6a)
abbrev L2G2_w : List (Ref sig .tc) := (ops5b_w ++ ops6a_w)
theorem L2G2_keep (r : Ref sig .tc) (hr : r ∉ L2G2_w) (V : Val0) :
    after L2G2 V (Proc.devRef .tc r) = V (Proc.devRef .tc r) :=
  (keep_append_w (fun r => ops5b_keep (r := r)) (fun r => ops6a_keep (r := r))) r hr V

/-! ## What each block computes -/

set_option maxHeartbeats 4000000 in
/-- The first node type's new rows before the rectifier. -/
theorem L2G1_out (V : Val0) :
    after L2G1 V (Proc.devRef .tc main_v302) = preP (V (Proc.devRef .tc main_v226)) (V (Proc.devRef .tc main_v227)) (V (Proc.devRef .tc main_arg11)) (V (Proc.devRef .tc main_arg13)) (w2 (V (Proc.devRef .tc main_arg2))) (w2 (V (Proc.devRef .tc main_arg4))) (w2 (V (Proc.devRef .tc main_arg8))) (w2 (V (Proc.devRef .tc main_arg10))) (b2 (V (Proc.devRef .tc main_arg3))) (b2 (V (Proc.devRef .tc main_arg9))) := by
  rw [show L2G1 = ops4f ++ ops5a from rfl, after_append]
  after_results_simp
  rfl

set_option maxHeartbeats 4000000 in
/-- The second node type's new rows before the rectifier. -/
theorem L2G2_out (V : Val0) :
    after L2G2 V (Proc.devRef .tc main_v339) = preG (V (Proc.devRef .tc main_v226)) (V (Proc.devRef .tc main_v227)) (V (Proc.devRef .tc main_arg12)) (w2 (V (Proc.devRef .tc main_arg5))) (w2 (V (Proc.devRef .tc main_arg7))) (b2 (V (Proc.devRef .tc main_arg6))) := by
  rw [show L2G2 = ops5b ++ ops6a from rfl, after_append]
  after_results_simp
  rfl

/-! ## The layer -/

abbrev layer2 : List (HloOp τ sig (Elt Ideal)) := L2G1 ++ (L2G2)
abbrev layer2_w : List (Ref sig .tc) := L2G1_w ++ (L2G2_w)
theorem layer2_keep (r : Ref sig .tc) (hr : r ∉ layer2_w) (V : Val0) :
    after layer2 V (Proc.devRef .tc r) = V (Proc.devRef .tc r) :=
  (keep_append_w L2G1_keep L2G2_keep) r hr V

/-- The layer leaves the fifteen arguments as they were. -/
theorem argsOf_layer2 (V : Val0) : argsOf (after layer2 V) = argsOf V := by
  unfold argsOf
  rw [layer2_keep main_arg0 (by decide),
    layer2_keep main_arg1 (by decide),
    layer2_keep main_arg2 (by decide),
    layer2_keep main_arg3 (by decide),
    layer2_keep main_arg4 (by decide),
    layer2_keep main_arg5 (by decide),
    layer2_keep main_arg6 (by decide),
    layer2_keep main_arg7 (by decide),
    layer2_keep main_arg8 (by decide),
    layer2_keep main_arg9 (by decide),
    layer2_keep main_arg10 (by decide),
    layer2_keep main_arg11 (by decide),
    layer2_keep main_arg12 (by decide),
    layer2_keep main_arg13 (by decide),
    layer2_keep main_arg14 (by decide)]

/-- The first node type's new rows. -/
theorem layer2_P (V : Val0) (a : Args) (hp : V (Proc.devRef .tc main_v226) = xp2 a) (hg : V (Proc.devRef .tc main_v227) = xg2 a) (ha : argsOf V = a) :
    after layer2 V (Proc.devRef .tc main_v302) = xp3 a := by
  subst ha
  rw [show layer2 = L2G1 ++ (L2G2) from rfl, after_append]
  rw [L2G2_keep main_v302 (by decide), L2G1_out]
  rw [hp, hg]
  rfl

/-- The second node type's new rows. -/
theorem layer2_G (V : Val0) (a : Args) (hp : V (Proc.devRef .tc main_v226) = xp2 a) (hg : V (Proc.devRef .tc main_v227) = xg2 a) (ha : argsOf V = a) :
    after layer2 V (Proc.devRef .tc main_v339) = xg3 a := by
  subst ha
  rw [show layer2 = L2G1 ++ (L2G2) from rfl, after_append]
  rw [L2G2_out]
  rw [L2G1_keep main_v226 (by decide), L2G1_keep main_v227 (by decide), L2G1_keep main_arg5 (by decide), L2G1_keep main_arg6 (by decide), L2G1_keep main_arg7 (by decide), L2G1_keep main_arg12 (by decide)]
  rw [hp, hg]
  rfl

end Cert.ReferenceIdeal.RefRun

end
-- ==== Proof.RefLayerF.lean ====
/-
  The scorer of the reference program: from the third layer's two results and the queried edges, each edge's score.
-/
import proofs.«146278_j35390530519883_1_alg».proof.Proof.RefArgs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gnn.HostTerms

abbrev layerF : List (HloOp τ sig (Elt Ideal)) := ops6b ++ ops7
abbrev layerF_w : List (Ref sig .tc) := ops6b_w ++ ops7_w
theorem layerF_keep (r : Ref sig .tc) (hr : r ∉ layerF_w) (V : Val0) :
    after layerF V (Proc.devRef .tc r) = V (Proc.devRef .tc r) :=
  (keep_append_w (fun r => ops6b_keep (r := r)) (fun r => ops7_keep (r := r))) r hr V

set_option maxHeartbeats 4000000 in
/-- The scores, from the two arrays of final rows and the queried edges. -/
theorem layerF_score (V : Val0) :
    after layerF V (Proc.devRef .tc main_v365) = scoreH (rows500 (V (Proc.devRef .tc main_v302)) (src500 (V (Proc.devRef .tc main_arg14)))) (rows500 (V (Proc.devRef .tc main_v339)) (dst500 (V (Proc.devRef .tc main_arg14)))) := by
  rw [show layerF = ops6b ++ ops7 from rfl, after_append]
  after_results_simp
  rfl

/-- The scores are the model's, when the two arrays are the model's third-layer rows. -/
theorem layerF_out (V : Val0) (a : Args) (hp : V (Proc.devRef .tc main_v302) = xp3 a) (hg : V (Proc.devRef .tc main_v339) = xg3 a) (ha : argsOf V = a) :
    after layerF V (Proc.devRef .tc main_v365) = model a := by
  subst ha
  rw [layerF_score, hp, hg]
  rfl

end Cert.ReferenceIdeal.RefRun

end
-- ==== Proof.RefModel.lean ====
/-
  The reference program computes the model: its 456 operations are the three layers and the scorer one after the other,
  so the fold of all of them at the result buffer is the model of the fifteen launch arguments; with the run, every
  execution ends with the result buffer at the model's value and the arguments unchanged.
-/
import proofs.«146278_j35390530519883_1_alg».proof.Proof.RefLayer0
import proofs.«146278_j35390530519883_1_alg».proof.Proof.RefLayer1
import proofs.«146278_j35390530519883_1_alg».proof.Proof.RefLayer2
import proofs.«146278_j35390530519883_1_alg».proof.Proof.RefLayerF

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Gnn.HostTerms

/-- The operations are the three layers' and the scorer's, in order. -/
theorem ops_eq_layers : (ops : List (HloOp τ sig (Elt Ideal))) = layer0 ++ (layer1 ++ (layer2 ++ layerF)) := by
  show (ops0 ++ ((ops1a ++ (ops1b)) ++ ((ops2a ++ (ops2b ++ (ops2c ++ (ops2d ++ (ops2e ++ (ops2f)))))) ++ ((ops3a ++ (ops3b)) ++ ((ops4a ++ (ops4b ++ (ops4c ++ (ops4d ++ (ops4e ++ (ops4f)))))) ++ ((ops5a ++ (ops5b)) ++ ((ops6a ++ (ops6b)) ++ (ops7))))))) : List (HloOp τ sig (Elt Ideal))) = ((ops0 ++ ops1a) ++ ((ops1b ++ ops2a) ++ ((ops2b ++ ops2c) ++ (ops2d ++ ops2e)))) ++ (((ops2f ++ ops3a) ++ ((ops3b ++ ops4a) ++ ((ops4b ++ ops4c) ++ (ops4d ++ ops4e)))) ++ (((ops4f ++ ops5a) ++ (ops5b ++ ops6a)) ++ (ops6b ++ ops7)))
  simp only [List.append_assoc]

/-- The fold of all the operations at the result buffer is the model of the arguments the valuation holds. -/
theorem after_ops_model (W : Val0) : after ops W (Proc.devRef .tc main_v365) = model (argsOf W) := by
  rw [ops_eq_layers, after_append, after_append, after_append]
  have a1 : argsOf (after layer0 W) = argsOf W := argsOf_layer0 W
  have a2 : argsOf (after layer1 (after layer0 W)) = argsOf W := (argsOf_layer1 _).trans a1
  have a3 : argsOf (after layer2 (after layer1 (after layer0 W))) = argsOf W := (argsOf_layer2 _).trans a2
  have p2 := layer1_P (after layer0 W) (argsOf W) (layer0_P W) (layer0_G W) a1
  have g2 := layer1_G (after layer0 W) (argsOf W) (layer0_P W) (layer0_G W) a1
  have p3 := layer2_P (after layer1 (after layer0 W)) (argsOf W) p2 g2 a2
  have g3 := layer2_G (after layer1 (after layer0 W)) (argsOf W) p2 g2 a2
  exact layerF_out _ (argsOf W) p3 g3 a3

/-- At the ideal values, on every device, from any memory with zero counters: every weakly fair execution of @main
    terminates with the result buffer at the model of the fifteen launch arguments, and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v365) = model ⟨m ((c.tc : Thread nD τ).loc main_arg0),
          m ((c.tc : Thread nD τ).loc main_arg1),
          m ((c.tc : Thread nD τ).loc main_arg2),
          m ((c.tc : Thread nD τ).loc main_arg3),
          m ((c.tc : Thread nD τ).loc main_arg4),
          m ((c.tc : Thread nD τ).loc main_arg5),
          m ((c.tc : Thread nD τ).loc main_arg6),
          m ((c.tc : Thread nD τ).loc main_arg7),
          m ((c.tc : Thread nD τ).loc main_arg8),
          m ((c.tc : Thread nD τ).loc main_arg9),
          m ((c.tc : Thread nD τ).loc main_arg10),
          m ((c.tc : Thread nD τ).loc main_arg11),
          m ((c.tc : Thread nD τ).loc main_arg12),
          m ((c.tc : Thread nD τ).loc main_arg13),
          m ((c.tc : Thread nD τ).loc main_arg14)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (after_ops_model (launchContents m c)), (h c).2⟩) (run m ρ)

end Cert.ReferenceIdeal.RefRun

end
-- ==== Proof.lean ====
/-
  Three programs compute the scores of queried edges under a three-layer heterogeneous graph network with mean
  aggregation: the kernel program as compiled, its idealization, and the reference. Read at the extended reals,
  the idealized kernel program and the reference end with the same array, the specification's `model` of the
  fifteen argument arrays:

  * every layer's aggregation (gather the source rows, add them up destination by destination, divide by the
    in-degree floored at 1) is host code in both programs, operation for operation; the kernel program computes
    the three degree columns once and reuses them, the reference recomputes them from the same edge arrays;
  * a layer's dense part — two matrix products, a bias and an addition per edge type, an optional leaky rectifier —
    is a pipelined region over 25 blocks of 2000 rows in the kernel program and whole-array host operations in the
    reference; entry by entry both are (Σ_k M(r,k)·Wl(k,q)) + b(q) + (Σ_k X(r,k)·Wr(k,q)), summed over the edge
    types in the same order, so no rearrangement of sums and no finiteness of the inputs is needed;
  * the scorer is a region over 50 blocks of 10000 edges applying the logistic function to a row sum of products,
    against the host's 1 / (1 + exp (−s)): one function on the extended reals.

  The frames of the two kernel programs are the generated ones; the reference's frame is its run with the result
  forgotten; the idealization rewrote nothing, so it preserves trivially.
-/
import proofs.«146278_j35390530519883_1_alg».proof.Defs
import proofs.«146278_j35390530519883_1_alg».proof.Proof.Gen.Kernel
import proofs.«146278_j35390530519883_1_alg».proof.Proof.Gen.Kernel.Skeleton
import proofs.«146278_j35390530519883_1_alg».proof.Proof.Gen.Kernel.Launch
import proofs.«146278_j35390530519883_1_alg».proof.Proof.Gen.Kernel.Points
import proofs.«146278_j35390530519883_1_alg».proof.Proof.Gen.Kernel.Frame
import proofs.«146278_j35390530519883_1_alg».proof.Proof.Gen.KernelIdeal
import proofs.«146278_j35390530519883_1_alg».proof.Proof.Gen.KernelIdeal.Skeleton
import proofs.«146278_j35390530519883_1_alg».proof.Proof.Gen.KernelIdeal.Launch
import proofs.«146278_j35390530519883_1_alg».proof.Proof.Gen.KernelIdeal.Points
import proofs.«146278_j35390530519883_1_alg».proof.Proof.Gen.KernelIdeal.Frame
import proofs.«146278_j35390530519883_1_alg».proof.Proof.Gen.ReferenceIdeal
import proofs.«146278_j35390530519883_1_alg».proof.Proof.Gen.Pre_finite_inputs
import proofs.«146278_j35390530519883_1_alg».proof.Proof.KernelRun
import proofs.«146278_j35390530519883_1_alg».proof.Proof.KLayers
import proofs.«146278_j35390530519883_1_alg».proof.Proof.RefModel
import Idealize.ShloMosaic.Adequacy
import Idealize.ShloMosaic.Init

noncomputable section

namespace Cert.Proof

open Idealize.ShloMosaic Idealize.SL.Sem
open Cert.Gnn.HostTerms

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run' m ρ)

/-- The idealization rewrote no operation. -/
theorem preserves : Cert.preserves_Kernel_KernelIdeal := trivial

/-- Both idealized programs end at the specification's model of the (agreeing) arguments. -/
theorem algebraic : Cert.algebraic_KernelIdeal_ReferenceIdeal := by
  intro m ρ m' ρ' _ hagree
  refine ⟨fun c => model (Cert.KernelIdeal.HostChain.args m c), ?_, ?_⟩
  · exact (θ_run Cert.KernelIdeal.defs _ _).mono
      (fun r h c => ⟨(h c).1.trans (Cert.KernelIdeal.HostChain.W9_out m ρ c), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.RefRun.run' m' ρ')
    obtain ⟨h0, h1, h2, h3, h4, h5, h6, h7, h8, h9, h10, h11, h12, h13, h14⟩ := hagree c
    show model ⟨_, _, _, _, _, _, _, _, _, _, _, _, _, _, _⟩ = model ⟨_, _, _, _, _, _, _, _, _, _, _, _, _, _, _⟩
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
